-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x128 : Shape := ⟨3, ![2, 8192, 128]⟩
abbrev S2x8192x8192 : Shape := ⟨3, ![2, 8192, 8192]⟩
abbrev S64x128 : Shape := ⟨2, ![64, 128]⟩
abbrev S64 : Shape := ⟨1, ![64]⟩
abbrev S2x64x64 : Shape := ⟨3, ![2, 64, 64]⟩
abbrev S2x64 : Shape := ⟨2, ![2, 64]⟩
abbrev S_ : Shape := ⟨0, ![]⟩

class Facts : Prop where
  bcast_S_S2x8192x128 : S_.BroadcastsInDim S2x8192x128 (![] : Fin 0 → Fin S2x8192x128.rank)
  reducesTo_S2x8192x128_S_d0_1_2 : S2x8192x128.ReducesTo [0, 1, 2] S_
  h_S_ : 0 < S_.numel
  bcast_S_S2x8192x8192 : S_.BroadcastsInDim S2x8192x8192 (![] : Fin 0 → Fin S2x8192x8192.rank)
  reducesTo_S2x8192x8192_S_d0_1_2 : S2x8192x8192.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part1 {F : FTy → Type} [FloatOps F] (main_arg4 : FVec F S2x64x64 .f32) (main_arg5 : FVec F S2x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S2x64x64 .f32 := Host.absf main_arg4
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  main_v28

def fn {F : FTy → Type} [FloatOps F] (main_arg0 : FVec F S2x8192x128 .f32) (main_arg1 : FVec F S2x8192x8192 .f32) (main_arg2 : FVec F S64x128 .f32) (main_arg3 : FVec F S64 .f32) (main_arg4 : FVec F S2x64x64 .f32) (main_arg5 : FVec F S2x64 .f32) : IVec S_ 1 :=
  let main_v0 : FVec F S2x8192x128 .f32 := Host.absf main_arg0
  let main_cst : FVec F S_ .f32 := constant S_ .f32 0x7F800000#32
  let main_v1 : FVec F S2x8192x128 .f32 := broadcastInDim S2x8192x128 ![] bcast_S_S2x8192x128 main_cst
  let main_v2 : IVec S2x8192x128 1 := cmpf .olt main_v0 main_v1
  let main_c : IVec S_ 1 := constantI S_ 1 1#1
  let main_v3 : IVec S_ 1 := (fun x v => Host.reduce IntOp.andi x v reducesTo_S2x8192x128_S_d0_1_2 h_S_) main_v2 main_c
  let main_v4 : FVec F S2x8192x8192 .f32 := Host.absf main_arg1
  let main_cst_0 : FVec F S_ .f32 := constant S_ .f32 0x7F800000#32
  let main_v5 : FVec F S2x8192x8192 .f32 := broadcastInDim S2x8192x8192 ![] bcast_S_S2x8192x8192 main_cst_0
  let main_v6 : IVec S2x8192x8192 1 := cmpf .olt main_v4 main_v5
  let main_c_1 : IVec S_ 1 := constantI S_ 1 1#1
  let main_v7 : IVec S_ 1 := (fun x v => Host.reduce IntOp.andi x v reducesTo_S2x8192x8192_S_d0_1_2 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S2x8192x128 : Shape := ⟨3, ![2, 8192, 128]⟩
abbrev S2x8192x8192 : Shape := ⟨3, ![2, 8192, 8192]⟩
abbrev S64x128 : Shape := ⟨2, ![64, 128]⟩
abbrev S64 : Shape := ⟨1, ![64]⟩
abbrev S2x64x64 : Shape := ⟨3, ![2, 64, 64]⟩
abbrev S2x64 : Shape := ⟨2, ![2, 64]⟩
abbrev S1x64 : Shape := ⟨2, ![1, 64]⟩
abbrev S2x8192x64 : Shape := ⟨3, ![2, 8192, 64]⟩
abbrev S1x1024x128 : Shape := ⟨3, ![1, 1024, 128]⟩
abbrev S1x1024x64 : Shape := ⟨3, ![1, 1024, 64]⟩
abbrev S1024x128 : Shape := ⟨2, ![1024, 128]⟩
abbrev S1024x64 : Shape := ⟨2, ![1024, 64]⟩
abbrev S1x8192x128 : Shape := ⟨3, ![1, 8192, 128]⟩
abbrev S1x128x64 : Shape := ⟨3, ![1, 128, 64]⟩
abbrev S1x8192x64 : Shape := ⟨3, ![1, 8192, 64]⟩
abbrev S8192x64 : Shape := ⟨2, ![8192, 64]⟩
abbrev S8192x128 : Shape := ⟨2, ![8192, 128]⟩
abbrev S128x64 : Shape := ⟨2, ![128, 64]⟩
abbrev S1x8192x512 : Shape := ⟨3, ![1, 8192, 512]⟩
abbrev S1x512x64 : Shape := ⟨3, ![1, 512, 64]⟩
abbrev S8192x512 : Shape := ⟨2, ![8192, 512]⟩
abbrev S512x64 : Shape := ⟨2, ![512, 64]⟩
abbrev S1x64x64 : Shape := ⟨3, ![1, 64, 64]⟩
abbrev S64x64 : Shape := ⟨2, ![64, 64]⟩

abbrev nBuf : Space → Nat
  | .hbm => 27
  | .vmem => 68
  | .smem => 0
  | _ => 0

abbrev bufTy : (tb : Table) → Fin (tcTables nBuf tb) → BufTy
  | .hbm, ⟨0, _⟩ => ⟨S2x8192x128, .f32⟩
  | .hbm, ⟨1, _⟩ => ⟨S2x8192x8192, .f32⟩
  | .hbm, ⟨2, _⟩ => ⟨S64x128, .f32⟩
  | .hbm, ⟨3, _⟩ => ⟨S64, .f32⟩
  | .hbm, ⟨4, _⟩ => ⟨S2x64x64, .f32⟩
  | .hbm, ⟨5, _⟩ => ⟨S2x64, .f32⟩
  | .hbm, ⟨6, _⟩ => ⟨S1x64, .f32⟩
  | .hbm, ⟨7, _⟩ => ⟨S2x8192x64, .f32⟩
  | .hbm, ⟨8, _⟩ => ⟨S2x8192x64, .f32⟩
  | .hbm, ⟨9, _⟩ => ⟨S2x8192x8192, .bf16⟩
  | .hbm, ⟨10, _⟩ => ⟨S2x8192x64, .f32⟩
  | .hbm, ⟨11, _⟩ => ⟨S2x8192x64, .f32⟩
  | .hbm, ⟨12, _⟩ => ⟨S1x64x64, .f32⟩
  | .hbm, ⟨13, _⟩ => ⟨S64x64, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S2x8192x64, .f32⟩
  | .hbm, ⟨18, _⟩ => ⟨S2x8192x64, .f32⟩
  | .hbm, ⟨19, _⟩ => ⟨S2x8192x64, .f32⟩
  | .hbm, ⟨20, _⟩ => ⟨S2x8192x64, .f32⟩
  | .hbm, ⟨21, _⟩ => ⟨S1x64x64, .f32⟩
  | .hbm, ⟨22, _⟩ => ⟨S64x64, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S2x8192x64, .f32⟩
  | .local _ .vmem, ⟨0, _⟩ => ⟨S1x1024x128, .f32⟩
  | .local _ .vmem, ⟨1, _⟩ => ⟨S1x1024x128, .f32⟩
  | .local _ .vmem, ⟨2, _⟩ => ⟨S64x128, .f32⟩
  | .local _ .vmem, ⟨3, _⟩ => ⟨S1x64, .f32⟩
  | .local _ .vmem, ⟨4, _⟩ => ⟨S1x1024x64, .f32⟩
  | .local _ .vmem, ⟨5, _⟩ => ⟨S1x1024x64, .f32⟩
  | .local _ .vmem, ⟨6, _⟩ => ⟨S1x8192x128, .f32⟩
  | .local _ .vmem, ⟨7, _⟩ => ⟨S1x8192x128, .f32⟩
  | .local _ .vmem, ⟨8, _⟩ => ⟨S1x128x64, .f32⟩
  | .local _ .vmem, ⟨9, _⟩ => ⟨S1x128x64, .f32⟩
  | .local _ .vmem, ⟨10, _⟩ => ⟨S1x8192x64, .f32⟩
  | .local _ .vmem, ⟨11, _⟩ => ⟨S1x8192x64, .f32⟩
  | .local _ .vmem, ⟨12, _⟩ => ⟨S1x8192x128, .bf16⟩
  | .local _ .vmem, ⟨13, _⟩ => ⟨S1x8192x128, .bf16⟩
  | .local _ .vmem, ⟨14, _⟩ => ⟨S8192x64, .f32⟩
  | .local _ .vmem, ⟨15, _⟩ => ⟨S1x8192x512, .bf16⟩
  | .local _ .vmem, ⟨16, _⟩ => ⟨S1x8192x512, .bf16⟩
  | .local _ .vmem, ⟨17, _⟩ => ⟨S1x512x64, .f32⟩
  | .local _ .vmem, ⟨18, _⟩ => ⟨S1x512x64, .f32⟩
  | .local _ .vmem, ⟨19, _⟩ => ⟨S1x8192x64, .f32⟩
  | .local _ .vmem, ⟨20, _⟩ => ⟨S1x8192x64, .f32⟩
  | .local _ .vmem, ⟨21, _⟩ => ⟨S8192x64, .f32⟩
  | .local _ .vmem, ⟨22, _⟩ => ⟨S1x8192x512, .bf16⟩
  | .local _ .vmem, ⟨23, _⟩ => ⟨S1x8192x512, .bf16⟩
  | .local _ .vmem, ⟨24, _⟩ => ⟨S1x512x64, .f32⟩
  | .local _ .vmem, ⟨25, _⟩ => ⟨S1x512x64, .f32⟩
  | .local _ .vmem, ⟨26, _⟩ => ⟨S1x8192x64, .f32⟩
  | .local _ .vmem, ⟨27, _⟩ => ⟨S1x8192x64, .f32⟩
  | .local _ .vmem, ⟨28, _⟩ => ⟨S8192x64, .f32⟩
  | .local _ .vmem, ⟨29, _⟩ => ⟨S1x8192x512, .bf16⟩
  | .local _ .vmem, ⟨30, _⟩ => ⟨S1x8192x512, .bf16⟩
  | .local _ .vmem, ⟨31, _⟩ => ⟨S1x512x64, .f32⟩
  | .local _ .vmem, ⟨32, _⟩ => ⟨S1x512x64, .f32⟩
  | .local _ .vmem, ⟨33, _⟩ => ⟨S64x64, .f32⟩
  | .local _ .vmem, ⟨34, _⟩ => ⟨S1x64, .f32⟩
  | .local _ .vmem, ⟨35, _⟩ => ⟨S1x8192x64, .f32⟩
  | .local _ .vmem, ⟨36, _⟩ => ⟨S1x8192x64, .f32⟩
  | .local _ .vmem, ⟨37, _⟩ => ⟨S8192x64, .f32⟩
  | .local _ .vmem, ⟨38, _⟩ => ⟨S1x8192x512, .bf16⟩
  | .local _ .vmem, ⟨39, _⟩ => ⟨S1x8192x512, .bf16⟩
  | .local _ .vmem, ⟨40, _⟩ => ⟨S1x512x64, .f32⟩
  | .local _ .vmem, ⟨41, _⟩ => ⟨S1x512x64, .f32⟩
  | .local _ .vmem, ⟨42, _⟩ => ⟨S1x8192x64, .f32⟩
  | .local _ .vmem, ⟨43, _⟩ => ⟨S1x8192x64, .f32⟩
  | .local _ .vmem, ⟨44, _⟩ => ⟨S8192x64, .f32⟩
  | .local _ .vmem, ⟨45, _⟩ => ⟨S1x8192x512, .bf16⟩
  | .local _ .vmem, ⟨46, _⟩ => ⟨S1x8192x512, .bf16⟩
  | .local _ .vmem, ⟨47, _⟩ => ⟨S1x512x64, .f32⟩
  | .local _ .vmem, ⟨48, _⟩ => ⟨S1x512x64, .f32⟩
  | .local _ .vmem, ⟨49, _⟩ => ⟨S1x8192x64, .f32⟩
  | .local _ .vmem, ⟨50, _⟩ => ⟨S1x8192x64, .f32⟩
  | .local _ .vmem, ⟨51, _⟩ => ⟨S8192x64, .f32⟩
  | .local _ .vmem, ⟨52, _⟩ => ⟨S1x8192x512, .bf16⟩
  | .local _ .vmem, ⟨53, _⟩ => ⟨S1x8192x512, .bf16⟩
  | .local _ .vmem, ⟨54, _⟩ => ⟨S1x512x64, .f32⟩
  | .local _ .vmem, ⟨55, _⟩ => ⟨S1x512x64, .f32⟩
  | .local _ .vmem, ⟨56, _⟩ => ⟨S1x8192x64, .f32⟩
  | .local _ .vmem, ⟨57, _⟩ => ⟨S1x8192x64, .f32⟩
  | .local _ .vmem, ⟨58, _⟩ => ⟨S8192x64, .f32⟩
  | .local _ .vmem, ⟨59, _⟩ => ⟨S1x8192x512, .bf16⟩
  | .local _ .vmem, ⟨60, _⟩ => ⟨S1x8192x512, .bf16⟩
  | .local _ .vmem, ⟨61, _⟩ => ⟨S1x512x64, .f32⟩
  | .local _ .vmem, ⟨62, _⟩ => ⟨S1x512x64, .f32⟩
  | .local _ .vmem, ⟨63, _⟩ => ⟨S64x64, .f32⟩
  | .local _ .vmem, ⟨64, _⟩ => ⟨S1x64, .f32⟩
  | .local _ .vmem, ⟨65, _⟩ => ⟨S1x8192x64, .f32⟩
  | .local _ .vmem, ⟨66, _⟩ => ⟨S1x8192x64, .f32⟩
  | .local _ .vmem, ⟨67, _⟩ => ⟨S8192x64, .f32⟩
  | _, _ => ⟨S2x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_scratch0 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg4_1 : Ref sig .tc := ⟨.vmem, 36, rfl⟩
abbrev cc4_scratch0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_scratch0 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg2_1 : Ref sig .tc := ⟨.vmem, 50, rfl⟩
abbrev cc6_scratch0 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg2_1 : Ref sig .tc := ⟨.vmem, 57, rfl⟩
abbrev cc7_scratch0 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg1_1 : Ref sig .tc := ⟨.vmem, 62, rfl⟩
abbrev cc8_stg2_0 : Ref sig .tc := ⟨.vmem, 63, rfl⟩
abbrev cc8_stg3_0 : Ref sig .tc := ⟨.vmem, 64, rfl⟩
abbrev cc8_stg4_0 : Ref sig .tc := ⟨.vmem, 65, rfl⟩
abbrev cc8_stg4_1 : Ref sig .tc := ⟨.vmem, 66, rfl⟩
abbrev cc8_scratch0 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem4_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51
abbrev cc8_sem0_0 : DmaSem sig := 52
abbrev cc8_sem0_1 : DmaSem sig := 53
abbrev cc8_sem1_0 : DmaSem sig := 54
abbrev cc8_sem1_1 : DmaSem sig := 55
abbrev cc8_sem2_0 : DmaSem sig := 56
abbrev cc8_sem3_0 : DmaSem sig := 57
abbrev cc8_sem4_0 : DmaSem sig := 58
abbrev cc8_sem4_1 : DmaSem sig := 59

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 64], ![false, false]⟩

def k1_cond2 (i : grid1.Coords) : BitVec 1 :=
  let arg1 : BitVec 32 := BitVec.ofNat 32 (i 1).val
  let c63_i32 : BitVec 32 := 63#32
  let v18 : BitVec 1 := Scalar.cmpi .eq arg1 c63_i32
  let v19 : BitVec 32 := Scalar.extui v18
  let c0_i32_13 : BitVec 32 := 0#32
  let v20 : BitVec 1 := Scalar.cmpi .ne v19 c0_i32_13
  v20

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x8192x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 16], ![false, false]⟩

def k2_cond2 (i : grid2.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_10 : BitVec 32 := 0#32
  let v16 : BitVec 1 := Scalar.cmpi .ne v15 c0_i32_10
  v16

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x8192x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![2, 16], ![false, false]⟩

def k3_cond2 (i : grid3.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_10 : BitVec 32 := 0#32
  let v16 : BitVec 1 := Scalar.cmpi .ne v15 c0_i32_10
  v16

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x8192x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x512x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x8192x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![2, 16], ![false, false]⟩

def k4_cond2 (i : grid4.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_10 : BitVec 32 := 0#32
  let v16 : BitVec 1 := Scalar.cmpi .ne v15 c0_i32_10
  v16

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x8192x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x512x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1x8192x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨2, ![2, 16], ![false, false]⟩

def k5_cond2 (i : grid5.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_10 : BitVec 32 := 0#32
  let v16 : BitVec 1 := Scalar.cmpi .ne v15 c0_i32_10
  v16

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x8192x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x512x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x8192x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![2, 16], ![false, false]⟩

def k6_cond2 (i : grid6.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_10 : BitVec 32 := 0#32
  let v16 : BitVec 1 := Scalar.cmpi .ne v15 c0_i32_10
  v16

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x8192x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x512x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x8192x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨2, ![2, 16], ![false, false]⟩

def k7_cond2 (i : grid7.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_10 : BitVec 32 := 0#32
  let v16 : BitVec 1 := Scalar.cmpi .ne v15 c0_i32_10
  v16

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x8192x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S1x512x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, true]

abbrev stage7_2 : Fin 2 → Memref sig .tc .vmem S1x8192x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev grid8 : Pipeline.Grid := ⟨2, ![2, 16], ![false, false]⟩

def k8_cond2 (i : grid8.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_10 : BitVec 32 := 0#32
  let v16 : BitVec 1 := Scalar.cmpi .ne v15 c0_i32_10
  v16

def cc8_transform_0 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x8192x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x512x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false, false]

abbrev stage8_4 : Fin 2 → Memref sig .tc .vmem S1x8192x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, false]

class Facts₀ : Prop where
  shapeCasts_S64_S1x64 : S64.ShapeCasts S1x64
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  shapeCasts_S8192x128_S1x8192x128 : S8192x128.ShapeCasts S1x8192x128
  packedbf16_S1x8192x128_S1x8192x128_0_0_0 : (Rect.unit (s := S1x8192x128) ![0, 0, 0] S1x8192x128.size inb_S1x8192x128_S1x8192x128_0_0_0).PackedRows (EltTy.packing .bf16)
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  shapeCasts_S8192x64_S1x8192x64 : S8192x64.ShapeCasts S1x8192x64
  inb_S1x8192x512_S1x8192x512_0_0_0 : ∀ a, (![0, 0, 0] : Fin 3 → Nat) a + S1x8192x512.size a ≤ S1x8192x512.size a
  h_S1x8192x512 : 0 < S1x8192x512.numel
  shapeCasts_S1x8192x512_S8192x512 : S1x8192x512.ShapeCasts S8192x512
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S8192x64 : S1x64.Broadcasts S8192x64
  slices_S2x64x64_S1x64x64_1_0_0 : S2x64x64.Slices ![1, 0, 0] S1x64x64
  slices_S2x64_S1x64_1_0 : S2x64.Slices ![1, 0] S1x64
  dot_S1024x128_S64x128_S1024x64_1_1_0_0_n_n_wf : DotDims.WF S1024x128 S64x128 S1024x64 [1] [1] [0] [0] [] []
  dot_S8192x128_S128x64_S8192x64_1_0_0_1_n_n_wf : DotDims.WF S8192x128 S128x64 S8192x64 [1] [0] [0] [1] [] []
  dot_S8192x512_S512x64_S8192x64_1_0_0_1_n_n_wf : DotDims.WF S8192x512 S512x64 S8192x64 [1] [0] [0] [1] [] []
  dot_S8192x64_S64x64_S8192x64_1_1_0_0_n_n_wf : DotDims.WF S8192x64 S64x64 S8192x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S2x8192x128.size a
  hwx0_0 : ∀ i : grid0.Coords, EltTy.bits .f32 = 32 ∨ (Rect.block (s := S2x8192x128) S1x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S2x8192x64.size a
  hwx0_3 : ∀ i : grid0.Coords, EltTy.bits .f32 = 32 ∨ (Rect.block (s := S2x8192x64) S1x1024x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x128.size a ≤ S2x8192x8192.size a
  hwx1_0 : ∀ i : grid1.Coords, EltTy.bits .f32 = 32 ∨ (Rect.block (s := S2x8192x8192) S1x8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x64.size a ≤ S2x8192x64.size a
  hwx1_1 : ∀ i : grid1.Coords, EltTy.bits .f32 = 32 ∨ (Rect.block (s := S2x8192x64) S1x128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8192x64.size a ≤ S2x8192x64.size a
  hwx1_2 : ∀ i : grid1.Coords, EltTy.bits .f32 = 32 ∨ (Rect.block (s := S2x8192x64) S1x8192x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8192x128.size a ≤ S2x8192x8192.size a
  hwx1_3 : ∀ i : grid1.Coords, EltTy.bits .bf16 = 32 ∨ (Rect.block (s := S2x8192x8192) S1x8192x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8192x512.size a ≤ S2x8192x8192.size a
  hwx2_0 : ∀ i : grid2.Coords, EltTy.bits .bf16 = 32 ∨ (Rect.block (s := S2x8192x8192) S1x8192x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x64.size a ≤ S2x8192x64.size a
  hwx2_1 : ∀ i : grid2.Coords, EltTy.bits .f32 = 32 ∨ (Rect.block (s := S2x8192x64) S1x512x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x8192x64.size a ≤ S2x8192x64.size a
  hwx2_2 : ∀ i : grid2.Coords, EltTy.bits .f32 = 32 ∨ (Rect.block (s := S2x8192x64) S1x8192x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x8192x512.size a ≤ S2x8192x8192.size a
  hwx3_0 : ∀ i : grid3.Coords, EltTy.bits .bf16 = 32 ∨ (Rect.block (s := S2x8192x8192) S1x8192x512.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x64.size a ≤ S2x8192x64.size a
  hwx3_1 : ∀ i : grid3.Coords, EltTy.bits .f32 = 32 ∨ (Rect.block (s := S2x8192x64) S1x512x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x8192x64.size a ≤ S2x8192x64.size a
  hwx3_2 : ∀ i : grid3.Coords, EltTy.bits .f32 = 32 ∨ (Rect.block (s := S2x8192x64) S1x8192x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x8192x512.size a ≤ S2x8192x8192.size a
  hwx4_0 : ∀ i : grid4.Coords, EltTy.bits .bf16 = 32 ∨ (Rect.block (s := S2x8192x8192) S1x8192x512.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x512x64.size a ≤ S2x8192x64.size a
  hwx4_1 : ∀ i : grid4.Coords, EltTy.bits .f32 = 32 ∨ (Rect.block (s := S2x8192x64) S1x512x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x8192x64.size a ≤ S2x8192x64.size a
  hwx4_4 : ∀ i : grid4.Coords, EltTy.bits .f32 = 32 ∨ (Rect.block (s := S2x8192x64) S1x8192x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x8192x512.size a ≤ S2x8192x8192.size a
  hwx5_0 : ∀ i : grid5.Coords, EltTy.bits .bf16 = 32 ∨ (Rect.block (s := S2x8192x8192) S1x8192x512.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x512x64.size a ≤ S2x8192x64.size a
  hwx5_1 : ∀ i : grid5.Coords, EltTy.bits .f32 = 32 ∨ (Rect.block (s := S2x8192x64) S1x512x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x8192x64.size a ≤ S2x8192x64.size a
  hwx5_2 : ∀ i : grid5.Coords, EltTy.bits .f32 = 32 ∨ (Rect.block (s := S2x8192x64) S1x8192x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x8192x512.size a ≤ S2x8192x8192.size a
  hwx6_0 : ∀ i : grid6.Coords, EltTy.bits .bf16 = 32 ∨ (Rect.block (s := S2x8192x8192) S1x8192x512.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x512x64.size a ≤ S2x8192x64.size a
  hwx6_1 : ∀ i : grid6.Coords, EltTy.bits .f32 = 32 ∨ (Rect.block (s := S2x8192x64) S1x512x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x8192x64.size a ≤ S2x8192x64.size a
  hwx6_2 : ∀ i : grid6.Coords, EltTy.bits .f32 = 32 ∨ (Rect.block (s := S2x8192x64) S1x8192x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x8192x512.size a ≤ S2x8192x8192.size a
  hwx7_0 : ∀ i : grid7.Coords, EltTy.bits .bf16 = 32 ∨ (Rect.block (s := S2x8192x8192) S1x8192x512.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1x512x64.size a ≤ S2x8192x64.size a
  hwx7_1 : ∀ i : grid7.Coords, EltTy.bits .f32 = 32 ∨ (Rect.block (s := S2x8192x64) S1x512x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x8192x64.size a ≤ S2x8192x64.size a
  hwx7_2 : ∀ i : grid7.Coords, EltTy.bits .f32 = 32 ∨ (Rect.block (s := S2x8192x64) S1x8192x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x8192x512.size a ≤ S2x8192x8192.size a
  hwx8_0 : ∀ i : grid8.Coords, EltTy.bits .bf16 = 32 ∨ (Rect.block (s := S2x8192x8192) S1x8192x512.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1x512x64.size a ≤ S2x8192x64.size a
  hwx8_1 : ∀ i : grid8.Coords, EltTy.bits .f32 = 32 ∨ (Rect.block (s := S2x8192x64) S1x512x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1x8192x64.size a ≤ S2x8192x64.size a
  hwx8_4 : ∀ i : grid8.Coords, EltTy.bits .f32 = 32 ∨ (Rect.block (s := S2x8192x64) S1x8192x64.size (cc8_transform_4 i) (hinb8_4 i)).WholeWords (EltTy.packing .f32)

variable [Facts₀]

def dot_S1024x128_S64x128_S1024x64_1_1_0_0_n_n : DotDims S1024x128 S64x128 S1024x64 where
  lhsContracting := [1]
  rhsContracting := [1]
  lhsNonContracting := [0]
  rhsNonContracting := [0]
  lhsBatch := []
  rhsBatch := []
  wf := dot_S1024x128_S64x128_S1024x64_1_1_0_0_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x64_S64x64_S8192x64_1_1_0_0_n_n : DotDims S8192x64 S64x64 S8192x64 where
  lhsContracting := [1]
  rhsContracting := [1]
  lhsNonContracting := [0]
  rhsNonContracting := [0]
  lhsBatch := []
  rhsBatch := []
  wf := dot_S8192x64_S64x64_S8192x64_1_1_0_0_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S1x8192x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S1x8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun _ => false | ⟨_ + 4, h⟩ => absurd h (Nat.not_lt.2 (Nat.le_add_left _ _))

abbrev win2_0 : Pipeline.Window sig grid2 :=
  Pipeline.Window.ofSpec (Memref.whole main_v2_1) S1x8192x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S1x512x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x8192x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v2_1) S1x8192x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1x512x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1x8192x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v2_1) S1x8192x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v4) S1x512x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v6) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v9) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v10) S1x8192x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v2_1) S1x8192x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S1x512x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S1x8192x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v2_1) S1x8192x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v11) S1x512x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v12) S1x8192x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v2_1) S1x8192x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v12) S1x512x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v13) S1x8192x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v2_1) S1x8192x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v13) S1x512x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v15) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v18) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v19) S1x8192x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev idle8 : Fin 5 → grid8.Coords → Bool := fun | 0 => fun _ => false | 1 => fun _ => false | 2 => fun _ => false | 3 => fun _ => false | 4 => fun i => !(k8_cond2 i == 1#1) | ⟨_ + 5, h⟩ => absurd h (Nat.not_lt.2 (Nat.le_add_left _ _))

class Facts : Prop extends Facts₀ where

variable [Facts]
-- ==== ReferenceIdeal.lean ====
abbrev S2x8192x128 : Shape := ⟨3, ![2, 8192, 128]⟩
abbrev S2x8192x8192 : Shape := ⟨3, ![2, 8192, 8192]⟩
abbrev S64x128 : Shape := ⟨2, ![64, 128]⟩
abbrev S64 : Shape := ⟨1, ![64]⟩
abbrev S2x64x64 : Shape := ⟨3, ![2, 64, 64]⟩
abbrev S2x64 : Shape := ⟨2, ![2, 64]⟩
abbrev S2x8192x64 : Shape := ⟨3, ![2, 8192, 64]⟩
abbrev S1x1x64 : Shape := ⟨3, ![1, 1, 64]⟩
abbrev S1x64x64 : Shape := ⟨3, ![1, 64, 64]⟩
abbrev S64x64 : Shape := ⟨2, ![64, 64]⟩
abbrev S1x64 : Shape := ⟨2, ![1, 64]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2x8192x128, .f32⟩
  | .hbm, ⟨1, _⟩ => ⟨S2x8192x8192, .f32⟩
  | .hbm, ⟨2, _⟩ => ⟨S64x128, .f32⟩
  | .hbm, ⟨3, _⟩ => ⟨S64, .f32⟩
  | .hbm, ⟨4, _⟩ => ⟨S2x64x64, .f32⟩
  | .hbm, ⟨5, _⟩ => ⟨S2x64, .f32⟩
  | .hbm, ⟨6, _⟩ => ⟨S2x8192x64, .f32⟩
  | .hbm, ⟨7, _⟩ => ⟨S1x1x64, .f32⟩
  | .hbm, ⟨8, _⟩ => ⟨S2x8192x64, .f32⟩
  | .hbm, ⟨9, _⟩ => ⟨S2x8192x64, .f32⟩
  | .hbm, ⟨10, _⟩ => ⟨S2x8192x64, .f32⟩
  | .hbm, ⟨11, _⟩ => ⟨S2x8192x64, .f32⟩
  | .hbm, ⟨12, _⟩ => ⟨S2x8192x64, .f32⟩
  | .hbm, ⟨13, _⟩ => ⟨S2x8192x64, .f32⟩
  | .hbm, ⟨14, _⟩ => ⟨S1x64x64, .f32⟩
  | .hbm, ⟨15, _⟩ => ⟨S64x64, .f32⟩
  | .hbm, ⟨16, _⟩ => ⟨S2x8192x64, .f32⟩
  | .hbm, ⟨17, _⟩ => ⟨S1x64, .f32⟩
  | .hbm, ⟨18, _⟩ => ⟨S64, .f32⟩
  | .hbm, ⟨19, _⟩ => ⟨S1x1x64, .f32⟩
  | .hbm, ⟨20, _⟩ => ⟨S2x8192x64, .f32⟩
  | .hbm, ⟨21, _⟩ => ⟨S2x8192x64, .f32⟩
  | .hbm, ⟨22, _⟩ => ⟨S_, .f32⟩
  | .hbm, ⟨23, _⟩ => ⟨S2x8192x64, .f32⟩
  | .hbm, ⟨24, _⟩ => ⟨S2x8192x64, .f32⟩
  | .hbm, ⟨25, _⟩ => ⟨S2x8192x64, .f32⟩
  | .hbm, ⟨26, _⟩ => ⟨S2x8192x64, .f32⟩
  | .hbm, ⟨27, _⟩ => ⟨S2x8192x64, .f32⟩
  | .hbm, ⟨28, _⟩ => ⟨S2x8192x64, .f32⟩
  | .hbm, ⟨29, _⟩ => ⟨S1x64x64, .f32⟩
  | .hbm, ⟨30, _⟩ => ⟨S64x64, .f32⟩
  | .hbm, ⟨31, _⟩ => ⟨S2x8192x64, .f32⟩
  | .hbm, ⟨32, _⟩ => ⟨S1x64, .f32⟩
  | .hbm, ⟨33, _⟩ => ⟨S64, .f32⟩
  | .hbm, ⟨34, _⟩ => ⟨S1x1x64, .f32⟩
  | .hbm, ⟨35, _⟩ => ⟨S2x8192x64, .f32⟩
  | .hbm, ⟨36, _⟩ => ⟨S2x8192x64, .f32⟩
  | .hbm, ⟨37, _⟩ => ⟨S2x8192x64, .f32⟩
  | _, _ => ⟨S2x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S2x8192x64_0_1_2 : S1x1x64.BroadcastsInDim S2x8192x64 (![0, 1, 2] : Fin 3 → Fin S2x8192x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S_S2x8192x64 : S_.BroadcastsInDim S2x8192x64 (![] : Fin 0 → Fin S2x8192x64.rank)
  slices_S2x64x64_S1x64x64_1_0_0 : S2x64x64.Slices ![1, 0, 0] S1x64x64
  slices_S2x64_S1x64_1_0 : S2x64.Slices ![1, 0] S1x64
  dot_S2x8192x128_S64x128_S2x8192x64_2_1_01_0_n_n_wf : DotDims.WF S2x8192x128 S64x128 S2x8192x64 [2] [1] [0, 1] [0] [] []
  dot_S2x8192x8192_S2x8192x64_S2x8192x64_2_1_1_2_0_0_wf : DotDims.WF S2x8192x8192 S2x8192x64 S2x8192x64 [2] [1] [1] [2] [0] [0]
  dot_S2x8192x64_S64x64_S2x8192x64_2_1_01_0_n_n_wf : DotDims.WF S2x8192x64 S64x64 S2x8192x64 [2] [1] [0, 1] [0] [] []

variable [Facts₀]

def dot_S2x8192x128_S64x128_S2x8192x64_2_1_01_0_n_n : DotDims S2x8192x128 S64x128 S2x8192x64 where
  lhsContracting := [2]
  rhsContracting := [1]
  lhsNonContracting := [0, 1]
  rhsNonContracting := [0]
  lhsBatch := []
  rhsBatch := []
  wf := dot_S2x8192x128_S64x128_S2x8192x64_2_1_01_0_n_n_wf
def dot_S2x8192x8192_S2x8192x64_S2x8192x64_2_1_1_2_0_0 : DotDims S2x8192x8192 S2x8192x64 S2x8192x64 where
  lhsContracting := [2]
  rhsContracting := [1]
  lhsNonContracting := [1]
  rhsNonContracting := [2]
  lhsBatch := [0]
  rhsBatch := [0]
  wf := dot_S2x8192x8192_S2x8192x64_S2x8192x64_2_1_1_2_0_0_wf
def dot_S2x8192x64_S64x64_S2x8192x64_2_1_01_0_n_n : DotDims S2x8192x64 S64x64 S2x8192x64 where
  lhsContracting := [2]
  rhsContracting := [1]
  lhsNonContracting := [0, 1]
  rhsNonContracting := [0]
  lhsBatch := []
  rhsBatch := []
  wf := dot_S2x8192x64_S64x64_S2x8192x64_2_1_01_0_n_n_wf

class Facts : Prop extends Facts₀ where

variable [Facts]
-- ==== Proof.LibWholeStore.lean ====
/-
  A buffer whose LAST store went through the rectangle covering its whole shape (offsets all zero) holds that store's payload,
  whatever was stored before: read back through the view, or loaded again through the same rectangle. General facts about
  views, stated once so that a kernel body that overwrites a scratch or an output block whole can be read off its store list.
-/
import Idealize.ShloMosaic.Lib.Pipeline.FrameBody
import Idealize.ShloMosaic.Lib.Pipeline.Value

namespace Idealize.ShloMosaic.View

variable {Val : EltTy → Type} [∀ e, Nonempty (Val e)] {S : Shape} {e : EltTy}
variable {sig : RefSig} {κ : Kind} {sp : Space}

/-- Reading a buffer back after a list of stores whose last one covers the whole shape gives that store's payload. -/
theorem read_writes_whole_last (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  rw [read_writes_eq_canon v f _ (fun y => ⟨_, List.Mem.head _, mem_set_unit_zero h inb y⟩), canon_cons_unit_zero h]

/-- Loading the whole shape after such a list of stores reads that payload. -/
theorem readCov_whole_last (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.Mem.head _, mem_set_unit_zero rfl inb y⟩), canon_cons_unit_zero rfl,
    ld_unit_zero rfl]

/-- Loading the whole shape of a buffer reads its contents. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [readAt_eq_ld]; exact ld_unit_zero h inb _

end Idealize.ShloMosaic.View

namespace Cert.Lib

/-- The zero offsets of a rank-2 and of a rank-3 rectangle, as the printed programs spell them. -/
theorem zeros2 : (![0, 0] : Fin 2 → Nat) = fun _ => 0 := funext fun a => by fin_cases a <;> rfl
theorem zeros3 : (![0, 0, 0] : Fin 3 → Nat) = fun _ => 0 := funext fun a => by fin_cases a <;> rfl

end Cert.Lib
-- ==== Proof.HandK.Run0.lean ====
/-
  One grid point of the input projection (kernel region 0): the body rounds a [1024, 128] block of the input and the [64, 128]
  weight to bf16, multiplies the block by the transposed weight, adds the [1, 64] bias to every row and writes the [1024, 64]
  result to the output block. No branch and no scratch. Stated on any whole staging buffers, with the output block's final contents
  written out as the body's own payload term.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- ONE POINT of the input projection, on any whole staging memrefs: the input block `x0`, the weight `x1` and the bias `x2` are
    read and kept; the output block is overwritten with block · weightᵀ + bias, whatever it held. -/
theorem run0 (c : Dev nD) (i : grid0.Coords)
    (a2 : Memref sig .tc .vmem S1x1024x128 .f32) (h2 : a2.IsWhole) (a3 : Memref sig .tc .vmem S64x128 .f32) (h3 : a3.IsWhole)
    (a4 : Memref sig .tc .vmem S1x64 .f32) (h4 : a4.IsWhole) (a5 : Memref sig .tc .vmem S1x1024x64 .f32) (h5 : a5.IsWhole)
    (x0 : Vec F S1x1024x128 .f32) (x1 : Vec F S64x128 .f32) (x2 : Vec F S1x64 .f32) (xo : Vec F S1x1024x64 .f32)
    (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare xo
        ∗ (iprop(owns (c : Thread nD τ) a2 fullShare x0 ∗ owns (c : Thread nD τ) a3 fullShare x1 ∗ owns (c : Thread nD τ) a4 fullShare x2
            ∗ owns (c : Thread nD τ) a5 fullShare (k0_pay1 x0 x1 x2)) -∗ K ⟨⟩))
      ⊢ wp frame (wpE (defs₀ (F := F)) Variants.none c none) E (cc0__linear0_kernel i a2 h2 a3 h3 a4 h4 a5 h5) K := by
  simp only [cc0__linear0_kernel_eq_skeleton]; unfold cc0__linear0_kernel_skel
  unfold owns
  iintro ⟨⟨%f0, %hf0, H0⟩, ⟨%f1, %hf1, H1⟩, ⟨%f2, %hf2, H2⟩, ⟨%fo, %hfo, HO⟩, Hk⟩
  obtain rfl := h2.eq_unread hf0; obtain rfl := h3.eq_unread hf1; obtain rfl := h4.eq_unread hf2; obtain rfl := h5.eq_unread hfo
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact HO
  ipureintro
  sl_unfold_run_names
  simp only [View.read_writes_whole_last (S := S1x1024x128) _ _ Cert.Lib.zeros3, View.read_writes_whole_last (S := S64x128) _ _ Cert.Lib.zeros2, View.read_writes_whole_last (S := S1x64) _ _ Cert.Lib.zeros2, View.read_writes_whole_last (S := S1x1024x64) _ _ Cert.Lib.zeros3, View.readCov_whole_last (S := S1x1024x128) _ Cert.Lib.zeros3, View.readCov_whole_last (S := S64x128) _ Cert.Lib.zeros2, View.readCov_whole_last (S := S1x64) _ Cert.Lib.zeros2, View.readCov_whole_last (S := S1x1024x64) _ Cert.Lib.zeros3, View.readAt_whole (S := S1x1024x128) _ _ Cert.Lib.zeros3, View.readAt_whole (S := S64x128) _ _ Cert.Lib.zeros2, View.readAt_whole (S := S1x64) _ _ Cert.Lib.zeros2, View.readAt_whole (S := S1x1024x64) _ _ Cert.Lib.zeros3, hf0, hf1, hf2, hfo]

end Cert.Kernel.Hand

end
-- ==== Proof.HandK.Dat0.lean ====
/-
  The embedding layer (kernel region 0): on the grid (batch element, row block of 1024) each point multiplies a [1024, 128] block of
  rows by the transposed [64, 128] weight and adds the bias row; it keeps nothing between points and stores its output block at
  every point. The pipeline's proof data and the body obligation; the weight and the bias are fetched once, at the first point.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Run0
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region keeps nothing between points: its invariant is the scoped buffers no window stages, at something. -/
def Phi0 (_V : (c : Dev nD) → (b : Ref sig .tc) → Buf (Elt F) ((c : Thread nD τ).loc b)) (c : Dev nD) (_n : ℕ) : sProp 𝕄 :=
  Pipeline.scopedRest (Ix := Unit) (Name := ℕ) (U := UR sig nD τ) (Lvl := ℕ) (Val := Elt F) spec0 c

/-! ## The proof data -/

/-- The proof data on core `c`, from the contents `V` the region is entered at: after the body each input's buffer at its block,
    the output's at the rows' images under the weight plus the bias; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ t := Phi0 V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

/-- The rows' block is fetched at every point. -/
theorem before0_0 (c : Dev nD) (t : Fin cfg0.N) (d) : (dat0 V c).before 0 t d = iblk0 V c 0 t := by
  unfold Dat.before; rw [if_pos (fetch0_0 t)]; rfl
/-- The weight and the bias are fetched once, at the first point; their block index never moves and the body leaves them in place,
    so their buffers hold their block at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, the one-point run applies, the output block is overwritten. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, after0_0, after0_1, after0_2, after0_3]
  rw [show (dat0 V c).owesAt () t.succ = (dat0 V c).owesAt () t.castSucc from rfl]
  rw [show (dat0 V c).Φ t.succ = Phi0 V c (t.val + 1) from rfl, show (dat0 V c).Φ t.castSucc = Phi0 V c t.val from rfl]
  unfold Phi0
  iintro ⟨Hrest, Ho, ⟨%d0, H0⟩, ⟨%d1, H1⟩, ⟨%d2, H2⟩, ⟨%d3, H3⟩⟩
  iapply (run0 c (grid0.coords t) _ _ _ _ _ _ _ _ (iblk0 V c 0 t) (iblk0 V c 1 t) (iblk0 V c 2 t) _ Set.univ _)
  isplitl [H0]; · iexact H0
  isplitl [H1]; · iexact H1
  isplitl [H2]; · iexact H2
  isplitl [H3]; · iexact H3
  iintro ⟨H0, H1, H2, H3⟩
  isplitl [Hrest]; · iexact Hrest
  isplitl [Ho]; · iexact Ho
  isplitl [H0]; · iexact H0
  isplitl [H1]; · iexact H1
  isplitl [H2]; · iexact H2
  iexact H3

/-- The library's body obligation, at every point: no window of this region is ever idle. -/
theorem body_obligation0 (c : Dev nD) : BodyObligation (dat0 (F := F) V c) (defs₀ (F := F)) Variants.none () Set.univ := fun t => by
  rw [bigSep_W0, bigSep_W0]
  exact sound_body0 V c t

/-! ## Into and out of the invariant -/

theorem hin0 (c : Dev nD) :
    (Pipeline.scopedRest (Ix := Unit) (Name := ℕ) (U := UR sig nD τ) (Lvl := ℕ) (Val := Elt F) spec0 c : sProp 𝕄) ⊢ Phi0 V c 0 := .rfl
theorem hout0 (c : Dev nD) (n : ℕ) :
    Phi0 V c n ⊢ (Pipeline.scopedRest (Ix := Unit) (Name := ℕ) (U := UR sig nD τ) (Lvl := ℕ) (Val := Elt F) spec0 c : sProp 𝕄) := .rfl

end Cert.Kernel.Hand

end
-- ==== Proof.HandK.Run1.lean ====
/-
  One grid point of the first diffusion step (kernel region 1): the body rounds an [8192, 128] block of the f32 adjacency to bf16
  and writes that rounding out as a second output block at every point; it multiplies the rounded block by the matching [128, 64]
  block of the activation (rounded to bf16) and adds the product to an [8192, 64] accumulator kept in scratch, which it zeroes first
  at the first column block of a batch element and copies to the output block at the last one. Stated on any whole staging buffers,
  with every buffer's final contents written out as the body's own payload terms.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the first column block of a row sweep: the body's first branch condition, from the grid coordinates. -/
abbrev first1 (i : grid1.Coords) : Prop := (Scalar.cmpi .ne (Scalar.extui (Scalar.cmpi .eq (BitVec.ofNat 32 (i 1).val) 0#32)) 0#32) = 1#1
/-- The accumulator is copied out at the last column block: the body's second branch condition. -/
abbrev last1 (i : grid1.Coords) : Prop := k1_cond2 i = 1#1

/-- The accumulator the body adds this point's product to: zero at the first column block, else what the point before left. -/
def accIn1 (i : grid1.Coords) [Decidable (first1 i)] (xs : Vec F S8192x64 .f32) : Vec F S8192x64 .f32 :=
  if first1 i then k1_pay1 (F := F) else xs

set_option maxHeartbeats 800000 in
/-- ONE POINT of the first diffusion step, on any whole staging memrefs: the f32 adjacency block `x0` and the activation block `x1`
    are read and kept; the bf16 copy of the adjacency block is overwritten with the rounding of `x0` at every point, whatever it
    held (the body also loads it first; that value is not used); the scratch accumulator ends at (zero or what it held) + the
    block product; the output block is overwritten with the accumulator at the last column block and left untouched otherwise. -/
theorem run1 (c : Dev nD) (i : grid1.Coords) [Decidable (first1 i)] [Decidable (last1 i)]
    (a2 : Memref sig .tc .vmem S1x8192x128 .f32) (h2 : a2.IsWhole) (a3 : Memref sig .tc .vmem S1x128x64 .f32) (h3 : a3.IsWhole)
    (a4 : Memref sig .tc .vmem S1x8192x64 .f32) (h4 : a4.IsWhole) (a5 : Memref sig .tc .vmem S1x8192x128 .bf16) (h5 : a5.IsWhole)
    (a6 : Memref sig .tc .vmem S8192x64 .f32) (h6 : a6.IsWhole)
    (x0 : Vec F S1x8192x128 .f32) (x1 : Vec F S1x128x64 .f32) (xo : Vec F S1x8192x64 .f32) (xc : Vec F S1x8192x128 .bf16)
    (xs : Vec F S8192x64 .f32)
    (E : Set ℕ) (K : PUnit → sProp 𝕄) :
    iprop(owns (c : Thread nD τ) a2 fullShare x0 ∗ owns (c : Thread nD τ) a3 fullShare x1 ∗ owns (c : Thread nD τ) a4 fullShare xo ∗ owns (c : Thread nD τ) a5 fullShare xc
        ∗ owns (c : Thread nD τ) a6 fullShare xs
        ∗ (iprop(owns (c : Thread nD τ) a2 fullShare x0 ∗ owns (c : Thread nD τ) a3 fullShare x1
            ∗ owns (c : Thread nD τ) a4 fullShare (if last1 i then k1_pay5 (k1_pay4 x0 x1 (accIn1 i xs)) else xo)
            ∗ owns (c : Thread nD τ) a5 fullShare (k1_pay3 x0)
            ∗ owns (c : Thread nD τ) a6 fullShare (k1_pay4 x0 x1 (accIn1 i xs))) -∗ K ⟨⟩))
      ⊢ wp frame (wpE (defs₀ (F := F)) Variants.none c none) E (cc1__diffuse_cast_first_kernel i a2 h2 a3 h3 a4 h4 a5 h5 a6 h6) K := by
  simp only [cc1__diffuse_cast_first_kernel_eq_skeleton]; unfold cc1__diffuse_cast_first_kernel_skel
  unfold owns accIn1
  iintro ⟨⟨%f0, %hf0, H0⟩, ⟨%f1, %hf1, H1⟩, ⟨%fo, %hfo, HO⟩, ⟨%fc, %hfc, HC⟩, ⟨%fs, %hfs, HS⟩, Hk⟩
  obtain rfl := h2.eq_unread hf0; obtain rfl := h3.eq_unread hf1; obtain rfl := h4.eq_unread hfo; obtain rfl := h5.eq_unread hfc
  obtain rfl := h6.eq_unread hfs
  by_cases hc0 : first1 i <;> by_cases hc1 : last1 i
  · -- first column block, the last one
    sl_exec (disch := first | exact hc0 | exact hc1)
    sl_step
    iapply Hk
    rw [if_pos hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
    isplitl [HC]
    · iexists _; isplitr; swap; · iexact HC
      ipureintro
      sl_unfold_run_names
      simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
    iexists _; isplitr; swap; · iexact HS
    ipureintro
    sl_unfold_run_names
    simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
  · -- first column block, not the last
    sl_exec (disch := first | exact hc0 | exact hc1)
    sl_step
    iapply Hk
    rw [if_pos hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    isplitl [HC]
    · iexists _; isplitr; swap; · iexact HC
      ipureintro
      sl_unfold_run_names
      simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
    iexists _; isplitr; swap; · iexact HS
    ipureintro
    sl_unfold_run_names
    simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
  · -- later column block, the last one
    sl_exec (disch := first | exact hc0 | exact hc1)
    sl_step
    iapply Hk
    rw [if_neg hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
    isplitl [HC]
    · iexists _; isplitr; swap; · iexact HC
      ipureintro
      sl_unfold_run_names
      simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
    iexists _; isplitr; swap; · iexact HS
    ipureintro
    sl_unfold_run_names
    simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
  · -- later column block, not the last
    sl_exec (disch := first | exact hc0 | exact hc1)
    sl_step
    iapply Hk
    rw [if_neg hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    isplitl [HC]
    · iexists _; isplitr; swap; · iexact HC
      ipureintro
      sl_unfold_run_names
      simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
    iexists _; isplitr; swap; · iexact HS
    ipureintro
    sl_unfold_run_names
    simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]

end Cert.Kernel.Hand

end
-- ==== Proof.HandK.Dat1.lean ====
/-
  First diffusion step fused with the conversion of the adjacency (kernel region 1): on the grid (batch element, column block of 128)
  each point converts an [8192, 128] block of the adjacency, stores the converted block to a second output, multiplies it by the
  matching [128, 64] block of the activation and adds the product to an [8192, 64] scratch accumulator, zeroed at the first column
  block and copied to the activation's output block at the last one. The pipeline's proof data and the body obligation.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Run1
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the idle table, decided over the grid -/

/-- The accumulator is reset exactly at the first of every 64 consecutive points: the first column block of a batch element. -/
theorem hfirst1 : ∀ t : Fin cfg1.N, first1 (grid1.coords t) ↔ t.val % 64 = 0 :=
  (by decide +kernel : ∀ t : Fin grid1.N, first1 (grid1.coords t) ↔ t.val % 64 = 0)
/-- It is copied out exactly at the last of them. -/
theorem hlast1 : ∀ t : Fin cfg1.N, last1 (grid1.coords t) ↔ t.val % 64 = 63 :=
  (by decide +kernel : ∀ t : Fin grid1.N, last1 (grid1.coords t) ↔ t.val % 64 = 63)
theorem live1_0 : ∀ t : Fin cfg1.N, cfg1.idle 0 (grid1.coords t) = false := by decide +kernel
theorem live1_1 : ∀ t : Fin cfg1.N, cfg1.idle 1 (grid1.coords t) = false := by decide +kernel
/-- The converted adjacency block is stored at every point. -/
theorem live1_3 : ∀ t : Fin cfg1.N, cfg1.idle 3 (grid1.coords t) = false := by decide +kernel
/-- Where the accumulator is not copied out the activation's output block is not stored to, -/
theorem idle1_2 : ∀ t : Fin cfg1.N, ¬ last1 (grid1.coords t) → cfg1.idle 2 (grid1.coords t) = true := by decide +kernel
/-- nor written back; -/
theorem noflush1_2 : ∀ t : Fin cfg1.N, ¬ last1 (grid1.coords t) → (cfg1.win 2).flush t = false := by decide +kernel
/-- where it is, the block is stored to. -/
theorem live1_2 : ∀ t : Fin cfg1.N, last1 (grid1.coords t) → cfg1.idle 2 (grid1.coords t) = false := by decide +kernel

/-! ## The blocks and the accumulator, point by point -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator's contents BEFORE point `n` (after the points below it): each point adds its block product to zero,
    at the first column block, or to what the point before left. Before the first point the scratch holds anything. -/
def accAt1 (c : Dev nD) : ℕ → Vec F S8192x64 .f32
  | 0 => fun _ => Classical.choice (Elt.nonempty F .f32)
  | n + 1 =>
    if h : n < cfg1.N then
      k1_pay4 (iblk1 V c 0 ⟨n, h⟩) (iblk1 V c 1 ⟨n, h⟩) (if n % 64 = 0 then k1_pay1 (F := F) else accAt1 c n)
    else accAt1 c n

/-- One point's step of the accumulator, in the form the body's run states it. -/
theorem accAt1_succ (c : Dev nD) (t : Fin cfg1.N) (X : Vec F S8192x64 .f32) (hX : t.val % 64 ≠ 0 → X = accAt1 V c t.val) :
    accAt1 V c (t.val + 1) = k1_pay4 (iblk1 V c 0 t) (iblk1 V c 1 t) (accIn1 (grid1.coords t) X) := by
  obtain ⟨n, hn⟩ := t
  rw [accAt1, dif_pos hn]; unfold accIn1
  by_cases h0 : n % 64 = 0
  · rw [if_pos h0, if_pos ((hfirst1 ⟨n, hn⟩).mpr h0)]
  · rw [if_neg h0, if_neg (fun h => h0 ((hfirst1 ⟨n, hn⟩).mp h)), hX h0]

/-- The scratch accumulator, a whole scoped buffer of the kernel's own. -/
abbrev scM1 : Memref sig .tc .vmem S8192x64 .f32 := Memref.whole cc1_scratch0

/-- The region's invariant before point `n`: the scratch at the accumulated value — at anything where the body will reset it —,
    every other scoped buffer no window stages at something. -/
def Phi1 (c : Dev nD) (n : ℕ) : sProp 𝕄 :=
  iprop((∃ X : Vec F S8192x64 .f32, ⌜n % 64 ≠ 0 → X = accAt1 V c n⌝ ∗ owns (c : Thread nD τ) scM1 fullShare X)
    ∗ Pipeline.scopedRestBut (Ix := Unit) (Name := ℕ) (U := UR sig nD τ) (Lvl := ℕ) (Val := Elt F) spec1 c [cc1_scratch0])

/-! ## The proof data -/

/-- The proof data on core `c`, from the contents `V` the region is entered at: after the body each input's buffer at its block,
    the activation's output at the accumulator (read where the block is written back: at the last column block), the converted
    adjacency's at the conversion of the adjacency block; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay5 (accAt1 V c (t.val + 1))
    | ⟨3, _⟩ => k1_pay3 (iblk1 V c 0 t)
  Φ t := Phi1 V c t.val
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay5 (accAt1 V c (t.val + 1)) := by dsimp only [dat1]
theorem after1_3 (c : Dev nD) (t : Fin cfg1.N) : (dat1 V c).after 3 t = k1_pay3 (iblk1 V c 0 t) := by dsimp only [dat1]

/-- An input window is fetched at every point: its buffer holds its block when the body runs. -/
theorem before1_0 (c : Dev nD) (t : Fin cfg1.N) (d) : (dat1 V c).before 0 t d = iblk1 V c 0 t := by
  unfold Dat.before; rw [if_pos (fetch1_0 t)]; rfl
theorem before1_1 (c : Dev nD) (t : Fin cfg1.N) (d) : (dat1 V c).before 1 t d = iblk1 V c 1 t := by
  unfold Dat.before; rw [if_pos (fetch1_1 t)]; rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 1600000 in
/-- The body at any point: the inputs' buffers hold their blocks, the invariant hands over the scratch at the accumulated value,
    the one-point run applies, and the invariant takes the scratch back one step further; the converted adjacency block is
    overwritten; the activation's output block is handed back as found unless this is the last column block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) from rfl, show (dat1 V c).Φ t.castSucc = Phi1 V c t.val from rfl]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 3 t = owns (c : Thread nD τ) (st1_3 t) fullShare ((dat1 V c).after 3 t) from by
    unfold Dat.leavesExact; rw [live1_3 t], after1_3]
  unfold Phi1
  by_cases h1 : last1 (grid1.coords t)
  · rw [show (dat1 V c).leavesExact 2 t = owns (c : Thread nD τ) (st1_2 t) fullShare ((dat1 V c).after 2 t) from by
      unfold Dat.leavesExact; rw [live1_2 t h1], after1_2]
    iintro ⟨⟨⟨%X, %hX, HS⟩, Hrest⟩, Ho, ⟨%d0, H0⟩, ⟨%d1, H1⟩, ⟨%d2, H2⟩, ⟨%d3, H3⟩⟩
    iapply (run1 c (grid1.coords t) _ _ _ _ _ _ _ _ _ _ (iblk1 V c 0 t) (iblk1 V c 1 t) _ _ X Set.univ _)
    isplitl [H0]; · iexact H0
    isplitl [H1]; · iexact H1
    isplitl [H2]; · iexact H2
    isplitl [H3]; · iexact H3
    isplitl [HS]; · iexact HS
    rw [if_pos h1, ← accAt1_succ V c t X hX]
    iintro ⟨H0, H1, H2, H3, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    isplitl [H2]; · iexact H2
    iexact H3
  · rw [Dat.leavesExact_idle (dat1 V c) 2 t (idle1_2 t h1) (noflush1_2 t h1)]
    iintro ⟨⟨⟨%X, %hX, HS⟩, Hrest⟩, Ho, ⟨%d0, H0⟩, ⟨%d1, H1⟩, ⟨%d2, H2⟩, ⟨%d3, H3⟩⟩
    iapply (run1 c (grid1.coords t) _ _ _ _ _ _ _ _ _ _ (iblk1 V c 0 t) (iblk1 V c 1 t) _ _ X Set.univ _)
    isplitl [H0]; · iexact H0
    isplitl [H1]; · iexact H1
    isplitl [H2]; · iexact H2
    isplitl [H3]; · iexact H3
    isplitl [HS]; · iexact HS
    rw [if_neg h1, ← accAt1_succ V c t X hX]
    iintro ⟨H0, H1, H2, H3, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    isplitl [H2]; · iexists _; iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.HandK.Inv1.lean ====
/-
  Kernel region 1: how the scoped buffers the launch hands a region become its invariant before the first point (the scratch
  accumulator at anything) and how the invariant gives them back after any point (the accumulator's contents forgotten).
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Dat1
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Into and out of the invariant -/

/-- The scoped buffers the launch hands the region make the invariant before the first point: the scratch at anything. -/
theorem hin1 (c : Dev nD) :
    (Pipeline.scopedRest (Ix := Unit) (Name := ℕ) (U := UR sig nD τ) (Lvl := ℕ) (Val := Elt F) spec1 c : sProp 𝕄) ⊢ Phi1 V c 0 := by
  unfold Phi1; rw [scopedRest1_split]
  iintro ⟨⟨%f, Hs⟩, Hr⟩
  isplitl [Hs]
  · iexists f; isplitr; · ipureintro; intro h; exact absurd (Nat.zero_mod _) h
    rw [owns_whole]; iexact Hs
  iexact Hr

/-- The invariant at any point gives them back, the scratch's contents forgotten. -/
theorem hout1 (c : Dev nD) (n : ℕ) :
    Phi1 V c n ⊢ (Pipeline.scopedRest (Ix := Unit) (Name := ℕ) (U := UR sig nD τ) (Lvl := ℕ) (Val := Elt F) spec1 c : sProp 𝕄) := by
  unfold Phi1; simp only [owns_whole]; rw [scopedRest1_split]
  iintro ⟨⟨%X, -, Hs⟩, Hr⟩
  isplitl [Hs]
  · iexists X; iexact Hs
  iexact Hr

end Cert.Kernel.Hand

end
-- ==== Proof.HandK.Run2.lean ====
/-
  One grid point of diffusion step (kernel region 2): the body multiplies an [8192, 512] block of the adjacency by the matching
  [512, 64] block of the activation and adds the product to an [8192, 64] accumulator kept in scratch, which it zeroes first at
  the first column block of a batch element and copies to the output block at the last one. Stated on any whole staging
  buffers, with every buffer's final contents written out as the body's own payload terms.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the first column block of a row sweep: the body's first branch condition, from the grid coordinates. -/
abbrev first2 (i : grid2.Coords) : Prop := (Scalar.cmpi .ne (Scalar.extui (Scalar.cmpi .eq (BitVec.ofNat 32 (i 1).val) 0#32)) 0#32) = 1#1
/-- The accumulator is copied out at the last column block: the body's second branch condition. -/
abbrev last2 (i : grid2.Coords) : Prop := k2_cond2 i = 1#1

/-- The accumulator the body adds this point's product to: zero at the first column block, else what the point before left. -/
def accIn2 (i : grid2.Coords) [Decidable (first2 i)] (xs : Vec F S8192x64 .f32) : Vec F S8192x64 .f32 :=
  if first2 i then k2_pay1 (F := F) else xs

/-- ONE POINT of the diffusion step, on any whole staging memrefs: the adjacency block `x0` and the activation block `x1` are read and
    kept; the scratch accumulator ends at (zero or what it held) + the block product; the output block is overwritten with the
    accumulator at the last column block and left untouched otherwise. -/
theorem run2 (c : Dev nD) (i : grid2.Coords) [Decidable (first2 i)] [Decidable (last2 i)]
    (a2 : Memref sig .tc .vmem S1x8192x512 .bf16) (h2 : a2.IsWhole) (a3 : Memref sig .tc .vmem S1x512x64 .f32) (h3 : a3.IsWhole)
    (a4 : Memref sig .tc .vmem S1x8192x64 .f32) (h4 : a4.IsWhole) (a5 : Memref sig .tc .vmem S8192x64 .f32) (h5 : a5.IsWhole)
    (x0 : Vec F S1x8192x512 .bf16) (x1 : Vec F S1x512x64 .f32) (xo : Vec F S1x8192x64 .f32) (xs : Vec F S8192x64 .f32)
    (E : Set ℕ) (K : PUnit → sProp 𝕄) :
    iprop(owns (c : Thread nD τ) a2 fullShare x0 ∗ owns (c : Thread nD τ) a3 fullShare x1 ∗ owns (c : Thread nD τ) a4 fullShare xo ∗ owns (c : Thread nD τ) a5 fullShare xs
        ∗ (iprop(owns (c : Thread nD τ) a2 fullShare x0 ∗ owns (c : Thread nD τ) a3 fullShare x1
            ∗ owns (c : Thread nD τ) a4 fullShare (if last2 i then k2_pay3 (k2_pay2 x0 x1 (accIn2 i xs)) else xo)
            ∗ owns (c : Thread nD τ) a5 fullShare (k2_pay2 x0 x1 (accIn2 i xs))) -∗ K ⟨⟩))
      ⊢ wp frame (wpE (defs₀ (F := F)) Variants.none c none) E (cc2__diffuse_kernel i a2 h2 a3 h3 a4 h4 a5 h5) K := by
  simp only [cc2__diffuse_kernel_eq_skeleton]; unfold cc2__diffuse_kernel_skel
  unfold owns accIn2
  iintro ⟨⟨%f0, %hf0, H0⟩, ⟨%f1, %hf1, H1⟩, ⟨%fo, %hfo, HO⟩, ⟨%fs, %hfs, HS⟩, Hk⟩
  obtain rfl := h2.eq_unread hf0; obtain rfl := h3.eq_unread hf1; obtain rfl := h4.eq_unread hfo; obtain rfl := h5.eq_unread hfs
  by_cases hc0 : first2 i <;> by_cases hc1 : last2 i
  · -- first column block, the last one
    sl_exec (disch := first | exact hc0 | exact hc1)
    sl_step
    iapply Hk
    rw [if_pos hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- first column block, not the last
    sl_exec (disch := first | exact hc0 | exact hc1)
    sl_step
    iapply Hk
    rw [if_pos hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, the last one
    sl_exec (disch := first | exact hc0 | exact hc1)
    sl_step
    iapply Hk
    rw [if_neg hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, not the last
    sl_exec (disch := first | exact hc0 | exact hc1)
    sl_step
    iapply Hk
    rw [if_neg hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]

end Cert.Kernel.Hand

end
-- ==== Proof.HandK.Dat2.lean ====
/-
  Diffusion step, kernel region 2: the pipeline's proof data and the body obligation. The grid is (batch element, column block);
  along the column blocks of one batch element the scratch accumulator carries the partial sum of block products, so the region's
  invariant names its contents point by point; the output block is stored, and written back, only at the last column block.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Run2
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the idle table, decided over the grid -/

/-- The accumulator is reset exactly at the first of every 16 consecutive points: the first column block of a batch element. -/
theorem hfirst2 : ∀ t : Fin cfg2.N, first2 (grid2.coords t) ↔ t.val % 16 = 0 :=
  (by decide +kernel : ∀ t : Fin grid2.N, first2 (grid2.coords t) ↔ t.val % 16 = 0)
/-- It is copied out exactly at the last of them. -/
theorem hlast2 : ∀ t : Fin cfg2.N, last2 (grid2.coords t) ↔ t.val % 16 = 15 :=
  (by decide +kernel : ∀ t : Fin grid2.N, last2 (grid2.coords t) ↔ t.val % 16 = 15)
theorem live2_0 : ∀ t : Fin cfg2.N, cfg2.idle 0 (grid2.coords t) = false := by decide +kernel
theorem live2_1 : ∀ t : Fin cfg2.N, cfg2.idle 1 (grid2.coords t) = false := by decide +kernel
/-- Where the accumulator is not copied out the output block is not stored to, -/
theorem idle2_2 : ∀ t : Fin cfg2.N, ¬ last2 (grid2.coords t) → cfg2.idle 2 (grid2.coords t) = true := by decide +kernel
/-- nor written back; -/
theorem noflush2_2 : ∀ t : Fin cfg2.N, ¬ last2 (grid2.coords t) → (cfg2.win 2).flush t = false := by decide +kernel
/-- where it is, the block is stored to. -/
theorem live2_2 : ∀ t : Fin cfg2.N, last2 (grid2.coords t) → cfg2.idle 2 (grid2.coords t) = false := by decide +kernel

/-! ## The blocks and the accumulator, point by point -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch accumulator's contents BEFORE point `n` (after the points below it): each point adds its block product to zero,
    at the first column block, or to what the point before left. Before the first point the scratch holds anything. -/
def accAt2 (c : Dev nD) : ℕ → Vec F S8192x64 .f32
  | 0 => fun _ => Classical.choice (Elt.nonempty F .f32)
  | n + 1 =>
    if h : n < cfg2.N then
      k2_pay2 (iblk2 V c 0 ⟨n, h⟩) (iblk2 V c 1 ⟨n, h⟩) (if n % 16 = 0 then k2_pay1 (F := F) else accAt2 c n)
    else accAt2 c n

/-- One point's step of the accumulator, in the form the body's run states it. -/
theorem accAt2_succ (c : Dev nD) (t : Fin cfg2.N) (X : Vec F S8192x64 .f32) (hX : t.val % 16 ≠ 0 → X = accAt2 V c t.val) :
    accAt2 V c (t.val + 1) = k2_pay2 (iblk2 V c 0 t) (iblk2 V c 1 t) (accIn2 (grid2.coords t) X) := by
  obtain ⟨n, hn⟩ := t
  rw [accAt2, dif_pos hn]; unfold accIn2
  by_cases h0 : n % 16 = 0
  · rw [if_pos h0, if_pos ((hfirst2 ⟨n, hn⟩).mpr h0)]
  · rw [if_neg h0, if_neg (fun h => h0 ((hfirst2 ⟨n, hn⟩).mp h)), hX h0]

/-- The scratch accumulator, a whole scoped buffer of the kernel's own. -/
abbrev scM2 : Memref sig .tc .vmem S8192x64 .f32 := Memref.whole cc2_scratch0

/-- The region's invariant before point `n`: the scratch at the accumulated value — at anything where the body will reset it —,
    every other scoped buffer no window stages at something. -/
def Phi2 (c : Dev nD) (n : ℕ) : sProp 𝕄 :=
  iprop((∃ X : Vec F S8192x64 .f32, ⌜n % 16 ≠ 0 → X = accAt2 V c n⌝ ∗ owns (c : Thread nD τ) scM2 fullShare X)
    ∗ Pipeline.scopedRestBut (Ix := Unit) (Name := ℕ) (U := UR sig nD τ) (Lvl := ℕ) (Val := Elt F) spec2 c [cc2_scratch0])

/-! ## The proof data -/

/-- The proof data on core `c`, from the contents `V` the region is entered at: after the body each input's buffer at its block,
    the output's at the accumulator (read where the block is written back: at the last column block); the invariant `Phi2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (accAt2 V c (t.val + 1))
  Φ t := Phi2 V c t.val
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (accAt2 V c (t.val + 1)) := by dsimp only [dat2]

/-- An input window is fetched at every point: its buffer holds its block when the body runs. -/
theorem before2_0 (c : Dev nD) (t : Fin cfg2.N) (d) : (dat2 V c).before 0 t d = iblk2 V c 0 t := by
  unfold Dat.before; rw [if_pos (fetch2_0 t)]; rfl
theorem before2_1 (c : Dev nD) (t : Fin cfg2.N) (d) : (dat2 V c).before 1 t d = iblk2 V c 1 t := by
  unfold Dat.before; rw [if_pos (fetch2_1 t)]; rfl

/-! ## The body obligation -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t)

set_option maxHeartbeats 1600000 in
/-- The body at any point: the inputs' buffers hold their blocks, the invariant hands over the scratch at the accumulated value,
    the one-point run applies, and the invariant takes the scratch back one step further; the output block is handed back as found
    unless this is the last column block, where it holds the accumulator. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) from rfl, show (dat2 V c).Φ t.castSucc = Phi2 V c t.val from rfl]
  rw [show (dat2 V c).leavesExact 0 t = owns (c : Thread nD τ) (st2_0 t) fullShare ((dat2 V c).after 0 t) from by
    unfold Dat.leavesExact; rw [live2_0 t], after2_0]
  rw [show (dat2 V c).leavesExact 1 t = owns (c : Thread nD τ) (st2_1 t) fullShare ((dat2 V c).after 1 t) from by
    unfold Dat.leavesExact; rw [live2_1 t], after2_1]
  unfold Phi2
  by_cases h1 : last2 (grid2.coords t)
  · rw [show (dat2 V c).leavesExact 2 t = owns (c : Thread nD τ) (st2_2 t) fullShare ((dat2 V c).after 2 t) from by
      unfold Dat.leavesExact; rw [live2_2 t h1], after2_2]
    iintro ⟨⟨⟨%X, %hX, HS⟩, Hrest⟩, Ho, ⟨%d0, H0⟩, ⟨%d1, H1⟩, ⟨%d2, H2⟩⟩
    iapply (run2 c (grid2.coords t) _ _ _ _ _ _ _ _ (iblk2 V c 0 t) (iblk2 V c 1 t) _ X Set.univ _)
    isplitl [H0]; · iexact H0
    isplitl [H1]; · iexact H1
    isplitl [H2]; · iexact H2
    isplitl [HS]; · iexact HS
    rw [if_pos h1, ← accAt2_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexact H2
  · rw [Dat.leavesExact_idle (dat2 V c) 2 t (idle2_2 t h1) (noflush2_2 t h1)]
    iintro ⟨⟨⟨%X, %hX, HS⟩, Hrest⟩, Ho, ⟨%d0, H0⟩, ⟨%d1, H1⟩, ⟨%d2, H2⟩⟩
    iapply (run2 c (grid2.coords t) _ _ _ _ _ _ _ _ (iblk2 V c 0 t) (iblk2 V c 1 t) _ X Set.univ _)
    isplitl [H0]; · iexact H0
    isplitl [H1]; · iexact H1
    isplitl [H2]; · iexact H2
    isplitl [HS]; · iexact HS
    rw [if_neg h1, ← accAt2_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.HandK.Inv2.lean ====
/-
  Kernel region 2: how the scoped buffers the launch hands a region become its invariant before the first point (the scratch
  accumulator at anything) and how the invariant gives them back after any point (the accumulator's contents forgotten).
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Dat2
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Into and out of the invariant -/

/-- The scoped buffers the launch hands the region make the invariant before the first point: the scratch at anything. -/
theorem hin2 (c : Dev nD) :
    (Pipeline.scopedRest (Ix := Unit) (Name := ℕ) (U := UR sig nD τ) (Lvl := ℕ) (Val := Elt F) spec2 c : sProp 𝕄) ⊢ Phi2 V c 0 := by
  unfold Phi2; rw [scopedRest2_split]
  iintro ⟨⟨%f, Hs⟩, Hr⟩
  isplitl [Hs]
  · iexists f; isplitr; · ipureintro; intro h; exact absurd (Nat.zero_mod _) h
    rw [owns_whole]; iexact Hs
  iexact Hr

/-- The invariant at any point gives them back, the scratch's contents forgotten. -/
theorem hout2 (c : Dev nD) (n : ℕ) :
    Phi2 V c n ⊢ (Pipeline.scopedRest (Ix := Unit) (Name := ℕ) (U := UR sig nD τ) (Lvl := ℕ) (Val := Elt F) spec2 c : sProp 𝕄) := by
  unfold Phi2; simp only [owns_whole]; rw [scopedRest2_split]
  iintro ⟨⟨%X, -, Hs⟩, Hr⟩
  isplitl [Hs]
  · iexists X; iexact Hs
  iexact Hr

end Cert.Kernel.Hand

end
-- ==== Proof.HandK.Run3.lean ====
/-
  One grid point of diffusion step (kernel region 3): the body multiplies an [8192, 512] block of the adjacency by the matching
  [512, 64] block of the activation and adds the product to an [8192, 64] accumulator kept in scratch, which it zeroes first at
  the first column block of a batch element and copies to the output block at the last one. Stated on any whole staging
  buffers, with every buffer's final contents written out as the body's own payload terms.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the first column block of a row sweep: the body's first branch condition, from the grid coordinates. -/
abbrev first3 (i : grid3.Coords) : Prop := (Scalar.cmpi .ne (Scalar.extui (Scalar.cmpi .eq (BitVec.ofNat 32 (i 1).val) 0#32)) 0#32) = 1#1
/-- The accumulator is copied out at the last column block: the body's second branch condition. -/
abbrev last3 (i : grid3.Coords) : Prop := k3_cond2 i = 1#1

/-- The accumulator the body adds this point's product to: zero at the first column block, else what the point before left. -/
def accIn3 (i : grid3.Coords) [Decidable (first3 i)] (xs : Vec F S8192x64 .f32) : Vec F S8192x64 .f32 :=
  if first3 i then k3_pay1 (F := F) else xs

/-- ONE POINT of the diffusion step, on any whole staging memrefs: the adjacency block `x0` and the activation block `x1` are read and
    kept; the scratch accumulator ends at (zero or what it held) + the block product; the output block is overwritten with the
    accumulator at the last column block and left untouched otherwise. -/
theorem run3 (c : Dev nD) (i : grid3.Coords) [Decidable (first3 i)] [Decidable (last3 i)]
    (a2 : Memref sig .tc .vmem S1x8192x512 .bf16) (h2 : a2.IsWhole) (a3 : Memref sig .tc .vmem S1x512x64 .f32) (h3 : a3.IsWhole)
    (a4 : Memref sig .tc .vmem S1x8192x64 .f32) (h4 : a4.IsWhole) (a5 : Memref sig .tc .vmem S8192x64 .f32) (h5 : a5.IsWhole)
    (x0 : Vec F S1x8192x512 .bf16) (x1 : Vec F S1x512x64 .f32) (xo : Vec F S1x8192x64 .f32) (xs : Vec F S8192x64 .f32)
    (E : Set ℕ) (K : PUnit → sProp 𝕄) :
    iprop(owns (c : Thread nD τ) a2 fullShare x0 ∗ owns (c : Thread nD τ) a3 fullShare x1 ∗ owns (c : Thread nD τ) a4 fullShare xo ∗ owns (c : Thread nD τ) a5 fullShare xs
        ∗ (iprop(owns (c : Thread nD τ) a2 fullShare x0 ∗ owns (c : Thread nD τ) a3 fullShare x1
            ∗ owns (c : Thread nD τ) a4 fullShare (if last3 i then k3_pay3 (k3_pay2 x0 x1 (accIn3 i xs)) else xo)
            ∗ owns (c : Thread nD τ) a5 fullShare (k3_pay2 x0 x1 (accIn3 i xs))) -∗ K ⟨⟩))
      ⊢ wp frame (wpE (defs₀ (F := F)) Variants.none c none) E (cc3__diffuse_kernel i a2 h2 a3 h3 a4 h4 a5 h5) K := by
  simp only [cc3__diffuse_kernel_eq_skeleton]; unfold cc3__diffuse_kernel_skel
  unfold owns accIn3
  iintro ⟨⟨%f0, %hf0, H0⟩, ⟨%f1, %hf1, H1⟩, ⟨%fo, %hfo, HO⟩, ⟨%fs, %hfs, HS⟩, Hk⟩
  obtain rfl := h2.eq_unread hf0; obtain rfl := h3.eq_unread hf1; obtain rfl := h4.eq_unread hfo; obtain rfl := h5.eq_unread hfs
  by_cases hc0 : first3 i <;> by_cases hc1 : last3 i
  · -- first column block, the last one
    sl_exec (disch := first | exact hc0 | exact hc1)
    sl_step
    iapply Hk
    rw [if_pos hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- first column block, not the last
    sl_exec (disch := first | exact hc0 | exact hc1)
    sl_step
    iapply Hk
    rw [if_pos hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, the last one
    sl_exec (disch := first | exact hc0 | exact hc1)
    sl_step
    iapply Hk
    rw [if_neg hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, not the last
    sl_exec (disch := first | exact hc0 | exact hc1)
    sl_step
    iapply Hk
    rw [if_neg hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]

end Cert.Kernel.Hand

end
-- ==== Proof.HandK.Dat3.lean ====
/-
  Diffusion step, kernel region 3: the pipeline's proof data and the body obligation. The grid is (batch element, column block);
  along the column blocks of one batch element the scratch accumulator carries the partial sum of block products, so the region's
  invariant names its contents point by point; the output block is stored, and written back, only at the last column block.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Run3
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the idle table, decided over the grid -/

/-- The accumulator is reset exactly at the first of every 16 consecutive points: the first column block of a batch element. -/
theorem hfirst3 : ∀ t : Fin cfg3.N, first3 (grid3.coords t) ↔ t.val % 16 = 0 :=
  (by decide +kernel : ∀ t : Fin grid3.N, first3 (grid3.coords t) ↔ t.val % 16 = 0)
/-- It is copied out exactly at the last of them. -/
theorem hlast3 : ∀ t : Fin cfg3.N, last3 (grid3.coords t) ↔ t.val % 16 = 15 :=
  (by decide +kernel : ∀ t : Fin grid3.N, last3 (grid3.coords t) ↔ t.val % 16 = 15)
theorem live3_0 : ∀ t : Fin cfg3.N, cfg3.idle 0 (grid3.coords t) = false := by decide +kernel
theorem live3_1 : ∀ t : Fin cfg3.N, cfg3.idle 1 (grid3.coords t) = false := by decide +kernel
/-- Where the accumulator is not copied out the output block is not stored to, -/
theorem idle3_2 : ∀ t : Fin cfg3.N, ¬ last3 (grid3.coords t) → cfg3.idle 2 (grid3.coords t) = true := by decide +kernel
/-- nor written back; -/
theorem noflush3_2 : ∀ t : Fin cfg3.N, ¬ last3 (grid3.coords t) → (cfg3.win 2).flush t = false := by decide +kernel
/-- where it is, the block is stored to. -/
theorem live3_2 : ∀ t : Fin cfg3.N, last3 (grid3.coords t) → cfg3.idle 2 (grid3.coords t) = false := by decide +kernel

/-! ## The blocks and the accumulator, point by point -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch accumulator's contents BEFORE point `n` (after the points below it): each point adds its block product to zero,
    at the first column block, or to what the point before left. Before the first point the scratch holds anything. -/
def accAt3 (c : Dev nD) : ℕ → Vec F S8192x64 .f32
  | 0 => fun _ => Classical.choice (Elt.nonempty F .f32)
  | n + 1 =>
    if h : n < cfg3.N then
      k3_pay2 (iblk3 V c 0 ⟨n, h⟩) (iblk3 V c 1 ⟨n, h⟩) (if n % 16 = 0 then k3_pay1 (F := F) else accAt3 c n)
    else accAt3 c n

/-- One point's step of the accumulator, in the form the body's run states it. -/
theorem accAt3_succ (c : Dev nD) (t : Fin cfg3.N) (X : Vec F S8192x64 .f32) (hX : t.val % 16 ≠ 0 → X = accAt3 V c t.val) :
    accAt3 V c (t.val + 1) = k3_pay2 (iblk3 V c 0 t) (iblk3 V c 1 t) (accIn3 (grid3.coords t) X) := by
  obtain ⟨n, hn⟩ := t
  rw [accAt3, dif_pos hn]; unfold accIn3
  by_cases h0 : n % 16 = 0
  · rw [if_pos h0, if_pos ((hfirst3 ⟨n, hn⟩).mpr h0)]
  · rw [if_neg h0, if_neg (fun h => h0 ((hfirst3 ⟨n, hn⟩).mp h)), hX h0]

/-- The scratch accumulator, a whole scoped buffer of the kernel's own. -/
abbrev scM3 : Memref sig .tc .vmem S8192x64 .f32 := Memref.whole cc3_scratch0

/-- The region's invariant before point `n`: the scratch at the accumulated value — at anything where the body will reset it —,
    every other scoped buffer no window stages at something. -/
def Phi3 (c : Dev nD) (n : ℕ) : sProp 𝕄 :=
  iprop((∃ X : Vec F S8192x64 .f32, ⌜n % 16 ≠ 0 → X = accAt3 V c n⌝ ∗ owns (c : Thread nD τ) scM3 fullShare X)
    ∗ Pipeline.scopedRestBut (Ix := Unit) (Name := ℕ) (U := UR sig nD τ) (Lvl := ℕ) (Val := Elt F) spec3 c [cc3_scratch0])

/-! ## The proof data -/

/-- The proof data on core `c`, from the contents `V` the region is entered at: after the body each input's buffer at its block,
    the output's at the accumulator (read where the block is written back: at the last column block); the invariant `Phi3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (accAt3 V c (t.val + 1))
  Φ t := Phi3 V c t.val
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = k3_pay3 (accAt3 V c (t.val + 1)) := by dsimp only [dat3]

/-- An input window is fetched at every point: its buffer holds its block when the body runs. -/
theorem before3_0 (c : Dev nD) (t : Fin cfg3.N) (d) : (dat3 V c).before 0 t d = iblk3 V c 0 t := by
  unfold Dat.before; rw [if_pos (fetch3_0 t)]; rfl
theorem before3_1 (c : Dev nD) (t : Fin cfg3.N) (d) : (dat3 V c).before 1 t d = iblk3 V c 1 t := by
  unfold Dat.before; rw [if_pos (fetch3_1 t)]; rfl

/-! ## The body obligation -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t)

set_option maxHeartbeats 1600000 in
/-- The body at any point: the inputs' buffers hold their blocks, the invariant hands over the scratch at the accumulated value,
    the one-point run applies, and the invariant takes the scratch back one step further; the output block is handed back as found
    unless this is the last column block, where it holds the accumulator. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) from rfl, show (dat3 V c).Φ t.castSucc = Phi3 V c t.val from rfl]
  rw [show (dat3 V c).leavesExact 0 t = owns (c : Thread nD τ) (st3_0 t) fullShare ((dat3 V c).after 0 t) from by
    unfold Dat.leavesExact; rw [live3_0 t], after3_0]
  rw [show (dat3 V c).leavesExact 1 t = owns (c : Thread nD τ) (st3_1 t) fullShare ((dat3 V c).after 1 t) from by
    unfold Dat.leavesExact; rw [live3_1 t], after3_1]
  unfold Phi3
  by_cases h1 : last3 (grid3.coords t)
  · rw [show (dat3 V c).leavesExact 2 t = owns (c : Thread nD τ) (st3_2 t) fullShare ((dat3 V c).after 2 t) from by
      unfold Dat.leavesExact; rw [live3_2 t h1], after3_2]
    iintro ⟨⟨⟨%X, %hX, HS⟩, Hrest⟩, Ho, ⟨%d0, H0⟩, ⟨%d1, H1⟩, ⟨%d2, H2⟩⟩
    iapply (run3 c (grid3.coords t) _ _ _ _ _ _ _ _ (iblk3 V c 0 t) (iblk3 V c 1 t) _ X Set.univ _)
    isplitl [H0]; · iexact H0
    isplitl [H1]; · iexact H1
    isplitl [H2]; · iexact H2
    isplitl [HS]; · iexact HS
    rw [if_pos h1, ← accAt3_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexact H2
  · rw [Dat.leavesExact_idle (dat3 V c) 2 t (idle3_2 t h1) (noflush3_2 t h1)]
    iintro ⟨⟨⟨%X, %hX, HS⟩, Hrest⟩, Ho, ⟨%d0, H0⟩, ⟨%d1, H1⟩, ⟨%d2, H2⟩⟩
    iapply (run3 c (grid3.coords t) _ _ _ _ _ _ _ _ (iblk3 V c 0 t) (iblk3 V c 1 t) _ X Set.univ _)
    isplitl [H0]; · iexact H0
    isplitl [H1]; · iexact H1
    isplitl [H2]; · iexact H2
    isplitl [HS]; · iexact HS
    rw [if_neg h1, ← accAt3_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.HandK.Inv3.lean ====
/-
  Kernel region 3: how the scoped buffers the launch hands a region become its invariant before the first point (the scratch
  accumulator at anything) and how the invariant gives them back after any point (the accumulator's contents forgotten).
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Dat3
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Into and out of the invariant -/

/-- The scoped buffers the launch hands the region make the invariant before the first point: the scratch at anything. -/
theorem hin3 (c : Dev nD) :
    (Pipeline.scopedRest (Ix := Unit) (Name := ℕ) (U := UR sig nD τ) (Lvl := ℕ) (Val := Elt F) spec3 c : sProp 𝕄) ⊢ Phi3 V c 0 := by
  unfold Phi3; rw [scopedRest3_split]
  iintro ⟨⟨%f, Hs⟩, Hr⟩
  isplitl [Hs]
  · iexists f; isplitr; · ipureintro; intro h; exact absurd (Nat.zero_mod _) h
    rw [owns_whole]; iexact Hs
  iexact Hr

/-- The invariant at any point gives them back, the scratch's contents forgotten. -/
theorem hout3 (c : Dev nD) (n : ℕ) :
    Phi3 V c n ⊢ (Pipeline.scopedRest (Ix := Unit) (Name := ℕ) (U := UR sig nD τ) (Lvl := ℕ) (Val := Elt F) spec3 c : sProp 𝕄) := by
  unfold Phi3; simp only [owns_whole]; rw [scopedRest3_split]
  iintro ⟨⟨%X, -, Hs⟩, Hr⟩
  isplitl [Hs]
  · iexists X; iexact Hs
  iexact Hr

end Cert.Kernel.Hand

end
-- ==== Proof.HandK.Run4.lean ====
/-
  One grid point of the diffusion step that closes a layer (kernel region 4): the body multiplies an [8192, 512] block of the
  adjacency by the matching [512, 64] block of the activation and adds the product to an [8192, 64] accumulator kept in scratch,
  which it zeroes first at the first column block of a batch element. At the last column block it rounds the accumulator and the
  layer's [64, 64] weight to bf16, multiplies the accumulator by the transposed weight, adds the [1, 64] bias to every row, takes
  the maximum with zero and writes the result to the output block. Stated on any whole staging buffers, with every buffer's final
  contents written out as the body's own payload terms.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the first column block of a row sweep: the body's first branch condition, from the grid coordinates. -/
abbrev first4 (i : grid4.Coords) : Prop := (Scalar.cmpi .ne (Scalar.extui (Scalar.cmpi .eq (BitVec.ofNat 32 (i 1).val) 0#32)) 0#32) = 1#1
/-- The output block is written at the last column block: the body's second branch condition. -/
abbrev last4 (i : grid4.Coords) : Prop := k4_cond2 i = 1#1

/-- The accumulator the body adds this point's product to: zero at the first column block, else what the point before left. -/
def accIn4 (i : grid4.Coords) [Decidable (first4 i)] (xs : Vec F S8192x64 .f32) : Vec F S8192x64 .f32 :=
  if first4 i then k4_pay1 (F := F) else xs

set_option maxHeartbeats 800000 in
/-- ONE POINT of the layer-closing diffusion step, on any whole staging memrefs: the adjacency block `x0`, the activation block `x1`,
    the weight `xw` and the bias `xb` are read and kept; the scratch accumulator ends at (zero or what it held) + the block product;
    the output block is overwritten, at the last column block, with max(new accumulator · weightᵀ + bias, 0), and left untouched
    otherwise. -/
theorem run4 (c : Dev nD) (i : grid4.Coords) [Decidable (first4 i)] [Decidable (last4 i)]
    (a2 : Memref sig .tc .vmem S1x8192x512 .bf16) (h2 : a2.IsWhole) (a3 : Memref sig .tc .vmem S1x512x64 .f32) (h3 : a3.IsWhole)
    (a4 : Memref sig .tc .vmem S64x64 .f32) (h4 : a4.IsWhole) (a5 : Memref sig .tc .vmem S1x64 .f32) (h5 : a5.IsWhole)
    (a6 : Memref sig .tc .vmem S1x8192x64 .f32) (h6 : a6.IsWhole) (a7 : Memref sig .tc .vmem S8192x64 .f32) (h7 : a7.IsWhole)
    (x0 : Vec F S1x8192x512 .bf16) (x1 : Vec F S1x512x64 .f32) (xw : Vec F S64x64 .f32) (xb : Vec F S1x64 .f32)
    (xo : Vec F S1x8192x64 .f32) (xs : Vec F S8192x64 .f32)
    (E : Set ℕ) (K : PUnit → sProp 𝕄) :
    iprop(owns (c : Thread nD τ) a2 fullShare x0 ∗ owns (c : Thread nD τ) a3 fullShare x1 ∗ owns (c : Thread nD τ) a4 fullShare xw ∗ owns (c : Thread nD τ) a5 fullShare xb
        ∗ owns (c : Thread nD τ) a6 fullShare xo ∗ owns (c : Thread nD τ) a7 fullShare xs
        ∗ (iprop(owns (c : Thread nD τ) a2 fullShare x0 ∗ owns (c : Thread nD τ) a3 fullShare x1 ∗ owns (c : Thread nD τ) a4 fullShare xw ∗ owns (c : Thread nD τ) a5 fullShare xb
            ∗ owns (c : Thread nD τ) a6 fullShare (if last4 i then k4_pay3 (k4_pay2 x0 x1 (accIn4 i xs)) xw xb else xo)
            ∗ owns (c : Thread nD τ) a7 fullShare (k4_pay2 x0 x1 (accIn4 i xs))) -∗ K ⟨⟩))
      ⊢ wp frame (wpE (defs₀ (F := F)) Variants.none c none) E (cc4__diffuse_post_kernel i a2 h2 a3 h3 a4 h4 a5 h5 a6 h6 a7 h7) K := by
  simp only [cc4__diffuse_post_kernel_eq_skeleton]; unfold cc4__diffuse_post_kernel_skel
  unfold owns accIn4
  iintro ⟨⟨%f0, %hf0, H0⟩, ⟨%f1, %hf1, H1⟩, ⟨%fw, %hfw, HW⟩, ⟨%fb, %hfb, HB⟩, ⟨%fo, %hfo, HO⟩, ⟨%fs, %hfs, HS⟩, Hk⟩
  obtain rfl := h2.eq_unread hf0; obtain rfl := h3.eq_unread hf1; obtain rfl := h4.eq_unread hfw; obtain rfl := h5.eq_unread hfb
  obtain rfl := h6.eq_unread hfo; obtain rfl := h7.eq_unread hfs
  by_cases hc0 : first4 i <;> by_cases hc1 : last4 i
  · -- first column block, the last one
    sl_exec (disch := first | exact hc0 | exact hc1)
    sl_step
    iapply Hk
    rw [if_pos hc0, if_pos hc1]
    isplitl [H0]
    · iexists _; isplitr; · ipureintro; exact hf0
      iexact H0
    isplitl [H1]
    · iexists _; isplitr; · ipureintro; exact hf1
      iexact H1
    isplitl [HW]
    · iexists _; isplitr; · ipureintro; exact hfw
      iexact HW
    isplitl [HB]
    · iexists _; isplitr; · ipureintro; exact hfb
      iexact HB
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
  · -- first column block, not the last
    sl_exec (disch := first | exact hc0 | exact hc1)
    sl_step
    iapply Hk
    rw [if_pos hc0, if_neg hc1]
    isplitl [H0]
    · iexists _; isplitr; · ipureintro; exact hf0
      iexact H0
    isplitl [H1]
    · iexists _; isplitr; · ipureintro; exact hf1
      iexact H1
    isplitl [HW]
    · iexists _; isplitr; · ipureintro; exact hfw
      iexact HW
    isplitl [HB]
    · iexists _; isplitr; · ipureintro; exact hfb
      iexact HB
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
  · -- later column block, the last one
    sl_exec (disch := first | exact hc0 | exact hc1)
    sl_step
    iapply Hk
    rw [if_neg hc0, if_pos hc1]
    isplitl [H0]
    · iexists _; isplitr; · ipureintro; exact hf0
      iexact H0
    isplitl [H1]
    · iexists _; isplitr; · ipureintro; exact hf1
      iexact H1
    isplitl [HW]
    · iexists _; isplitr; · ipureintro; exact hfw
      iexact HW
    isplitl [HB]
    · iexists _; isplitr; · ipureintro; exact hfb
      iexact HB
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
  · -- later column block, not the last
    sl_exec (disch := first | exact hc0 | exact hc1)
    sl_step
    iapply Hk
    rw [if_neg hc0, if_neg hc1]
    isplitl [H0]
    · iexists _; isplitr; · ipureintro; exact hf0
      iexact H0
    isplitl [H1]
    · iexists _; isplitr; · ipureintro; exact hf1
      iexact H1
    isplitl [HW]
    · iexists _; isplitr; · ipureintro; exact hfw
      iexact HW
    isplitl [HB]
    · iexists _; isplitr; · ipureintro; exact hfb
      iexact HB
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]

end Cert.Kernel.Hand

end
-- ==== Proof.HandK.Dat4.lean ====
/-
  Last diffusion step of a layer fused with the layer's linear map (kernel region 4): the pipeline's proof data and the body
  obligation. Along the column blocks of one batch element the scratch accumulator carries the partial sum of block products;
  at the last column block the body applies the layer's weight and bias to the finished accumulator, takes the maximum with zero and stores the
  result, the only point at which the output block is stored and written back. The weight and the bias are fetched once.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Run4
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the idle table, decided over the grid -/

/-- The accumulator is reset exactly at the first of every 16 consecutive points: the first column block of a batch element. -/
theorem hfirst4 : ∀ t : Fin cfg4.N, first4 (grid4.coords t) ↔ t.val % 16 = 0 :=
  (by decide +kernel : ∀ t : Fin grid4.N, first4 (grid4.coords t) ↔ t.val % 16 = 0)
/-- The layer's output is computed from it exactly at the last of them. -/
theorem hlast4 : ∀ t : Fin cfg4.N, last4 (grid4.coords t) ↔ t.val % 16 = 15 :=
  (by decide +kernel : ∀ t : Fin grid4.N, last4 (grid4.coords t) ↔ t.val % 16 = 15)
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
/-- Where the output is not computed its block is not stored to, -/
theorem idle4_4 : ∀ t : Fin cfg4.N, ¬ last4 (grid4.coords t) → cfg4.idle 4 (grid4.coords t) = true := by decide +kernel
/-- nor written back; -/
theorem noflush4_4 : ∀ t : Fin cfg4.N, ¬ last4 (grid4.coords t) → (cfg4.win 4).flush t = false := by decide +kernel
/-- where it is, the block is stored to. -/
theorem live4_4 : ∀ t : Fin cfg4.N, last4 (grid4.coords t) → cfg4.idle 4 (grid4.coords t) = false := by decide +kernel

/-! ## The blocks and the accumulator, point by point -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The scratch accumulator's contents BEFORE point `n` (after the points below it): each point adds its block product to zero,
    at the first column block, or to what the point before left. Before the first point the scratch holds anything. -/
def accAt4 (c : Dev nD) : ℕ → Vec F S8192x64 .f32
  | 0 => fun _ => Classical.choice (Elt.nonempty F .f32)
  | n + 1 =>
    if h : n < cfg4.N then
      k4_pay2 (iblk4 V c 0 ⟨n, h⟩) (iblk4 V c 1 ⟨n, h⟩) (if n % 16 = 0 then k4_pay1 (F := F) else accAt4 c n)
    else accAt4 c n

/-- One point's step of the accumulator, in the form the body's run states it. -/
theorem accAt4_succ (c : Dev nD) (t : Fin cfg4.N) (X : Vec F S8192x64 .f32) (hX : t.val % 16 ≠ 0 → X = accAt4 V c t.val) :
    accAt4 V c (t.val + 1) = k4_pay2 (iblk4 V c 0 t) (iblk4 V c 1 t) (accIn4 (grid4.coords t) X) := by
  obtain ⟨n, hn⟩ := t
  rw [accAt4, dif_pos hn]; unfold accIn4
  by_cases h0 : n % 16 = 0
  · rw [if_pos h0, if_pos ((hfirst4 ⟨n, hn⟩).mpr h0)]
  · rw [if_neg h0, if_neg (fun h => h0 ((hfirst4 ⟨n, hn⟩).mp h)), hX h0]

/-- The scratch accumulator, a whole scoped buffer of the kernel's own. -/
abbrev scM4 : Memref sig .tc .vmem S8192x64 .f32 := Memref.whole cc4_scratch0

/-- The region's invariant before point `n`: the scratch at the accumulated value — at anything where the body will reset it —,
    every other scoped buffer no window stages at something. -/
def Phi4 (c : Dev nD) (n : ℕ) : sProp 𝕄 :=
  iprop((∃ X : Vec F S8192x64 .f32, ⌜n % 16 ≠ 0 → X = accAt4 V c n⌝ ∗ owns (c : Thread nD τ) scM4 fullShare X)
    ∗ Pipeline.scopedRestBut (Ix := Unit) (Name := ℕ) (U := UR sig nD τ) (Lvl := ℕ) (Val := Elt F) spec4 c [cc4_scratch0])

/-! ## The proof data -/

/-- The proof data on core `c`, from the contents `V` the region is entered at: after the body each input's buffer at its block,
    the output's at the layer's output computed from the accumulator, the weight block and the bias block (read where the block is
    written back: at the last column block); the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay3 (accAt4 V c (t.val + 1)) (iblk4 V c 2 t) (iblk4 V c 3 t)
  Φ t := Phi4 V c t.val
  q _ := fullShare
  owed _ := 0

theorem A_eq4 (c : Dev nD) (w : Fin cfg4.W) : (dat4 V c).A w = V c (Pipeline.arrRef spec4 w) := by dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = k4_pay3 (accAt4 V c (t.val + 1)) (iblk4 V c 2 t) (iblk4 V c 3 t) := by dsimp only [dat4]

/-- An input window fetched at every point holds its block when the body runs. -/
theorem before4_0 (c : Dev nD) (t : Fin cfg4.N) (d) : (dat4 V c).before 0 t d = iblk4 V c 0 t := by
  unfold Dat.before; rw [if_pos (fetch4_0 t)]; rfl
theorem before4_1 (c : Dev nD) (t : Fin cfg4.N) (d) : (dat4 V c).before 1 t d = iblk4 V c 1 t := by
  unfold Dat.before; rw [if_pos (fetch4_1 t)]; rfl
/-- The weight and the bias are fetched once, at the first point; their block index never moves and the body leaves them in place,
    so their buffers hold their block at every point. -/
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

/-! ## The body obligation -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t
    ∗ (dat4 V c).leavesExact 3 t ∗ (dat4 V c).leavesExact 4 t)

set_option maxHeartbeats 1600000 in
/-- The body at any point: the inputs' buffers hold their blocks, the invariant hands over the scratch at the accumulated value,
    the one-point run applies, and the invariant takes the scratch back one step further; the output block is handed back as found
    unless this is the last column block, where it holds the layer's output. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = Phi4 V c (t.val + 1) from rfl, show (dat4 V c).Φ t.castSucc = Phi4 V c t.val from rfl]
  rw [show (dat4 V c).leavesExact 0 t = owns (c : Thread nD τ) (st4_0 t) fullShare ((dat4 V c).after 0 t) from by
    unfold Dat.leavesExact; rw [live4_0 t], after4_0]
  rw [show (dat4 V c).leavesExact 1 t = owns (c : Thread nD τ) (st4_1 t) fullShare ((dat4 V c).after 1 t) from by
    unfold Dat.leavesExact; rw [live4_1 t], after4_1]
  rw [show (dat4 V c).leavesExact 2 t = owns (c : Thread nD τ) (st4_2 t) fullShare ((dat4 V c).after 2 t) from by
    unfold Dat.leavesExact; rw [live4_2 t], after4_2]
  rw [show (dat4 V c).leavesExact 3 t = owns (c : Thread nD τ) (st4_3 t) fullShare ((dat4 V c).after 3 t) from by
    unfold Dat.leavesExact; rw [live4_3 t], after4_3]
  unfold Phi4
  by_cases h1 : last4 (grid4.coords t)
  · rw [show (dat4 V c).leavesExact 4 t = owns (c : Thread nD τ) (st4_4 t) fullShare ((dat4 V c).after 4 t) from by
      unfold Dat.leavesExact; rw [live4_4 t h1], after4_4]
    iintro ⟨⟨⟨%X, %hX, HS⟩, Hrest⟩, Ho, ⟨%d0, H0⟩, ⟨%d1, H1⟩, ⟨%d2, H2⟩, ⟨%d3, H3⟩, ⟨%d4, H4⟩⟩
    iapply (run4 c (grid4.coords t) _ _ _ _ _ _ _ _ _ _ _ _ (iblk4 V c 0 t) (iblk4 V c 1 t) (iblk4 V c 2 t) (iblk4 V c 3 t) _ X Set.univ _)
    isplitl [H0]; · iexact H0
    isplitl [H1]; · iexact H1
    isplitl [H2]; · iexact H2
    isplitl [H3]; · iexact H3
    isplitl [H4]; · iexact H4
    isplitl [HS]; · iexact HS
    rw [if_pos h1, ← accAt4_succ V c t X hX]
    iintro ⟨H0, H1, H2, H3, H4, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    isplitl [H2]; · iexact H2
    isplitl [H3]; · iexact H3
    iexact H4
  · rw [Dat.leavesExact_idle (dat4 V c) 4 t (idle4_4 t h1) (noflush4_4 t h1)]
    iintro ⟨⟨⟨%X, %hX, HS⟩, Hrest⟩, Ho, ⟨%d0, H0⟩, ⟨%d1, H1⟩, ⟨%d2, H2⟩, ⟨%d3, H3⟩, ⟨%d4, H4⟩⟩
    iapply (run4 c (grid4.coords t) _ _ _ _ _ _ _ _ _ _ _ _ (iblk4 V c 0 t) (iblk4 V c 1 t) (iblk4 V c 2 t) (iblk4 V c 3 t) _ X Set.univ _)
    isplitl [H0]; · iexact H0
    isplitl [H1]; · iexact H1
    isplitl [H2]; · iexact H2
    isplitl [H3]; · iexact H3
    isplitl [H4]; · iexact H4
    isplitl [HS]; · iexact HS
    rw [if_neg h1, ← accAt4_succ V c t X hX]
    iintro ⟨H0, H1, H2, H3, H4, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.HandK.Inv4.lean ====
/-
  Kernel region 4: how the scoped buffers the launch hands a region become its invariant before the first point (the scratch
  accumulator at anything) and how the invariant gives them back after any point (the accumulator's contents forgotten).
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Dat4
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Into and out of the invariant -/

/-- The scoped buffers the launch hands the region make the invariant before the first point: the scratch at anything. -/
theorem hin4 (c : Dev nD) :
    (Pipeline.scopedRest (Ix := Unit) (Name := ℕ) (U := UR sig nD τ) (Lvl := ℕ) (Val := Elt F) spec4 c : sProp 𝕄) ⊢ Phi4 V c 0 := by
  unfold Phi4; rw [scopedRest4_split]
  iintro ⟨⟨%f, Hs⟩, Hr⟩
  isplitl [Hs]
  · iexists f; isplitr; · ipureintro; intro h; exact absurd (Nat.zero_mod _) h
    rw [owns_whole]; iexact Hs
  iexact Hr

/-- The invariant at any point gives them back, the scratch's contents forgotten. -/
theorem hout4 (c : Dev nD) (n : ℕ) :
    Phi4 V c n ⊢ (Pipeline.scopedRest (Ix := Unit) (Name := ℕ) (U := UR sig nD τ) (Lvl := ℕ) (Val := Elt F) spec4 c : sProp 𝕄) := by
  unfold Phi4; simp only [owns_whole]; rw [scopedRest4_split]
  iintro ⟨⟨%X, -, Hs⟩, Hr⟩
  isplitl [Hs]
  · iexists X; iexact Hs
  iexact Hr

end Cert.Kernel.Hand

end
-- ==== Proof.HandK.Run5.lean ====
/-
  One grid point of diffusion step (kernel region 5): the body multiplies an [8192, 512] block of the adjacency by the matching
  [512, 64] block of the activation and adds the product to an [8192, 64] accumulator kept in scratch, which it zeroes first at
  the first column block of a batch element and copies to the output block at the last one. Stated on any whole staging
  buffers, with every buffer's final contents written out as the body's own payload terms.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the first column block of a row sweep: the body's first branch condition, from the grid coordinates. -/
abbrev first5 (i : grid5.Coords) : Prop := (Scalar.cmpi .ne (Scalar.extui (Scalar.cmpi .eq (BitVec.ofNat 32 (i 1).val) 0#32)) 0#32) = 1#1
/-- The accumulator is copied out at the last column block: the body's second branch condition. -/
abbrev last5 (i : grid5.Coords) : Prop := k5_cond2 i = 1#1

/-- The accumulator the body adds this point's product to: zero at the first column block, else what the point before left. -/
def accIn5 (i : grid5.Coords) [Decidable (first5 i)] (xs : Vec F S8192x64 .f32) : Vec F S8192x64 .f32 :=
  if first5 i then k5_pay1 (F := F) else xs

/-- ONE POINT of the diffusion step, on any whole staging memrefs: the adjacency block `x0` and the activation block `x1` are read and
    kept; the scratch accumulator ends at (zero or what it held) + the block product; the output block is overwritten with the
    accumulator at the last column block and left untouched otherwise. -/
theorem run5 (c : Dev nD) (i : grid5.Coords) [Decidable (first5 i)] [Decidable (last5 i)]
    (a2 : Memref sig .tc .vmem S1x8192x512 .bf16) (h2 : a2.IsWhole) (a3 : Memref sig .tc .vmem S1x512x64 .f32) (h3 : a3.IsWhole)
    (a4 : Memref sig .tc .vmem S1x8192x64 .f32) (h4 : a4.IsWhole) (a5 : Memref sig .tc .vmem S8192x64 .f32) (h5 : a5.IsWhole)
    (x0 : Vec F S1x8192x512 .bf16) (x1 : Vec F S1x512x64 .f32) (xo : Vec F S1x8192x64 .f32) (xs : Vec F S8192x64 .f32)
    (E : Set ℕ) (K : PUnit → sProp 𝕄) :
    iprop(owns (c : Thread nD τ) a2 fullShare x0 ∗ owns (c : Thread nD τ) a3 fullShare x1 ∗ owns (c : Thread nD τ) a4 fullShare xo ∗ owns (c : Thread nD τ) a5 fullShare xs
        ∗ (iprop(owns (c : Thread nD τ) a2 fullShare x0 ∗ owns (c : Thread nD τ) a3 fullShare x1
            ∗ owns (c : Thread nD τ) a4 fullShare (if last5 i then k5_pay3 (k5_pay2 x0 x1 (accIn5 i xs)) else xo)
            ∗ owns (c : Thread nD τ) a5 fullShare (k5_pay2 x0 x1 (accIn5 i xs))) -∗ K ⟨⟩))
      ⊢ wp frame (wpE (defs₀ (F := F)) Variants.none c none) E (cc5__diffuse_kernel i a2 h2 a3 h3 a4 h4 a5 h5) K := by
  simp only [cc5__diffuse_kernel_eq_skeleton]; unfold cc5__diffuse_kernel_skel
  unfold owns accIn5
  iintro ⟨⟨%f0, %hf0, H0⟩, ⟨%f1, %hf1, H1⟩, ⟨%fo, %hfo, HO⟩, ⟨%fs, %hfs, HS⟩, Hk⟩
  obtain rfl := h2.eq_unread hf0; obtain rfl := h3.eq_unread hf1; obtain rfl := h4.eq_unread hfo; obtain rfl := h5.eq_unread hfs
  by_cases hc0 : first5 i <;> by_cases hc1 : last5 i
  · -- first column block, the last one
    sl_exec (disch := first | exact hc0 | exact hc1)
    sl_step
    iapply Hk
    rw [if_pos hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- first column block, not the last
    sl_exec (disch := first | exact hc0 | exact hc1)
    sl_step
    iapply Hk
    rw [if_pos hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, the last one
    sl_exec (disch := first | exact hc0 | exact hc1)
    sl_step
    iapply Hk
    rw [if_neg hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, not the last
    sl_exec (disch := first | exact hc0 | exact hc1)
    sl_step
    iapply Hk
    rw [if_neg hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]

end Cert.Kernel.Hand

end
-- ==== Proof.HandK.Dat5.lean ====
/-
  Diffusion step, kernel region 5: the pipeline's proof data and the body obligation. The grid is (batch element, column block);
  along the column blocks of one batch element the scratch accumulator carries the partial sum of block products, so the region's
  invariant names its contents point by point; the output block is stored, and written back, only at the last column block.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Run5
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the idle table, decided over the grid -/

/-- The accumulator is reset exactly at the first of every 16 consecutive points: the first column block of a batch element. -/
theorem hfirst5 : ∀ t : Fin cfg5.N, first5 (grid5.coords t) ↔ t.val % 16 = 0 :=
  (by decide +kernel : ∀ t : Fin grid5.N, first5 (grid5.coords t) ↔ t.val % 16 = 0)
/-- It is copied out exactly at the last of them. -/
theorem hlast5 : ∀ t : Fin cfg5.N, last5 (grid5.coords t) ↔ t.val % 16 = 15 :=
  (by decide +kernel : ∀ t : Fin grid5.N, last5 (grid5.coords t) ↔ t.val % 16 = 15)
theorem live5_0 : ∀ t : Fin cfg5.N, cfg5.idle 0 (grid5.coords t) = false := by decide +kernel
theorem live5_1 : ∀ t : Fin cfg5.N, cfg5.idle 1 (grid5.coords t) = false := by decide +kernel
/-- Where the accumulator is not copied out the output block is not stored to, -/
theorem idle5_2 : ∀ t : Fin cfg5.N, ¬ last5 (grid5.coords t) → cfg5.idle 2 (grid5.coords t) = true := by decide +kernel
/-- nor written back; -/
theorem noflush5_2 : ∀ t : Fin cfg5.N, ¬ last5 (grid5.coords t) → (cfg5.win 2).flush t = false := by decide +kernel
/-- where it is, the block is stored to. -/
theorem live5_2 : ∀ t : Fin cfg5.N, last5 (grid5.coords t) → cfg5.idle 2 (grid5.coords t) = false := by decide +kernel

/-! ## The blocks and the accumulator, point by point -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The scratch accumulator's contents BEFORE point `n` (after the points below it): each point adds its block product to zero,
    at the first column block, or to what the point before left. Before the first point the scratch holds anything. -/
def accAt5 (c : Dev nD) : ℕ → Vec F S8192x64 .f32
  | 0 => fun _ => Classical.choice (Elt.nonempty F .f32)
  | n + 1 =>
    if h : n < cfg5.N then
      k5_pay2 (iblk5 V c 0 ⟨n, h⟩) (iblk5 V c 1 ⟨n, h⟩) (if n % 16 = 0 then k5_pay1 (F := F) else accAt5 c n)
    else accAt5 c n

/-- One point's step of the accumulator, in the form the body's run states it. -/
theorem accAt5_succ (c : Dev nD) (t : Fin cfg5.N) (X : Vec F S8192x64 .f32) (hX : t.val % 16 ≠ 0 → X = accAt5 V c t.val) :
    accAt5 V c (t.val + 1) = k5_pay2 (iblk5 V c 0 t) (iblk5 V c 1 t) (accIn5 (grid5.coords t) X) := by
  obtain ⟨n, hn⟩ := t
  rw [accAt5, dif_pos hn]; unfold accIn5
  by_cases h0 : n % 16 = 0
  · rw [if_pos h0, if_pos ((hfirst5 ⟨n, hn⟩).mpr h0)]
  · rw [if_neg h0, if_neg (fun h => h0 ((hfirst5 ⟨n, hn⟩).mp h)), hX h0]

/-- The scratch accumulator, a whole scoped buffer of the kernel's own. -/
abbrev scM5 : Memref sig .tc .vmem S8192x64 .f32 := Memref.whole cc5_scratch0

/-- The region's invariant before point `n`: the scratch at the accumulated value — at anything where the body will reset it —,
    every other scoped buffer no window stages at something. -/
def Phi5 (c : Dev nD) (n : ℕ) : sProp 𝕄 :=
  iprop((∃ X : Vec F S8192x64 .f32, ⌜n % 16 ≠ 0 → X = accAt5 V c n⌝ ∗ owns (c : Thread nD τ) scM5 fullShare X)
    ∗ Pipeline.scopedRestBut (Ix := Unit) (Name := ℕ) (U := UR sig nD τ) (Lvl := ℕ) (Val := Elt F) spec5 c [cc5_scratch0])

/-! ## The proof data -/

/-- The proof data on core `c`, from the contents `V` the region is entered at: after the body each input's buffer at its block,
    the output's at the accumulator (read where the block is written back: at the last column block); the invariant `Phi5`;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay3 (accAt5 V c (t.val + 1))
  Φ t := Phi5 V c t.val
  q _ := fullShare
  owed _ := 0

theorem A_eq5 (c : Dev nD) (w : Fin cfg5.W) : (dat5 V c).A w = V c (Pipeline.arrRef spec5 w) := by dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = k5_pay3 (accAt5 V c (t.val + 1)) := by dsimp only [dat5]

/-- An input window is fetched at every point: its buffer holds its block when the body runs. -/
theorem before5_0 (c : Dev nD) (t : Fin cfg5.N) (d) : (dat5 V c).before 0 t d = iblk5 V c 0 t := by
  unfold Dat.before; rw [if_pos (fetch5_0 t)]; rfl
theorem before5_1 (c : Dev nD) (t : Fin cfg5.N) (d) : (dat5 V c).before 1 t d = iblk5 V c 1 t := by
  unfold Dat.before; rw [if_pos (fetch5_1 t)]; rfl

/-! ## The body obligation -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ (dat5 V c).leavesExact 0 t ∗ (dat5 V c).leavesExact 1 t ∗ (dat5 V c).leavesExact 2 t)

set_option maxHeartbeats 1600000 in
/-- The body at any point: the inputs' buffers hold their blocks, the invariant hands over the scratch at the accumulated value,
    the one-point run applies, and the invariant takes the scratch back one step further; the output block is handed back as found
    unless this is the last column block, where it holds the accumulator. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = Phi5 V c (t.val + 1) from rfl, show (dat5 V c).Φ t.castSucc = Phi5 V c t.val from rfl]
  rw [show (dat5 V c).leavesExact 0 t = owns (c : Thread nD τ) (st5_0 t) fullShare ((dat5 V c).after 0 t) from by
    unfold Dat.leavesExact; rw [live5_0 t], after5_0]
  rw [show (dat5 V c).leavesExact 1 t = owns (c : Thread nD τ) (st5_1 t) fullShare ((dat5 V c).after 1 t) from by
    unfold Dat.leavesExact; rw [live5_1 t], after5_1]
  unfold Phi5
  by_cases h1 : last5 (grid5.coords t)
  · rw [show (dat5 V c).leavesExact 2 t = owns (c : Thread nD τ) (st5_2 t) fullShare ((dat5 V c).after 2 t) from by
      unfold Dat.leavesExact; rw [live5_2 t h1], after5_2]
    iintro ⟨⟨⟨%X, %hX, HS⟩, Hrest⟩, Ho, ⟨%d0, H0⟩, ⟨%d1, H1⟩, ⟨%d2, H2⟩⟩
    iapply (run5 c (grid5.coords t) _ _ _ _ _ _ _ _ (iblk5 V c 0 t) (iblk5 V c 1 t) _ X Set.univ _)
    isplitl [H0]; · iexact H0
    isplitl [H1]; · iexact H1
    isplitl [H2]; · iexact H2
    isplitl [HS]; · iexact HS
    rw [if_pos h1, ← accAt5_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexact H2
  · rw [Dat.leavesExact_idle (dat5 V c) 2 t (idle5_2 t h1) (noflush5_2 t h1)]
    iintro ⟨⟨⟨%X, %hX, HS⟩, Hrest⟩, Ho, ⟨%d0, H0⟩, ⟨%d1, H1⟩, ⟨%d2, H2⟩⟩
    iapply (run5 c (grid5.coords t) _ _ _ _ _ _ _ _ (iblk5 V c 0 t) (iblk5 V c 1 t) _ X Set.univ _)
    isplitl [H0]; · iexact H0
    isplitl [H1]; · iexact H1
    isplitl [H2]; · iexact H2
    isplitl [HS]; · iexact HS
    rw [if_neg h1, ← accAt5_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexists _; iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.HandK.Inv5.lean ====
/-
  Kernel region 5: how the scoped buffers the launch hands a region become its invariant before the first point (the scratch
  accumulator at anything) and how the invariant gives them back after any point (the accumulator's contents forgotten).
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Dat5
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Into and out of the invariant -/

/-- The scoped buffers the launch hands the region make the invariant before the first point: the scratch at anything. -/
theorem hin5 (c : Dev nD) :
    (Pipeline.scopedRest (Ix := Unit) (Name := ℕ) (U := UR sig nD τ) (Lvl := ℕ) (Val := Elt F) spec5 c : sProp 𝕄) ⊢ Phi5 V c 0 := by
  unfold Phi5; rw [scopedRest5_split]
  iintro ⟨⟨%f, Hs⟩, Hr⟩
  isplitl [Hs]
  · iexists f; isplitr; · ipureintro; intro h; exact absurd (Nat.zero_mod _) h
    rw [owns_whole]; iexact Hs
  iexact Hr

/-- The invariant at any point gives them back, the scratch's contents forgotten. -/
theorem hout5 (c : Dev nD) (n : ℕ) :
    Phi5 V c n ⊢ (Pipeline.scopedRest (Ix := Unit) (Name := ℕ) (U := UR sig nD τ) (Lvl := ℕ) (Val := Elt F) spec5 c : sProp 𝕄) := by
  unfold Phi5; simp only [owns_whole]; rw [scopedRest5_split]
  iintro ⟨⟨%X, -, Hs⟩, Hr⟩
  isplitl [Hs]
  · iexists X; iexact Hs
  iexact Hr

end Cert.Kernel.Hand

end
-- ==== Proof.HandK.Run6.lean ====
/-
  One grid point of diffusion step (kernel region 6): the body multiplies an [8192, 512] block of the adjacency by the matching
  [512, 64] block of the activation and adds the product to an [8192, 64] accumulator kept in scratch, which it zeroes first at
  the first column block of a batch element and copies to the output block at the last one. Stated on any whole staging
  buffers, with every buffer's final contents written out as the body's own payload terms.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the first column block of a row sweep: the body's first branch condition, from the grid coordinates. -/
abbrev first6 (i : grid6.Coords) : Prop := (Scalar.cmpi .ne (Scalar.extui (Scalar.cmpi .eq (BitVec.ofNat 32 (i 1).val) 0#32)) 0#32) = 1#1
/-- The accumulator is copied out at the last column block: the body's second branch condition. -/
abbrev last6 (i : grid6.Coords) : Prop := k6_cond2 i = 1#1

/-- The accumulator the body adds this point's product to: zero at the first column block, else what the point before left. -/
def accIn6 (i : grid6.Coords) [Decidable (first6 i)] (xs : Vec F S8192x64 .f32) : Vec F S8192x64 .f32 :=
  if first6 i then k6_pay1 (F := F) else xs

/-- ONE POINT of the diffusion step, on any whole staging memrefs: the adjacency block `x0` and the activation block `x1` are read and
    kept; the scratch accumulator ends at (zero or what it held) + the block product; the output block is overwritten with the
    accumulator at the last column block and left untouched otherwise. -/
theorem run6 (c : Dev nD) (i : grid6.Coords) [Decidable (first6 i)] [Decidable (last6 i)]
    (a2 : Memref sig .tc .vmem S1x8192x512 .bf16) (h2 : a2.IsWhole) (a3 : Memref sig .tc .vmem S1x512x64 .f32) (h3 : a3.IsWhole)
    (a4 : Memref sig .tc .vmem S1x8192x64 .f32) (h4 : a4.IsWhole) (a5 : Memref sig .tc .vmem S8192x64 .f32) (h5 : a5.IsWhole)
    (x0 : Vec F S1x8192x512 .bf16) (x1 : Vec F S1x512x64 .f32) (xo : Vec F S1x8192x64 .f32) (xs : Vec F S8192x64 .f32)
    (E : Set ℕ) (K : PUnit → sProp 𝕄) :
    iprop(owns (c : Thread nD τ) a2 fullShare x0 ∗ owns (c : Thread nD τ) a3 fullShare x1 ∗ owns (c : Thread nD τ) a4 fullShare xo ∗ owns (c : Thread nD τ) a5 fullShare xs
        ∗ (iprop(owns (c : Thread nD τ) a2 fullShare x0 ∗ owns (c : Thread nD τ) a3 fullShare x1
            ∗ owns (c : Thread nD τ) a4 fullShare (if last6 i then k6_pay3 (k6_pay2 x0 x1 (accIn6 i xs)) else xo)
            ∗ owns (c : Thread nD τ) a5 fullShare (k6_pay2 x0 x1 (accIn6 i xs))) -∗ K ⟨⟩))
      ⊢ wp frame (wpE (defs₀ (F := F)) Variants.none c none) E (cc6__diffuse_kernel i a2 h2 a3 h3 a4 h4 a5 h5) K := by
  simp only [cc6__diffuse_kernel_eq_skeleton]; unfold cc6__diffuse_kernel_skel
  unfold owns accIn6
  iintro ⟨⟨%f0, %hf0, H0⟩, ⟨%f1, %hf1, H1⟩, ⟨%fo, %hfo, HO⟩, ⟨%fs, %hfs, HS⟩, Hk⟩
  obtain rfl := h2.eq_unread hf0; obtain rfl := h3.eq_unread hf1; obtain rfl := h4.eq_unread hfo; obtain rfl := h5.eq_unread hfs
  by_cases hc0 : first6 i <;> by_cases hc1 : last6 i
  · -- first column block, the last one
    sl_exec (disch := first | exact hc0 | exact hc1)
    sl_step
    iapply Hk
    rw [if_pos hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- first column block, not the last
    sl_exec (disch := first | exact hc0 | exact hc1)
    sl_step
    iapply Hk
    rw [if_pos hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, the last one
    sl_exec (disch := first | exact hc0 | exact hc1)
    sl_step
    iapply Hk
    rw [if_neg hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, not the last
    sl_exec (disch := first | exact hc0 | exact hc1)
    sl_step
    iapply Hk
    rw [if_neg hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]

end Cert.Kernel.Hand

end
-- ==== Proof.HandK.Dat6.lean ====
/-
  Diffusion step, kernel region 6: the pipeline's proof data and the body obligation. The grid is (batch element, column block);
  along the column blocks of one batch element the scratch accumulator carries the partial sum of block products, so the region's
  invariant names its contents point by point; the output block is stored, and written back, only at the last column block.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Run6
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the idle table, decided over the grid -/

/-- The accumulator is reset exactly at the first of every 16 consecutive points: the first column block of a batch element. -/
theorem hfirst6 : ∀ t : Fin cfg6.N, first6 (grid6.coords t) ↔ t.val % 16 = 0 :=
  (by decide +kernel : ∀ t : Fin grid6.N, first6 (grid6.coords t) ↔ t.val % 16 = 0)
/-- It is copied out exactly at the last of them. -/
theorem hlast6 : ∀ t : Fin cfg6.N, last6 (grid6.coords t) ↔ t.val % 16 = 15 :=
  (by decide +kernel : ∀ t : Fin grid6.N, last6 (grid6.coords t) ↔ t.val % 16 = 15)
theorem live6_0 : ∀ t : Fin cfg6.N, cfg6.idle 0 (grid6.coords t) = false := by decide +kernel
theorem live6_1 : ∀ t : Fin cfg6.N, cfg6.idle 1 (grid6.coords t) = false := by decide +kernel
/-- Where the accumulator is not copied out the output block is not stored to, -/
theorem idle6_2 : ∀ t : Fin cfg6.N, ¬ last6 (grid6.coords t) → cfg6.idle 2 (grid6.coords t) = true := by decide +kernel
/-- nor written back; -/
theorem noflush6_2 : ∀ t : Fin cfg6.N, ¬ last6 (grid6.coords t) → (cfg6.win 2).flush t = false := by decide +kernel
/-- where it is, the block is stored to. -/
theorem live6_2 : ∀ t : Fin cfg6.N, last6 (grid6.coords t) → cfg6.idle 2 (grid6.coords t) = false := by decide +kernel

/-! ## The blocks and the accumulator, point by point -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The scratch accumulator's contents BEFORE point `n` (after the points below it): each point adds its block product to zero,
    at the first column block, or to what the point before left. Before the first point the scratch holds anything. -/
def accAt6 (c : Dev nD) : ℕ → Vec F S8192x64 .f32
  | 0 => fun _ => Classical.choice (Elt.nonempty F .f32)
  | n + 1 =>
    if h : n < cfg6.N then
      k6_pay2 (iblk6 V c 0 ⟨n, h⟩) (iblk6 V c 1 ⟨n, h⟩) (if n % 16 = 0 then k6_pay1 (F := F) else accAt6 c n)
    else accAt6 c n

/-- One point's step of the accumulator, in the form the body's run states it. -/
theorem accAt6_succ (c : Dev nD) (t : Fin cfg6.N) (X : Vec F S8192x64 .f32) (hX : t.val % 16 ≠ 0 → X = accAt6 V c t.val) :
    accAt6 V c (t.val + 1) = k6_pay2 (iblk6 V c 0 t) (iblk6 V c 1 t) (accIn6 (grid6.coords t) X) := by
  obtain ⟨n, hn⟩ := t
  rw [accAt6, dif_pos hn]; unfold accIn6
  by_cases h0 : n % 16 = 0
  · rw [if_pos h0, if_pos ((hfirst6 ⟨n, hn⟩).mpr h0)]
  · rw [if_neg h0, if_neg (fun h => h0 ((hfirst6 ⟨n, hn⟩).mp h)), hX h0]

/-- The scratch accumulator, a whole scoped buffer of the kernel's own. -/
abbrev scM6 : Memref sig .tc .vmem S8192x64 .f32 := Memref.whole cc6_scratch0

/-- The region's invariant before point `n`: the scratch at the accumulated value — at anything where the body will reset it —,
    every other scoped buffer no window stages at something. -/
def Phi6 (c : Dev nD) (n : ℕ) : sProp 𝕄 :=
  iprop((∃ X : Vec F S8192x64 .f32, ⌜n % 16 ≠ 0 → X = accAt6 V c n⌝ ∗ owns (c : Thread nD τ) scM6 fullShare X)
    ∗ Pipeline.scopedRestBut (Ix := Unit) (Name := ℕ) (U := UR sig nD τ) (Lvl := ℕ) (Val := Elt F) spec6 c [cc6_scratch0])

/-! ## The proof data -/

/-- The proof data on core `c`, from the contents `V` the region is entered at: after the body each input's buffer at its block,
    the output's at the accumulator (read where the block is written back: at the last column block); the invariant `Phi6`;
    nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay3 (accAt6 V c (t.val + 1))
  Φ t := Phi6 V c t.val
  q _ := fullShare
  owed _ := 0

theorem A_eq6 (c : Dev nD) (w : Fin cfg6.W) : (dat6 V c).A w = V c (Pipeline.arrRef spec6 w) := by dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = k6_pay3 (accAt6 V c (t.val + 1)) := by dsimp only [dat6]

/-- An input window is fetched at every point: its buffer holds its block when the body runs. -/
theorem before6_0 (c : Dev nD) (t : Fin cfg6.N) (d) : (dat6 V c).before 0 t d = iblk6 V c 0 t := by
  unfold Dat.before; rw [if_pos (fetch6_0 t)]; rfl
theorem before6_1 (c : Dev nD) (t : Fin cfg6.N) (d) : (dat6 V c).before 1 t d = iblk6 V c 1 t := by
  unfold Dat.before; rw [if_pos (fetch6_1 t)]; rfl

/-! ## The body obligation -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ (dat6 V c).leavesExact 0 t ∗ (dat6 V c).leavesExact 1 t ∗ (dat6 V c).leavesExact 2 t)

set_option maxHeartbeats 1600000 in
/-- The body at any point: the inputs' buffers hold their blocks, the invariant hands over the scratch at the accumulated value,
    the one-point run applies, and the invariant takes the scratch back one step further; the output block is handed back as found
    unless this is the last column block, where it holds the accumulator. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = Phi6 V c (t.val + 1) from rfl, show (dat6 V c).Φ t.castSucc = Phi6 V c t.val from rfl]
  rw [show (dat6 V c).leavesExact 0 t = owns (c : Thread nD τ) (st6_0 t) fullShare ((dat6 V c).after 0 t) from by
    unfold Dat.leavesExact; rw [live6_0 t], after6_0]
  rw [show (dat6 V c).leavesExact 1 t = owns (c : Thread nD τ) (st6_1 t) fullShare ((dat6 V c).after 1 t) from by
    unfold Dat.leavesExact; rw [live6_1 t], after6_1]
  unfold Phi6
  by_cases h1 : last6 (grid6.coords t)
  · rw [show (dat6 V c).leavesExact 2 t = owns (c : Thread nD τ) (st6_2 t) fullShare ((dat6 V c).after 2 t) from by
      unfold Dat.leavesExact; rw [live6_2 t h1], after6_2]
    iintro ⟨⟨⟨%X, %hX, HS⟩, Hrest⟩, Ho, ⟨%d0, H0⟩, ⟨%d1, H1⟩, ⟨%d2, H2⟩⟩
    iapply (run6 c (grid6.coords t) _ _ _ _ _ _ _ _ (iblk6 V c 0 t) (iblk6 V c 1 t) _ X Set.univ _)
    isplitl [H0]; · iexact H0
    isplitl [H1]; · iexact H1
    isplitl [H2]; · iexact H2
    isplitl [HS]; · iexact HS
    rw [if_pos h1, ← accAt6_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexact H2
  · rw [Dat.leavesExact_idle (dat6 V c) 2 t (idle6_2 t h1) (noflush6_2 t h1)]
    iintro ⟨⟨⟨%X, %hX, HS⟩, Hrest⟩, Ho, ⟨%d0, H0⟩, ⟨%d1, H1⟩, ⟨%d2, H2⟩⟩
    iapply (run6 c (grid6.coords t) _ _ _ _ _ _ _ _ (iblk6 V c 0 t) (iblk6 V c 1 t) _ X Set.univ _)
    isplitl [H0]; · iexact H0
    isplitl [H1]; · iexact H1
    isplitl [H2]; · iexact H2
    isplitl [HS]; · iexact HS
    rw [if_neg h1, ← accAt6_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexists _; iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.HandK.Inv6.lean ====
/-
  Kernel region 6: how the scoped buffers the launch hands a region become its invariant before the first point (the scratch
  accumulator at anything) and how the invariant gives them back after any point (the accumulator's contents forgotten).
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Dat6
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Into and out of the invariant -/

/-- The scoped buffers the launch hands the region make the invariant before the first point: the scratch at anything. -/
theorem hin6 (c : Dev nD) :
    (Pipeline.scopedRest (Ix := Unit) (Name := ℕ) (U := UR sig nD τ) (Lvl := ℕ) (Val := Elt F) spec6 c : sProp 𝕄) ⊢ Phi6 V c 0 := by
  unfold Phi6; rw [scopedRest6_split]
  iintro ⟨⟨%f, Hs⟩, Hr⟩
  isplitl [Hs]
  · iexists f; isplitr; · ipureintro; intro h; exact absurd (Nat.zero_mod _) h
    rw [owns_whole]; iexact Hs
  iexact Hr

/-- The invariant at any point gives them back, the scratch's contents forgotten. -/
theorem hout6 (c : Dev nD) (n : ℕ) :
    Phi6 V c n ⊢ (Pipeline.scopedRest (Ix := Unit) (Name := ℕ) (U := UR sig nD τ) (Lvl := ℕ) (Val := Elt F) spec6 c : sProp 𝕄) := by
  unfold Phi6; simp only [owns_whole]; rw [scopedRest6_split]
  iintro ⟨⟨%X, -, Hs⟩, Hr⟩
  isplitl [Hs]
  · iexists X; iexact Hs
  iexact Hr

end Cert.Kernel.Hand

end
-- ==== Proof.HandK.Run7.lean ====
/-
  One grid point of diffusion step (kernel region 7): the body multiplies an [8192, 512] block of the adjacency by the matching
  [512, 64] block of the activation and adds the product to an [8192, 64] accumulator kept in scratch, which it zeroes first at
  the first column block of a batch element and copies to the output block at the last one. Stated on any whole staging
  buffers, with every buffer's final contents written out as the body's own payload terms.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the first column block of a row sweep: the body's first branch condition, from the grid coordinates. -/
abbrev first7 (i : grid7.Coords) : Prop := (Scalar.cmpi .ne (Scalar.extui (Scalar.cmpi .eq (BitVec.ofNat 32 (i 1).val) 0#32)) 0#32) = 1#1
/-- The accumulator is copied out at the last column block: the body's second branch condition. -/
abbrev last7 (i : grid7.Coords) : Prop := k7_cond2 i = 1#1

/-- The accumulator the body adds this point's product to: zero at the first column block, else what the point before left. -/
def accIn7 (i : grid7.Coords) [Decidable (first7 i)] (xs : Vec F S8192x64 .f32) : Vec F S8192x64 .f32 :=
  if first7 i then k7_pay1 (F := F) else xs

/-- ONE POINT of the diffusion step, on any whole staging memrefs: the adjacency block `x0` and the activation block `x1` are read and
    kept; the scratch accumulator ends at (zero or what it held) + the block product; the output block is overwritten with the
    accumulator at the last column block and left untouched otherwise. -/
theorem run7 (c : Dev nD) (i : grid7.Coords) [Decidable (first7 i)] [Decidable (last7 i)]
    (a2 : Memref sig .tc .vmem S1x8192x512 .bf16) (h2 : a2.IsWhole) (a3 : Memref sig .tc .vmem S1x512x64 .f32) (h3 : a3.IsWhole)
    (a4 : Memref sig .tc .vmem S1x8192x64 .f32) (h4 : a4.IsWhole) (a5 : Memref sig .tc .vmem S8192x64 .f32) (h5 : a5.IsWhole)
    (x0 : Vec F S1x8192x512 .bf16) (x1 : Vec F S1x512x64 .f32) (xo : Vec F S1x8192x64 .f32) (xs : Vec F S8192x64 .f32)
    (E : Set ℕ) (K : PUnit → sProp 𝕄) :
    iprop(owns (c : Thread nD τ) a2 fullShare x0 ∗ owns (c : Thread nD τ) a3 fullShare x1 ∗ owns (c : Thread nD τ) a4 fullShare xo ∗ owns (c : Thread nD τ) a5 fullShare xs
        ∗ (iprop(owns (c : Thread nD τ) a2 fullShare x0 ∗ owns (c : Thread nD τ) a3 fullShare x1
            ∗ owns (c : Thread nD τ) a4 fullShare (if last7 i then k7_pay3 (k7_pay2 x0 x1 (accIn7 i xs)) else xo)
            ∗ owns (c : Thread nD τ) a5 fullShare (k7_pay2 x0 x1 (accIn7 i xs))) -∗ K ⟨⟩))
      ⊢ wp frame (wpE (defs₀ (F := F)) Variants.none c none) E (cc7__diffuse_kernel i a2 h2 a3 h3 a4 h4 a5 h5) K := by
  simp only [cc7__diffuse_kernel_eq_skeleton]; unfold cc7__diffuse_kernel_skel
  unfold owns accIn7
  iintro ⟨⟨%f0, %hf0, H0⟩, ⟨%f1, %hf1, H1⟩, ⟨%fo, %hfo, HO⟩, ⟨%fs, %hfs, HS⟩, Hk⟩
  obtain rfl := h2.eq_unread hf0; obtain rfl := h3.eq_unread hf1; obtain rfl := h4.eq_unread hfo; obtain rfl := h5.eq_unread hfs
  by_cases hc0 : first7 i <;> by_cases hc1 : last7 i
  · -- first column block, the last one
    sl_exec (disch := first | exact hc0 | exact hc1)
    sl_step
    iapply Hk
    rw [if_pos hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- first column block, not the last
    sl_exec (disch := first | exact hc0 | exact hc1)
    sl_step
    iapply Hk
    rw [if_pos hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, the last one
    sl_exec (disch := first | exact hc0 | exact hc1)
    sl_step
    iapply Hk
    rw [if_neg hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, not the last
    sl_exec (disch := first | exact hc0 | exact hc1)
    sl_step
    iapply Hk
    rw [if_neg hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]

end Cert.Kernel.Hand

end
-- ==== Proof.HandK.Dat7.lean ====
/-
  Diffusion step, kernel region 7: the pipeline's proof data and the body obligation. The grid is (batch element, column block);
  along the column blocks of one batch element the scratch accumulator carries the partial sum of block products, so the region's
  invariant names its contents point by point; the output block is stored, and written back, only at the last column block.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Run7
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the idle table, decided over the grid -/

/-- The accumulator is reset exactly at the first of every 16 consecutive points: the first column block of a batch element. -/
theorem hfirst7 : ∀ t : Fin cfg7.N, first7 (grid7.coords t) ↔ t.val % 16 = 0 :=
  (by decide +kernel : ∀ t : Fin grid7.N, first7 (grid7.coords t) ↔ t.val % 16 = 0)
/-- It is copied out exactly at the last of them. -/
theorem hlast7 : ∀ t : Fin cfg7.N, last7 (grid7.coords t) ↔ t.val % 16 = 15 :=
  (by decide +kernel : ∀ t : Fin grid7.N, last7 (grid7.coords t) ↔ t.val % 16 = 15)
theorem live7_0 : ∀ t : Fin cfg7.N, cfg7.idle 0 (grid7.coords t) = false := by decide +kernel
theorem live7_1 : ∀ t : Fin cfg7.N, cfg7.idle 1 (grid7.coords t) = false := by decide +kernel
/-- Where the accumulator is not copied out the output block is not stored to, -/
theorem idle7_2 : ∀ t : Fin cfg7.N, ¬ last7 (grid7.coords t) → cfg7.idle 2 (grid7.coords t) = true := by decide +kernel
/-- nor written back; -/
theorem noflush7_2 : ∀ t : Fin cfg7.N, ¬ last7 (grid7.coords t) → (cfg7.win 2).flush t = false := by decide +kernel
/-- where it is, the block is stored to. -/
theorem live7_2 : ∀ t : Fin cfg7.N, last7 (grid7.coords t) → cfg7.idle 2 (grid7.coords t) = false := by decide +kernel

/-! ## The blocks and the accumulator, point by point -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The scratch accumulator's contents BEFORE point `n` (after the points below it): each point adds its block product to zero,
    at the first column block, or to what the point before left. Before the first point the scratch holds anything. -/
def accAt7 (c : Dev nD) : ℕ → Vec F S8192x64 .f32
  | 0 => fun _ => Classical.choice (Elt.nonempty F .f32)
  | n + 1 =>
    if h : n < cfg7.N then
      k7_pay2 (iblk7 V c 0 ⟨n, h⟩) (iblk7 V c 1 ⟨n, h⟩) (if n % 16 = 0 then k7_pay1 (F := F) else accAt7 c n)
    else accAt7 c n

/-- One point's step of the accumulator, in the form the body's run states it. -/
theorem accAt7_succ (c : Dev nD) (t : Fin cfg7.N) (X : Vec F S8192x64 .f32) (hX : t.val % 16 ≠ 0 → X = accAt7 V c t.val) :
    accAt7 V c (t.val + 1) = k7_pay2 (iblk7 V c 0 t) (iblk7 V c 1 t) (accIn7 (grid7.coords t) X) := by
  obtain ⟨n, hn⟩ := t
  rw [accAt7, dif_pos hn]; unfold accIn7
  by_cases h0 : n % 16 = 0
  · rw [if_pos h0, if_pos ((hfirst7 ⟨n, hn⟩).mpr h0)]
  · rw [if_neg h0, if_neg (fun h => h0 ((hfirst7 ⟨n, hn⟩).mp h)), hX h0]

/-- The scratch accumulator, a whole scoped buffer of the kernel's own. -/
abbrev scM7 : Memref sig .tc .vmem S8192x64 .f32 := Memref.whole cc7_scratch0

/-- The region's invariant before point `n`: the scratch at the accumulated value — at anything where the body will reset it —,
    every other scoped buffer no window stages at something. -/
def Phi7 (c : Dev nD) (n : ℕ) : sProp 𝕄 :=
  iprop((∃ X : Vec F S8192x64 .f32, ⌜n % 16 ≠ 0 → X = accAt7 V c n⌝ ∗ owns (c : Thread nD τ) scM7 fullShare X)
    ∗ Pipeline.scopedRestBut (Ix := Unit) (Name := ℕ) (U := UR sig nD τ) (Lvl := ℕ) (Val := Elt F) spec7 c [cc7_scratch0])

/-! ## The proof data -/

/-- The proof data on core `c`, from the contents `V` the region is entered at: after the body each input's buffer at its block,
    the output's at the accumulator (read where the block is written back: at the last column block); the invariant `Phi7`;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => k7_pay3 (accAt7 V c (t.val + 1))
  Φ t := Phi7 V c t.val
  q _ := fullShare
  owed _ := 0

theorem A_eq7 (c : Dev nD) (w : Fin cfg7.W) : (dat7 V c).A w = V c (Pipeline.arrRef spec7 w) := by dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = k7_pay3 (accAt7 V c (t.val + 1)) := by dsimp only [dat7]

/-- An input window is fetched at every point: its buffer holds its block when the body runs. -/
theorem before7_0 (c : Dev nD) (t : Fin cfg7.N) (d) : (dat7 V c).before 0 t d = iblk7 V c 0 t := by
  unfold Dat.before; rw [if_pos (fetch7_0 t)]; rfl
theorem before7_1 (c : Dev nD) (t : Fin cfg7.N) (d) : (dat7 V c).before 1 t d = iblk7 V c 1 t := by
  unfold Dat.before; rw [if_pos (fetch7_1 t)]; rfl

/-! ## The body obligation -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t ∗ (dat7 V c).leavesExact 2 t)

set_option maxHeartbeats 1600000 in
/-- The body at any point: the inputs' buffers hold their blocks, the invariant hands over the scratch at the accumulated value,
    the one-point run applies, and the invariant takes the scratch back one step further; the output block is handed back as found
    unless this is the last column block, where it holds the accumulator. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = Phi7 V c (t.val + 1) from rfl, show (dat7 V c).Φ t.castSucc = Phi7 V c t.val from rfl]
  rw [show (dat7 V c).leavesExact 0 t = owns (c : Thread nD τ) (st7_0 t) fullShare ((dat7 V c).after 0 t) from by
    unfold Dat.leavesExact; rw [live7_0 t], after7_0]
  rw [show (dat7 V c).leavesExact 1 t = owns (c : Thread nD τ) (st7_1 t) fullShare ((dat7 V c).after 1 t) from by
    unfold Dat.leavesExact; rw [live7_1 t], after7_1]
  unfold Phi7
  by_cases h1 : last7 (grid7.coords t)
  · rw [show (dat7 V c).leavesExact 2 t = owns (c : Thread nD τ) (st7_2 t) fullShare ((dat7 V c).after 2 t) from by
      unfold Dat.leavesExact; rw [live7_2 t h1], after7_2]
    iintro ⟨⟨⟨%X, %hX, HS⟩, Hrest⟩, Ho, ⟨%d0, H0⟩, ⟨%d1, H1⟩, ⟨%d2, H2⟩⟩
    iapply (run7 c (grid7.coords t) _ _ _ _ _ _ _ _ (iblk7 V c 0 t) (iblk7 V c 1 t) _ X Set.univ _)
    isplitl [H0]; · iexact H0
    isplitl [H1]; · iexact H1
    isplitl [H2]; · iexact H2
    isplitl [HS]; · iexact HS
    rw [if_pos h1, ← accAt7_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexact H2
  · rw [Dat.leavesExact_idle (dat7 V c) 2 t (idle7_2 t h1) (noflush7_2 t h1)]
    iintro ⟨⟨⟨%X, %hX, HS⟩, Hrest⟩, Ho, ⟨%d0, H0⟩, ⟨%d1, H1⟩, ⟨%d2, H2⟩⟩
    iapply (run7 c (grid7.coords t) _ _ _ _ _ _ _ _ (iblk7 V c 0 t) (iblk7 V c 1 t) _ X Set.univ _)
    isplitl [H0]; · iexact H0
    isplitl [H1]; · iexact H1
    isplitl [H2]; · iexact H2
    isplitl [HS]; · iexact HS
    rw [if_neg h1, ← accAt7_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.HandK.Inv7.lean ====
/-
  Kernel region 7: how the scoped buffers the launch hands a region become its invariant before the first point (the scratch
  accumulator at anything) and how the invariant gives them back after any point (the accumulator's contents forgotten).
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Dat7
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Into and out of the invariant -/

/-- The scoped buffers the launch hands the region make the invariant before the first point: the scratch at anything. -/
theorem hin7 (c : Dev nD) :
    (Pipeline.scopedRest (Ix := Unit) (Name := ℕ) (U := UR sig nD τ) (Lvl := ℕ) (Val := Elt F) spec7 c : sProp 𝕄) ⊢ Phi7 V c 0 := by
  unfold Phi7; rw [scopedRest7_split]
  iintro ⟨⟨%f, Hs⟩, Hr⟩
  isplitl [Hs]
  · iexists f; isplitr; · ipureintro; intro h; exact absurd (Nat.zero_mod _) h
    rw [owns_whole]; iexact Hs
  iexact Hr

/-- The invariant at any point gives them back, the scratch's contents forgotten. -/
theorem hout7 (c : Dev nD) (n : ℕ) :
    Phi7 V c n ⊢ (Pipeline.scopedRest (Ix := Unit) (Name := ℕ) (U := UR sig nD τ) (Lvl := ℕ) (Val := Elt F) spec7 c : sProp 𝕄) := by
  unfold Phi7; simp only [owns_whole]; rw [scopedRest7_split]
  iintro ⟨⟨%X, -, Hs⟩, Hr⟩
  isplitl [Hs]
  · iexists X; iexact Hs
  iexact Hr

end Cert.Kernel.Hand

end
-- ==== Proof.HandK.Run8.lean ====
/-
  One grid point of the last diffusion step (kernel region 8): the body multiplies an [8192, 512] block of the adjacency by the
  matching [512, 64] block of the activation and adds the product to an [8192, 64] accumulator kept in scratch, which it zeroes
  first at the first column block of a batch element. At the last column block it rounds the accumulator and the layer's [64, 64]
  weight to bf16, multiplies the accumulator by the transposed weight, adds the [1, 64] bias to every row, adds the unrounded
  accumulator back (the residual) and writes the result to the output block. Stated on any whole staging buffers, with every
  buffer's final contents written out as the body's own payload terms.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the first column block of a row sweep: the body's first branch condition, from the grid coordinates. -/
abbrev first8 (i : grid8.Coords) : Prop := (Scalar.cmpi .ne (Scalar.extui (Scalar.cmpi .eq (BitVec.ofNat 32 (i 1).val) 0#32)) 0#32) = 1#1
/-- The output block is written at the last column block: the body's second branch condition. -/
abbrev last8 (i : grid8.Coords) : Prop := k8_cond2 i = 1#1

/-- The accumulator the body adds this point's product to: zero at the first column block, else what the point before left. -/
def accIn8 (i : grid8.Coords) [Decidable (first8 i)] (xs : Vec F S8192x64 .f32) : Vec F S8192x64 .f32 :=
  if first8 i then k8_pay1 (F := F) else xs

set_option maxHeartbeats 800000 in
/-- ONE POINT of the last diffusion step, on any whole staging memrefs: the adjacency block `x0`, the activation block `x1`,
    the weight `xw` and the bias `xb` are read and kept; the scratch accumulator ends at (zero or what it held) + the block product;
    the output block is overwritten, at the last column block, with new accumulator · weightᵀ + bias + new accumulator, and left
    untouched otherwise. -/
theorem run8 (c : Dev nD) (i : grid8.Coords) [Decidable (first8 i)] [Decidable (last8 i)]
    (a2 : Memref sig .tc .vmem S1x8192x512 .bf16) (h2 : a2.IsWhole) (a3 : Memref sig .tc .vmem S1x512x64 .f32) (h3 : a3.IsWhole)
    (a4 : Memref sig .tc .vmem S64x64 .f32) (h4 : a4.IsWhole) (a5 : Memref sig .tc .vmem S1x64 .f32) (h5 : a5.IsWhole)
    (a6 : Memref sig .tc .vmem S1x8192x64 .f32) (h6 : a6.IsWhole) (a7 : Memref sig .tc .vmem S8192x64 .f32) (h7 : a7.IsWhole)
    (x0 : Vec F S1x8192x512 .bf16) (x1 : Vec F S1x512x64 .f32) (xw : Vec F S64x64 .f32) (xb : Vec F S1x64 .f32)
    (xo : Vec F S1x8192x64 .f32) (xs : Vec F S8192x64 .f32)
    (E : Set ℕ) (K : PUnit → sProp 𝕄) :
    iprop(owns (c : Thread nD τ) a2 fullShare x0 ∗ owns (c : Thread nD τ) a3 fullShare x1 ∗ owns (c : Thread nD τ) a4 fullShare xw ∗ owns (c : Thread nD τ) a5 fullShare xb
        ∗ owns (c : Thread nD τ) a6 fullShare xo ∗ owns (c : Thread nD τ) a7 fullShare xs
        ∗ (iprop(owns (c : Thread nD τ) a2 fullShare x0 ∗ owns (c : Thread nD τ) a3 fullShare x1 ∗ owns (c : Thread nD τ) a4 fullShare xw ∗ owns (c : Thread nD τ) a5 fullShare xb
            ∗ owns (c : Thread nD τ) a6 fullShare (if last8 i then k8_pay3 (k8_pay2 x0 x1 (accIn8 i xs)) xw xb else xo)
            ∗ owns (c : Thread nD τ) a7 fullShare (k8_pay2 x0 x1 (accIn8 i xs))) -∗ K ⟨⟩))
      ⊢ wp frame (wpE (defs₀ (F := F)) Variants.none c none) E (cc8__diffuse_post_kernel i a2 h2 a3 h3 a4 h4 a5 h5 a6 h6 a7 h7) K := by
  simp only [cc8__diffuse_post_kernel_eq_skeleton]; unfold cc8__diffuse_post_kernel_skel
  unfold owns accIn8
  iintro ⟨⟨%f0, %hf0, H0⟩, ⟨%f1, %hf1, H1⟩, ⟨%fw, %hfw, HW⟩, ⟨%fb, %hfb, HB⟩, ⟨%fo, %hfo, HO⟩, ⟨%fs, %hfs, HS⟩, Hk⟩
  obtain rfl := h2.eq_unread hf0; obtain rfl := h3.eq_unread hf1; obtain rfl := h4.eq_unread hfw; obtain rfl := h5.eq_unread hfb
  obtain rfl := h6.eq_unread hfo; obtain rfl := h7.eq_unread hfs
  by_cases hc0 : first8 i <;> by_cases hc1 : last8 i
  · -- first column block, the last one
    sl_exec (disch := first | exact hc0 | exact hc1)
    sl_step
    iapply Hk
    rw [if_pos hc0, if_pos hc1]
    isplitl [H0]
    · iexists _; isplitr; · ipureintro; exact hf0
      iexact H0
    isplitl [H1]
    · iexists _; isplitr; · ipureintro; exact hf1
      iexact H1
    isplitl [HW]
    · iexists _; isplitr; · ipureintro; exact hfw
      iexact HW
    isplitl [HB]
    · iexists _; isplitr; · ipureintro; exact hfb
      iexact HB
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
  · -- first column block, not the last
    sl_exec (disch := first | exact hc0 | exact hc1)
    sl_step
    iapply Hk
    rw [if_pos hc0, if_neg hc1]
    isplitl [H0]
    · iexists _; isplitr; · ipureintro; exact hf0
      iexact H0
    isplitl [H1]
    · iexists _; isplitr; · ipureintro; exact hf1
      iexact H1
    isplitl [HW]
    · iexists _; isplitr; · ipureintro; exact hfw
      iexact HW
    isplitl [HB]
    · iexists _; isplitr; · ipureintro; exact hfb
      iexact HB
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
  · -- later column block, the last one
    sl_exec (disch := first | exact hc0 | exact hc1)
    sl_step
    iapply Hk
    rw [if_neg hc0, if_pos hc1]
    isplitl [H0]
    · iexists _; isplitr; · ipureintro; exact hf0
      iexact H0
    isplitl [H1]
    · iexists _; isplitr; · ipureintro; exact hf1
      iexact H1
    isplitl [HW]
    · iexists _; isplitr; · ipureintro; exact hfw
      iexact HW
    isplitl [HB]
    · iexists _; isplitr; · ipureintro; exact hfb
      iexact HB
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
  · -- later column block, not the last
    sl_exec (disch := first | exact hc0 | exact hc1)
    sl_step
    iapply Hk
    rw [if_neg hc0, if_neg hc1]
    isplitl [H0]
    · iexists _; isplitr; · ipureintro; exact hf0
      iexact H0
    isplitl [H1]
    · iexists _; isplitr; · ipureintro; exact hf1
      iexact H1
    isplitl [HW]
    · iexists _; isplitr; · ipureintro; exact hfw
      iexact HW
    isplitl [HB]
    · iexists _; isplitr; · ipureintro; exact hfb
      iexact HB
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]

end Cert.Kernel.Hand

end
-- ==== Proof.HandK.Dat8.lean ====
/-
  Last diffusion step of a layer fused with the layer's linear map (kernel region 8): the pipeline's proof data and the body
  obligation. Along the column blocks of one batch element the scratch accumulator carries the partial sum of block products;
  at the last column block the body applies the layer's weight and bias to the finished accumulator, adds the accumulator back and stores the
  result, the only point at which the output block is stored and written back. The weight and the bias are fetched once.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Run8
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the idle table, decided over the grid -/

/-- The accumulator is reset exactly at the first of every 16 consecutive points: the first column block of a batch element. -/
theorem hfirst8 : ∀ t : Fin cfg8.N, first8 (grid8.coords t) ↔ t.val % 16 = 0 :=
  (by decide +kernel : ∀ t : Fin grid8.N, first8 (grid8.coords t) ↔ t.val % 16 = 0)
/-- The layer's output is computed from it exactly at the last of them. -/
theorem hlast8 : ∀ t : Fin cfg8.N, last8 (grid8.coords t) ↔ t.val % 16 = 15 :=
  (by decide +kernel : ∀ t : Fin grid8.N, last8 (grid8.coords t) ↔ t.val % 16 = 15)
theorem live8_0 : ∀ t : Fin cfg8.N, cfg8.idle 0 (grid8.coords t) = false := by decide +kernel
theorem live8_1 : ∀ t : Fin cfg8.N, cfg8.idle 1 (grid8.coords t) = false := by decide +kernel
theorem live8_2 : ∀ t : Fin cfg8.N, cfg8.idle 2 (grid8.coords t) = false := by decide +kernel
theorem live8_3 : ∀ t : Fin cfg8.N, cfg8.idle 3 (grid8.coords t) = false := by decide +kernel
/-- Where the output is not computed its block is not stored to, -/
theorem idle8_4 : ∀ t : Fin cfg8.N, ¬ last8 (grid8.coords t) → cfg8.idle 4 (grid8.coords t) = true := by decide +kernel
/-- nor written back; -/
theorem noflush8_4 : ∀ t : Fin cfg8.N, ¬ last8 (grid8.coords t) → (cfg8.win 4).flush t = false := by decide +kernel
/-- where it is, the block is stored to. -/
theorem live8_4 : ∀ t : Fin cfg8.N, last8 (grid8.coords t) → cfg8.idle 4 (grid8.coords t) = false := by decide +kernel

/-! ## The blocks and the accumulator, point by point -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The scratch accumulator's contents BEFORE point `n` (after the points below it): each point adds its block product to zero,
    at the first column block, or to what the point before left. Before the first point the scratch holds anything. -/
def accAt8 (c : Dev nD) : ℕ → Vec F S8192x64 .f32
  | 0 => fun _ => Classical.choice (Elt.nonempty F .f32)
  | n + 1 =>
    if h : n < cfg8.N then
      k8_pay2 (iblk8 V c 0 ⟨n, h⟩) (iblk8 V c 1 ⟨n, h⟩) (if n % 16 = 0 then k8_pay1 (F := F) else accAt8 c n)
    else accAt8 c n

/-- One point's step of the accumulator, in the form the body's run states it. -/
theorem accAt8_succ (c : Dev nD) (t : Fin cfg8.N) (X : Vec F S8192x64 .f32) (hX : t.val % 16 ≠ 0 → X = accAt8 V c t.val) :
    accAt8 V c (t.val + 1) = k8_pay2 (iblk8 V c 0 t) (iblk8 V c 1 t) (accIn8 (grid8.coords t) X) := by
  obtain ⟨n, hn⟩ := t
  rw [accAt8, dif_pos hn]; unfold accIn8
  by_cases h0 : n % 16 = 0
  · rw [if_pos h0, if_pos ((hfirst8 ⟨n, hn⟩).mpr h0)]
  · rw [if_neg h0, if_neg (fun h => h0 ((hfirst8 ⟨n, hn⟩).mp h)), hX h0]

/-- The scratch accumulator, a whole scoped buffer of the kernel's own. -/
abbrev scM8 : Memref sig .tc .vmem S8192x64 .f32 := Memref.whole cc8_scratch0

/-- The region's invariant before point `n`: the scratch at the accumulated value — at anything where the body will reset it —,
    every other scoped buffer no window stages at something. -/
def Phi8 (c : Dev nD) (n : ℕ) : sProp 𝕄 :=
  iprop((∃ X : Vec F S8192x64 .f32, ⌜n % 16 ≠ 0 → X = accAt8 V c n⌝ ∗ owns (c : Thread nD τ) scM8 fullShare X)
    ∗ Pipeline.scopedRestBut (Ix := Unit) (Name := ℕ) (U := UR sig nD τ) (Lvl := ℕ) (Val := Elt F) spec8 c [cc8_scratch0])

/-! ## The proof data -/

/-- The proof data on core `c`, from the contents `V` the region is entered at: after the body each input's buffer at its block,
    the output's at the layer's output computed from the accumulator, the weight block and the bias block (read where the block is
    written back: at the last column block); the invariant `Phi8`; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => k8_pay3 (accAt8 V c (t.val + 1)) (iblk8 V c 2 t) (iblk8 V c 3 t)
  Φ t := Phi8 V c t.val
  q _ := fullShare
  owed _ := 0

theorem A_eq8 (c : Dev nD) (w : Fin cfg8.W) : (dat8 V c).A w = V c (Pipeline.arrRef spec8 w) := by dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) :
    (dat8 V c).after 4 t = k8_pay3 (accAt8 V c (t.val + 1)) (iblk8 V c 2 t) (iblk8 V c 3 t) := by dsimp only [dat8]

/-- An input window fetched at every point holds its block when the body runs. -/
theorem before8_0 (c : Dev nD) (t : Fin cfg8.N) (d) : (dat8 V c).before 0 t d = iblk8 V c 0 t := by
  unfold Dat.before; rw [if_pos (fetch8_0 t)]; rfl
theorem before8_1 (c : Dev nD) (t : Fin cfg8.N) (d) : (dat8 V c).before 1 t d = iblk8 V c 1 t := by
  unfold Dat.before; rw [if_pos (fetch8_1 t)]; rfl
/-- The weight and the bias are fetched once, at the first point; their block index never moves and the body leaves them in place,
    so their buffers hold their block at every point. -/
theorem before8_2 (c : Dev nD) (t : Fin cfg8.N) (d) : (dat8 V c).before 2 t d = iblk8 V c 2 t :=
  ((dat8 V c).before_in_eq_fetched 2 rfl (fun _ => rfl) (fun _ _ _ => rfl)
    (fun t => by rw [after8_2]; unfold Dat.blockOf iblk8; rw [A_eq8]; try rfl) t d).trans
    (by unfold Dat.fetched Dat.blockOf iblk8; rw [A_eq8]; try rfl)
theorem before8_3 (c : Dev nD) (t : Fin cfg8.N) (d) : (dat8 V c).before 3 t d = iblk8 V c 3 t :=
  ((dat8 V c).before_in_eq_fetched 3 rfl (fun _ => rfl) (fun _ _ _ => rfl)
    (fun t => by rw [after8_3]; unfold Dat.blockOf iblk8; rw [A_eq8]; try rfl) t d).trans
    (by unfold Dat.fetched Dat.blockOf iblk8; rw [A_eq8]; try rfl)

/-! ## The body obligation -/

/-- What the body is called with at point `t` (the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ (dat8 V c).leavesExact 0 t ∗ (dat8 V c).leavesExact 1 t ∗ (dat8 V c).leavesExact 2 t
    ∗ (dat8 V c).leavesExact 3 t ∗ (dat8 V c).leavesExact 4 t)

set_option maxHeartbeats 1600000 in
/-- The body at any point: the inputs' buffers hold their blocks, the invariant hands over the scratch at the accumulated value,
    the one-point run applies, and the invariant takes the scratch back one step further; the output block is handed back as found
    unless this is the last column block, where it holds the layer's output. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).owesAt () t.succ = (dat8 V c).owesAt () t.castSucc from rfl]
  rw [show (dat8 V c).Φ t.succ = Phi8 V c (t.val + 1) from rfl, show (dat8 V c).Φ t.castSucc = Phi8 V c t.val from rfl]
  rw [show (dat8 V c).leavesExact 0 t = owns (c : Thread nD τ) (st8_0 t) fullShare ((dat8 V c).after 0 t) from by
    unfold Dat.leavesExact; rw [live8_0 t], after8_0]
  rw [show (dat8 V c).leavesExact 1 t = owns (c : Thread nD τ) (st8_1 t) fullShare ((dat8 V c).after 1 t) from by
    unfold Dat.leavesExact; rw [live8_1 t], after8_1]
  rw [show (dat8 V c).leavesExact 2 t = owns (c : Thread nD τ) (st8_2 t) fullShare ((dat8 V c).after 2 t) from by
    unfold Dat.leavesExact; rw [live8_2 t], after8_2]
  rw [show (dat8 V c).leavesExact 3 t = owns (c : Thread nD τ) (st8_3 t) fullShare ((dat8 V c).after 3 t) from by
    unfold Dat.leavesExact; rw [live8_3 t], after8_3]
  unfold Phi8
  by_cases h1 : last8 (grid8.coords t)
  · rw [show (dat8 V c).leavesExact 4 t = owns (c : Thread nD τ) (st8_4 t) fullShare ((dat8 V c).after 4 t) from by
      unfold Dat.leavesExact; rw [live8_4 t h1], after8_4]
    iintro ⟨⟨⟨%X, %hX, HS⟩, Hrest⟩, Ho, ⟨%d0, H0⟩, ⟨%d1, H1⟩, ⟨%d2, H2⟩, ⟨%d3, H3⟩, ⟨%d4, H4⟩⟩
    iapply (run8 c (grid8.coords t) _ _ _ _ _ _ _ _ _ _ _ _ (iblk8 V c 0 t) (iblk8 V c 1 t) (iblk8 V c 2 t) (iblk8 V c 3 t) _ X Set.univ _)
    isplitl [H0]; · iexact H0
    isplitl [H1]; · iexact H1
    isplitl [H2]; · iexact H2
    isplitl [H3]; · iexact H3
    isplitl [H4]; · iexact H4
    isplitl [HS]; · iexact HS
    rw [if_pos h1, ← accAt8_succ V c t X hX]
    iintro ⟨H0, H1, H2, H3, H4, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    isplitl [H2]; · iexact H2
    isplitl [H3]; · iexact H3
    iexact H4
  · rw [Dat.leavesExact_idle (dat8 V c) 4 t (idle8_4 t h1) (noflush8_4 t h1)]
    iintro ⟨⟨⟨%X, %hX, HS⟩, Hrest⟩, Ho, ⟨%d0, H0⟩, ⟨%d1, H1⟩, ⟨%d2, H2⟩, ⟨%d3, H3⟩, ⟨%d4, H4⟩⟩
    iapply (run8 c (grid8.coords t) _ _ _ _ _ _ _ _ _ _ _ _ (iblk8 V c 0 t) (iblk8 V c 1 t) (iblk8 V c 2 t) (iblk8 V c 3 t) _ X Set.univ _)
    isplitl [H0]; · iexact H0
    isplitl [H1]; · iexact H1
    isplitl [H2]; · iexact H2
    isplitl [H3]; · iexact H3
    isplitl [H4]; · iexact H4
    isplitl [HS]; · iexact HS
    rw [if_neg h1, ← accAt8_succ V c t X hX]
    iintro ⟨H0, H1, H2, H3, H4, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.HandK.Inv8.lean ====
/-
  Kernel region 8: how the scoped buffers the launch hands a region become its invariant before the first point (the scratch
  accumulator at anything) and how the invariant gives them back after any point (the accumulator's contents forgotten).
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Dat8
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Into and out of the invariant -/

/-- The scoped buffers the launch hands the region make the invariant before the first point: the scratch at anything. -/
theorem hin8 (c : Dev nD) :
    (Pipeline.scopedRest (Ix := Unit) (Name := ℕ) (U := UR sig nD τ) (Lvl := ℕ) (Val := Elt F) spec8 c : sProp 𝕄) ⊢ Phi8 V c 0 := by
  unfold Phi8; rw [scopedRest8_split]
  iintro ⟨⟨%f, Hs⟩, Hr⟩
  isplitl [Hs]
  · iexists f; isplitr; · ipureintro; intro h; exact absurd (Nat.zero_mod _) h
    rw [owns_whole]; iexact Hs
  iexact Hr

/-- The invariant at any point gives them back, the scratch's contents forgotten. -/
theorem hout8 (c : Dev nD) (n : ℕ) :
    Phi8 V c n ⊢ (Pipeline.scopedRest (Ix := Unit) (Name := ℕ) (U := UR sig nD τ) (Lvl := ℕ) (Val := Elt F) spec8 c : sProp 𝕄) := by
  unfold Phi8; simp only [owns_whole]; rw [scopedRest8_split]
  iintro ⟨⟨%X, -, Hs⟩, Hr⟩
  isplitl [Hs]
  · iexists X; iexact Hs
  iexact Hr

end Cert.Kernel.Hand

end
-- ==== Proof.HandK.Chain.lean ====
/-
  The contents of every unscoped buffer at each boundary of @main, as a fold through its twelve segments — a host stretch applies
  its operations, a kernel region overwrites its output arrays with what its pipeline leaves and touches nothing else —, the facts
  that each segment leaves every buffer it does not write as it was (so every argument array is as launched at every boundary), and
  the family of the nine pipelines' proof data, each at its region's entry contents.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Dat0
import proofs.«169539_j48112223650339_2_alg».proof.Proof.HandK.Inv1
import proofs.«169539_j48112223650339_2_alg».proof.Proof.HandK.Inv2
import proofs.«169539_j48112223650339_2_alg».proof.Proof.HandK.Inv3
import proofs.«169539_j48112223650339_2_alg».proof.Proof.HandK.Inv4
import proofs.«169539_j48112223650339_2_alg».proof.Proof.HandK.Inv5
import proofs.«169539_j48112223650339_2_alg».proof.Proof.HandK.Inv6
import proofs.«169539_j48112223650339_2_alg».proof.Proof.HandK.Inv7
import proofs.«169539_j48112223650339_2_alg».proof.Proof.HandK.Inv8
import proofs.«169539_j48112223650339_2_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary of @main: a fold through its host stretches and kernel regions -/

/-- Core `c`'s unscoped buffers at launch. -/
abbrev W0 : Dev nD → Valuation τ sig (Elt F) := fun c b => m (c, b)
abbrev VV0 : (c : Dev nD) → (b : Ref sig .tc) → Buf (Elt F) ((c : Thread nD τ).loc b) := fun c b => W0 m c b

/-- After the host stretch `hostOps0`. -/
abbrev W1 : Dev nD → Valuation τ sig (Elt F) := fun c => StableHlo.after hostOps0 (W0 m c)
abbrev VV1 : (c : Dev nD) → (b : Ref sig .tc) → Buf (Elt F) ((c : Thread nD τ).loc b) := fun c b => W1 m c b
/-- The stretch writes only its own results. -/
theorem W1_keep (c : Dev nD) (b : Ref sig .tc) (hb : b ∉ hostOps0_W) : W1 m c (Proc.devRef .tc b) = W0 m c (Proc.devRef .tc b) :=
  StableHlo.after_of_writes_sub hostOps0 _ hostOps0_writes hb

/-- After kernel region 0: its windows' arrays at what the pipeline leaves (an input as entered, an output with its write-backs folded),
    every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)
/-- The region changes only its output array: an input window's array ends as entered, a buffer no window stages is not touched. -/
theorem W2_keep (c : Dev nD) (b : Ref sig .tc) (hb : b ∉ ([main_v1] : List (Ref sig .tc))) :
    W2 m c (Proc.devRef .tc b) = W1 m c (Proc.devRef .tc b) := by
  by_cases h : ∃ w, Pipeline.arrRef spec0 w = b
  · obtain ⟨w, rfl⟩ := h
    rw [W2_arr]
    fin_cases w
    · exact ((dat0 (VV1 m) c).arrAt_in 0 rfl _).trans (A_eq0 (VV1 m) c 0)
    · exact ((dat0 (VV1 m) c).arrAt_in 1 rfl _).trans (A_eq0 (VV1 m) c 1)
    · exact ((dat0 (VV1 m) c).arrAt_in 2 rfl _).trans (A_eq0 (VV1 m) c 2)
    · exact absurd (by decide) hb
  · exact W2_of_ne m c b (fun w e => h ⟨w, e⟩)

/-- After kernel region 1: its windows' arrays at what the pipeline leaves (an input as entered, an output with its write-backs folded),
    every other buffer as entered. -/
def W3 (c : Dev nD) : Valuation τ sig (Elt F) :=
  Pipeline.withArrays spec1 c (W2 m c) fun w => (dat1 (VV2 m) c).arrAt w cfg1.N
theorem W3_arr (c : Dev nD) (w : Fin cfg1.W) :
    W3 m c (Proc.devRef .tc (Pipeline.arrRef spec1 w)) = (dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VV3 : (c : Dev nD) → (b : Ref sig .tc) → Buf (Elt F) ((c : Thread nD τ).loc b) := fun c b => W3 m c b
theorem hF1 (c : Dev nD) (w : Fin cfg1.W) : (dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)
/-- The region changes only its output arrays: an input window's array ends as entered, a buffer no window stages is not touched. -/
theorem W3_keep (c : Dev nD) (b : Ref sig .tc) (hb : b ∉ ([main_v2_0, main_v2_1] : List (Ref sig .tc))) :
    W3 m c (Proc.devRef .tc b) = W2 m c (Proc.devRef .tc b) := by
  by_cases h : ∃ w, Pipeline.arrRef spec1 w = b
  · obtain ⟨w, rfl⟩ := h
    rw [W3_arr]
    fin_cases w
    · exact ((dat1 (VV2 m) c).arrAt_in 0 rfl _).trans (A_eq1 (VV2 m) c 0)
    · exact ((dat1 (VV2 m) c).arrAt_in 1 rfl _).trans (A_eq1 (VV2 m) c 1)
    · exact absurd (by decide) hb
    · exact absurd (by decide) hb
  · exact W3_of_ne m c b (fun w e => h ⟨w, e⟩)

/-- After kernel region 2: its windows' arrays at what the pipeline leaves (an input as entered, an output with its write-backs folded),
    every other buffer as entered. -/
def W4 (c : Dev nD) : Valuation τ sig (Elt F) :=
  Pipeline.withArrays spec2 c (W3 m c) fun w => (dat2 (VV3 m) c).arrAt w cfg2.N
theorem W4_arr (c : Dev nD) (w : Fin cfg2.W) :
    W4 m c (Proc.devRef .tc (Pipeline.arrRef spec2 w)) = (dat2 (VV3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev VV4 : (c : Dev nD) → (b : Ref sig .tc) → Buf (Elt F) ((c : Thread nD τ).loc b) := fun c b => W4 m c b
theorem hF2 (c : Dev nD) (w : Fin cfg2.W) : (dat2 (VV3 m) c).arrAt w cfg2.N = VV4 m c (Pipeline.arrRef spec2 w) :=
  (W4_arr m c w).symm
theorem hrest2 (c : Dev nD) : ∀ b, b ∉ Finset.univ.image (Pipeline.arrRef spec2) → VV4 m c b = VV3 m c b :=
  fun b hb => W4_of_ne m c b fun w e => hb (Finset.mem_image.mpr ⟨w, Finset.mem_univ _, e⟩)
/-- The region changes only its output array: an input window's array ends as entered, a buffer no window stages is not touched. -/
theorem W4_keep (c : Dev nD) (b : Ref sig .tc) (hb : b ∉ ([main_v3] : List (Ref sig .tc))) :
    W4 m c (Proc.devRef .tc b) = W3 m c (Proc.devRef .tc b) := by
  by_cases h : ∃ w, Pipeline.arrRef spec2 w = b
  · obtain ⟨w, rfl⟩ := h
    rw [W4_arr]
    fin_cases w
    · exact ((dat2 (VV3 m) c).arrAt_in 0 rfl _).trans (A_eq2 (VV3 m) c 0)
    · exact ((dat2 (VV3 m) c).arrAt_in 1 rfl _).trans (A_eq2 (VV3 m) c 1)
    · exact absurd (by decide) hb
  · exact W4_of_ne m c b (fun w e => h ⟨w, e⟩)

/-- After kernel region 3: its windows' arrays at what the pipeline leaves (an input as entered, an output with its write-backs folded),
    every other buffer as entered. -/
def W5 (c : Dev nD) : Valuation τ sig (Elt F) :=
  Pipeline.withArrays spec3 c (W4 m c) fun w => (dat3 (VV4 m) c).arrAt w cfg3.N
theorem W5_arr (c : Dev nD) (w : Fin cfg3.W) :
    W5 m c (Proc.devRef .tc (Pipeline.arrRef spec3 w)) = (dat3 (VV4 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb
abbrev VV5 : (c : Dev nD) → (b : Ref sig .tc) → Buf (Elt F) ((c : Thread nD τ).loc b) := fun c b => W5 m c b
theorem hF3 (c : Dev nD) (w : Fin cfg3.W) : (dat3 (VV4 m) c).arrAt w cfg3.N = VV5 m c (Pipeline.arrRef spec3 w) :=
  (W5_arr m c w).symm
theorem hrest3 (c : Dev nD) : ∀ b, b ∉ Finset.univ.image (Pipeline.arrRef spec3) → VV5 m c b = VV4 m c b :=
  fun b hb => W5_of_ne m c b fun w e => hb (Finset.mem_image.mpr ⟨w, Finset.mem_univ _, e⟩)
/-- The region changes only its output array: an input window's array ends as entered, a buffer no window stages is not touched. -/
theorem W5_keep (c : Dev nD) (b : Ref sig .tc) (hb : b ∉ ([main_v4] : List (Ref sig .tc))) :
    W5 m c (Proc.devRef .tc b) = W4 m c (Proc.devRef .tc b) := by
  by_cases h : ∃ w, Pipeline.arrRef spec3 w = b
  · obtain ⟨w, rfl⟩ := h
    rw [W5_arr]
    fin_cases w
    · exact ((dat3 (VV4 m) c).arrAt_in 0 rfl _).trans (A_eq3 (VV4 m) c 0)
    · exact ((dat3 (VV4 m) c).arrAt_in 1 rfl _).trans (A_eq3 (VV4 m) c 1)
    · exact absurd (by decide) hb
  · exact W5_of_ne m c b (fun w e => h ⟨w, e⟩)

/-- After the host stretch `hostOps4`. -/
abbrev W6 : Dev nD → Valuation τ sig (Elt F) := fun c => StableHlo.after hostOps4 (W5 m c)
abbrev VV6 : (c : Dev nD) → (b : Ref sig .tc) → Buf (Elt F) ((c : Thread nD τ).loc b) := fun c b => W6 m c b
/-- The stretch writes only its own results. -/
theorem W6_keep (c : Dev nD) (b : Ref sig .tc) (hb : b ∉ hostOps4_W) : W6 m c (Proc.devRef .tc b) = W5 m c (Proc.devRef .tc b) :=
  StableHlo.after_of_writes_sub hostOps4 _ hostOps4_writes hb

/-- After kernel region 4: its windows' arrays at what the pipeline leaves (an input as entered, an output with its write-backs folded),
    every other buffer as entered. -/
def W7 (c : Dev nD) : Valuation τ sig (Elt F) :=
  Pipeline.withArrays spec4 c (W6 m c) fun w => (dat4 (VV6 m) c).arrAt w cfg4.N
theorem W7_arr (c : Dev nD) (w : Fin cfg4.W) :
    W7 m c (Proc.devRef .tc (Pipeline.arrRef spec4 w)) = (dat4 (VV6 m) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m c (Proc.devRef .tc b) = W6 m c (Proc.devRef .tc b) := by
  unfold W7; exact Pipeline.withArrays_of_ne spec4 c _ _ b hb
abbrev VV7 : (c : Dev nD) → (b : Ref sig .tc) → Buf (Elt F) ((c : Thread nD τ).loc b) := fun c b => W7 m c b
theorem hF4 (c : Dev nD) (w : Fin cfg4.W) : (dat4 (VV6 m) c).arrAt w cfg4.N = VV7 m c (Pipeline.arrRef spec4 w) :=
  (W7_arr m c w).symm
theorem hrest4 (c : Dev nD) : ∀ b, b ∉ Finset.univ.image (Pipeline.arrRef spec4) → VV7 m c b = VV6 m c b :=
  fun b hb => W7_of_ne m c b fun w e => hb (Finset.mem_image.mpr ⟨w, Finset.mem_univ _, e⟩)
/-- The region changes only its output array: an input window's array ends as entered, a buffer no window stages is not touched. -/
theorem W7_keep (c : Dev nD) (b : Ref sig .tc) (hb : b ∉ ([main_v10] : List (Ref sig .tc))) :
    W7 m c (Proc.devRef .tc b) = W6 m c (Proc.devRef .tc b) := by
  by_cases h : ∃ w, Pipeline.arrRef spec4 w = b
  · obtain ⟨w, rfl⟩ := h
    rw [W7_arr]
    fin_cases w
    · exact ((dat4 (VV6 m) c).arrAt_in 0 rfl _).trans (A_eq4 (VV6 m) c 0)
    · exact ((dat4 (VV6 m) c).arrAt_in 1 rfl _).trans (A_eq4 (VV6 m) c 1)
    · exact ((dat4 (VV6 m) c).arrAt_in 2 rfl _).trans (A_eq4 (VV6 m) c 2)
    · exact ((dat4 (VV6 m) c).arrAt_in 3 rfl _).trans (A_eq4 (VV6 m) c 3)
    · exact absurd (by decide) hb
  · exact W7_of_ne m c b (fun w e => h ⟨w, e⟩)

/-- After kernel region 5: its windows' arrays at what the pipeline leaves (an input as entered, an output with its write-backs folded),
    every other buffer as entered. -/
def W8 (c : Dev nD) : Valuation τ sig (Elt F) :=
  Pipeline.withArrays spec5 c (W7 m c) fun w => (dat5 (VV7 m) c).arrAt w cfg5.N
theorem W8_arr (c : Dev nD) (w : Fin cfg5.W) :
    W8 m c (Proc.devRef .tc (Pipeline.arrRef spec5 w)) = (dat5 (VV7 m) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 m c (Proc.devRef .tc b) = W7 m c (Proc.devRef .tc b) := by
  unfold W8; exact Pipeline.withArrays_of_ne spec5 c _ _ b hb
abbrev VV8 : (c : Dev nD) → (b : Ref sig .tc) → Buf (Elt F) ((c : Thread nD τ).loc b) := fun c b => W8 m c b
theorem hF5 (c : Dev nD) (w : Fin cfg5.W) : (dat5 (VV7 m) c).arrAt w cfg5.N = VV8 m c (Pipeline.arrRef spec5 w) :=
  (W8_arr m c w).symm
theorem hrest5 (c : Dev nD) : ∀ b, b ∉ Finset.univ.image (Pipeline.arrRef spec5) → VV8 m c b = VV7 m c b :=
  fun b hb => W8_of_ne m c b fun w e => hb (Finset.mem_image.mpr ⟨w, Finset.mem_univ _, e⟩)
/-- The region changes only its output array: an input window's array ends as entered, a buffer no window stages is not touched. -/
theorem W8_keep (c : Dev nD) (b : Ref sig .tc) (hb : b ∉ ([main_v11] : List (Ref sig .tc))) :
    W8 m c (Proc.devRef .tc b) = W7 m c (Proc.devRef .tc b) := by
  by_cases h : ∃ w, Pipeline.arrRef spec5 w = b
  · obtain ⟨w, rfl⟩ := h
    rw [W8_arr]
    fin_cases w
    · exact ((dat5 (VV7 m) c).arrAt_in 0 rfl _).trans (A_eq5 (VV7 m) c 0)
    · exact ((dat5 (VV7 m) c).arrAt_in 1 rfl _).trans (A_eq5 (VV7 m) c 1)
    · exact absurd (by decide) hb
  · exact W8_of_ne m c b (fun w e => h ⟨w, e⟩)

/-- After kernel region 6: its windows' arrays at what the pipeline leaves (an input as entered, an output with its write-backs folded),
    every other buffer as entered. -/
def W9 (c : Dev nD) : Valuation τ sig (Elt F) :=
  Pipeline.withArrays spec6 c (W8 m c) fun w => (dat6 (VV8 m) c).arrAt w cfg6.N
theorem W9_arr (c : Dev nD) (w : Fin cfg6.W) :
    W9 m c (Proc.devRef .tc (Pipeline.arrRef spec6 w)) = (dat6 (VV8 m) c).arrAt w cfg6.N := by
  unfold W9; exact Pipeline.withArrays_arr spec6 launch6.win.arr_inj c _ _ w
theorem W9_of_ne (c : Dev nD) (b : Ref sig .tc) (hb : ∀ w, Pipeline.arrRef spec6 w ≠ b) :
    W9 m c (Proc.devRef .tc b) = W8 m c (Proc.devRef .tc b) := by
  unfold W9; exact Pipeline.withArrays_of_ne spec6 c _ _ b hb
abbrev VV9 : (c : Dev nD) → (b : Ref sig .tc) → Buf (Elt F) ((c : Thread nD τ).loc b) := fun c b => W9 m c b
theorem hF6 (c : Dev nD) (w : Fin cfg6.W) : (dat6 (VV8 m) c).arrAt w cfg6.N = VV9 m c (Pipeline.arrRef spec6 w) :=
  (W9_arr m c w).symm
theorem hrest6 (c : Dev nD) : ∀ b, b ∉ Finset.univ.image (Pipeline.arrRef spec6) → VV9 m c b = VV8 m c b :=
  fun b hb => W9_of_ne m c b fun w e => hb (Finset.mem_image.mpr ⟨w, Finset.mem_univ _, e⟩)
/-- The region changes only its output array: an input window's array ends as entered, a buffer no window stages is not touched. -/
theorem W9_keep (c : Dev nD) (b : Ref sig .tc) (hb : b ∉ ([main_v12] : List (Ref sig .tc))) :
    W9 m c (Proc.devRef .tc b) = W8 m c (Proc.devRef .tc b) := by
  by_cases h : ∃ w, Pipeline.arrRef spec6 w = b
  · obtain ⟨w, rfl⟩ := h
    rw [W9_arr]
    fin_cases w
    · exact ((dat6 (VV8 m) c).arrAt_in 0 rfl _).trans (A_eq6 (VV8 m) c 0)
    · exact ((dat6 (VV8 m) c).arrAt_in 1 rfl _).trans (A_eq6 (VV8 m) c 1)
    · exact absurd (by decide) hb
  · exact W9_of_ne m c b (fun w e => h ⟨w, e⟩)

/-- After kernel region 7: its windows' arrays at what the pipeline leaves (an input as entered, an output with its write-backs folded),
    every other buffer as entered. -/
def W10 (c : Dev nD) : Valuation τ sig (Elt F) :=
  Pipeline.withArrays spec7 c (W9 m c) fun w => (dat7 (VV9 m) c).arrAt w cfg7.N
theorem W10_arr (c : Dev nD) (w : Fin cfg7.W) :
    W10 m c (Proc.devRef .tc (Pipeline.arrRef spec7 w)) = (dat7 (VV9 m) c).arrAt w cfg7.N := by
  unfold W10; exact Pipeline.withArrays_arr spec7 launch7.win.arr_inj c _ _ w
theorem W10_of_ne (c : Dev nD) (b : Ref sig .tc) (hb : ∀ w, Pipeline.arrRef spec7 w ≠ b) :
    W10 m c (Proc.devRef .tc b) = W9 m c (Proc.devRef .tc b) := by
  unfold W10; exact Pipeline.withArrays_of_ne spec7 c _ _ b hb
abbrev VV10 : (c : Dev nD) → (b : Ref sig .tc) → Buf (Elt F) ((c : Thread nD τ).loc b) := fun c b => W10 m c b
theorem hF7 (c : Dev nD) (w : Fin cfg7.W) : (dat7 (VV9 m) c).arrAt w cfg7.N = VV10 m c (Pipeline.arrRef spec7 w) :=
  (W10_arr m c w).symm
theorem hrest7 (c : Dev nD) : ∀ b, b ∉ Finset.univ.image (Pipeline.arrRef spec7) → VV10 m c b = VV9 m c b :=
  fun b hb => W10_of_ne m c b fun w e => hb (Finset.mem_image.mpr ⟨w, Finset.mem_univ _, e⟩)
/-- The region changes only its output array: an input window's array ends as entered, a buffer no window stages is not touched. -/
theorem W10_keep (c : Dev nD) (b : Ref sig .tc) (hb : b ∉ ([main_v13] : List (Ref sig .tc))) :
    W10 m c (Proc.devRef .tc b) = W9 m c (Proc.devRef .tc b) := by
  by_cases h : ∃ w, Pipeline.arrRef spec7 w = b
  · obtain ⟨w, rfl⟩ := h
    rw [W10_arr]
    fin_cases w
    · exact ((dat7 (VV9 m) c).arrAt_in 0 rfl _).trans (A_eq7 (VV9 m) c 0)
    · exact ((dat7 (VV9 m) c).arrAt_in 1 rfl _).trans (A_eq7 (VV9 m) c 1)
    · exact absurd (by decide) hb
  · exact W10_of_ne m c b (fun w e => h ⟨w, e⟩)

/-- After the host stretch `hostOps8`. -/
abbrev W11 : Dev nD → Valuation τ sig (Elt F) := fun c => StableHlo.after hostOps8 (W10 m c)
abbrev VV11 : (c : Dev nD) → (b : Ref sig .tc) → Buf (Elt F) ((c : Thread nD τ).loc b) := fun c b => W11 m c b
/-- The stretch writes only its own results. -/
theorem W11_keep (c : Dev nD) (b : Ref sig .tc) (hb : b ∉ hostOps8_W) : W11 m c (Proc.devRef .tc b) = W10 m c (Proc.devRef .tc b) :=
  StableHlo.after_of_writes_sub hostOps8 _ hostOps8_writes hb

/-- After kernel region 8: its windows' arrays at what the pipeline leaves (an input as entered, an output with its write-backs folded),
    every other buffer as entered. -/
def W12 (c : Dev nD) : Valuation τ sig (Elt F) :=
  Pipeline.withArrays spec8 c (W11 m c) fun w => (dat8 (VV11 m) c).arrAt w cfg8.N
theorem W12_arr (c : Dev nD) (w : Fin cfg8.W) :
    W12 m c (Proc.devRef .tc (Pipeline.arrRef spec8 w)) = (dat8 (VV11 m) c).arrAt w cfg8.N := by
  unfold W12; exact Pipeline.withArrays_arr spec8 launch8.win.arr_inj c _ _ w
theorem W12_of_ne (c : Dev nD) (b : Ref sig .tc) (hb : ∀ w, Pipeline.arrRef spec8 w ≠ b) :
    W12 m c (Proc.devRef .tc b) = W11 m c (Proc.devRef .tc b) := by
  unfold W12; exact Pipeline.withArrays_of_ne spec8 c _ _ b hb
abbrev VV12 : (c : Dev nD) → (b : Ref sig .tc) → Buf (Elt F) ((c : Thread nD τ).loc b) := fun c b => W12 m c b
theorem hF8 (c : Dev nD) (w : Fin cfg8.W) : (dat8 (VV11 m) c).arrAt w cfg8.N = VV12 m c (Pipeline.arrRef spec8 w) :=
  (W12_arr m c w).symm
theorem hrest8 (c : Dev nD) : ∀ b, b ∉ Finset.univ.image (Pipeline.arrRef spec8) → VV12 m c b = VV11 m c b :=
  fun b hb => W12_of_ne m c b fun w e => hb (Finset.mem_image.mpr ⟨w, Finset.mem_univ _, e⟩)
/-- The region changes only its output array: an input window's array ends as entered, a buffer no window stages is not touched. -/
theorem W12_keep (c : Dev nD) (b : Ref sig .tc) (hb : b ∉ ([main_v19] : List (Ref sig .tc))) :
    W12 m c (Proc.devRef .tc b) = W11 m c (Proc.devRef .tc b) := by
  by_cases h : ∃ w, Pipeline.arrRef spec8 w = b
  · obtain ⟨w, rfl⟩ := h
    rw [W12_arr]
    fin_cases w
    · exact ((dat8 (VV11 m) c).arrAt_in 0 rfl _).trans (A_eq8 (VV11 m) c 0)
    · exact ((dat8 (VV11 m) c).arrAt_in 1 rfl _).trans (A_eq8 (VV11 m) c 1)
    · exact ((dat8 (VV11 m) c).arrAt_in 2 rfl _).trans (A_eq8 (VV11 m) c 2)
    · exact ((dat8 (VV11 m) c).arrAt_in 3 rfl _).trans (A_eq8 (VV11 m) c 3)
    · exact absurd (by decide) hb
  · exact W12_of_ne m c b (fun w e => h ⟨w, e⟩)

/-! ## No segment writes an argument: at every boundary each argument's buffer is as launched -/

theorem W0_main_arg0 (c : Dev nD) : W0 m c (Proc.devRef .tc main_arg0) = m ((c : Thread nD τ).loc main_arg0) := rfl
theorem W1_main_arg0 (c : Dev nD) : W1 m c (Proc.devRef .tc main_arg0) = m ((c : Thread nD τ).loc main_arg0) :=
  (W1_keep m c main_arg0 (by decide)).trans (W0_main_arg0 m c)
theorem W2_main_arg0 (c : Dev nD) : W2 m c (Proc.devRef .tc main_arg0) = m ((c : Thread nD τ).loc main_arg0) :=
  (W2_keep m c main_arg0 (by decide)).trans (W1_main_arg0 m c)
theorem W3_main_arg0 (c : Dev nD) : W3 m c (Proc.devRef .tc main_arg0) = m ((c : Thread nD τ).loc main_arg0) :=
  (W3_keep m c main_arg0 (by decide)).trans (W2_main_arg0 m c)
theorem W4_main_arg0 (c : Dev nD) : W4 m c (Proc.devRef .tc main_arg0) = m ((c : Thread nD τ).loc main_arg0) :=
  (W4_keep m c main_arg0 (by decide)).trans (W3_main_arg0 m c)
theorem W5_main_arg0 (c : Dev nD) : W5 m c (Proc.devRef .tc main_arg0) = m ((c : Thread nD τ).loc main_arg0) :=
  (W5_keep m c main_arg0 (by decide)).trans (W4_main_arg0 m c)
theorem W6_main_arg0 (c : Dev nD) : W6 m c (Proc.devRef .tc main_arg0) = m ((c : Thread nD τ).loc main_arg0) :=
  (W6_keep m c main_arg0 (by decide)).trans (W5_main_arg0 m c)
theorem W7_main_arg0 (c : Dev nD) : W7 m c (Proc.devRef .tc main_arg0) = m ((c : Thread nD τ).loc main_arg0) :=
  (W7_keep m c main_arg0 (by decide)).trans (W6_main_arg0 m c)
theorem W8_main_arg0 (c : Dev nD) : W8 m c (Proc.devRef .tc main_arg0) = m ((c : Thread nD τ).loc main_arg0) :=
  (W8_keep m c main_arg0 (by decide)).trans (W7_main_arg0 m c)
theorem W9_main_arg0 (c : Dev nD) : W9 m c (Proc.devRef .tc main_arg0) = m ((c : Thread nD τ).loc main_arg0) :=
  (W9_keep m c main_arg0 (by decide)).trans (W8_main_arg0 m c)
theorem W10_main_arg0 (c : Dev nD) : W10 m c (Proc.devRef .tc main_arg0) = m ((c : Thread nD τ).loc main_arg0) :=
  (W10_keep m c main_arg0 (by decide)).trans (W9_main_arg0 m c)
theorem W11_main_arg0 (c : Dev nD) : W11 m c (Proc.devRef .tc main_arg0) = m ((c : Thread nD τ).loc main_arg0) :=
  (W11_keep m c main_arg0 (by decide)).trans (W10_main_arg0 m c)
theorem W12_main_arg0 (c : Dev nD) : W12 m c (Proc.devRef .tc main_arg0) = m ((c : Thread nD τ).loc main_arg0) :=
  (W12_keep m c main_arg0 (by decide)).trans (W11_main_arg0 m c)

theorem W0_main_arg1 (c : Dev nD) : W0 m c (Proc.devRef .tc main_arg1) = m ((c : Thread nD τ).loc main_arg1) := rfl
theorem W1_main_arg1 (c : Dev nD) : W1 m c (Proc.devRef .tc main_arg1) = m ((c : Thread nD τ).loc main_arg1) :=
  (W1_keep m c main_arg1 (by decide)).trans (W0_main_arg1 m c)
theorem W2_main_arg1 (c : Dev nD) : W2 m c (Proc.devRef .tc main_arg1) = m ((c : Thread nD τ).loc main_arg1) :=
  (W2_keep m c main_arg1 (by decide)).trans (W1_main_arg1 m c)
theorem W3_main_arg1 (c : Dev nD) : W3 m c (Proc.devRef .tc main_arg1) = m ((c : Thread nD τ).loc main_arg1) :=
  (W3_keep m c main_arg1 (by decide)).trans (W2_main_arg1 m c)
theorem W4_main_arg1 (c : Dev nD) : W4 m c (Proc.devRef .tc main_arg1) = m ((c : Thread nD τ).loc main_arg1) :=
  (W4_keep m c main_arg1 (by decide)).trans (W3_main_arg1 m c)
theorem W5_main_arg1 (c : Dev nD) : W5 m c (Proc.devRef .tc main_arg1) = m ((c : Thread nD τ).loc main_arg1) :=
  (W5_keep m c main_arg1 (by decide)).trans (W4_main_arg1 m c)
theorem W6_main_arg1 (c : Dev nD) : W6 m c (Proc.devRef .tc main_arg1) = m ((c : Thread nD τ).loc main_arg1) :=
  (W6_keep m c main_arg1 (by decide)).trans (W5_main_arg1 m c)
theorem W7_main_arg1 (c : Dev nD) : W7 m c (Proc.devRef .tc main_arg1) = m ((c : Thread nD τ).loc main_arg1) :=
  (W7_keep m c main_arg1 (by decide)).trans (W6_main_arg1 m c)
theorem W8_main_arg1 (c : Dev nD) : W8 m c (Proc.devRef .tc main_arg1) = m ((c : Thread nD τ).loc main_arg1) :=
  (W8_keep m c main_arg1 (by decide)).trans (W7_main_arg1 m c)
theorem W9_main_arg1 (c : Dev nD) : W9 m c (Proc.devRef .tc main_arg1) = m ((c : Thread nD τ).loc main_arg1) :=
  (W9_keep m c main_arg1 (by decide)).trans (W8_main_arg1 m c)
theorem W10_main_arg1 (c : Dev nD) : W10 m c (Proc.devRef .tc main_arg1) = m ((c : Thread nD τ).loc main_arg1) :=
  (W10_keep m c main_arg1 (by decide)).trans (W9_main_arg1 m c)
theorem W11_main_arg1 (c : Dev nD) : W11 m c (Proc.devRef .tc main_arg1) = m ((c : Thread nD τ).loc main_arg1) :=
  (W11_keep m c main_arg1 (by decide)).trans (W10_main_arg1 m c)
theorem W12_main_arg1 (c : Dev nD) : W12 m c (Proc.devRef .tc main_arg1) = m ((c : Thread nD τ).loc main_arg1) :=
  (W12_keep m c main_arg1 (by decide)).trans (W11_main_arg1 m c)

theorem W0_main_arg2 (c : Dev nD) : W0 m c (Proc.devRef .tc main_arg2) = m ((c : Thread nD τ).loc main_arg2) := rfl
theorem W1_main_arg2 (c : Dev nD) : W1 m c (Proc.devRef .tc main_arg2) = m ((c : Thread nD τ).loc main_arg2) :=
  (W1_keep m c main_arg2 (by decide)).trans (W0_main_arg2 m c)
theorem W2_main_arg2 (c : Dev nD) : W2 m c (Proc.devRef .tc main_arg2) = m ((c : Thread nD τ).loc main_arg2) :=
  (W2_keep m c main_arg2 (by decide)).trans (W1_main_arg2 m c)
theorem W3_main_arg2 (c : Dev nD) : W3 m c (Proc.devRef .tc main_arg2) = m ((c : Thread nD τ).loc main_arg2) :=
  (W3_keep m c main_arg2 (by decide)).trans (W2_main_arg2 m c)
theorem W4_main_arg2 (c : Dev nD) : W4 m c (Proc.devRef .tc main_arg2) = m ((c : Thread nD τ).loc main_arg2) :=
  (W4_keep m c main_arg2 (by decide)).trans (W3_main_arg2 m c)
theorem W5_main_arg2 (c : Dev nD) : W5 m c (Proc.devRef .tc main_arg2) = m ((c : Thread nD τ).loc main_arg2) :=
  (W5_keep m c main_arg2 (by decide)).trans (W4_main_arg2 m c)
theorem W6_main_arg2 (c : Dev nD) : W6 m c (Proc.devRef .tc main_arg2) = m ((c : Thread nD τ).loc main_arg2) :=
  (W6_keep m c main_arg2 (by decide)).trans (W5_main_arg2 m c)
theorem W7_main_arg2 (c : Dev nD) : W7 m c (Proc.devRef .tc main_arg2) = m ((c : Thread nD τ).loc main_arg2) :=
  (W7_keep m c main_arg2 (by decide)).trans (W6_main_arg2 m c)
theorem W8_main_arg2 (c : Dev nD) : W8 m c (Proc.devRef .tc main_arg2) = m ((c : Thread nD τ).loc main_arg2) :=
  (W8_keep m c main_arg2 (by decide)).trans (W7_main_arg2 m c)
theorem W9_main_arg2 (c : Dev nD) : W9 m c (Proc.devRef .tc main_arg2) = m ((c : Thread nD τ).loc main_arg2) :=
  (W9_keep m c main_arg2 (by decide)).trans (W8_main_arg2 m c)
theorem W10_main_arg2 (c : Dev nD) : W10 m c (Proc.devRef .tc main_arg2) = m ((c : Thread nD τ).loc main_arg2) :=
  (W10_keep m c main_arg2 (by decide)).trans (W9_main_arg2 m c)
theorem W11_main_arg2 (c : Dev nD) : W11 m c (Proc.devRef .tc main_arg2) = m ((c : Thread nD τ).loc main_arg2) :=
  (W11_keep m c main_arg2 (by decide)).trans (W10_main_arg2 m c)
theorem W12_main_arg2 (c : Dev nD) : W12 m c (Proc.devRef .tc main_arg2) = m ((c : Thread nD τ).loc main_arg2) :=
  (W12_keep m c main_arg2 (by decide)).trans (W11_main_arg2 m c)

theorem W0_main_arg3 (c : Dev nD) : W0 m c (Proc.devRef .tc main_arg3) = m ((c : Thread nD τ).loc main_arg3) := rfl
theorem W1_main_arg3 (c : Dev nD) : W1 m c (Proc.devRef .tc main_arg3) = m ((c : Thread nD τ).loc main_arg3) :=
  (W1_keep m c main_arg3 (by decide)).trans (W0_main_arg3 m c)
theorem W2_main_arg3 (c : Dev nD) : W2 m c (Proc.devRef .tc main_arg3) = m ((c : Thread nD τ).loc main_arg3) :=
  (W2_keep m c main_arg3 (by decide)).trans (W1_main_arg3 m c)
theorem W3_main_arg3 (c : Dev nD) : W3 m c (Proc.devRef .tc main_arg3) = m ((c : Thread nD τ).loc main_arg3) :=
  (W3_keep m c main_arg3 (by decide)).trans (W2_main_arg3 m c)
theorem W4_main_arg3 (c : Dev nD) : W4 m c (Proc.devRef .tc main_arg3) = m ((c : Thread nD τ).loc main_arg3) :=
  (W4_keep m c main_arg3 (by decide)).trans (W3_main_arg3 m c)
theorem W5_main_arg3 (c : Dev nD) : W5 m c (Proc.devRef .tc main_arg3) = m ((c : Thread nD τ).loc main_arg3) :=
  (W5_keep m c main_arg3 (by decide)).trans (W4_main_arg3 m c)
theorem W6_main_arg3 (c : Dev nD) : W6 m c (Proc.devRef .tc main_arg3) = m ((c : Thread nD τ).loc main_arg3) :=
  (W6_keep m c main_arg3 (by decide)).trans (W5_main_arg3 m c)
theorem W7_main_arg3 (c : Dev nD) : W7 m c (Proc.devRef .tc main_arg3) = m ((c : Thread nD τ).loc main_arg3) :=
  (W7_keep m c main_arg3 (by decide)).trans (W6_main_arg3 m c)
theorem W8_main_arg3 (c : Dev nD) : W8 m c (Proc.devRef .tc main_arg3) = m ((c : Thread nD τ).loc main_arg3) :=
  (W8_keep m c main_arg3 (by decide)).trans (W7_main_arg3 m c)
theorem W9_main_arg3 (c : Dev nD) : W9 m c (Proc.devRef .tc main_arg3) = m ((c : Thread nD τ).loc main_arg3) :=
  (W9_keep m c main_arg3 (by decide)).trans (W8_main_arg3 m c)
theorem W10_main_arg3 (c : Dev nD) : W10 m c (Proc.devRef .tc main_arg3) = m ((c : Thread nD τ).loc main_arg3) :=
  (W10_keep m c main_arg3 (by decide)).trans (W9_main_arg3 m c)
theorem W11_main_arg3 (c : Dev nD) : W11 m c (Proc.devRef .tc main_arg3) = m ((c : Thread nD τ).loc main_arg3) :=
  (W11_keep m c main_arg3 (by decide)).trans (W10_main_arg3 m c)
theorem W12_main_arg3 (c : Dev nD) : W12 m c (Proc.devRef .tc main_arg3) = m ((c : Thread nD τ).loc main_arg3) :=
  (W12_keep m c main_arg3 (by decide)).trans (W11_main_arg3 m c)

theorem W0_main_arg4 (c : Dev nD) : W0 m c (Proc.devRef .tc main_arg4) = m ((c : Thread nD τ).loc main_arg4) := rfl
theorem W1_main_arg4 (c : Dev nD) : W1 m c (Proc.devRef .tc main_arg4) = m ((c : Thread nD τ).loc main_arg4) :=
  (W1_keep m c main_arg4 (by decide)).trans (W0_main_arg4 m c)
theorem W2_main_arg4 (c : Dev nD) : W2 m c (Proc.devRef .tc main_arg4) = m ((c : Thread nD τ).loc main_arg4) :=
  (W2_keep m c main_arg4 (by decide)).trans (W1_main_arg4 m c)
theorem W3_main_arg4 (c : Dev nD) : W3 m c (Proc.devRef .tc main_arg4) = m ((c : Thread nD τ).loc main_arg4) :=
  (W3_keep m c main_arg4 (by decide)).trans (W2_main_arg4 m c)
theorem W4_main_arg4 (c : Dev nD) : W4 m c (Proc.devRef .tc main_arg4) = m ((c : Thread nD τ).loc main_arg4) :=
  (W4_keep m c main_arg4 (by decide)).trans (W3_main_arg4 m c)
theorem W5_main_arg4 (c : Dev nD) : W5 m c (Proc.devRef .tc main_arg4) = m ((c : Thread nD τ).loc main_arg4) :=
  (W5_keep m c main_arg4 (by decide)).trans (W4_main_arg4 m c)
theorem W6_main_arg4 (c : Dev nD) : W6 m c (Proc.devRef .tc main_arg4) = m ((c : Thread nD τ).loc main_arg4) :=
  (W6_keep m c main_arg4 (by decide)).trans (W5_main_arg4 m c)
theorem W7_main_arg4 (c : Dev nD) : W7 m c (Proc.devRef .tc main_arg4) = m ((c : Thread nD τ).loc main_arg4) :=
  (W7_keep m c main_arg4 (by decide)).trans (W6_main_arg4 m c)
theorem W8_main_arg4 (c : Dev nD) : W8 m c (Proc.devRef .tc main_arg4) = m ((c : Thread nD τ).loc main_arg4) :=
  (W8_keep m c main_arg4 (by decide)).trans (W7_main_arg4 m c)
theorem W9_main_arg4 (c : Dev nD) : W9 m c (Proc.devRef .tc main_arg4) = m ((c : Thread nD τ).loc main_arg4) :=
  (W9_keep m c main_arg4 (by decide)).trans (W8_main_arg4 m c)
theorem W10_main_arg4 (c : Dev nD) : W10 m c (Proc.devRef .tc main_arg4) = m ((c : Thread nD τ).loc main_arg4) :=
  (W10_keep m c main_arg4 (by decide)).trans (W9_main_arg4 m c)
theorem W11_main_arg4 (c : Dev nD) : W11 m c (Proc.devRef .tc main_arg4) = m ((c : Thread nD τ).loc main_arg4) :=
  (W11_keep m c main_arg4 (by decide)).trans (W10_main_arg4 m c)
theorem W12_main_arg4 (c : Dev nD) : W12 m c (Proc.devRef .tc main_arg4) = m ((c : Thread nD τ).loc main_arg4) :=
  (W12_keep m c main_arg4 (by decide)).trans (W11_main_arg4 m c)

theorem W0_main_arg5 (c : Dev nD) : W0 m c (Proc.devRef .tc main_arg5) = m ((c : Thread nD τ).loc main_arg5) := rfl
theorem W1_main_arg5 (c : Dev nD) : W1 m c (Proc.devRef .tc main_arg5) = m ((c : Thread nD τ).loc main_arg5) :=
  (W1_keep m c main_arg5 (by decide)).trans (W0_main_arg5 m c)
theorem W2_main_arg5 (c : Dev nD) : W2 m c (Proc.devRef .tc main_arg5) = m ((c : Thread nD τ).loc main_arg5) :=
  (W2_keep m c main_arg5 (by decide)).trans (W1_main_arg5 m c)
theorem W3_main_arg5 (c : Dev nD) : W3 m c (Proc.devRef .tc main_arg5) = m ((c : Thread nD τ).loc main_arg5) :=
  (W3_keep m c main_arg5 (by decide)).trans (W2_main_arg5 m c)
theorem W4_main_arg5 (c : Dev nD) : W4 m c (Proc.devRef .tc main_arg5) = m ((c : Thread nD τ).loc main_arg5) :=
  (W4_keep m c main_arg5 (by decide)).trans (W3_main_arg5 m c)
theorem W5_main_arg5 (c : Dev nD) : W5 m c (Proc.devRef .tc main_arg5) = m ((c : Thread nD τ).loc main_arg5) :=
  (W5_keep m c main_arg5 (by decide)).trans (W4_main_arg5 m c)
theorem W6_main_arg5 (c : Dev nD) : W6 m c (Proc.devRef .tc main_arg5) = m ((c : Thread nD τ).loc main_arg5) :=
  (W6_keep m c main_arg5 (by decide)).trans (W5_main_arg5 m c)
theorem W7_main_arg5 (c : Dev nD) : W7 m c (Proc.devRef .tc main_arg5) = m ((c : Thread nD τ).loc main_arg5) :=
  (W7_keep m c main_arg5 (by decide)).trans (W6_main_arg5 m c)
theorem W8_main_arg5 (c : Dev nD) : W8 m c (Proc.devRef .tc main_arg5) = m ((c : Thread nD τ).loc main_arg5) :=
  (W8_keep m c main_arg5 (by decide)).trans (W7_main_arg5 m c)
theorem W9_main_arg5 (c : Dev nD) : W9 m c (Proc.devRef .tc main_arg5) = m ((c : Thread nD τ).loc main_arg5) :=
  (W9_keep m c main_arg5 (by decide)).trans (W8_main_arg5 m c)
theorem W10_main_arg5 (c : Dev nD) : W10 m c (Proc.devRef .tc main_arg5) = m ((c : Thread nD τ).loc main_arg5) :=
  (W10_keep m c main_arg5 (by decide)).trans (W9_main_arg5 m c)
theorem W11_main_arg5 (c : Dev nD) : W11 m c (Proc.devRef .tc main_arg5) = m ((c : Thread nD τ).loc main_arg5) :=
  (W11_keep m c main_arg5 (by decide)).trans (W10_main_arg5 m c)
theorem W12_main_arg5 (c : Dev nD) : W12 m c (Proc.devRef .tc main_arg5) = m ((c : Thread nD τ).loc main_arg5) :=
  (W12_keep m c main_arg5 (by decide)).trans (W11_main_arg5 m c)

/-- The prefetched tables' admissible contents: no pipeline has a table. -/
abbrev admH : (p : Fin 9) → (pcfgs (F := F) p).Adm := fun p => (cfgs p).toPCfg_adm
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the core's generator register at some state and its `owes`, at nothing. -/
abbrev RH (c : Dev nD) : sProp 𝕄 := iprop((∃ r, prngReg c r) ∗ ∃ W, owes (c : Thread nD τ) (0 : CellTallies nD τ sig Unit) W)

/-- Every pipeline's proof data, each at its region's entry contents — a literal match on the pipeline, so that the launch theorem's
    pinned configuration at a numeral reduces to the printed one. -/
def pdats : (p : Fin 9) → (c : Dev nD) → Dat τ (Elt F) Unit ℕ (UR sig nD τ) ℕ (Pipeline.pin (pcfgs (F := F)) admH p) c
  | ⟨0, _⟩ => fun c => dat0 (VV1 m) c
  | ⟨1, _⟩ => fun c => dat1 (VV2 m) c
  | ⟨2, _⟩ => fun c => dat2 (VV3 m) c
  | ⟨3, _⟩ => fun c => dat3 (VV4 m) c
  | ⟨4, _⟩ => fun c => dat4 (VV6 m) c
  | ⟨5, _⟩ => fun c => dat5 (VV7 m) c
  | ⟨6, _⟩ => fun c => dat6 (VV8 m) c
  | ⟨7, _⟩ => fun c => dat7 (VV9 m) c
  | ⟨8, _⟩ => fun c => dat8 (VV11 m) c

/-- A host stretch as a segment over the unscoped references from the contents `W`, `RH` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.HandK.Reg0.lean ====
/-
  Kernel region 0 as a segment of @main over the thread state "every unscoped buffer at the boundary's contents".
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Chain
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 0 over the thread state: entered with every unscoped buffer at the contents before it, left with them at the
    contents after it; its windows' arrays are split out of the unscoped buffers and put back at what the pipeline leaves; its scratch
    comes out of the scoped rest into the invariant and goes back; nothing is owed; the kernel has no semaphore of its own. -/
def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X _ := BI.emp
  Y _ := BI.emp
  Z c := iprop(Pipeline.unscopedRest (Ix := Unit) (Name := ℕ) (U := UR sig nD τ) (Lvl := ℕ) spec0 c (VV1 m c) ∗ ∃ r, prngReg c r)
  hentry c := by
    rw [Pipeline.ownSems0_none]
    have hsplit := Pipeline.arrays_of_unscopedBufs (p := 0) (pcfgs (F := F)) admH (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Phi0 (VV1 m) c 0 from rfl]
    iintro ⟨-, -, Hr⟩
    iapply (hin0 (VV1 m) c); iexact Hr
  hout c := by
    rw [Pipeline.ownSems0_none, show (pdats m 0 c).Φ (Fin.last _) = Phi0 (VV1 m) c cfg0.N from rfl]
    iintro H
    isplitr; · iempintro
    isplitr; · iempintro
    iapply (hout0 (VV1 m) c _); iexact H
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (VV1 m c) (fun b => W2 m c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.HandK.Reg1.lean ====
/-
  Kernel region 1 as a segment of @main over the thread state "every unscoped buffer at the boundary's contents".
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Chain
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 1 over the thread state: entered with every unscoped buffer at the contents before it, left with them at the
    contents after it; its windows' arrays are split out of the unscoped buffers and put back at what the pipeline leaves; its scratch
    comes out of the scoped rest into the invariant and goes back; nothing is owed; the kernel has no semaphore of its own. -/
def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(StableHlo.held (c : Thread nD τ) (Pipeline.ucRefs τ sig) (W3 m c) ∗ RH c)
  X _ := BI.emp
  Y _ := BI.emp
  Z c := iprop(Pipeline.unscopedRest (Ix := Unit) (Name := ℕ) (U := UR sig nD τ) (Lvl := ℕ) spec1 c (VV2 m c) ∗ ∃ r, prngReg c r)
  hentry c := by
    rw [Pipeline.ownSems0_none]
    have hsplit := Pipeline.arrays_of_unscopedBufs (p := 1) (pcfgs (F := F)) admH (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Phi1 (VV2 m) c 0 from rfl]
    iintro ⟨-, -, Hr⟩
    iapply (hin1 (VV2 m) c); iexact Hr
  hout c := by
    rw [Pipeline.ownSems0_none, show (pdats m 1 c).Φ (Fin.last _) = Phi1 (VV2 m) c cfg1.N from rfl]
    iintro H
    isplitr; · iempintro
    isplitr; · iempintro
    iapply (hout1 (VV2 m) c _); iexact H
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (VV2 m c) (fun b => W3 m c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.HandK.Reg2.lean ====
/-
  Kernel region 2 as a segment of @main over the thread state "every unscoped buffer at the boundary's contents".
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Chain
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 2 over the thread state: entered with every unscoped buffer at the contents before it, left with them at the
    contents after it; its windows' arrays are split out of the unscoped buffers and put back at what the pipeline leaves; its scratch
    comes out of the scoped rest into the invariant and goes back; nothing is owed; the kernel has no semaphore of its own. -/
def reg2 : Pipeline.RegionSeg (pcfgs (F := F)) admH (pdats m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (VV3 m) c).loose
  hwaits := Pipeline.hwaits_of_owed_zero _ _ _ _ LH lvH 2 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X _ := BI.emp
  Y _ := BI.emp
  Z c := iprop(Pipeline.unscopedRest (Ix := Unit) (Name := ℕ) (U := UR sig nD τ) (Lvl := ℕ) spec2 c (VV3 m c) ∗ ∃ r, prngReg c r)
  hentry c := by
    rw [Pipeline.ownSems0_none]
    have hsplit := Pipeline.arrays_of_unscopedBufs (p := 2) (pcfgs (F := F)) admH (pdats m) launch2.win launch2.arr_whole c
      ((pdats m 2 c).share_full fun _ => rfl) (VV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = Phi2 (VV3 m) c 0 from rfl]
    iintro ⟨-, -, Hr⟩
    iapply (hin2 (VV3 m) c); iexact Hr
  hout c := by
    rw [Pipeline.ownSems0_none, show (pdats m 2 c).Φ (Fin.last _) = Phi2 (VV3 m) c cfg2.N from rfl]
    iintro H
    isplitr; · iempintro
    isplitr; · iempintro
    iapply (hout2 (VV3 m) c _); iexact H
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (VV3 m c) (fun b => W4 m c b) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.HandK.Reg3.lean ====
/-
  Kernel region 3 as a segment of @main over the thread state "every unscoped buffer at the boundary's contents".
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Chain
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 3 over the thread state: entered with every unscoped buffer at the contents before it, left with them at the
    contents after it; its windows' arrays are split out of the unscoped buffers and put back at what the pipeline leaves; its scratch
    comes out of the scoped rest into the invariant and goes back; nothing is owed; the kernel has no semaphore of its own. -/
def reg3 : Pipeline.RegionSeg (pcfgs (F := F)) admH (pdats m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (VV4 m) c).loose
  hwaits := Pipeline.hwaits_of_owed_zero _ _ _ _ LH lvH 3 fun _ _ => rfl
  pre c := iprop(StableHlo.held (c : Thread nD τ) (Pipeline.ucRefs τ sig) (W4 m c) ∗ RH c)
  post c := iprop(StableHlo.held (c : Thread nD τ) (Pipeline.ucRefs τ sig) (W5 m c) ∗ RH c)
  X _ := BI.emp
  Y _ := BI.emp
  Z c := iprop(Pipeline.unscopedRest (Ix := Unit) (Name := ℕ) (U := UR sig nD τ) (Lvl := ℕ) spec3 c (VV4 m c) ∗ ∃ r, prngReg c r)
  hentry c := by
    rw [Pipeline.ownSems0_none]
    have hsplit := Pipeline.arrays_of_unscopedBufs (p := 3) (pcfgs (F := F)) admH (pdats m) launch3.win launch3.arr_whole c
      ((pdats m 3 c).share_full fun _ => rfl) (VV4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 3 c).Φ 0 = Phi3 (VV4 m) c 0 from rfl]
    iintro ⟨-, -, Hr⟩
    iapply (hin3 (VV4 m) c); iexact Hr
  hout c := by
    rw [Pipeline.ownSems0_none, show (pdats m 3 c).Φ (Fin.last _) = Phi3 (VV4 m) c cfg3.N from rfl]
    iintro H
    isplitr; · iempintro
    isplitr; · iempintro
    iapply (hout3 (VV4 m) c _); iexact H
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (VV4 m c) (fun b => W5 m c b) ((pdats m 3 c).arrAt · cfg3.N) (hF3 m c) (hrest3 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.HandK.Reg4.lean ====
/-
  Kernel region 4 as a segment of @main over the thread state "every unscoped buffer at the boundary's contents".
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Chain
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 4 over the thread state: entered with every unscoped buffer at the contents before it, left with them at the
    contents after it; its windows' arrays are split out of the unscoped buffers and put back at what the pipeline leaves; its scratch
    comes out of the scoped rest into the invariant and goes back; nothing is owed; the kernel has no semaphore of its own. -/
def reg4 : Pipeline.RegionSeg (pcfgs (F := F)) admH (pdats m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (VV6 m) c).loose
  hwaits := Pipeline.hwaits_of_owed_zero _ _ _ _ LH lvH 4 fun _ _ => rfl
  pre c := iprop(StableHlo.held (c : Thread nD τ) (Pipeline.ucRefs τ sig) (W6 m c) ∗ RH c)
  post c := iprop(StableHlo.held (c : Thread nD τ) (Pipeline.ucRefs τ sig) (W7 m c) ∗ RH c)
  X _ := BI.emp
  Y _ := BI.emp
  Z c := iprop(Pipeline.unscopedRest (Ix := Unit) (Name := ℕ) (U := UR sig nD τ) (Lvl := ℕ) spec4 c (VV6 m c) ∗ ∃ r, prngReg c r)
  hentry c := by
    rw [Pipeline.ownSems0_none]
    have hsplit := Pipeline.arrays_of_unscopedBufs (p := 4) (pcfgs (F := F)) admH (pdats m) launch4.win launch4.arr_whole c
      ((pdats m 4 c).share_full fun _ => rfl) (VV6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 4 c).Φ 0 = Phi4 (VV6 m) c 0 from rfl]
    iintro ⟨-, -, Hr⟩
    iapply (hin4 (VV6 m) c); iexact Hr
  hout c := by
    rw [Pipeline.ownSems0_none, show (pdats m 4 c).Φ (Fin.last _) = Phi4 (VV6 m) c cfg4.N from rfl]
    iintro H
    isplitr; · iempintro
    isplitr; · iempintro
    iapply (hout4 (VV6 m) c _); iexact H
  hexit c := by
    have hjoin := Pipeline.unscopedBufs_of_arrays (p := 4) (pcfgs (F := F)) admH (Ix := Unit) (Name := ℕ) (U := UR sig nD τ) (Lvl := ℕ)
      launch4.win launch4.arr_whole c (pdats m) ((pdats m 4 c).share_full fun _ => rfl)
      (VV6 m c) (fun b => W7 m c b) ((pdats m 4 c).arrAt · cfg4.N) (hF4 m c) (hrest4 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.HandK.Reg5.lean ====
/-
  Kernel region 5 as a segment of @main over the thread state "every unscoped buffer at the boundary's contents".
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Chain
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 5 over the thread state: entered with every unscoped buffer at the contents before it, left with them at the
    contents after it; its windows' arrays are split out of the unscoped buffers and put back at what the pipeline leaves; its scratch
    comes out of the scoped rest into the invariant and goes back; nothing is owed; the kernel has no semaphore of its own. -/
def reg5 : Pipeline.RegionSeg (pcfgs (F := F)) admH (pdats m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (VV7 m) c).loose
  hwaits := Pipeline.hwaits_of_owed_zero _ _ _ _ LH lvH 5 fun _ _ => rfl
  pre c := iprop(StableHlo.held (c : Thread nD τ) (Pipeline.ucRefs τ sig) (W7 m c) ∗ RH c)
  post c := iprop(StableHlo.held (c : Thread nD τ) (Pipeline.ucRefs τ sig) (W8 m c) ∗ RH c)
  X _ := BI.emp
  Y _ := BI.emp
  Z c := iprop(Pipeline.unscopedRest (Ix := Unit) (Name := ℕ) (U := UR sig nD τ) (Lvl := ℕ) spec5 c (VV7 m c) ∗ ∃ r, prngReg c r)
  hentry c := by
    rw [Pipeline.ownSems0_none]
    have hsplit := Pipeline.arrays_of_unscopedBufs (p := 5) (pcfgs (F := F)) admH (pdats m) launch5.win launch5.arr_whole c
      ((pdats m 5 c).share_full fun _ => rfl) (VV7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 5 c).Φ 0 = Phi5 (VV7 m) c 0 from rfl]
    iintro ⟨-, -, Hr⟩
    iapply (hin5 (VV7 m) c); iexact Hr
  hout c := by
    rw [Pipeline.ownSems0_none, show (pdats m 5 c).Φ (Fin.last _) = Phi5 (VV7 m) c cfg5.N from rfl]
    iintro H
    isplitr; · iempintro
    isplitr; · iempintro
    iapply (hout5 (VV7 m) c _); iexact H
  hexit c := by
    have hjoin := Pipeline.unscopedBufs_of_arrays (p := 5) (pcfgs (F := F)) admH (Ix := Unit) (Name := ℕ) (U := UR sig nD τ) (Lvl := ℕ)
      launch5.win launch5.arr_whole c (pdats m) ((pdats m 5 c).share_full fun _ => rfl)
      (VV7 m c) (fun b => W8 m c b) ((pdats m 5 c).arrAt · cfg5.N) (hF5 m c) (hrest5 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.HandK.Reg6.lean ====
/-
  Kernel region 6 as a segment of @main over the thread state "every unscoped buffer at the boundary's contents".
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Chain
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 6 over the thread state: entered with every unscoped buffer at the contents before it, left with them at the
    contents after it; its windows' arrays are split out of the unscoped buffers and put back at what the pipeline leaves; its scratch
    comes out of the scoped rest into the invariant and goes back; nothing is owed; the kernel has no semaphore of its own. -/
def reg6 : Pipeline.RegionSeg (pcfgs (F := F)) admH (pdats m) () defs₀ 𝒱H LH lvH 6 where
  win := launch6.win.to₀
  block_pos := launch6.block_pos
  stage_whole := launch6.stage_whole
  K := PEmpty
  osem k := k.elim
  ho := Pipeline.OwnSemFacts.none _
  hbody c := (body_obligation6 (VV8 m) c).loose
  hwaits := Pipeline.hwaits_of_owed_zero _ _ _ _ LH lvH 6 fun _ _ => rfl
  pre c := iprop(StableHlo.held (c : Thread nD τ) (Pipeline.ucRefs τ sig) (W8 m c) ∗ RH c)
  post c := iprop(StableHlo.held (c : Thread nD τ) (Pipeline.ucRefs τ sig) (W9 m c) ∗ RH c)
  X _ := BI.emp
  Y _ := BI.emp
  Z c := iprop(Pipeline.unscopedRest (Ix := Unit) (Name := ℕ) (U := UR sig nD τ) (Lvl := ℕ) spec6 c (VV8 m c) ∗ ∃ r, prngReg c r)
  hentry c := by
    rw [Pipeline.ownSems0_none]
    have hsplit := Pipeline.arrays_of_unscopedBufs (p := 6) (pcfgs (F := F)) admH (pdats m) launch6.win launch6.arr_whole c
      ((pdats m 6 c).share_full fun _ => rfl) (VV8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 6 c).Φ 0 = Phi6 (VV8 m) c 0 from rfl]
    iintro ⟨-, -, Hr⟩
    iapply (hin6 (VV8 m) c); iexact Hr
  hout c := by
    rw [Pipeline.ownSems0_none, show (pdats m 6 c).Φ (Fin.last _) = Phi6 (VV8 m) c cfg6.N from rfl]
    iintro H
    isplitr; · iempintro
    isplitr; · iempintro
    iapply (hout6 (VV8 m) c _); iexact H
  hexit c := by
    have hjoin := Pipeline.unscopedBufs_of_arrays (p := 6) (pcfgs (F := F)) admH (Ix := Unit) (Name := ℕ) (U := UR sig nD τ) (Lvl := ℕ)
      launch6.win launch6.arr_whole c (pdats m) ((pdats m 6 c).share_full fun _ => rfl)
      (VV8 m c) (fun b => W9 m c b) ((pdats m 6 c).arrAt · cfg6.N) (hF6 m c) (hrest6 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.HandK.Reg7.lean ====
/-
  Kernel region 7 as a segment of @main over the thread state "every unscoped buffer at the boundary's contents".
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Chain
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 7 over the thread state: entered with every unscoped buffer at the contents before it, left with them at the
    contents after it; its windows' arrays are split out of the unscoped buffers and put back at what the pipeline leaves; its scratch
    comes out of the scoped rest into the invariant and goes back; nothing is owed; the kernel has no semaphore of its own. -/
def reg7 : Pipeline.RegionSeg (pcfgs (F := F)) admH (pdats m) () defs₀ 𝒱H LH lvH 7 where
  win := launch7.win.to₀
  block_pos := launch7.block_pos
  stage_whole := launch7.stage_whole
  K := PEmpty
  osem k := k.elim
  ho := Pipeline.OwnSemFacts.none _
  hbody c := (body_obligation7 (VV9 m) c).loose
  hwaits := Pipeline.hwaits_of_owed_zero _ _ _ _ LH lvH 7 fun _ _ => rfl
  pre c := iprop(StableHlo.held (c : Thread nD τ) (Pipeline.ucRefs τ sig) (W9 m c) ∗ RH c)
  post c := iprop(StableHlo.held (c : Thread nD τ) (Pipeline.ucRefs τ sig) (W10 m c) ∗ RH c)
  X _ := BI.emp
  Y _ := BI.emp
  Z c := iprop(Pipeline.unscopedRest (Ix := Unit) (Name := ℕ) (U := UR sig nD τ) (Lvl := ℕ) spec7 c (VV9 m c) ∗ ∃ r, prngReg c r)
  hentry c := by
    rw [Pipeline.ownSems0_none]
    have hsplit := Pipeline.arrays_of_unscopedBufs (p := 7) (pcfgs (F := F)) admH (pdats m) launch7.win launch7.arr_whole c
      ((pdats m 7 c).share_full fun _ => rfl) (VV9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 7 c).Φ 0 = Phi7 (VV9 m) c 0 from rfl]
    iintro ⟨-, -, Hr⟩
    iapply (hin7 (VV9 m) c); iexact Hr
  hout c := by
    rw [Pipeline.ownSems0_none, show (pdats m 7 c).Φ (Fin.last _) = Phi7 (VV9 m) c cfg7.N from rfl]
    iintro H
    isplitr; · iempintro
    isplitr; · iempintro
    iapply (hout7 (VV9 m) c _); iexact H
  hexit c := by
    have hjoin := Pipeline.unscopedBufs_of_arrays (p := 7) (pcfgs (F := F)) admH (Ix := Unit) (Name := ℕ) (U := UR sig nD τ) (Lvl := ℕ)
      launch7.win launch7.arr_whole c (pdats m) ((pdats m 7 c).share_full fun _ => rfl)
      (VV9 m c) (fun b => W10 m c b) ((pdats m 7 c).arrAt · cfg7.N) (hF7 m c) (hrest7 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.HandK.Reg8.lean ====
/-
  Kernel region 8 as a segment of @main over the thread state "every unscoped buffer at the boundary's contents".
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Chain
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 8 over the thread state: entered with every unscoped buffer at the contents before it, left with them at the
    contents after it; its windows' arrays are split out of the unscoped buffers and put back at what the pipeline leaves; its scratch
    comes out of the scoped rest into the invariant and goes back; nothing is owed; the kernel has no semaphore of its own. -/
def reg8 : Pipeline.RegionSeg (pcfgs (F := F)) admH (pdats m) () defs₀ 𝒱H LH lvH 8 where
  win := launch8.win.to₀
  block_pos := launch8.block_pos
  stage_whole := launch8.stage_whole
  K := PEmpty
  osem k := k.elim
  ho := Pipeline.OwnSemFacts.none _
  hbody c := (body_obligation8 (VV11 m) c).loose
  hwaits := Pipeline.hwaits_of_owed_zero _ _ _ _ LH lvH 8 fun _ _ => rfl
  pre c := iprop(StableHlo.held (c : Thread nD τ) (Pipeline.ucRefs τ sig) (W11 m c) ∗ RH c)
  post c := iprop(StableHlo.held (c : Thread nD τ) (Pipeline.ucRefs τ sig) (W12 m c) ∗ RH c)
  X _ := BI.emp
  Y _ := BI.emp
  Z c := iprop(Pipeline.unscopedRest (Ix := Unit) (Name := ℕ) (U := UR sig nD τ) (Lvl := ℕ) spec8 c (VV11 m c) ∗ ∃ r, prngReg c r)
  hentry c := by
    rw [Pipeline.ownSems0_none]
    have hsplit := Pipeline.arrays_of_unscopedBufs (p := 8) (pcfgs (F := F)) admH (pdats m) launch8.win launch8.arr_whole c
      ((pdats m 8 c).share_full fun _ => rfl) (VV11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 8 c).Φ 0 = Phi8 (VV11 m) c 0 from rfl]
    iintro ⟨-, -, Hr⟩
    iapply (hin8 (VV11 m) c); iexact Hr
  hout c := by
    rw [Pipeline.ownSems0_none, show (pdats m 8 c).Φ (Fin.last _) = Phi8 (VV11 m) c cfg8.N from rfl]
    iintro H
    isplitr; · iempintro
    isplitr; · iempintro
    iapply (hout8 (VV11 m) c _); iexact H
  hexit c := by
    have hjoin := Pipeline.unscopedBufs_of_arrays (p := 8) (pcfgs (F := F)) admH (Ix := Unit) (Name := ℕ) (U := UR sig nD τ) (Lvl := ℕ)
      launch8.win launch8.arr_whole c (pdats m) ((pdats m 8 c).share_full fun _ => rfl)
      (VV11 m c) (fun b => W12 m c b) ((pdats m 8 c).arrAt · cfg8.N) (hF8 m c) (hrest8 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.HandK.MainRun.lean ====
/-
  The whole program as a run: @main is twelve segments — three stretches of host operations and nine kernel regions. Every weakly
  fair execution terminates, nothing faulting, with all unscoped buffers at the last boundary's contents; in particular every
  argument array ends as launched.
-/
import proofs.«169539_j48112223650339_2_alg».proof.Proof.Gen.Kernel.Launch
import proofs.«169539_j48112223650339_2_alg».proof.Proof.Gen.Kernel.Skeleton
import proofs.«169539_j48112223650339_2_alg».proof.Proof.Gen.Kernel.Points
import proofs.«169539_j48112223650339_2_alg».proof.Proof.HandK.Reg0
import proofs.«169539_j48112223650339_2_alg».proof.Proof.HandK.Reg1
import proofs.«169539_j48112223650339_2_alg».proof.Proof.HandK.Reg2
import proofs.«169539_j48112223650339_2_alg».proof.Proof.HandK.Reg3
import proofs.«169539_j48112223650339_2_alg».proof.Proof.HandK.Reg4
import proofs.«169539_j48112223650339_2_alg».proof.Proof.HandK.Reg5
import proofs.«169539_j48112223650339_2_alg».proof.Proof.HandK.Reg6
import proofs.«169539_j48112223650339_2_alg».proof.Proof.HandK.Reg7
import proofs.«169539_j48112223650339_2_alg».proof.Proof.HandK.Reg8
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## @main as segments, and the launch -/

/-- @main's twelve segments in order: a host segment per stretch from its boundary's contents, a region per kernel call. -/
abbrev allSegs : List (Pipeline.Seg (pcfgs (F := F)) admH (pdats m) () defs₀ 𝒱H LH lvH) :=
  [ .host (hseg hostOps0 hostOps0_sub hostOps0_fresh (W0 m)),
    .region (reg0 m),
    .region (reg1 m),
    .region (reg2 m),
    .region (reg3 m),
    .host (hseg hostOps4 hostOps4_sub hostOps4_fresh (W5 m)),
    .region (reg4 m),
    .region (reg5 m),
    .region (reg6 m),
    .region (reg7 m),
    .host (hseg hostOps8 hostOps8_sub hostOps8_fresh (W10 m)),
    .region (reg8 m) ]

/-- @main IS the run of the segments. -/
theorem main_run (c : Dev nD) : main (F := F) c = Pipeline.Seg.run (allSegs m) := (main_chain c).trans (by chain_rfl)

variable (ρ : Dev nD → PrngReg)

-- the launch theorem's implicit arguments are found by unifying its conclusion with this one, which takes unfolding
-- plain definitions in a metavariable's type
set_option backward.isDefEq.respectTransparency.types false in
/-- THE RUN. At the compiled mesh, from any memory with zero counters, every weakly fair execution of @main on the TensorCores
    terminates, nothing faulting, and every final state holds every unscoped buffer at the last boundary's contents `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) admH (pdats m) () cellOf_inj emb₁ defs₀ 𝒱H LH lvH m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c))
    (Tₙ := fun c => iprop(StableHlo.held (c : Thread nD τ) (Pipeline.ucRefs τ sig) (W12 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W12 m c) ∗ RH c) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_arg0 (by decide))).trans (W12_main_arg0 m c),
    (h c _ (mem_uc main_arg1 (by decide))).trans (W12_main_arg1 m c),
    (h c _ (mem_uc main_arg2 (by decide))).trans (W12_main_arg2 m c),
    (h c _ (mem_uc main_arg3 (by decide))).trans (W12_main_arg3 m c),
    (h c _ (mem_uc main_arg4 (by decide))).trans (W12_main_arg4 m c),
    (h c _ (mem_uc main_arg5 (by decide))).trans (W12_main_arg5 m c)⟩) (run_all m ρ)

end Cert.Kernel.Hand

end
-- ==== Proof.HandKI.Run0.lean ====
/-
  One grid point of the input projection (kernel region 0): the body rounds a [1024, 128] block of the input and the [64, 128]
  weight to bf16, multiplies the block by the transposed weight, adds the [1, 64] bias to every row and writes the [1024, 64]
  result to the output block. No branch and no scratch. Stated on any whole staging buffers, with the output block's final contents
  written out as the body's own payload term.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- ONE POINT of the input projection, on any whole staging memrefs: the input block `x0`, the weight `x1` and the bias `x2` are
    read and kept; the output block is overwritten with block · weightᵀ + bias, whatever it held. -/
theorem run0 (c : Dev nD) (i : grid0.Coords)
    (a2 : Memref sig .tc .vmem S1x1024x128 .f32) (h2 : a2.IsWhole) (a3 : Memref sig .tc .vmem S64x128 .f32) (h3 : a3.IsWhole)
    (a4 : Memref sig .tc .vmem S1x64 .f32) (h4 : a4.IsWhole) (a5 : Memref sig .tc .vmem S1x1024x64 .f32) (h5 : a5.IsWhole)
    (x0 : Vec F S1x1024x128 .f32) (x1 : Vec F S64x128 .f32) (x2 : Vec F S1x64 .f32) (xo : Vec F S1x1024x64 .f32)
    (E : Set ℕ) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare xo
        ∗ (iprop(owns (c : Thread nD τ) a2 fullShare x0 ∗ owns (c : Thread nD τ) a3 fullShare x1 ∗ owns (c : Thread nD τ) a4 fullShare x2
            ∗ owns (c : Thread nD τ) a5 fullShare (k0_pay1 x0 x1 x2)) -∗ K ⟨⟩))
      ⊢ wp frame (wpE (defs₀ (F := F)) Variants.none c none) E (cc0__linear0_kernel i a2 h2 a3 h3 a4 h4 a5 h5) K := by
  simp only [cc0__linear0_kernel_eq_skeleton]; unfold cc0__linear0_kernel_skel
  unfold owns
  iintro ⟨⟨%f0, %hf0, H0⟩, ⟨%f1, %hf1, H1⟩, ⟨%f2, %hf2, H2⟩, ⟨%fo, %hfo, HO⟩, Hk⟩
  obtain rfl := h2.eq_unread hf0; obtain rfl := h3.eq_unread hf1; obtain rfl := h4.eq_unread hf2; obtain rfl := h5.eq_unread hfo
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact HO
  ipureintro
  sl_unfold_run_names
  simp only [View.read_writes_whole_last (S := S1x1024x128) _ _ Cert.Lib.zeros3, View.read_writes_whole_last (S := S64x128) _ _ Cert.Lib.zeros2, View.read_writes_whole_last (S := S1x64) _ _ Cert.Lib.zeros2, View.read_writes_whole_last (S := S1x1024x64) _ _ Cert.Lib.zeros3, View.readCov_whole_last (S := S1x1024x128) _ Cert.Lib.zeros3, View.readCov_whole_last (S := S64x128) _ Cert.Lib.zeros2, View.readCov_whole_last (S := S1x64) _ Cert.Lib.zeros2, View.readCov_whole_last (S := S1x1024x64) _ Cert.Lib.zeros3, View.readAt_whole (S := S1x1024x128) _ _ Cert.Lib.zeros3, View.readAt_whole (S := S64x128) _ _ Cert.Lib.zeros2, View.readAt_whole (S := S1x64) _ _ Cert.Lib.zeros2, View.readAt_whole (S := S1x1024x64) _ _ Cert.Lib.zeros3, hf0, hf1, hf2, hfo]

end Cert.KernelIdeal.Hand

end
-- ==== Proof.HandKI.Dat0.lean ====
/-
  The embedding layer (kernel region 0): on the grid (batch element, row block of 1024) each point multiplies a [1024, 128] block of
  rows by the transposed [64, 128] weight and adds the bias row; it keeps nothing between points and stores its output block at
  every point. The pipeline's proof data and the body obligation; the weight and the bias are fetched once, at the first point.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Run0
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region keeps nothing between points: its invariant is the scoped buffers no window stages, at something. -/
def Phi0 (_V : (c : Dev nD) → (b : Ref sig .tc) → Buf (Elt F) ((c : Thread nD τ).loc b)) (c : Dev nD) (_n : ℕ) : sProp 𝕄 :=
  Pipeline.scopedRest (Ix := Unit) (Name := ℕ) (U := UR sig nD τ) (Lvl := ℕ) (Val := Elt F) spec0 c

/-! ## The proof data -/

/-- The proof data on core `c`, from the contents `V` the region is entered at: after the body each input's buffer at its block,
    the output's at the rows' images under the weight plus the bias; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ t := Phi0 V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

/-- The rows' block is fetched at every point. -/
theorem before0_0 (c : Dev nD) (t : Fin cfg0.N) (d) : (dat0 V c).before 0 t d = iblk0 V c 0 t := by
  unfold Dat.before; rw [if_pos (fetch0_0 t)]; rfl
/-- The weight and the bias are fetched once, at the first point; their block index never moves and the body leaves them in place,
    so their buffers hold their block at every point. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, the one-point run applies, the output block is overwritten. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, after0_0, after0_1, after0_2, after0_3]
  rw [show (dat0 V c).owesAt () t.succ = (dat0 V c).owesAt () t.castSucc from rfl]
  rw [show (dat0 V c).Φ t.succ = Phi0 V c (t.val + 1) from rfl, show (dat0 V c).Φ t.castSucc = Phi0 V c t.val from rfl]
  unfold Phi0
  iintro ⟨Hrest, Ho, ⟨%d0, H0⟩, ⟨%d1, H1⟩, ⟨%d2, H2⟩, ⟨%d3, H3⟩⟩
  iapply (run0 c (grid0.coords t) _ _ _ _ _ _ _ _ (iblk0 V c 0 t) (iblk0 V c 1 t) (iblk0 V c 2 t) _ Set.univ _)
  isplitl [H0]; · iexact H0
  isplitl [H1]; · iexact H1
  isplitl [H2]; · iexact H2
  isplitl [H3]; · iexact H3
  iintro ⟨H0, H1, H2, H3⟩
  isplitl [Hrest]; · iexact Hrest
  isplitl [Ho]; · iexact Ho
  isplitl [H0]; · iexact H0
  isplitl [H1]; · iexact H1
  isplitl [H2]; · iexact H2
  iexact H3

/-- The library's body obligation, at every point: no window of this region is ever idle. -/
theorem body_obligation0 (c : Dev nD) : BodyObligation (dat0 (F := F) V c) (defs₀ (F := F)) Variants.none () Set.univ := fun t => by
  rw [bigSep_W0, bigSep_W0]
  exact sound_body0 V c t

/-! ## Into and out of the invariant -/

theorem hin0 (c : Dev nD) :
    (Pipeline.scopedRest (Ix := Unit) (Name := ℕ) (U := UR sig nD τ) (Lvl := ℕ) (Val := Elt F) spec0 c : sProp 𝕄) ⊢ Phi0 V c 0 := .rfl
theorem hout0 (c : Dev nD) (n : ℕ) :
    Phi0 V c n ⊢ (Pipeline.scopedRest (Ix := Unit) (Name := ℕ) (U := UR sig nD τ) (Lvl := ℕ) (Val := Elt F) spec0 c : sProp 𝕄) := .rfl

end Cert.KernelIdeal.Hand

end
-- ==== Proof.HandKI.Run1.lean ====
/-
  One grid point of the first diffusion step (kernel region 1): the body rounds an [8192, 128] block of the f32 adjacency to bf16
  and writes that rounding out as a second output block at every point; it multiplies the rounded block by the matching [128, 64]
  block of the activation (rounded to bf16) and adds the product to an [8192, 64] accumulator kept in scratch, which it zeroes first
  at the first column block of a batch element and copies to the output block at the last one. Stated on any whole staging buffers,
  with every buffer's final contents written out as the body's own payload terms.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the first column block of a row sweep: the body's first branch condition, from the grid coordinates. -/
abbrev first1 (i : grid1.Coords) : Prop := (Scalar.cmpi .ne (Scalar.extui (Scalar.cmpi .eq (BitVec.ofNat 32 (i 1).val) 0#32)) 0#32) = 1#1
/-- The accumulator is copied out at the last column block: the body's second branch condition. -/
abbrev last1 (i : grid1.Coords) : Prop := k1_cond2 i = 1#1

/-- The accumulator the body adds this point's product to: zero at the first column block, else what the point before left. -/
def accIn1 (i : grid1.Coords) [Decidable (first1 i)] (xs : Vec F S8192x64 .f32) : Vec F S8192x64 .f32 :=
  if first1 i then k1_pay1 (F := F) else xs

set_option maxHeartbeats 800000 in
/-- ONE POINT of the first diffusion step, on any whole staging memrefs: the f32 adjacency block `x0` and the activation block `x1`
    are read and kept; the bf16 copy of the adjacency block is overwritten with the rounding of `x0` at every point, whatever it
    held (the body also loads it first; that value is not used); the scratch accumulator ends at (zero or what it held) + the
    block product; the output block is overwritten with the accumulator at the last column block and left untouched otherwise. -/
theorem run1 (c : Dev nD) (i : grid1.Coords) [Decidable (first1 i)] [Decidable (last1 i)]
    (a2 : Memref sig .tc .vmem S1x8192x128 .f32) (h2 : a2.IsWhole) (a3 : Memref sig .tc .vmem S1x128x64 .f32) (h3 : a3.IsWhole)
    (a4 : Memref sig .tc .vmem S1x8192x64 .f32) (h4 : a4.IsWhole) (a5 : Memref sig .tc .vmem S1x8192x128 .bf16) (h5 : a5.IsWhole)
    (a6 : Memref sig .tc .vmem S8192x64 .f32) (h6 : a6.IsWhole)
    (x0 : Vec F S1x8192x128 .f32) (x1 : Vec F S1x128x64 .f32) (xo : Vec F S1x8192x64 .f32) (xc : Vec F S1x8192x128 .bf16)
    (xs : Vec F S8192x64 .f32)
    (E : Set ℕ) (K : PUnit → sProp 𝕄) :
    iprop(owns (c : Thread nD τ) a2 fullShare x0 ∗ owns (c : Thread nD τ) a3 fullShare x1 ∗ owns (c : Thread nD τ) a4 fullShare xo ∗ owns (c : Thread nD τ) a5 fullShare xc
        ∗ owns (c : Thread nD τ) a6 fullShare xs
        ∗ (iprop(owns (c : Thread nD τ) a2 fullShare x0 ∗ owns (c : Thread nD τ) a3 fullShare x1
            ∗ owns (c : Thread nD τ) a4 fullShare (if last1 i then k1_pay5 (k1_pay4 x0 x1 (accIn1 i xs)) else xo)
            ∗ owns (c : Thread nD τ) a5 fullShare (k1_pay3 x0)
            ∗ owns (c : Thread nD τ) a6 fullShare (k1_pay4 x0 x1 (accIn1 i xs))) -∗ K ⟨⟩))
      ⊢ wp frame (wpE (defs₀ (F := F)) Variants.none c none) E (cc1__diffuse_cast_first_kernel i a2 h2 a3 h3 a4 h4 a5 h5 a6 h6) K := by
  simp only [cc1__diffuse_cast_first_kernel_eq_skeleton]; unfold cc1__diffuse_cast_first_kernel_skel
  unfold owns accIn1
  iintro ⟨⟨%f0, %hf0, H0⟩, ⟨%f1, %hf1, H1⟩, ⟨%fo, %hfo, HO⟩, ⟨%fc, %hfc, HC⟩, ⟨%fs, %hfs, HS⟩, Hk⟩
  obtain rfl := h2.eq_unread hf0; obtain rfl := h3.eq_unread hf1; obtain rfl := h4.eq_unread hfo; obtain rfl := h5.eq_unread hfc
  obtain rfl := h6.eq_unread hfs
  by_cases hc0 : first1 i <;> by_cases hc1 : last1 i
  · -- first column block, the last one
    sl_exec (disch := first | exact hc0 | exact hc1)
    sl_step
    iapply Hk
    rw [if_pos hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
    isplitl [HC]
    · iexists _; isplitr; swap; · iexact HC
      ipureintro
      sl_unfold_run_names
      simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
    iexists _; isplitr; swap; · iexact HS
    ipureintro
    sl_unfold_run_names
    simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
  · -- first column block, not the last
    sl_exec (disch := first | exact hc0 | exact hc1)
    sl_step
    iapply Hk
    rw [if_pos hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    isplitl [HC]
    · iexists _; isplitr; swap; · iexact HC
      ipureintro
      sl_unfold_run_names
      simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
    iexists _; isplitr; swap; · iexact HS
    ipureintro
    sl_unfold_run_names
    simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
  · -- later column block, the last one
    sl_exec (disch := first | exact hc0 | exact hc1)
    sl_step
    iapply Hk
    rw [if_neg hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
    isplitl [HC]
    · iexists _; isplitr; swap; · iexact HC
      ipureintro
      sl_unfold_run_names
      simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
    iexists _; isplitr; swap; · iexact HS
    ipureintro
    sl_unfold_run_names
    simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
  · -- later column block, not the last
    sl_exec (disch := first | exact hc0 | exact hc1)
    sl_step
    iapply Hk
    rw [if_neg hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    isplitl [HC]
    · iexists _; isplitr; swap; · iexact HC
      ipureintro
      sl_unfold_run_names
      simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]
    iexists _; isplitr; swap; · iexact HS
    ipureintro
    sl_unfold_run_names
    simp only [View.read_writes_whole_last (S := S1x8192x128) _ _ Cert.Lib.zeros3, View.read_writes_whole_last (S := S1x128x64) _ _ Cert.Lib.zeros3, View.read_writes_whole_last (S := S1x8192x64) _ _ Cert.Lib.zeros3, View.read_writes_whole_last (S := S8192x64) _ _ Cert.Lib.zeros2, View.readCov_whole_last (S := S1x8192x128) _ Cert.Lib.zeros3, View.readCov_whole_last (S := S1x128x64) _ Cert.Lib.zeros3, View.readCov_whole_last (S := S1x8192x64) _ Cert.Lib.zeros3, View.readCov_whole_last (S := S8192x64) _ Cert.Lib.zeros2, View.readAt_whole (S := S1x8192x128) _ _ Cert.Lib.zeros3, View.readAt_whole (S := S1x128x64) _ _ Cert.Lib.zeros3, View.readAt_whole (S := S1x8192x64) _ _ Cert.Lib.zeros3, View.readAt_whole (S := S8192x64) _ _ Cert.Lib.zeros2, hf0, hf1, hfo, hfc, hfs]

end Cert.KernelIdeal.Hand

end
-- ==== Proof.HandKI.Dat1.lean ====
/-
  First diffusion step fused with the conversion of the adjacency (kernel region 1): on the grid (batch element, column block of 128)
  each point converts an [8192, 128] block of the adjacency, stores the converted block to a second output, multiplies it by the
  matching [128, 64] block of the activation and adds the product to an [8192, 64] scratch accumulator, zeroed at the first column
  block and copied to the activation's output block at the last one. The pipeline's proof data and the body obligation.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Run1
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the idle table, decided over the grid -/

/-- The accumulator is reset exactly at the first of every 64 consecutive points: the first column block of a batch element. -/
theorem hfirst1 : ∀ t : Fin cfg1.N, first1 (grid1.coords t) ↔ t.val % 64 = 0 :=
  (by decide +kernel : ∀ t : Fin grid1.N, first1 (grid1.coords t) ↔ t.val % 64 = 0)
/-- It is copied out exactly at the last of them. -/
theorem hlast1 : ∀ t : Fin cfg1.N, last1 (grid1.coords t) ↔ t.val % 64 = 63 :=
  (by decide +kernel : ∀ t : Fin grid1.N, last1 (grid1.coords t) ↔ t.val % 64 = 63)
theorem live1_0 : ∀ t : Fin cfg1.N, cfg1.idle 0 (grid1.coords t) = false := by decide +kernel
theorem live1_1 : ∀ t : Fin cfg1.N, cfg1.idle 1 (grid1.coords t) = false := by decide +kernel
/-- The converted adjacency block is stored at every point. -/
theorem live1_3 : ∀ t : Fin cfg1.N, cfg1.idle 3 (grid1.coords t) = false := by decide +kernel
/-- Where the accumulator is not copied out the activation's output block is not stored to, -/
theorem idle1_2 : ∀ t : Fin cfg1.N, ¬ last1 (grid1.coords t) → cfg1.idle 2 (grid1.coords t) = true := by decide +kernel
/-- nor written back; -/
theorem noflush1_2 : ∀ t : Fin cfg1.N, ¬ last1 (grid1.coords t) → (cfg1.win 2).flush t = false := by decide +kernel
/-- where it is, the block is stored to. -/
theorem live1_2 : ∀ t : Fin cfg1.N, last1 (grid1.coords t) → cfg1.idle 2 (grid1.coords t) = false := by decide +kernel

/-! ## The blocks and the accumulator, point by point -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator's contents BEFORE point `n` (after the points below it): each point adds its block product to zero,
    at the first column block, or to what the point before left. Before the first point the scratch holds anything. -/
def accAt1 (c : Dev nD) : ℕ → Vec F S8192x64 .f32
  | 0 => fun _ => Classical.choice (Elt.nonempty F .f32)
  | n + 1 =>
    if h : n < cfg1.N then
      k1_pay4 (iblk1 V c 0 ⟨n, h⟩) (iblk1 V c 1 ⟨n, h⟩) (if n % 64 = 0 then k1_pay1 (F := F) else accAt1 c n)
    else accAt1 c n

/-- One point's step of the accumulator, in the form the body's run states it. -/
theorem accAt1_succ (c : Dev nD) (t : Fin cfg1.N) (X : Vec F S8192x64 .f32) (hX : t.val % 64 ≠ 0 → X = accAt1 V c t.val) :
    accAt1 V c (t.val + 1) = k1_pay4 (iblk1 V c 0 t) (iblk1 V c 1 t) (accIn1 (grid1.coords t) X) := by
  obtain ⟨n, hn⟩ := t
  rw [accAt1, dif_pos hn]; unfold accIn1
  by_cases h0 : n % 64 = 0
  · rw [if_pos h0, if_pos ((hfirst1 ⟨n, hn⟩).mpr h0)]
  · rw [if_neg h0, if_neg (fun h => h0 ((hfirst1 ⟨n, hn⟩).mp h)), hX h0]

/-- The scratch accumulator, a whole scoped buffer of the kernel's own. -/
abbrev scM1 : Memref sig .tc .vmem S8192x64 .f32 := Memref.whole cc1_scratch0

/-- The region's invariant before point `n`: the scratch at the accumulated value — at anything where the body will reset it —,
    every other scoped buffer no window stages at something. -/
def Phi1 (c : Dev nD) (n : ℕ) : sProp 𝕄 :=
  iprop((∃ X : Vec F S8192x64 .f32, ⌜n % 64 ≠ 0 → X = accAt1 V c n⌝ ∗ owns (c : Thread nD τ) scM1 fullShare X)
    ∗ Pipeline.scopedRestBut (Ix := Unit) (Name := ℕ) (U := UR sig nD τ) (Lvl := ℕ) (Val := Elt F) spec1 c [cc1_scratch0])

/-! ## The proof data -/

/-- The proof data on core `c`, from the contents `V` the region is entered at: after the body each input's buffer at its block,
    the activation's output at the accumulator (read where the block is written back: at the last column block), the converted
    adjacency's at the conversion of the adjacency block; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay5 (accAt1 V c (t.val + 1))
    | ⟨3, _⟩ => k1_pay3 (iblk1 V c 0 t)
  Φ t := Phi1 V c t.val
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay5 (accAt1 V c (t.val + 1)) := by dsimp only [dat1]
theorem after1_3 (c : Dev nD) (t : Fin cfg1.N) : (dat1 V c).after 3 t = k1_pay3 (iblk1 V c 0 t) := by dsimp only [dat1]

/-- An input window is fetched at every point: its buffer holds its block when the body runs. -/
theorem before1_0 (c : Dev nD) (t : Fin cfg1.N) (d) : (dat1 V c).before 0 t d = iblk1 V c 0 t := by
  unfold Dat.before; rw [if_pos (fetch1_0 t)]; rfl
theorem before1_1 (c : Dev nD) (t : Fin cfg1.N) (d) : (dat1 V c).before 1 t d = iblk1 V c 1 t := by
  unfold Dat.before; rw [if_pos (fetch1_1 t)]; rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 1600000 in
/-- The body at any point: the inputs' buffers hold their blocks, the invariant hands over the scratch at the accumulated value,
    the one-point run applies, and the invariant takes the scratch back one step further; the converted adjacency block is
    overwritten; the activation's output block is handed back as found unless this is the last column block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) from rfl, show (dat1 V c).Φ t.castSucc = Phi1 V c t.val from rfl]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 3 t = owns (c : Thread nD τ) (st1_3 t) fullShare ((dat1 V c).after 3 t) from by
    unfold Dat.leavesExact; rw [live1_3 t], after1_3]
  unfold Phi1
  by_cases h1 : last1 (grid1.coords t)
  · rw [show (dat1 V c).leavesExact 2 t = owns (c : Thread nD τ) (st1_2 t) fullShare ((dat1 V c).after 2 t) from by
      unfold Dat.leavesExact; rw [live1_2 t h1], after1_2]
    iintro ⟨⟨⟨%X, %hX, HS⟩, Hrest⟩, Ho, ⟨%d0, H0⟩, ⟨%d1, H1⟩, ⟨%d2, H2⟩, ⟨%d3, H3⟩⟩
    iapply (run1 c (grid1.coords t) _ _ _ _ _ _ _ _ _ _ (iblk1 V c 0 t) (iblk1 V c 1 t) _ _ X Set.univ _)
    isplitl [H0]; · iexact H0
    isplitl [H1]; · iexact H1
    isplitl [H2]; · iexact H2
    isplitl [H3]; · iexact H3
    isplitl [HS]; · iexact HS
    rw [if_pos h1, ← accAt1_succ V c t X hX]
    iintro ⟨H0, H1, H2, H3, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    isplitl [H2]; · iexact H2
    iexact H3
  · rw [Dat.leavesExact_idle (dat1 V c) 2 t (idle1_2 t h1) (noflush1_2 t h1)]
    iintro ⟨⟨⟨%X, %hX, HS⟩, Hrest⟩, Ho, ⟨%d0, H0⟩, ⟨%d1, H1⟩, ⟨%d2, H2⟩, ⟨%d3, H3⟩⟩
    iapply (run1 c (grid1.coords t) _ _ _ _ _ _ _ _ _ _ (iblk1 V c 0 t) (iblk1 V c 1 t) _ _ X Set.univ _)
    isplitl [H0]; · iexact H0
    isplitl [H1]; · iexact H1
    isplitl [H2]; · iexact H2
    isplitl [H3]; · iexact H3
    isplitl [HS]; · iexact HS
    rw [if_neg h1, ← accAt1_succ V c t X hX]
    iintro ⟨H0, H1, H2, H3, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    isplitl [H2]; · iexists _; iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.HandKI.Inv1.lean ====
/-
  Kernel region 1: how the scoped buffers the launch hands a region become its invariant before the first point (the scratch
  accumulator at anything) and how the invariant gives them back after any point (the accumulator's contents forgotten).
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Dat1
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Into and out of the invariant -/

/-- The scoped buffers the launch hands the region make the invariant before the first point: the scratch at anything. -/
theorem hin1 (c : Dev nD) :
    (Pipeline.scopedRest (Ix := Unit) (Name := ℕ) (U := UR sig nD τ) (Lvl := ℕ) (Val := Elt F) spec1 c : sProp 𝕄) ⊢ Phi1 V c 0 := by
  unfold Phi1; rw [scopedRest1_split]
  iintro ⟨⟨%f, Hs⟩, Hr⟩
  isplitl [Hs]
  · iexists f; isplitr; · ipureintro; intro h; exact absurd (Nat.zero_mod _) h
    rw [owns_whole]; iexact Hs
  iexact Hr

/-- The invariant at any point gives them back, the scratch's contents forgotten. -/
theorem hout1 (c : Dev nD) (n : ℕ) :
    Phi1 V c n ⊢ (Pipeline.scopedRest (Ix := Unit) (Name := ℕ) (U := UR sig nD τ) (Lvl := ℕ) (Val := Elt F) spec1 c : sProp 𝕄) := by
  unfold Phi1; simp only [owns_whole]; rw [scopedRest1_split]
  iintro ⟨⟨%X, -, Hs⟩, Hr⟩
  isplitl [Hs]
  · iexists X; iexact Hs
  iexact Hr

end Cert.KernelIdeal.Hand

end
-- ==== Proof.HandKI.Run2.lean ====
/-
  One grid point of diffusion step (kernel region 2): the body multiplies an [8192, 512] block of the adjacency by the matching
  [512, 64] block of the activation and adds the product to an [8192, 64] accumulator kept in scratch, which it zeroes first at
  the first column block of a batch element and copies to the output block at the last one. Stated on any whole staging
  buffers, with every buffer's final contents written out as the body's own payload terms.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the first column block of a row sweep: the body's first branch condition, from the grid coordinates. -/
abbrev first2 (i : grid2.Coords) : Prop := (Scalar.cmpi .ne (Scalar.extui (Scalar.cmpi .eq (BitVec.ofNat 32 (i 1).val) 0#32)) 0#32) = 1#1
/-- The accumulator is copied out at the last column block: the body's second branch condition. -/
abbrev last2 (i : grid2.Coords) : Prop := k2_cond2 i = 1#1

/-- The accumulator the body adds this point's product to: zero at the first column block, else what the point before left. -/
def accIn2 (i : grid2.Coords) [Decidable (first2 i)] (xs : Vec F S8192x64 .f32) : Vec F S8192x64 .f32 :=
  if first2 i then k2_pay1 (F := F) else xs

/-- ONE POINT of the diffusion step, on any whole staging memrefs: the adjacency block `x0` and the activation block `x1` are read and
    kept; the scratch accumulator ends at (zero or what it held) + the block product; the output block is overwritten with the
    accumulator at the last column block and left untouched otherwise. -/
theorem run2 (c : Dev nD) (i : grid2.Coords) [Decidable (first2 i)] [Decidable (last2 i)]
    (a2 : Memref sig .tc .vmem S1x8192x512 .bf16) (h2 : a2.IsWhole) (a3 : Memref sig .tc .vmem S1x512x64 .f32) (h3 : a3.IsWhole)
    (a4 : Memref sig .tc .vmem S1x8192x64 .f32) (h4 : a4.IsWhole) (a5 : Memref sig .tc .vmem S8192x64 .f32) (h5 : a5.IsWhole)
    (x0 : Vec F S1x8192x512 .bf16) (x1 : Vec F S1x512x64 .f32) (xo : Vec F S1x8192x64 .f32) (xs : Vec F S8192x64 .f32)
    (E : Set ℕ) (K : PUnit → sProp 𝕄) :
    iprop(owns (c : Thread nD τ) a2 fullShare x0 ∗ owns (c : Thread nD τ) a3 fullShare x1 ∗ owns (c : Thread nD τ) a4 fullShare xo ∗ owns (c : Thread nD τ) a5 fullShare xs
        ∗ (iprop(owns (c : Thread nD τ) a2 fullShare x0 ∗ owns (c : Thread nD τ) a3 fullShare x1
            ∗ owns (c : Thread nD τ) a4 fullShare (if last2 i then k2_pay3 (k2_pay2 x0 x1 (accIn2 i xs)) else xo)
            ∗ owns (c : Thread nD τ) a5 fullShare (k2_pay2 x0 x1 (accIn2 i xs))) -∗ K ⟨⟩))
      ⊢ wp frame (wpE (defs₀ (F := F)) Variants.none c none) E (cc2__diffuse_kernel i a2 h2 a3 h3 a4 h4 a5 h5) K := by
  simp only [cc2__diffuse_kernel_eq_skeleton]; unfold cc2__diffuse_kernel_skel
  unfold owns accIn2
  iintro ⟨⟨%f0, %hf0, H0⟩, ⟨%f1, %hf1, H1⟩, ⟨%fo, %hfo, HO⟩, ⟨%fs, %hfs, HS⟩, Hk⟩
  obtain rfl := h2.eq_unread hf0; obtain rfl := h3.eq_unread hf1; obtain rfl := h4.eq_unread hfo; obtain rfl := h5.eq_unread hfs
  by_cases hc0 : first2 i <;> by_cases hc1 : last2 i
  · -- first column block, the last one
    sl_exec (disch := first | exact hc0 | exact hc1)
    sl_step
    iapply Hk
    rw [if_pos hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- first column block, not the last
    sl_exec (disch := first | exact hc0 | exact hc1)
    sl_step
    iapply Hk
    rw [if_pos hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, the last one
    sl_exec (disch := first | exact hc0 | exact hc1)
    sl_step
    iapply Hk
    rw [if_neg hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, not the last
    sl_exec (disch := first | exact hc0 | exact hc1)
    sl_step
    iapply Hk
    rw [if_neg hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]

end Cert.KernelIdeal.Hand

end
-- ==== Proof.HandKI.Dat2.lean ====
/-
  Diffusion step, kernel region 2: the pipeline's proof data and the body obligation. The grid is (batch element, column block);
  along the column blocks of one batch element the scratch accumulator carries the partial sum of block products, so the region's
  invariant names its contents point by point; the output block is stored, and written back, only at the last column block.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Run2
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the idle table, decided over the grid -/

/-- The accumulator is reset exactly at the first of every 16 consecutive points: the first column block of a batch element. -/
theorem hfirst2 : ∀ t : Fin cfg2.N, first2 (grid2.coords t) ↔ t.val % 16 = 0 :=
  (by decide +kernel : ∀ t : Fin grid2.N, first2 (grid2.coords t) ↔ t.val % 16 = 0)
/-- It is copied out exactly at the last of them. -/
theorem hlast2 : ∀ t : Fin cfg2.N, last2 (grid2.coords t) ↔ t.val % 16 = 15 :=
  (by decide +kernel : ∀ t : Fin grid2.N, last2 (grid2.coords t) ↔ t.val % 16 = 15)
theorem live2_0 : ∀ t : Fin cfg2.N, cfg2.idle 0 (grid2.coords t) = false := by decide +kernel
theorem live2_1 : ∀ t : Fin cfg2.N, cfg2.idle 1 (grid2.coords t) = false := by decide +kernel
/-- Where the accumulator is not copied out the output block is not stored to, -/
theorem idle2_2 : ∀ t : Fin cfg2.N, ¬ last2 (grid2.coords t) → cfg2.idle 2 (grid2.coords t) = true := by decide +kernel
/-- nor written back; -/
theorem noflush2_2 : ∀ t : Fin cfg2.N, ¬ last2 (grid2.coords t) → (cfg2.win 2).flush t = false := by decide +kernel
/-- where it is, the block is stored to. -/
theorem live2_2 : ∀ t : Fin cfg2.N, last2 (grid2.coords t) → cfg2.idle 2 (grid2.coords t) = false := by decide +kernel

/-! ## The blocks and the accumulator, point by point -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch accumulator's contents BEFORE point `n` (after the points below it): each point adds its block product to zero,
    at the first column block, or to what the point before left. Before the first point the scratch holds anything. -/
def accAt2 (c : Dev nD) : ℕ → Vec F S8192x64 .f32
  | 0 => fun _ => Classical.choice (Elt.nonempty F .f32)
  | n + 1 =>
    if h : n < cfg2.N then
      k2_pay2 (iblk2 V c 0 ⟨n, h⟩) (iblk2 V c 1 ⟨n, h⟩) (if n % 16 = 0 then k2_pay1 (F := F) else accAt2 c n)
    else accAt2 c n

/-- One point's step of the accumulator, in the form the body's run states it. -/
theorem accAt2_succ (c : Dev nD) (t : Fin cfg2.N) (X : Vec F S8192x64 .f32) (hX : t.val % 16 ≠ 0 → X = accAt2 V c t.val) :
    accAt2 V c (t.val + 1) = k2_pay2 (iblk2 V c 0 t) (iblk2 V c 1 t) (accIn2 (grid2.coords t) X) := by
  obtain ⟨n, hn⟩ := t
  rw [accAt2, dif_pos hn]; unfold accIn2
  by_cases h0 : n % 16 = 0
  · rw [if_pos h0, if_pos ((hfirst2 ⟨n, hn⟩).mpr h0)]
  · rw [if_neg h0, if_neg (fun h => h0 ((hfirst2 ⟨n, hn⟩).mp h)), hX h0]

/-- The scratch accumulator, a whole scoped buffer of the kernel's own. -/
abbrev scM2 : Memref sig .tc .vmem S8192x64 .f32 := Memref.whole cc2_scratch0

/-- The region's invariant before point `n`: the scratch at the accumulated value — at anything where the body will reset it —,
    every other scoped buffer no window stages at something. -/
def Phi2 (c : Dev nD) (n : ℕ) : sProp 𝕄 :=
  iprop((∃ X : Vec F S8192x64 .f32, ⌜n % 16 ≠ 0 → X = accAt2 V c n⌝ ∗ owns (c : Thread nD τ) scM2 fullShare X)
    ∗ Pipeline.scopedRestBut (Ix := Unit) (Name := ℕ) (U := UR sig nD τ) (Lvl := ℕ) (Val := Elt F) spec2 c [cc2_scratch0])

/-! ## The proof data -/

/-- The proof data on core `c`, from the contents `V` the region is entered at: after the body each input's buffer at its block,
    the output's at the accumulator (read where the block is written back: at the last column block); the invariant `Phi2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (accAt2 V c (t.val + 1))
  Φ t := Phi2 V c t.val
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (accAt2 V c (t.val + 1)) := by dsimp only [dat2]

/-- An input window is fetched at every point: its buffer holds its block when the body runs. -/
theorem before2_0 (c : Dev nD) (t : Fin cfg2.N) (d) : (dat2 V c).before 0 t d = iblk2 V c 0 t := by
  unfold Dat.before; rw [if_pos (fetch2_0 t)]; rfl
theorem before2_1 (c : Dev nD) (t : Fin cfg2.N) (d) : (dat2 V c).before 1 t d = iblk2 V c 1 t := by
  unfold Dat.before; rw [if_pos (fetch2_1 t)]; rfl

/-! ## The body obligation -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t)

set_option maxHeartbeats 1600000 in
/-- The body at any point: the inputs' buffers hold their blocks, the invariant hands over the scratch at the accumulated value,
    the one-point run applies, and the invariant takes the scratch back one step further; the output block is handed back as found
    unless this is the last column block, where it holds the accumulator. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) from rfl, show (dat2 V c).Φ t.castSucc = Phi2 V c t.val from rfl]
  rw [show (dat2 V c).leavesExact 0 t = owns (c : Thread nD τ) (st2_0 t) fullShare ((dat2 V c).after 0 t) from by
    unfold Dat.leavesExact; rw [live2_0 t], after2_0]
  rw [show (dat2 V c).leavesExact 1 t = owns (c : Thread nD τ) (st2_1 t) fullShare ((dat2 V c).after 1 t) from by
    unfold Dat.leavesExact; rw [live2_1 t], after2_1]
  unfold Phi2
  by_cases h1 : last2 (grid2.coords t)
  · rw [show (dat2 V c).leavesExact 2 t = owns (c : Thread nD τ) (st2_2 t) fullShare ((dat2 V c).after 2 t) from by
      unfold Dat.leavesExact; rw [live2_2 t h1], after2_2]
    iintro ⟨⟨⟨%X, %hX, HS⟩, Hrest⟩, Ho, ⟨%d0, H0⟩, ⟨%d1, H1⟩, ⟨%d2, H2⟩⟩
    iapply (run2 c (grid2.coords t) _ _ _ _ _ _ _ _ (iblk2 V c 0 t) (iblk2 V c 1 t) _ X Set.univ _)
    isplitl [H0]; · iexact H0
    isplitl [H1]; · iexact H1
    isplitl [H2]; · iexact H2
    isplitl [HS]; · iexact HS
    rw [if_pos h1, ← accAt2_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexact H2
  · rw [Dat.leavesExact_idle (dat2 V c) 2 t (idle2_2 t h1) (noflush2_2 t h1)]
    iintro ⟨⟨⟨%X, %hX, HS⟩, Hrest⟩, Ho, ⟨%d0, H0⟩, ⟨%d1, H1⟩, ⟨%d2, H2⟩⟩
    iapply (run2 c (grid2.coords t) _ _ _ _ _ _ _ _ (iblk2 V c 0 t) (iblk2 V c 1 t) _ X Set.univ _)
    isplitl [H0]; · iexact H0
    isplitl [H1]; · iexact H1
    isplitl [H2]; · iexact H2
    isplitl [HS]; · iexact HS
    rw [if_neg h1, ← accAt2_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.HandKI.Inv2.lean ====
/-
  Kernel region 2: how the scoped buffers the launch hands a region become its invariant before the first point (the scratch
  accumulator at anything) and how the invariant gives them back after any point (the accumulator's contents forgotten).
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Dat2
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Into and out of the invariant -/

/-- The scoped buffers the launch hands the region make the invariant before the first point: the scratch at anything. -/
theorem hin2 (c : Dev nD) :
    (Pipeline.scopedRest (Ix := Unit) (Name := ℕ) (U := UR sig nD τ) (Lvl := ℕ) (Val := Elt F) spec2 c : sProp 𝕄) ⊢ Phi2 V c 0 := by
  unfold Phi2; rw [scopedRest2_split]
  iintro ⟨⟨%f, Hs⟩, Hr⟩
  isplitl [Hs]
  · iexists f; isplitr; · ipureintro; intro h; exact absurd (Nat.zero_mod _) h
    rw [owns_whole]; iexact Hs
  iexact Hr

/-- The invariant at any point gives them back, the scratch's contents forgotten. -/
theorem hout2 (c : Dev nD) (n : ℕ) :
    Phi2 V c n ⊢ (Pipeline.scopedRest (Ix := Unit) (Name := ℕ) (U := UR sig nD τ) (Lvl := ℕ) (Val := Elt F) spec2 c : sProp 𝕄) := by
  unfold Phi2; simp only [owns_whole]; rw [scopedRest2_split]
  iintro ⟨⟨%X, -, Hs⟩, Hr⟩
  isplitl [Hs]
  · iexists X; iexact Hs
  iexact Hr

end Cert.KernelIdeal.Hand

end
-- ==== Proof.HandKI.Run3.lean ====
/-
  One grid point of diffusion step (kernel region 3): the body multiplies an [8192, 512] block of the adjacency by the matching
  [512, 64] block of the activation and adds the product to an [8192, 64] accumulator kept in scratch, which it zeroes first at
  the first column block of a batch element and copies to the output block at the last one. Stated on any whole staging
  buffers, with every buffer's final contents written out as the body's own payload terms.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the first column block of a row sweep: the body's first branch condition, from the grid coordinates. -/
abbrev first3 (i : grid3.Coords) : Prop := (Scalar.cmpi .ne (Scalar.extui (Scalar.cmpi .eq (BitVec.ofNat 32 (i 1).val) 0#32)) 0#32) = 1#1
/-- The accumulator is copied out at the last column block: the body's second branch condition. -/
abbrev last3 (i : grid3.Coords) : Prop := k3_cond2 i = 1#1

/-- The accumulator the body adds this point's product to: zero at the first column block, else what the point before left. -/
def accIn3 (i : grid3.Coords) [Decidable (first3 i)] (xs : Vec F S8192x64 .f32) : Vec F S8192x64 .f32 :=
  if first3 i then k3_pay1 (F := F) else xs

/-- ONE POINT of the diffusion step, on any whole staging memrefs: the adjacency block `x0` and the activation block `x1` are read and
    kept; the scratch accumulator ends at (zero or what it held) + the block product; the output block is overwritten with the
    accumulator at the last column block and left untouched otherwise. -/
theorem run3 (c : Dev nD) (i : grid3.Coords) [Decidable (first3 i)] [Decidable (last3 i)]
    (a2 : Memref sig .tc .vmem S1x8192x512 .bf16) (h2 : a2.IsWhole) (a3 : Memref sig .tc .vmem S1x512x64 .f32) (h3 : a3.IsWhole)
    (a4 : Memref sig .tc .vmem S1x8192x64 .f32) (h4 : a4.IsWhole) (a5 : Memref sig .tc .vmem S8192x64 .f32) (h5 : a5.IsWhole)
    (x0 : Vec F S1x8192x512 .bf16) (x1 : Vec F S1x512x64 .f32) (xo : Vec F S1x8192x64 .f32) (xs : Vec F S8192x64 .f32)
    (E : Set ℕ) (K : PUnit → sProp 𝕄) :
    iprop(owns (c : Thread nD τ) a2 fullShare x0 ∗ owns (c : Thread nD τ) a3 fullShare x1 ∗ owns (c : Thread nD τ) a4 fullShare xo ∗ owns (c : Thread nD τ) a5 fullShare xs
        ∗ (iprop(owns (c : Thread nD τ) a2 fullShare x0 ∗ owns (c : Thread nD τ) a3 fullShare x1
            ∗ owns (c : Thread nD τ) a4 fullShare (if last3 i then k3_pay3 (k3_pay2 x0 x1 (accIn3 i xs)) else xo)
            ∗ owns (c : Thread nD τ) a5 fullShare (k3_pay2 x0 x1 (accIn3 i xs))) -∗ K ⟨⟩))
      ⊢ wp frame (wpE (defs₀ (F := F)) Variants.none c none) E (cc3__diffuse_kernel i a2 h2 a3 h3 a4 h4 a5 h5) K := by
  simp only [cc3__diffuse_kernel_eq_skeleton]; unfold cc3__diffuse_kernel_skel
  unfold owns accIn3
  iintro ⟨⟨%f0, %hf0, H0⟩, ⟨%f1, %hf1, H1⟩, ⟨%fo, %hfo, HO⟩, ⟨%fs, %hfs, HS⟩, Hk⟩
  obtain rfl := h2.eq_unread hf0; obtain rfl := h3.eq_unread hf1; obtain rfl := h4.eq_unread hfo; obtain rfl := h5.eq_unread hfs
  by_cases hc0 : first3 i <;> by_cases hc1 : last3 i
  · -- first column block, the last one
    sl_exec (disch := first | exact hc0 | exact hc1)
    sl_step
    iapply Hk
    rw [if_pos hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- first column block, not the last
    sl_exec (disch := first | exact hc0 | exact hc1)
    sl_step
    iapply Hk
    rw [if_pos hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, the last one
    sl_exec (disch := first | exact hc0 | exact hc1)
    sl_step
    iapply Hk
    rw [if_neg hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, not the last
    sl_exec (disch := first | exact hc0 | exact hc1)
    sl_step
    iapply Hk
    rw [if_neg hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]

end Cert.KernelIdeal.Hand

end
-- ==== Proof.HandKI.Dat3.lean ====
/-
  Diffusion step, kernel region 3: the pipeline's proof data and the body obligation. The grid is (batch element, column block);
  along the column blocks of one batch element the scratch accumulator carries the partial sum of block products, so the region's
  invariant names its contents point by point; the output block is stored, and written back, only at the last column block.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Run3
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the idle table, decided over the grid -/

/-- The accumulator is reset exactly at the first of every 16 consecutive points: the first column block of a batch element. -/
theorem hfirst3 : ∀ t : Fin cfg3.N, first3 (grid3.coords t) ↔ t.val % 16 = 0 :=
  (by decide +kernel : ∀ t : Fin grid3.N, first3 (grid3.coords t) ↔ t.val % 16 = 0)
/-- It is copied out exactly at the last of them. -/
theorem hlast3 : ∀ t : Fin cfg3.N, last3 (grid3.coords t) ↔ t.val % 16 = 15 :=
  (by decide +kernel : ∀ t : Fin grid3.N, last3 (grid3.coords t) ↔ t.val % 16 = 15)
theorem live3_0 : ∀ t : Fin cfg3.N, cfg3.idle 0 (grid3.coords t) = false := by decide +kernel
theorem live3_1 : ∀ t : Fin cfg3.N, cfg3.idle 1 (grid3.coords t) = false := by decide +kernel
/-- Where the accumulator is not copied out the output block is not stored to, -/
theorem idle3_2 : ∀ t : Fin cfg3.N, ¬ last3 (grid3.coords t) → cfg3.idle 2 (grid3.coords t) = true := by decide +kernel
/-- nor written back; -/
theorem noflush3_2 : ∀ t : Fin cfg3.N, ¬ last3 (grid3.coords t) → (cfg3.win 2).flush t = false := by decide +kernel
/-- where it is, the block is stored to. -/
theorem live3_2 : ∀ t : Fin cfg3.N, last3 (grid3.coords t) → cfg3.idle 2 (grid3.coords t) = false := by decide +kernel

/-! ## The blocks and the accumulator, point by point -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The scratch accumulator's contents BEFORE point `n` (after the points below it): each point adds its block product to zero,
    at the first column block, or to what the point before left. Before the first point the scratch holds anything. -/
def accAt3 (c : Dev nD) : ℕ → Vec F S8192x64 .f32
  | 0 => fun _ => Classical.choice (Elt.nonempty F .f32)
  | n + 1 =>
    if h : n < cfg3.N then
      k3_pay2 (iblk3 V c 0 ⟨n, h⟩) (iblk3 V c 1 ⟨n, h⟩) (if n % 16 = 0 then k3_pay1 (F := F) else accAt3 c n)
    else accAt3 c n

/-- One point's step of the accumulator, in the form the body's run states it. -/
theorem accAt3_succ (c : Dev nD) (t : Fin cfg3.N) (X : Vec F S8192x64 .f32) (hX : t.val % 16 ≠ 0 → X = accAt3 V c t.val) :
    accAt3 V c (t.val + 1) = k3_pay2 (iblk3 V c 0 t) (iblk3 V c 1 t) (accIn3 (grid3.coords t) X) := by
  obtain ⟨n, hn⟩ := t
  rw [accAt3, dif_pos hn]; unfold accIn3
  by_cases h0 : n % 16 = 0
  · rw [if_pos h0, if_pos ((hfirst3 ⟨n, hn⟩).mpr h0)]
  · rw [if_neg h0, if_neg (fun h => h0 ((hfirst3 ⟨n, hn⟩).mp h)), hX h0]

/-- The scratch accumulator, a whole scoped buffer of the kernel's own. -/
abbrev scM3 : Memref sig .tc .vmem S8192x64 .f32 := Memref.whole cc3_scratch0

/-- The region's invariant before point `n`: the scratch at the accumulated value — at anything where the body will reset it —,
    every other scoped buffer no window stages at something. -/
def Phi3 (c : Dev nD) (n : ℕ) : sProp 𝕄 :=
  iprop((∃ X : Vec F S8192x64 .f32, ⌜n % 16 ≠ 0 → X = accAt3 V c n⌝ ∗ owns (c : Thread nD τ) scM3 fullShare X)
    ∗ Pipeline.scopedRestBut (Ix := Unit) (Name := ℕ) (U := UR sig nD τ) (Lvl := ℕ) (Val := Elt F) spec3 c [cc3_scratch0])

/-! ## The proof data -/

/-- The proof data on core `c`, from the contents `V` the region is entered at: after the body each input's buffer at its block,
    the output's at the accumulator (read where the block is written back: at the last column block); the invariant `Phi3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (accAt3 V c (t.val + 1))
  Φ t := Phi3 V c t.val
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = k3_pay3 (accAt3 V c (t.val + 1)) := by dsimp only [dat3]

/-- An input window is fetched at every point: its buffer holds its block when the body runs. -/
theorem before3_0 (c : Dev nD) (t : Fin cfg3.N) (d) : (dat3 V c).before 0 t d = iblk3 V c 0 t := by
  unfold Dat.before; rw [if_pos (fetch3_0 t)]; rfl
theorem before3_1 (c : Dev nD) (t : Fin cfg3.N) (d) : (dat3 V c).before 1 t d = iblk3 V c 1 t := by
  unfold Dat.before; rw [if_pos (fetch3_1 t)]; rfl

/-! ## The body obligation -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t)

set_option maxHeartbeats 1600000 in
/-- The body at any point: the inputs' buffers hold their blocks, the invariant hands over the scratch at the accumulated value,
    the one-point run applies, and the invariant takes the scratch back one step further; the output block is handed back as found
    unless this is the last column block, where it holds the accumulator. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) from rfl, show (dat3 V c).Φ t.castSucc = Phi3 V c t.val from rfl]
  rw [show (dat3 V c).leavesExact 0 t = owns (c : Thread nD τ) (st3_0 t) fullShare ((dat3 V c).after 0 t) from by
    unfold Dat.leavesExact; rw [live3_0 t], after3_0]
  rw [show (dat3 V c).leavesExact 1 t = owns (c : Thread nD τ) (st3_1 t) fullShare ((dat3 V c).after 1 t) from by
    unfold Dat.leavesExact; rw [live3_1 t], after3_1]
  unfold Phi3
  by_cases h1 : last3 (grid3.coords t)
  · rw [show (dat3 V c).leavesExact 2 t = owns (c : Thread nD τ) (st3_2 t) fullShare ((dat3 V c).after 2 t) from by
      unfold Dat.leavesExact; rw [live3_2 t h1], after3_2]
    iintro ⟨⟨⟨%X, %hX, HS⟩, Hrest⟩, Ho, ⟨%d0, H0⟩, ⟨%d1, H1⟩, ⟨%d2, H2⟩⟩
    iapply (run3 c (grid3.coords t) _ _ _ _ _ _ _ _ (iblk3 V c 0 t) (iblk3 V c 1 t) _ X Set.univ _)
    isplitl [H0]; · iexact H0
    isplitl [H1]; · iexact H1
    isplitl [H2]; · iexact H2
    isplitl [HS]; · iexact HS
    rw [if_pos h1, ← accAt3_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexact H2
  · rw [Dat.leavesExact_idle (dat3 V c) 2 t (idle3_2 t h1) (noflush3_2 t h1)]
    iintro ⟨⟨⟨%X, %hX, HS⟩, Hrest⟩, Ho, ⟨%d0, H0⟩, ⟨%d1, H1⟩, ⟨%d2, H2⟩⟩
    iapply (run3 c (grid3.coords t) _ _ _ _ _ _ _ _ (iblk3 V c 0 t) (iblk3 V c 1 t) _ X Set.univ _)
    isplitl [H0]; · iexact H0
    isplitl [H1]; · iexact H1
    isplitl [H2]; · iexact H2
    isplitl [HS]; · iexact HS
    rw [if_neg h1, ← accAt3_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.HandKI.Inv3.lean ====
/-
  Kernel region 3: how the scoped buffers the launch hands a region become its invariant before the first point (the scratch
  accumulator at anything) and how the invariant gives them back after any point (the accumulator's contents forgotten).
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Dat3
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Into and out of the invariant -/

/-- The scoped buffers the launch hands the region make the invariant before the first point: the scratch at anything. -/
theorem hin3 (c : Dev nD) :
    (Pipeline.scopedRest (Ix := Unit) (Name := ℕ) (U := UR sig nD τ) (Lvl := ℕ) (Val := Elt F) spec3 c : sProp 𝕄) ⊢ Phi3 V c 0 := by
  unfold Phi3; rw [scopedRest3_split]
  iintro ⟨⟨%f, Hs⟩, Hr⟩
  isplitl [Hs]
  · iexists f; isplitr; · ipureintro; intro h; exact absurd (Nat.zero_mod _) h
    rw [owns_whole]; iexact Hs
  iexact Hr

/-- The invariant at any point gives them back, the scratch's contents forgotten. -/
theorem hout3 (c : Dev nD) (n : ℕ) :
    Phi3 V c n ⊢ (Pipeline.scopedRest (Ix := Unit) (Name := ℕ) (U := UR sig nD τ) (Lvl := ℕ) (Val := Elt F) spec3 c : sProp 𝕄) := by
  unfold Phi3; simp only [owns_whole]; rw [scopedRest3_split]
  iintro ⟨⟨%X, -, Hs⟩, Hr⟩
  isplitl [Hs]
  · iexists X; iexact Hs
  iexact Hr

end Cert.KernelIdeal.Hand

end
-- ==== Proof.HandKI.Run4.lean ====
/-
  One grid point of the diffusion step that closes a layer (kernel region 4): the body multiplies an [8192, 512] block of the
  adjacency by the matching [512, 64] block of the activation and adds the product to an [8192, 64] accumulator kept in scratch,
  which it zeroes first at the first column block of a batch element. At the last column block it rounds the accumulator and the
  layer's [64, 64] weight to bf16, multiplies the accumulator by the transposed weight, adds the [1, 64] bias to every row, takes
  the maximum with zero and writes the result to the output block. Stated on any whole staging buffers, with every buffer's final
  contents written out as the body's own payload terms.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the first column block of a row sweep: the body's first branch condition, from the grid coordinates. -/
abbrev first4 (i : grid4.Coords) : Prop := (Scalar.cmpi .ne (Scalar.extui (Scalar.cmpi .eq (BitVec.ofNat 32 (i 1).val) 0#32)) 0#32) = 1#1
/-- The output block is written at the last column block: the body's second branch condition. -/
abbrev last4 (i : grid4.Coords) : Prop := k4_cond2 i = 1#1

/-- The accumulator the body adds this point's product to: zero at the first column block, else what the point before left. -/
def accIn4 (i : grid4.Coords) [Decidable (first4 i)] (xs : Vec F S8192x64 .f32) : Vec F S8192x64 .f32 :=
  if first4 i then k4_pay1 (F := F) else xs

set_option maxHeartbeats 800000 in
/-- ONE POINT of the layer-closing diffusion step, on any whole staging memrefs: the adjacency block `x0`, the activation block `x1`,
    the weight `xw` and the bias `xb` are read and kept; the scratch accumulator ends at (zero or what it held) + the block product;
    the output block is overwritten, at the last column block, with max(new accumulator · weightᵀ + bias, 0), and left untouched
    otherwise. -/
theorem run4 (c : Dev nD) (i : grid4.Coords) [Decidable (first4 i)] [Decidable (last4 i)]
    (a2 : Memref sig .tc .vmem S1x8192x512 .bf16) (h2 : a2.IsWhole) (a3 : Memref sig .tc .vmem S1x512x64 .f32) (h3 : a3.IsWhole)
    (a4 : Memref sig .tc .vmem S64x64 .f32) (h4 : a4.IsWhole) (a5 : Memref sig .tc .vmem S1x64 .f32) (h5 : a5.IsWhole)
    (a6 : Memref sig .tc .vmem S1x8192x64 .f32) (h6 : a6.IsWhole) (a7 : Memref sig .tc .vmem S8192x64 .f32) (h7 : a7.IsWhole)
    (x0 : Vec F S1x8192x512 .bf16) (x1 : Vec F S1x512x64 .f32) (xw : Vec F S64x64 .f32) (xb : Vec F S1x64 .f32)
    (xo : Vec F S1x8192x64 .f32) (xs : Vec F S8192x64 .f32)
    (E : Set ℕ) (K : PUnit → sProp 𝕄) :
    iprop(owns (c : Thread nD τ) a2 fullShare x0 ∗ owns (c : Thread nD τ) a3 fullShare x1 ∗ owns (c : Thread nD τ) a4 fullShare xw ∗ owns (c : Thread nD τ) a5 fullShare xb
        ∗ owns (c : Thread nD τ) a6 fullShare xo ∗ owns (c : Thread nD τ) a7 fullShare xs
        ∗ (iprop(owns (c : Thread nD τ) a2 fullShare x0 ∗ owns (c : Thread nD τ) a3 fullShare x1 ∗ owns (c : Thread nD τ) a4 fullShare xw ∗ owns (c : Thread nD τ) a5 fullShare xb
            ∗ owns (c : Thread nD τ) a6 fullShare (if last4 i then k4_pay3 (k4_pay2 x0 x1 (accIn4 i xs)) xw xb else xo)
            ∗ owns (c : Thread nD τ) a7 fullShare (k4_pay2 x0 x1 (accIn4 i xs))) -∗ K ⟨⟩))
      ⊢ wp frame (wpE (defs₀ (F := F)) Variants.none c none) E (cc4__diffuse_post_kernel i a2 h2 a3 h3 a4 h4 a5 h5 a6 h6 a7 h7) K := by
  simp only [cc4__diffuse_post_kernel_eq_skeleton]; unfold cc4__diffuse_post_kernel_skel
  unfold owns accIn4
  iintro ⟨⟨%f0, %hf0, H0⟩, ⟨%f1, %hf1, H1⟩, ⟨%fw, %hfw, HW⟩, ⟨%fb, %hfb, HB⟩, ⟨%fo, %hfo, HO⟩, ⟨%fs, %hfs, HS⟩, Hk⟩
  obtain rfl := h2.eq_unread hf0; obtain rfl := h3.eq_unread hf1; obtain rfl := h4.eq_unread hfw; obtain rfl := h5.eq_unread hfb
  obtain rfl := h6.eq_unread hfo; obtain rfl := h7.eq_unread hfs
  by_cases hc0 : first4 i <;> by_cases hc1 : last4 i
  · -- first column block, the last one
    sl_exec (disch := first | exact hc0 | exact hc1)
    sl_step
    iapply Hk
    rw [if_pos hc0, if_pos hc1]
    isplitl [H0]
    · iexists _; isplitr; · ipureintro; exact hf0
      iexact H0
    isplitl [H1]
    · iexists _; isplitr; · ipureintro; exact hf1
      iexact H1
    isplitl [HW]
    · iexists _; isplitr; · ipureintro; exact hfw
      iexact HW
    isplitl [HB]
    · iexists _; isplitr; · ipureintro; exact hfb
      iexact HB
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
  · -- first column block, not the last
    sl_exec (disch := first | exact hc0 | exact hc1)
    sl_step
    iapply Hk
    rw [if_pos hc0, if_neg hc1]
    isplitl [H0]
    · iexists _; isplitr; · ipureintro; exact hf0
      iexact H0
    isplitl [H1]
    · iexists _; isplitr; · ipureintro; exact hf1
      iexact H1
    isplitl [HW]
    · iexists _; isplitr; · ipureintro; exact hfw
      iexact HW
    isplitl [HB]
    · iexists _; isplitr; · ipureintro; exact hfb
      iexact HB
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
  · -- later column block, the last one
    sl_exec (disch := first | exact hc0 | exact hc1)
    sl_step
    iapply Hk
    rw [if_neg hc0, if_pos hc1]
    isplitl [H0]
    · iexists _; isplitr; · ipureintro; exact hf0
      iexact H0
    isplitl [H1]
    · iexists _; isplitr; · ipureintro; exact hf1
      iexact H1
    isplitl [HW]
    · iexists _; isplitr; · ipureintro; exact hfw
      iexact HW
    isplitl [HB]
    · iexists _; isplitr; · ipureintro; exact hfb
      iexact HB
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
  · -- later column block, not the last
    sl_exec (disch := first | exact hc0 | exact hc1)
    sl_step
    iapply Hk
    rw [if_neg hc0, if_neg hc1]
    isplitl [H0]
    · iexists _; isplitr; · ipureintro; exact hf0
      iexact H0
    isplitl [H1]
    · iexists _; isplitr; · ipureintro; exact hf1
      iexact H1
    isplitl [HW]
    · iexists _; isplitr; · ipureintro; exact hfw
      iexact HW
    isplitl [HB]
    · iexists _; isplitr; · ipureintro; exact hfb
      iexact HB
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]

end Cert.KernelIdeal.Hand

end
-- ==== Proof.HandKI.Dat4.lean ====
/-
  Last diffusion step of a layer fused with the layer's linear map (kernel region 4): the pipeline's proof data and the body
  obligation. Along the column blocks of one batch element the scratch accumulator carries the partial sum of block products;
  at the last column block the body applies the layer's weight and bias to the finished accumulator, takes the maximum with zero and stores the
  result, the only point at which the output block is stored and written back. The weight and the bias are fetched once.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Run4
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the idle table, decided over the grid -/

/-- The accumulator is reset exactly at the first of every 16 consecutive points: the first column block of a batch element. -/
theorem hfirst4 : ∀ t : Fin cfg4.N, first4 (grid4.coords t) ↔ t.val % 16 = 0 :=
  (by decide +kernel : ∀ t : Fin grid4.N, first4 (grid4.coords t) ↔ t.val % 16 = 0)
/-- The layer's output is computed from it exactly at the last of them. -/
theorem hlast4 : ∀ t : Fin cfg4.N, last4 (grid4.coords t) ↔ t.val % 16 = 15 :=
  (by decide +kernel : ∀ t : Fin grid4.N, last4 (grid4.coords t) ↔ t.val % 16 = 15)
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
/-- Where the output is not computed its block is not stored to, -/
theorem idle4_4 : ∀ t : Fin cfg4.N, ¬ last4 (grid4.coords t) → cfg4.idle 4 (grid4.coords t) = true := by decide +kernel
/-- nor written back; -/
theorem noflush4_4 : ∀ t : Fin cfg4.N, ¬ last4 (grid4.coords t) → (cfg4.win 4).flush t = false := by decide +kernel
/-- where it is, the block is stored to. -/
theorem live4_4 : ∀ t : Fin cfg4.N, last4 (grid4.coords t) → cfg4.idle 4 (grid4.coords t) = false := by decide +kernel

/-! ## The blocks and the accumulator, point by point -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The scratch accumulator's contents BEFORE point `n` (after the points below it): each point adds its block product to zero,
    at the first column block, or to what the point before left. Before the first point the scratch holds anything. -/
def accAt4 (c : Dev nD) : ℕ → Vec F S8192x64 .f32
  | 0 => fun _ => Classical.choice (Elt.nonempty F .f32)
  | n + 1 =>
    if h : n < cfg4.N then
      k4_pay2 (iblk4 V c 0 ⟨n, h⟩) (iblk4 V c 1 ⟨n, h⟩) (if n % 16 = 0 then k4_pay1 (F := F) else accAt4 c n)
    else accAt4 c n

/-- One point's step of the accumulator, in the form the body's run states it. -/
theorem accAt4_succ (c : Dev nD) (t : Fin cfg4.N) (X : Vec F S8192x64 .f32) (hX : t.val % 16 ≠ 0 → X = accAt4 V c t.val) :
    accAt4 V c (t.val + 1) = k4_pay2 (iblk4 V c 0 t) (iblk4 V c 1 t) (accIn4 (grid4.coords t) X) := by
  obtain ⟨n, hn⟩ := t
  rw [accAt4, dif_pos hn]; unfold accIn4
  by_cases h0 : n % 16 = 0
  · rw [if_pos h0, if_pos ((hfirst4 ⟨n, hn⟩).mpr h0)]
  · rw [if_neg h0, if_neg (fun h => h0 ((hfirst4 ⟨n, hn⟩).mp h)), hX h0]

/-- The scratch accumulator, a whole scoped buffer of the kernel's own. -/
abbrev scM4 : Memref sig .tc .vmem S8192x64 .f32 := Memref.whole cc4_scratch0

/-- The region's invariant before point `n`: the scratch at the accumulated value — at anything where the body will reset it —,
    every other scoped buffer no window stages at something. -/
def Phi4 (c : Dev nD) (n : ℕ) : sProp 𝕄 :=
  iprop((∃ X : Vec F S8192x64 .f32, ⌜n % 16 ≠ 0 → X = accAt4 V c n⌝ ∗ owns (c : Thread nD τ) scM4 fullShare X)
    ∗ Pipeline.scopedRestBut (Ix := Unit) (Name := ℕ) (U := UR sig nD τ) (Lvl := ℕ) (Val := Elt F) spec4 c [cc4_scratch0])

/-! ## The proof data -/

/-- The proof data on core `c`, from the contents `V` the region is entered at: after the body each input's buffer at its block,
    the output's at the layer's output computed from the accumulator, the weight block and the bias block (read where the block is
    written back: at the last column block); the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay3 (accAt4 V c (t.val + 1)) (iblk4 V c 2 t) (iblk4 V c 3 t)
  Φ t := Phi4 V c t.val
  q _ := fullShare
  owed _ := 0

theorem A_eq4 (c : Dev nD) (w : Fin cfg4.W) : (dat4 V c).A w = V c (Pipeline.arrRef spec4 w) := by dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = k4_pay3 (accAt4 V c (t.val + 1)) (iblk4 V c 2 t) (iblk4 V c 3 t) := by dsimp only [dat4]

/-- An input window fetched at every point holds its block when the body runs. -/
theorem before4_0 (c : Dev nD) (t : Fin cfg4.N) (d) : (dat4 V c).before 0 t d = iblk4 V c 0 t := by
  unfold Dat.before; rw [if_pos (fetch4_0 t)]; rfl
theorem before4_1 (c : Dev nD) (t : Fin cfg4.N) (d) : (dat4 V c).before 1 t d = iblk4 V c 1 t := by
  unfold Dat.before; rw [if_pos (fetch4_1 t)]; rfl
/-- The weight and the bias are fetched once, at the first point; their block index never moves and the body leaves them in place,
    so their buffers hold their block at every point. -/
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

/-! ## The body obligation -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t
    ∗ (dat4 V c).leavesExact 3 t ∗ (dat4 V c).leavesExact 4 t)

set_option maxHeartbeats 1600000 in
/-- The body at any point: the inputs' buffers hold their blocks, the invariant hands over the scratch at the accumulated value,
    the one-point run applies, and the invariant takes the scratch back one step further; the output block is handed back as found
    unless this is the last column block, where it holds the layer's output. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = Phi4 V c (t.val + 1) from rfl, show (dat4 V c).Φ t.castSucc = Phi4 V c t.val from rfl]
  rw [show (dat4 V c).leavesExact 0 t = owns (c : Thread nD τ) (st4_0 t) fullShare ((dat4 V c).after 0 t) from by
    unfold Dat.leavesExact; rw [live4_0 t], after4_0]
  rw [show (dat4 V c).leavesExact 1 t = owns (c : Thread nD τ) (st4_1 t) fullShare ((dat4 V c).after 1 t) from by
    unfold Dat.leavesExact; rw [live4_1 t], after4_1]
  rw [show (dat4 V c).leavesExact 2 t = owns (c : Thread nD τ) (st4_2 t) fullShare ((dat4 V c).after 2 t) from by
    unfold Dat.leavesExact; rw [live4_2 t], after4_2]
  rw [show (dat4 V c).leavesExact 3 t = owns (c : Thread nD τ) (st4_3 t) fullShare ((dat4 V c).after 3 t) from by
    unfold Dat.leavesExact; rw [live4_3 t], after4_3]
  unfold Phi4
  by_cases h1 : last4 (grid4.coords t)
  · rw [show (dat4 V c).leavesExact 4 t = owns (c : Thread nD τ) (st4_4 t) fullShare ((dat4 V c).after 4 t) from by
      unfold Dat.leavesExact; rw [live4_4 t h1], after4_4]
    iintro ⟨⟨⟨%X, %hX, HS⟩, Hrest⟩, Ho, ⟨%d0, H0⟩, ⟨%d1, H1⟩, ⟨%d2, H2⟩, ⟨%d3, H3⟩, ⟨%d4, H4⟩⟩
    iapply (run4 c (grid4.coords t) _ _ _ _ _ _ _ _ _ _ _ _ (iblk4 V c 0 t) (iblk4 V c 1 t) (iblk4 V c 2 t) (iblk4 V c 3 t) _ X Set.univ _)
    isplitl [H0]; · iexact H0
    isplitl [H1]; · iexact H1
    isplitl [H2]; · iexact H2
    isplitl [H3]; · iexact H3
    isplitl [H4]; · iexact H4
    isplitl [HS]; · iexact HS
    rw [if_pos h1, ← accAt4_succ V c t X hX]
    iintro ⟨H0, H1, H2, H3, H4, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    isplitl [H2]; · iexact H2
    isplitl [H3]; · iexact H3
    iexact H4
  · rw [Dat.leavesExact_idle (dat4 V c) 4 t (idle4_4 t h1) (noflush4_4 t h1)]
    iintro ⟨⟨⟨%X, %hX, HS⟩, Hrest⟩, Ho, ⟨%d0, H0⟩, ⟨%d1, H1⟩, ⟨%d2, H2⟩, ⟨%d3, H3⟩, ⟨%d4, H4⟩⟩
    iapply (run4 c (grid4.coords t) _ _ _ _ _ _ _ _ _ _ _ _ (iblk4 V c 0 t) (iblk4 V c 1 t) (iblk4 V c 2 t) (iblk4 V c 3 t) _ X Set.univ _)
    isplitl [H0]; · iexact H0
    isplitl [H1]; · iexact H1
    isplitl [H2]; · iexact H2
    isplitl [H3]; · iexact H3
    isplitl [H4]; · iexact H4
    isplitl [HS]; · iexact HS
    rw [if_neg h1, ← accAt4_succ V c t X hX]
    iintro ⟨H0, H1, H2, H3, H4, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.HandKI.Inv4.lean ====
/-
  Kernel region 4: how the scoped buffers the launch hands a region become its invariant before the first point (the scratch
  accumulator at anything) and how the invariant gives them back after any point (the accumulator's contents forgotten).
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Dat4
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Into and out of the invariant -/

/-- The scoped buffers the launch hands the region make the invariant before the first point: the scratch at anything. -/
theorem hin4 (c : Dev nD) :
    (Pipeline.scopedRest (Ix := Unit) (Name := ℕ) (U := UR sig nD τ) (Lvl := ℕ) (Val := Elt F) spec4 c : sProp 𝕄) ⊢ Phi4 V c 0 := by
  unfold Phi4; rw [scopedRest4_split]
  iintro ⟨⟨%f, Hs⟩, Hr⟩
  isplitl [Hs]
  · iexists f; isplitr; · ipureintro; intro h; exact absurd (Nat.zero_mod _) h
    rw [owns_whole]; iexact Hs
  iexact Hr

/-- The invariant at any point gives them back, the scratch's contents forgotten. -/
theorem hout4 (c : Dev nD) (n : ℕ) :
    Phi4 V c n ⊢ (Pipeline.scopedRest (Ix := Unit) (Name := ℕ) (U := UR sig nD τ) (Lvl := ℕ) (Val := Elt F) spec4 c : sProp 𝕄) := by
  unfold Phi4; simp only [owns_whole]; rw [scopedRest4_split]
  iintro ⟨⟨%X, -, Hs⟩, Hr⟩
  isplitl [Hs]
  · iexists X; iexact Hs
  iexact Hr

end Cert.KernelIdeal.Hand

end
-- ==== Proof.HandKI.Run5.lean ====
/-
  One grid point of diffusion step (kernel region 5): the body multiplies an [8192, 512] block of the adjacency by the matching
  [512, 64] block of the activation and adds the product to an [8192, 64] accumulator kept in scratch, which it zeroes first at
  the first column block of a batch element and copies to the output block at the last one. Stated on any whole staging
  buffers, with every buffer's final contents written out as the body's own payload terms.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the first column block of a row sweep: the body's first branch condition, from the grid coordinates. -/
abbrev first5 (i : grid5.Coords) : Prop := (Scalar.cmpi .ne (Scalar.extui (Scalar.cmpi .eq (BitVec.ofNat 32 (i 1).val) 0#32)) 0#32) = 1#1
/-- The accumulator is copied out at the last column block: the body's second branch condition. -/
abbrev last5 (i : grid5.Coords) : Prop := k5_cond2 i = 1#1

/-- The accumulator the body adds this point's product to: zero at the first column block, else what the point before left. -/
def accIn5 (i : grid5.Coords) [Decidable (first5 i)] (xs : Vec F S8192x64 .f32) : Vec F S8192x64 .f32 :=
  if first5 i then k5_pay1 (F := F) else xs

/-- ONE POINT of the diffusion step, on any whole staging memrefs: the adjacency block `x0` and the activation block `x1` are read and
    kept; the scratch accumulator ends at (zero or what it held) + the block product; the output block is overwritten with the
    accumulator at the last column block and left untouched otherwise. -/
theorem run5 (c : Dev nD) (i : grid5.Coords) [Decidable (first5 i)] [Decidable (last5 i)]
    (a2 : Memref sig .tc .vmem S1x8192x512 .bf16) (h2 : a2.IsWhole) (a3 : Memref sig .tc .vmem S1x512x64 .f32) (h3 : a3.IsWhole)
    (a4 : Memref sig .tc .vmem S1x8192x64 .f32) (h4 : a4.IsWhole) (a5 : Memref sig .tc .vmem S8192x64 .f32) (h5 : a5.IsWhole)
    (x0 : Vec F S1x8192x512 .bf16) (x1 : Vec F S1x512x64 .f32) (xo : Vec F S1x8192x64 .f32) (xs : Vec F S8192x64 .f32)
    (E : Set ℕ) (K : PUnit → sProp 𝕄) :
    iprop(owns (c : Thread nD τ) a2 fullShare x0 ∗ owns (c : Thread nD τ) a3 fullShare x1 ∗ owns (c : Thread nD τ) a4 fullShare xo ∗ owns (c : Thread nD τ) a5 fullShare xs
        ∗ (iprop(owns (c : Thread nD τ) a2 fullShare x0 ∗ owns (c : Thread nD τ) a3 fullShare x1
            ∗ owns (c : Thread nD τ) a4 fullShare (if last5 i then k5_pay3 (k5_pay2 x0 x1 (accIn5 i xs)) else xo)
            ∗ owns (c : Thread nD τ) a5 fullShare (k5_pay2 x0 x1 (accIn5 i xs))) -∗ K ⟨⟩))
      ⊢ wp frame (wpE (defs₀ (F := F)) Variants.none c none) E (cc5__diffuse_kernel i a2 h2 a3 h3 a4 h4 a5 h5) K := by
  simp only [cc5__diffuse_kernel_eq_skeleton]; unfold cc5__diffuse_kernel_skel
  unfold owns accIn5
  iintro ⟨⟨%f0, %hf0, H0⟩, ⟨%f1, %hf1, H1⟩, ⟨%fo, %hfo, HO⟩, ⟨%fs, %hfs, HS⟩, Hk⟩
  obtain rfl := h2.eq_unread hf0; obtain rfl := h3.eq_unread hf1; obtain rfl := h4.eq_unread hfo; obtain rfl := h5.eq_unread hfs
  by_cases hc0 : first5 i <;> by_cases hc1 : last5 i
  · -- first column block, the last one
    sl_exec (disch := first | exact hc0 | exact hc1)
    sl_step
    iapply Hk
    rw [if_pos hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- first column block, not the last
    sl_exec (disch := first | exact hc0 | exact hc1)
    sl_step
    iapply Hk
    rw [if_pos hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, the last one
    sl_exec (disch := first | exact hc0 | exact hc1)
    sl_step
    iapply Hk
    rw [if_neg hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, not the last
    sl_exec (disch := first | exact hc0 | exact hc1)
    sl_step
    iapply Hk
    rw [if_neg hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]

end Cert.KernelIdeal.Hand

end
-- ==== Proof.HandKI.Dat5.lean ====
/-
  Diffusion step, kernel region 5: the pipeline's proof data and the body obligation. The grid is (batch element, column block);
  along the column blocks of one batch element the scratch accumulator carries the partial sum of block products, so the region's
  invariant names its contents point by point; the output block is stored, and written back, only at the last column block.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Run5
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the idle table, decided over the grid -/

/-- The accumulator is reset exactly at the first of every 16 consecutive points: the first column block of a batch element. -/
theorem hfirst5 : ∀ t : Fin cfg5.N, first5 (grid5.coords t) ↔ t.val % 16 = 0 :=
  (by decide +kernel : ∀ t : Fin grid5.N, first5 (grid5.coords t) ↔ t.val % 16 = 0)
/-- It is copied out exactly at the last of them. -/
theorem hlast5 : ∀ t : Fin cfg5.N, last5 (grid5.coords t) ↔ t.val % 16 = 15 :=
  (by decide +kernel : ∀ t : Fin grid5.N, last5 (grid5.coords t) ↔ t.val % 16 = 15)
theorem live5_0 : ∀ t : Fin cfg5.N, cfg5.idle 0 (grid5.coords t) = false := by decide +kernel
theorem live5_1 : ∀ t : Fin cfg5.N, cfg5.idle 1 (grid5.coords t) = false := by decide +kernel
/-- Where the accumulator is not copied out the output block is not stored to, -/
theorem idle5_2 : ∀ t : Fin cfg5.N, ¬ last5 (grid5.coords t) → cfg5.idle 2 (grid5.coords t) = true := by decide +kernel
/-- nor written back; -/
theorem noflush5_2 : ∀ t : Fin cfg5.N, ¬ last5 (grid5.coords t) → (cfg5.win 2).flush t = false := by decide +kernel
/-- where it is, the block is stored to. -/
theorem live5_2 : ∀ t : Fin cfg5.N, last5 (grid5.coords t) → cfg5.idle 2 (grid5.coords t) = false := by decide +kernel

/-! ## The blocks and the accumulator, point by point -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The scratch accumulator's contents BEFORE point `n` (after the points below it): each point adds its block product to zero,
    at the first column block, or to what the point before left. Before the first point the scratch holds anything. -/
def accAt5 (c : Dev nD) : ℕ → Vec F S8192x64 .f32
  | 0 => fun _ => Classical.choice (Elt.nonempty F .f32)
  | n + 1 =>
    if h : n < cfg5.N then
      k5_pay2 (iblk5 V c 0 ⟨n, h⟩) (iblk5 V c 1 ⟨n, h⟩) (if n % 16 = 0 then k5_pay1 (F := F) else accAt5 c n)
    else accAt5 c n

/-- One point's step of the accumulator, in the form the body's run states it. -/
theorem accAt5_succ (c : Dev nD) (t : Fin cfg5.N) (X : Vec F S8192x64 .f32) (hX : t.val % 16 ≠ 0 → X = accAt5 V c t.val) :
    accAt5 V c (t.val + 1) = k5_pay2 (iblk5 V c 0 t) (iblk5 V c 1 t) (accIn5 (grid5.coords t) X) := by
  obtain ⟨n, hn⟩ := t
  rw [accAt5, dif_pos hn]; unfold accIn5
  by_cases h0 : n % 16 = 0
  · rw [if_pos h0, if_pos ((hfirst5 ⟨n, hn⟩).mpr h0)]
  · rw [if_neg h0, if_neg (fun h => h0 ((hfirst5 ⟨n, hn⟩).mp h)), hX h0]

/-- The scratch accumulator, a whole scoped buffer of the kernel's own. -/
abbrev scM5 : Memref sig .tc .vmem S8192x64 .f32 := Memref.whole cc5_scratch0

/-- The region's invariant before point `n`: the scratch at the accumulated value — at anything where the body will reset it —,
    every other scoped buffer no window stages at something. -/
def Phi5 (c : Dev nD) (n : ℕ) : sProp 𝕄 :=
  iprop((∃ X : Vec F S8192x64 .f32, ⌜n % 16 ≠ 0 → X = accAt5 V c n⌝ ∗ owns (c : Thread nD τ) scM5 fullShare X)
    ∗ Pipeline.scopedRestBut (Ix := Unit) (Name := ℕ) (U := UR sig nD τ) (Lvl := ℕ) (Val := Elt F) spec5 c [cc5_scratch0])

/-! ## The proof data -/

/-- The proof data on core `c`, from the contents `V` the region is entered at: after the body each input's buffer at its block,
    the output's at the accumulator (read where the block is written back: at the last column block); the invariant `Phi5`;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k5_pay3 (accAt5 V c (t.val + 1))
  Φ t := Phi5 V c t.val
  q _ := fullShare
  owed _ := 0

theorem A_eq5 (c : Dev nD) (w : Fin cfg5.W) : (dat5 V c).A w = V c (Pipeline.arrRef spec5 w) := by dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = k5_pay3 (accAt5 V c (t.val + 1)) := by dsimp only [dat5]

/-- An input window is fetched at every point: its buffer holds its block when the body runs. -/
theorem before5_0 (c : Dev nD) (t : Fin cfg5.N) (d) : (dat5 V c).before 0 t d = iblk5 V c 0 t := by
  unfold Dat.before; rw [if_pos (fetch5_0 t)]; rfl
theorem before5_1 (c : Dev nD) (t : Fin cfg5.N) (d) : (dat5 V c).before 1 t d = iblk5 V c 1 t := by
  unfold Dat.before; rw [if_pos (fetch5_1 t)]; rfl

/-! ## The body obligation -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ (dat5 V c).leavesExact 0 t ∗ (dat5 V c).leavesExact 1 t ∗ (dat5 V c).leavesExact 2 t)

set_option maxHeartbeats 1600000 in
/-- The body at any point: the inputs' buffers hold their blocks, the invariant hands over the scratch at the accumulated value,
    the one-point run applies, and the invariant takes the scratch back one step further; the output block is handed back as found
    unless this is the last column block, where it holds the accumulator. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = Phi5 V c (t.val + 1) from rfl, show (dat5 V c).Φ t.castSucc = Phi5 V c t.val from rfl]
  rw [show (dat5 V c).leavesExact 0 t = owns (c : Thread nD τ) (st5_0 t) fullShare ((dat5 V c).after 0 t) from by
    unfold Dat.leavesExact; rw [live5_0 t], after5_0]
  rw [show (dat5 V c).leavesExact 1 t = owns (c : Thread nD τ) (st5_1 t) fullShare ((dat5 V c).after 1 t) from by
    unfold Dat.leavesExact; rw [live5_1 t], after5_1]
  unfold Phi5
  by_cases h1 : last5 (grid5.coords t)
  · rw [show (dat5 V c).leavesExact 2 t = owns (c : Thread nD τ) (st5_2 t) fullShare ((dat5 V c).after 2 t) from by
      unfold Dat.leavesExact; rw [live5_2 t h1], after5_2]
    iintro ⟨⟨⟨%X, %hX, HS⟩, Hrest⟩, Ho, ⟨%d0, H0⟩, ⟨%d1, H1⟩, ⟨%d2, H2⟩⟩
    iapply (run5 c (grid5.coords t) _ _ _ _ _ _ _ _ (iblk5 V c 0 t) (iblk5 V c 1 t) _ X Set.univ _)
    isplitl [H0]; · iexact H0
    isplitl [H1]; · iexact H1
    isplitl [H2]; · iexact H2
    isplitl [HS]; · iexact HS
    rw [if_pos h1, ← accAt5_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexact H2
  · rw [Dat.leavesExact_idle (dat5 V c) 2 t (idle5_2 t h1) (noflush5_2 t h1)]
    iintro ⟨⟨⟨%X, %hX, HS⟩, Hrest⟩, Ho, ⟨%d0, H0⟩, ⟨%d1, H1⟩, ⟨%d2, H2⟩⟩
    iapply (run5 c (grid5.coords t) _ _ _ _ _ _ _ _ (iblk5 V c 0 t) (iblk5 V c 1 t) _ X Set.univ _)
    isplitl [H0]; · iexact H0
    isplitl [H1]; · iexact H1
    isplitl [H2]; · iexact H2
    isplitl [HS]; · iexact HS
    rw [if_neg h1, ← accAt5_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexists _; iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.HandKI.Inv5.lean ====
/-
  Kernel region 5: how the scoped buffers the launch hands a region become its invariant before the first point (the scratch
  accumulator at anything) and how the invariant gives them back after any point (the accumulator's contents forgotten).
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Dat5
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Into and out of the invariant -/

/-- The scoped buffers the launch hands the region make the invariant before the first point: the scratch at anything. -/
theorem hin5 (c : Dev nD) :
    (Pipeline.scopedRest (Ix := Unit) (Name := ℕ) (U := UR sig nD τ) (Lvl := ℕ) (Val := Elt F) spec5 c : sProp 𝕄) ⊢ Phi5 V c 0 := by
  unfold Phi5; rw [scopedRest5_split]
  iintro ⟨⟨%f, Hs⟩, Hr⟩
  isplitl [Hs]
  · iexists f; isplitr; · ipureintro; intro h; exact absurd (Nat.zero_mod _) h
    rw [owns_whole]; iexact Hs
  iexact Hr

/-- The invariant at any point gives them back, the scratch's contents forgotten. -/
theorem hout5 (c : Dev nD) (n : ℕ) :
    Phi5 V c n ⊢ (Pipeline.scopedRest (Ix := Unit) (Name := ℕ) (U := UR sig nD τ) (Lvl := ℕ) (Val := Elt F) spec5 c : sProp 𝕄) := by
  unfold Phi5; simp only [owns_whole]; rw [scopedRest5_split]
  iintro ⟨⟨%X, -, Hs⟩, Hr⟩
  isplitl [Hs]
  · iexists X; iexact Hs
  iexact Hr

end Cert.KernelIdeal.Hand

end
-- ==== Proof.HandKI.Run6.lean ====
/-
  One grid point of diffusion step (kernel region 6): the body multiplies an [8192, 512] block of the adjacency by the matching
  [512, 64] block of the activation and adds the product to an [8192, 64] accumulator kept in scratch, which it zeroes first at
  the first column block of a batch element and copies to the output block at the last one. Stated on any whole staging
  buffers, with every buffer's final contents written out as the body's own payload terms.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the first column block of a row sweep: the body's first branch condition, from the grid coordinates. -/
abbrev first6 (i : grid6.Coords) : Prop := (Scalar.cmpi .ne (Scalar.extui (Scalar.cmpi .eq (BitVec.ofNat 32 (i 1).val) 0#32)) 0#32) = 1#1
/-- The accumulator is copied out at the last column block: the body's second branch condition. -/
abbrev last6 (i : grid6.Coords) : Prop := k6_cond2 i = 1#1

/-- The accumulator the body adds this point's product to: zero at the first column block, else what the point before left. -/
def accIn6 (i : grid6.Coords) [Decidable (first6 i)] (xs : Vec F S8192x64 .f32) : Vec F S8192x64 .f32 :=
  if first6 i then k6_pay1 (F := F) else xs

/-- ONE POINT of the diffusion step, on any whole staging memrefs: the adjacency block `x0` and the activation block `x1` are read and
    kept; the scratch accumulator ends at (zero or what it held) + the block product; the output block is overwritten with the
    accumulator at the last column block and left untouched otherwise. -/
theorem run6 (c : Dev nD) (i : grid6.Coords) [Decidable (first6 i)] [Decidable (last6 i)]
    (a2 : Memref sig .tc .vmem S1x8192x512 .bf16) (h2 : a2.IsWhole) (a3 : Memref sig .tc .vmem S1x512x64 .f32) (h3 : a3.IsWhole)
    (a4 : Memref sig .tc .vmem S1x8192x64 .f32) (h4 : a4.IsWhole) (a5 : Memref sig .tc .vmem S8192x64 .f32) (h5 : a5.IsWhole)
    (x0 : Vec F S1x8192x512 .bf16) (x1 : Vec F S1x512x64 .f32) (xo : Vec F S1x8192x64 .f32) (xs : Vec F S8192x64 .f32)
    (E : Set ℕ) (K : PUnit → sProp 𝕄) :
    iprop(owns (c : Thread nD τ) a2 fullShare x0 ∗ owns (c : Thread nD τ) a3 fullShare x1 ∗ owns (c : Thread nD τ) a4 fullShare xo ∗ owns (c : Thread nD τ) a5 fullShare xs
        ∗ (iprop(owns (c : Thread nD τ) a2 fullShare x0 ∗ owns (c : Thread nD τ) a3 fullShare x1
            ∗ owns (c : Thread nD τ) a4 fullShare (if last6 i then k6_pay3 (k6_pay2 x0 x1 (accIn6 i xs)) else xo)
            ∗ owns (c : Thread nD τ) a5 fullShare (k6_pay2 x0 x1 (accIn6 i xs))) -∗ K ⟨⟩))
      ⊢ wp frame (wpE (defs₀ (F := F)) Variants.none c none) E (cc6__diffuse_kernel i a2 h2 a3 h3 a4 h4 a5 h5) K := by
  simp only [cc6__diffuse_kernel_eq_skeleton]; unfold cc6__diffuse_kernel_skel
  unfold owns accIn6
  iintro ⟨⟨%f0, %hf0, H0⟩, ⟨%f1, %hf1, H1⟩, ⟨%fo, %hfo, HO⟩, ⟨%fs, %hfs, HS⟩, Hk⟩
  obtain rfl := h2.eq_unread hf0; obtain rfl := h3.eq_unread hf1; obtain rfl := h4.eq_unread hfo; obtain rfl := h5.eq_unread hfs
  by_cases hc0 : first6 i <;> by_cases hc1 : last6 i
  · -- first column block, the last one
    sl_exec (disch := first | exact hc0 | exact hc1)
    sl_step
    iapply Hk
    rw [if_pos hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- first column block, not the last
    sl_exec (disch := first | exact hc0 | exact hc1)
    sl_step
    iapply Hk
    rw [if_pos hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, the last one
    sl_exec (disch := first | exact hc0 | exact hc1)
    sl_step
    iapply Hk
    rw [if_neg hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, not the last
    sl_exec (disch := first | exact hc0 | exact hc1)
    sl_step
    iapply Hk
    rw [if_neg hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]

end Cert.KernelIdeal.Hand

end
-- ==== Proof.HandKI.Dat6.lean ====
/-
  Diffusion step, kernel region 6: the pipeline's proof data and the body obligation. The grid is (batch element, column block);
  along the column blocks of one batch element the scratch accumulator carries the partial sum of block products, so the region's
  invariant names its contents point by point; the output block is stored, and written back, only at the last column block.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Run6
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the idle table, decided over the grid -/

/-- The accumulator is reset exactly at the first of every 16 consecutive points: the first column block of a batch element. -/
theorem hfirst6 : ∀ t : Fin cfg6.N, first6 (grid6.coords t) ↔ t.val % 16 = 0 :=
  (by decide +kernel : ∀ t : Fin grid6.N, first6 (grid6.coords t) ↔ t.val % 16 = 0)
/-- It is copied out exactly at the last of them. -/
theorem hlast6 : ∀ t : Fin cfg6.N, last6 (grid6.coords t) ↔ t.val % 16 = 15 :=
  (by decide +kernel : ∀ t : Fin grid6.N, last6 (grid6.coords t) ↔ t.val % 16 = 15)
theorem live6_0 : ∀ t : Fin cfg6.N, cfg6.idle 0 (grid6.coords t) = false := by decide +kernel
theorem live6_1 : ∀ t : Fin cfg6.N, cfg6.idle 1 (grid6.coords t) = false := by decide +kernel
/-- Where the accumulator is not copied out the output block is not stored to, -/
theorem idle6_2 : ∀ t : Fin cfg6.N, ¬ last6 (grid6.coords t) → cfg6.idle 2 (grid6.coords t) = true := by decide +kernel
/-- nor written back; -/
theorem noflush6_2 : ∀ t : Fin cfg6.N, ¬ last6 (grid6.coords t) → (cfg6.win 2).flush t = false := by decide +kernel
/-- where it is, the block is stored to. -/
theorem live6_2 : ∀ t : Fin cfg6.N, last6 (grid6.coords t) → cfg6.idle 2 (grid6.coords t) = false := by decide +kernel

/-! ## The blocks and the accumulator, point by point -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The scratch accumulator's contents BEFORE point `n` (after the points below it): each point adds its block product to zero,
    at the first column block, or to what the point before left. Before the first point the scratch holds anything. -/
def accAt6 (c : Dev nD) : ℕ → Vec F S8192x64 .f32
  | 0 => fun _ => Classical.choice (Elt.nonempty F .f32)
  | n + 1 =>
    if h : n < cfg6.N then
      k6_pay2 (iblk6 V c 0 ⟨n, h⟩) (iblk6 V c 1 ⟨n, h⟩) (if n % 16 = 0 then k6_pay1 (F := F) else accAt6 c n)
    else accAt6 c n

/-- One point's step of the accumulator, in the form the body's run states it. -/
theorem accAt6_succ (c : Dev nD) (t : Fin cfg6.N) (X : Vec F S8192x64 .f32) (hX : t.val % 16 ≠ 0 → X = accAt6 V c t.val) :
    accAt6 V c (t.val + 1) = k6_pay2 (iblk6 V c 0 t) (iblk6 V c 1 t) (accIn6 (grid6.coords t) X) := by
  obtain ⟨n, hn⟩ := t
  rw [accAt6, dif_pos hn]; unfold accIn6
  by_cases h0 : n % 16 = 0
  · rw [if_pos h0, if_pos ((hfirst6 ⟨n, hn⟩).mpr h0)]
  · rw [if_neg h0, if_neg (fun h => h0 ((hfirst6 ⟨n, hn⟩).mp h)), hX h0]

/-- The scratch accumulator, a whole scoped buffer of the kernel's own. -/
abbrev scM6 : Memref sig .tc .vmem S8192x64 .f32 := Memref.whole cc6_scratch0

/-- The region's invariant before point `n`: the scratch at the accumulated value — at anything where the body will reset it —,
    every other scoped buffer no window stages at something. -/
def Phi6 (c : Dev nD) (n : ℕ) : sProp 𝕄 :=
  iprop((∃ X : Vec F S8192x64 .f32, ⌜n % 16 ≠ 0 → X = accAt6 V c n⌝ ∗ owns (c : Thread nD τ) scM6 fullShare X)
    ∗ Pipeline.scopedRestBut (Ix := Unit) (Name := ℕ) (U := UR sig nD τ) (Lvl := ℕ) (Val := Elt F) spec6 c [cc6_scratch0])

/-! ## The proof data -/

/-- The proof data on core `c`, from the contents `V` the region is entered at: after the body each input's buffer at its block,
    the output's at the accumulator (read where the block is written back: at the last column block); the invariant `Phi6`;
    nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => k6_pay3 (accAt6 V c (t.val + 1))
  Φ t := Phi6 V c t.val
  q _ := fullShare
  owed _ := 0

theorem A_eq6 (c : Dev nD) (w : Fin cfg6.W) : (dat6 V c).A w = V c (Pipeline.arrRef spec6 w) := by dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = k6_pay3 (accAt6 V c (t.val + 1)) := by dsimp only [dat6]

/-- An input window is fetched at every point: its buffer holds its block when the body runs. -/
theorem before6_0 (c : Dev nD) (t : Fin cfg6.N) (d) : (dat6 V c).before 0 t d = iblk6 V c 0 t := by
  unfold Dat.before; rw [if_pos (fetch6_0 t)]; rfl
theorem before6_1 (c : Dev nD) (t : Fin cfg6.N) (d) : (dat6 V c).before 1 t d = iblk6 V c 1 t := by
  unfold Dat.before; rw [if_pos (fetch6_1 t)]; rfl

/-! ## The body obligation -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ (dat6 V c).leavesExact 0 t ∗ (dat6 V c).leavesExact 1 t ∗ (dat6 V c).leavesExact 2 t)

set_option maxHeartbeats 1600000 in
/-- The body at any point: the inputs' buffers hold their blocks, the invariant hands over the scratch at the accumulated value,
    the one-point run applies, and the invariant takes the scratch back one step further; the output block is handed back as found
    unless this is the last column block, where it holds the accumulator. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = Phi6 V c (t.val + 1) from rfl, show (dat6 V c).Φ t.castSucc = Phi6 V c t.val from rfl]
  rw [show (dat6 V c).leavesExact 0 t = owns (c : Thread nD τ) (st6_0 t) fullShare ((dat6 V c).after 0 t) from by
    unfold Dat.leavesExact; rw [live6_0 t], after6_0]
  rw [show (dat6 V c).leavesExact 1 t = owns (c : Thread nD τ) (st6_1 t) fullShare ((dat6 V c).after 1 t) from by
    unfold Dat.leavesExact; rw [live6_1 t], after6_1]
  unfold Phi6
  by_cases h1 : last6 (grid6.coords t)
  · rw [show (dat6 V c).leavesExact 2 t = owns (c : Thread nD τ) (st6_2 t) fullShare ((dat6 V c).after 2 t) from by
      unfold Dat.leavesExact; rw [live6_2 t h1], after6_2]
    iintro ⟨⟨⟨%X, %hX, HS⟩, Hrest⟩, Ho, ⟨%d0, H0⟩, ⟨%d1, H1⟩, ⟨%d2, H2⟩⟩
    iapply (run6 c (grid6.coords t) _ _ _ _ _ _ _ _ (iblk6 V c 0 t) (iblk6 V c 1 t) _ X Set.univ _)
    isplitl [H0]; · iexact H0
    isplitl [H1]; · iexact H1
    isplitl [H2]; · iexact H2
    isplitl [HS]; · iexact HS
    rw [if_pos h1, ← accAt6_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexact H2
  · rw [Dat.leavesExact_idle (dat6 V c) 2 t (idle6_2 t h1) (noflush6_2 t h1)]
    iintro ⟨⟨⟨%X, %hX, HS⟩, Hrest⟩, Ho, ⟨%d0, H0⟩, ⟨%d1, H1⟩, ⟨%d2, H2⟩⟩
    iapply (run6 c (grid6.coords t) _ _ _ _ _ _ _ _ (iblk6 V c 0 t) (iblk6 V c 1 t) _ X Set.univ _)
    isplitl [H0]; · iexact H0
    isplitl [H1]; · iexact H1
    isplitl [H2]; · iexact H2
    isplitl [HS]; · iexact HS
    rw [if_neg h1, ← accAt6_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexists _; iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.HandKI.Inv6.lean ====
/-
  Kernel region 6: how the scoped buffers the launch hands a region become its invariant before the first point (the scratch
  accumulator at anything) and how the invariant gives them back after any point (the accumulator's contents forgotten).
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Dat6
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Into and out of the invariant -/

/-- The scoped buffers the launch hands the region make the invariant before the first point: the scratch at anything. -/
theorem hin6 (c : Dev nD) :
    (Pipeline.scopedRest (Ix := Unit) (Name := ℕ) (U := UR sig nD τ) (Lvl := ℕ) (Val := Elt F) spec6 c : sProp 𝕄) ⊢ Phi6 V c 0 := by
  unfold Phi6; rw [scopedRest6_split]
  iintro ⟨⟨%f, Hs⟩, Hr⟩
  isplitl [Hs]
  · iexists f; isplitr; · ipureintro; intro h; exact absurd (Nat.zero_mod _) h
    rw [owns_whole]; iexact Hs
  iexact Hr

/-- The invariant at any point gives them back, the scratch's contents forgotten. -/
theorem hout6 (c : Dev nD) (n : ℕ) :
    Phi6 V c n ⊢ (Pipeline.scopedRest (Ix := Unit) (Name := ℕ) (U := UR sig nD τ) (Lvl := ℕ) (Val := Elt F) spec6 c : sProp 𝕄) := by
  unfold Phi6; simp only [owns_whole]; rw [scopedRest6_split]
  iintro ⟨⟨%X, -, Hs⟩, Hr⟩
  isplitl [Hs]
  · iexists X; iexact Hs
  iexact Hr

end Cert.KernelIdeal.Hand

end
-- ==== Proof.HandKI.Run7.lean ====
/-
  One grid point of diffusion step (kernel region 7): the body multiplies an [8192, 512] block of the adjacency by the matching
  [512, 64] block of the activation and adds the product to an [8192, 64] accumulator kept in scratch, which it zeroes first at
  the first column block of a batch element and copies to the output block at the last one. Stated on any whole staging
  buffers, with every buffer's final contents written out as the body's own payload terms.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the first column block of a row sweep: the body's first branch condition, from the grid coordinates. -/
abbrev first7 (i : grid7.Coords) : Prop := (Scalar.cmpi .ne (Scalar.extui (Scalar.cmpi .eq (BitVec.ofNat 32 (i 1).val) 0#32)) 0#32) = 1#1
/-- The accumulator is copied out at the last column block: the body's second branch condition. -/
abbrev last7 (i : grid7.Coords) : Prop := k7_cond2 i = 1#1

/-- The accumulator the body adds this point's product to: zero at the first column block, else what the point before left. -/
def accIn7 (i : grid7.Coords) [Decidable (first7 i)] (xs : Vec F S8192x64 .f32) : Vec F S8192x64 .f32 :=
  if first7 i then k7_pay1 (F := F) else xs

/-- ONE POINT of the diffusion step, on any whole staging memrefs: the adjacency block `x0` and the activation block `x1` are read and
    kept; the scratch accumulator ends at (zero or what it held) + the block product; the output block is overwritten with the
    accumulator at the last column block and left untouched otherwise. -/
theorem run7 (c : Dev nD) (i : grid7.Coords) [Decidable (first7 i)] [Decidable (last7 i)]
    (a2 : Memref sig .tc .vmem S1x8192x512 .bf16) (h2 : a2.IsWhole) (a3 : Memref sig .tc .vmem S1x512x64 .f32) (h3 : a3.IsWhole)
    (a4 : Memref sig .tc .vmem S1x8192x64 .f32) (h4 : a4.IsWhole) (a5 : Memref sig .tc .vmem S8192x64 .f32) (h5 : a5.IsWhole)
    (x0 : Vec F S1x8192x512 .bf16) (x1 : Vec F S1x512x64 .f32) (xo : Vec F S1x8192x64 .f32) (xs : Vec F S8192x64 .f32)
    (E : Set ℕ) (K : PUnit → sProp 𝕄) :
    iprop(owns (c : Thread nD τ) a2 fullShare x0 ∗ owns (c : Thread nD τ) a3 fullShare x1 ∗ owns (c : Thread nD τ) a4 fullShare xo ∗ owns (c : Thread nD τ) a5 fullShare xs
        ∗ (iprop(owns (c : Thread nD τ) a2 fullShare x0 ∗ owns (c : Thread nD τ) a3 fullShare x1
            ∗ owns (c : Thread nD τ) a4 fullShare (if last7 i then k7_pay3 (k7_pay2 x0 x1 (accIn7 i xs)) else xo)
            ∗ owns (c : Thread nD τ) a5 fullShare (k7_pay2 x0 x1 (accIn7 i xs))) -∗ K ⟨⟩))
      ⊢ wp frame (wpE (defs₀ (F := F)) Variants.none c none) E (cc7__diffuse_kernel i a2 h2 a3 h3 a4 h4 a5 h5) K := by
  simp only [cc7__diffuse_kernel_eq_skeleton]; unfold cc7__diffuse_kernel_skel
  unfold owns accIn7
  iintro ⟨⟨%f0, %hf0, H0⟩, ⟨%f1, %hf1, H1⟩, ⟨%fo, %hfo, HO⟩, ⟨%fs, %hfs, HS⟩, Hk⟩
  obtain rfl := h2.eq_unread hf0; obtain rfl := h3.eq_unread hf1; obtain rfl := h4.eq_unread hfo; obtain rfl := h5.eq_unread hfs
  by_cases hc0 : first7 i <;> by_cases hc1 : last7 i
  · -- first column block, the last one
    sl_exec (disch := first | exact hc0 | exact hc1)
    sl_step
    iapply Hk
    rw [if_pos hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- first column block, not the last
    sl_exec (disch := first | exact hc0 | exact hc1)
    sl_step
    iapply Hk
    rw [if_pos hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, the last one
    sl_exec (disch := first | exact hc0 | exact hc1)
    sl_step
    iapply Hk
    rw [if_neg hc0, if_pos hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]
  · -- later column block, not the last
    sl_exec (disch := first | exact hc0 | exact hc1)
    sl_step
    iapply Hk
    rw [if_neg hc0, if_neg hc1]
    isplitl [H0]
    · iexists _; isplitr; · ipureintro; exact hf0
      iexact H0
    isplitl [H1]
    · iexists _; isplitr; · ipureintro; exact hf1
      iexact H1
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S1x8192x64) _ _ Cert.Lib.zeros3, View.readAt_whole (S := S8192x64) _ _ Cert.Lib.zeros2, hf0, hf1, hfo, hfs]

end Cert.KernelIdeal.Hand

end
-- ==== Proof.HandKI.Dat7.lean ====
/-
  Diffusion step, kernel region 7: the pipeline's proof data and the body obligation. The grid is (batch element, column block);
  along the column blocks of one batch element the scratch accumulator carries the partial sum of block products, so the region's
  invariant names its contents point by point; the output block is stored, and written back, only at the last column block.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Run7
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the idle table, decided over the grid -/

/-- The accumulator is reset exactly at the first of every 16 consecutive points: the first column block of a batch element. -/
theorem hfirst7 : ∀ t : Fin cfg7.N, first7 (grid7.coords t) ↔ t.val % 16 = 0 :=
  (by decide +kernel : ∀ t : Fin grid7.N, first7 (grid7.coords t) ↔ t.val % 16 = 0)
/-- It is copied out exactly at the last of them. -/
theorem hlast7 : ∀ t : Fin cfg7.N, last7 (grid7.coords t) ↔ t.val % 16 = 15 :=
  (by decide +kernel : ∀ t : Fin grid7.N, last7 (grid7.coords t) ↔ t.val % 16 = 15)
theorem live7_0 : ∀ t : Fin cfg7.N, cfg7.idle 0 (grid7.coords t) = false := by decide +kernel
theorem live7_1 : ∀ t : Fin cfg7.N, cfg7.idle 1 (grid7.coords t) = false := by decide +kernel
/-- Where the accumulator is not copied out the output block is not stored to, -/
theorem idle7_2 : ∀ t : Fin cfg7.N, ¬ last7 (grid7.coords t) → cfg7.idle 2 (grid7.coords t) = true := by decide +kernel
/-- nor written back; -/
theorem noflush7_2 : ∀ t : Fin cfg7.N, ¬ last7 (grid7.coords t) → (cfg7.win 2).flush t = false := by decide +kernel
/-- where it is, the block is stored to. -/
theorem live7_2 : ∀ t : Fin cfg7.N, last7 (grid7.coords t) → cfg7.idle 2 (grid7.coords t) = false := by decide +kernel

/-! ## The blocks and the accumulator, point by point -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The scratch accumulator's contents BEFORE point `n` (after the points below it): each point adds its block product to zero,
    at the first column block, or to what the point before left. Before the first point the scratch holds anything. -/
def accAt7 (c : Dev nD) : ℕ → Vec F S8192x64 .f32
  | 0 => fun _ => Classical.choice (Elt.nonempty F .f32)
  | n + 1 =>
    if h : n < cfg7.N then
      k7_pay2 (iblk7 V c 0 ⟨n, h⟩) (iblk7 V c 1 ⟨n, h⟩) (if n % 16 = 0 then k7_pay1 (F := F) else accAt7 c n)
    else accAt7 c n

/-- One point's step of the accumulator, in the form the body's run states it. -/
theorem accAt7_succ (c : Dev nD) (t : Fin cfg7.N) (X : Vec F S8192x64 .f32) (hX : t.val % 16 ≠ 0 → X = accAt7 V c t.val) :
    accAt7 V c (t.val + 1) = k7_pay2 (iblk7 V c 0 t) (iblk7 V c 1 t) (accIn7 (grid7.coords t) X) := by
  obtain ⟨n, hn⟩ := t
  rw [accAt7, dif_pos hn]; unfold accIn7
  by_cases h0 : n % 16 = 0
  · rw [if_pos h0, if_pos ((hfirst7 ⟨n, hn⟩).mpr h0)]
  · rw [if_neg h0, if_neg (fun h => h0 ((hfirst7 ⟨n, hn⟩).mp h)), hX h0]

/-- The scratch accumulator, a whole scoped buffer of the kernel's own. -/
abbrev scM7 : Memref sig .tc .vmem S8192x64 .f32 := Memref.whole cc7_scratch0

/-- The region's invariant before point `n`: the scratch at the accumulated value — at anything where the body will reset it —,
    every other scoped buffer no window stages at something. -/
def Phi7 (c : Dev nD) (n : ℕ) : sProp 𝕄 :=
  iprop((∃ X : Vec F S8192x64 .f32, ⌜n % 16 ≠ 0 → X = accAt7 V c n⌝ ∗ owns (c : Thread nD τ) scM7 fullShare X)
    ∗ Pipeline.scopedRestBut (Ix := Unit) (Name := ℕ) (U := UR sig nD τ) (Lvl := ℕ) (Val := Elt F) spec7 c [cc7_scratch0])

/-! ## The proof data -/

/-- The proof data on core `c`, from the contents `V` the region is entered at: after the body each input's buffer at its block,
    the output's at the accumulator (read where the block is written back: at the last column block); the invariant `Phi7`;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => k7_pay3 (accAt7 V c (t.val + 1))
  Φ t := Phi7 V c t.val
  q _ := fullShare
  owed _ := 0

theorem A_eq7 (c : Dev nD) (w : Fin cfg7.W) : (dat7 V c).A w = V c (Pipeline.arrRef spec7 w) := by dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = k7_pay3 (accAt7 V c (t.val + 1)) := by dsimp only [dat7]

/-- An input window is fetched at every point: its buffer holds its block when the body runs. -/
theorem before7_0 (c : Dev nD) (t : Fin cfg7.N) (d) : (dat7 V c).before 0 t d = iblk7 V c 0 t := by
  unfold Dat.before; rw [if_pos (fetch7_0 t)]; rfl
theorem before7_1 (c : Dev nD) (t : Fin cfg7.N) (d) : (dat7 V c).before 1 t d = iblk7 V c 1 t := by
  unfold Dat.before; rw [if_pos (fetch7_1 t)]; rfl

/-! ## The body obligation -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t ∗ (dat7 V c).leavesExact 2 t)

set_option maxHeartbeats 1600000 in
/-- The body at any point: the inputs' buffers hold their blocks, the invariant hands over the scratch at the accumulated value,
    the one-point run applies, and the invariant takes the scratch back one step further; the output block is handed back as found
    unless this is the last column block, where it holds the accumulator. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl]
  rw [show (dat7 V c).Φ t.succ = Phi7 V c (t.val + 1) from rfl, show (dat7 V c).Φ t.castSucc = Phi7 V c t.val from rfl]
  rw [show (dat7 V c).leavesExact 0 t = owns (c : Thread nD τ) (st7_0 t) fullShare ((dat7 V c).after 0 t) from by
    unfold Dat.leavesExact; rw [live7_0 t], after7_0]
  rw [show (dat7 V c).leavesExact 1 t = owns (c : Thread nD τ) (st7_1 t) fullShare ((dat7 V c).after 1 t) from by
    unfold Dat.leavesExact; rw [live7_1 t], after7_1]
  unfold Phi7
  by_cases h1 : last7 (grid7.coords t)
  · rw [show (dat7 V c).leavesExact 2 t = owns (c : Thread nD τ) (st7_2 t) fullShare ((dat7 V c).after 2 t) from by
      unfold Dat.leavesExact; rw [live7_2 t h1], after7_2]
    iintro ⟨⟨⟨%X, %hX, HS⟩, Hrest⟩, Ho, ⟨%d0, H0⟩, ⟨%d1, H1⟩, ⟨%d2, H2⟩⟩
    iapply (run7 c (grid7.coords t) _ _ _ _ _ _ _ _ (iblk7 V c 0 t) (iblk7 V c 1 t) _ X Set.univ _)
    isplitl [H0]; · iexact H0
    isplitl [H1]; · iexact H1
    isplitl [H2]; · iexact H2
    isplitl [HS]; · iexact HS
    rw [if_pos h1, ← accAt7_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexact H2
  · rw [Dat.leavesExact_idle (dat7 V c) 2 t (idle7_2 t h1) (noflush7_2 t h1)]
    iintro ⟨⟨⟨%X, %hX, HS⟩, Hrest⟩, Ho, ⟨%d0, H0⟩, ⟨%d1, H1⟩, ⟨%d2, H2⟩⟩
    iapply (run7 c (grid7.coords t) _ _ _ _ _ _ _ _ (iblk7 V c 0 t) (iblk7 V c 1 t) _ X Set.univ _)
    isplitl [H0]; · iexact H0
    isplitl [H1]; · iexact H1
    isplitl [H2]; · iexact H2
    isplitl [HS]; · iexact HS
    rw [if_neg h1, ← accAt7_succ V c t X hX]
    iintro ⟨H0, H1, H2, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    iexists _; iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.HandKI.Inv7.lean ====
/-
  Kernel region 7: how the scoped buffers the launch hands a region become its invariant before the first point (the scratch
  accumulator at anything) and how the invariant gives them back after any point (the accumulator's contents forgotten).
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Dat7
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Into and out of the invariant -/

/-- The scoped buffers the launch hands the region make the invariant before the first point: the scratch at anything. -/
theorem hin7 (c : Dev nD) :
    (Pipeline.scopedRest (Ix := Unit) (Name := ℕ) (U := UR sig nD τ) (Lvl := ℕ) (Val := Elt F) spec7 c : sProp 𝕄) ⊢ Phi7 V c 0 := by
  unfold Phi7; rw [scopedRest7_split]
  iintro ⟨⟨%f, Hs⟩, Hr⟩
  isplitl [Hs]
  · iexists f; isplitr; · ipureintro; intro h; exact absurd (Nat.zero_mod _) h
    rw [owns_whole]; iexact Hs
  iexact Hr

/-- The invariant at any point gives them back, the scratch's contents forgotten. -/
theorem hout7 (c : Dev nD) (n : ℕ) :
    Phi7 V c n ⊢ (Pipeline.scopedRest (Ix := Unit) (Name := ℕ) (U := UR sig nD τ) (Lvl := ℕ) (Val := Elt F) spec7 c : sProp 𝕄) := by
  unfold Phi7; simp only [owns_whole]; rw [scopedRest7_split]
  iintro ⟨⟨%X, -, Hs⟩, Hr⟩
  isplitl [Hs]
  · iexists X; iexact Hs
  iexact Hr

end Cert.KernelIdeal.Hand

end
-- ==== Proof.HandKI.Run8.lean ====
/-
  One grid point of the last diffusion step (kernel region 8): the body multiplies an [8192, 512] block of the adjacency by the
  matching [512, 64] block of the activation and adds the product to an [8192, 64] accumulator kept in scratch, which it zeroes
  first at the first column block of a batch element. At the last column block it rounds the accumulator and the layer's [64, 64]
  weight to bf16, multiplies the accumulator by the transposed weight, adds the [1, 64] bias to every row, adds the unrounded
  accumulator back (the residual) and writes the result to the output block. Stated on any whole staging buffers, with every
  buffer's final contents written out as the body's own payload terms.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.LibWholeStore
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the first column block of a row sweep: the body's first branch condition, from the grid coordinates. -/
abbrev first8 (i : grid8.Coords) : Prop := (Scalar.cmpi .ne (Scalar.extui (Scalar.cmpi .eq (BitVec.ofNat 32 (i 1).val) 0#32)) 0#32) = 1#1
/-- The output block is written at the last column block: the body's second branch condition. -/
abbrev last8 (i : grid8.Coords) : Prop := k8_cond2 i = 1#1

/-- The accumulator the body adds this point's product to: zero at the first column block, else what the point before left. -/
def accIn8 (i : grid8.Coords) [Decidable (first8 i)] (xs : Vec F S8192x64 .f32) : Vec F S8192x64 .f32 :=
  if first8 i then k8_pay1 (F := F) else xs

set_option maxHeartbeats 800000 in
/-- ONE POINT of the last diffusion step, on any whole staging memrefs: the adjacency block `x0`, the activation block `x1`,
    the weight `xw` and the bias `xb` are read and kept; the scratch accumulator ends at (zero or what it held) + the block product;
    the output block is overwritten, at the last column block, with new accumulator · weightᵀ + bias + new accumulator, and left
    untouched otherwise. -/
theorem run8 (c : Dev nD) (i : grid8.Coords) [Decidable (first8 i)] [Decidable (last8 i)]
    (a2 : Memref sig .tc .vmem S1x8192x512 .bf16) (h2 : a2.IsWhole) (a3 : Memref sig .tc .vmem S1x512x64 .f32) (h3 : a3.IsWhole)
    (a4 : Memref sig .tc .vmem S64x64 .f32) (h4 : a4.IsWhole) (a5 : Memref sig .tc .vmem S1x64 .f32) (h5 : a5.IsWhole)
    (a6 : Memref sig .tc .vmem S1x8192x64 .f32) (h6 : a6.IsWhole) (a7 : Memref sig .tc .vmem S8192x64 .f32) (h7 : a7.IsWhole)
    (x0 : Vec F S1x8192x512 .bf16) (x1 : Vec F S1x512x64 .f32) (xw : Vec F S64x64 .f32) (xb : Vec F S1x64 .f32)
    (xo : Vec F S1x8192x64 .f32) (xs : Vec F S8192x64 .f32)
    (E : Set ℕ) (K : PUnit → sProp 𝕄) :
    iprop(owns (c : Thread nD τ) a2 fullShare x0 ∗ owns (c : Thread nD τ) a3 fullShare x1 ∗ owns (c : Thread nD τ) a4 fullShare xw ∗ owns (c : Thread nD τ) a5 fullShare xb
        ∗ owns (c : Thread nD τ) a6 fullShare xo ∗ owns (c : Thread nD τ) a7 fullShare xs
        ∗ (iprop(owns (c : Thread nD τ) a2 fullShare x0 ∗ owns (c : Thread nD τ) a3 fullShare x1 ∗ owns (c : Thread nD τ) a4 fullShare xw ∗ owns (c : Thread nD τ) a5 fullShare xb
            ∗ owns (c : Thread nD τ) a6 fullShare (if last8 i then k8_pay3 (k8_pay2 x0 x1 (accIn8 i xs)) xw xb else xo)
            ∗ owns (c : Thread nD τ) a7 fullShare (k8_pay2 x0 x1 (accIn8 i xs))) -∗ K ⟨⟩))
      ⊢ wp frame (wpE (defs₀ (F := F)) Variants.none c none) E (cc8__diffuse_post_kernel i a2 h2 a3 h3 a4 h4 a5 h5 a6 h6 a7 h7) K := by
  simp only [cc8__diffuse_post_kernel_eq_skeleton]; unfold cc8__diffuse_post_kernel_skel
  unfold owns accIn8
  iintro ⟨⟨%f0, %hf0, H0⟩, ⟨%f1, %hf1, H1⟩, ⟨%fw, %hfw, HW⟩, ⟨%fb, %hfb, HB⟩, ⟨%fo, %hfo, HO⟩, ⟨%fs, %hfs, HS⟩, Hk⟩
  obtain rfl := h2.eq_unread hf0; obtain rfl := h3.eq_unread hf1; obtain rfl := h4.eq_unread hfw; obtain rfl := h5.eq_unread hfb
  obtain rfl := h6.eq_unread hfo; obtain rfl := h7.eq_unread hfs
  by_cases hc0 : first8 i <;> by_cases hc1 : last8 i
  · -- first column block, the last one
    sl_exec (disch := first | exact hc0 | exact hc1)
    sl_step
    iapply Hk
    rw [if_pos hc0, if_pos hc1]
    isplitl [H0]
    · iexists _; isplitr; · ipureintro; exact hf0
      iexact H0
    isplitl [H1]
    · iexists _; isplitr; · ipureintro; exact hf1
      iexact H1
    isplitl [HW]
    · iexists _; isplitr; · ipureintro; exact hfw
      iexact HW
    isplitl [HB]
    · iexists _; isplitr; · ipureintro; exact hfb
      iexact HB
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
  · -- first column block, not the last
    sl_exec (disch := first | exact hc0 | exact hc1)
    sl_step
    iapply Hk
    rw [if_pos hc0, if_neg hc1]
    isplitl [H0]
    · iexists _; isplitr; · ipureintro; exact hf0
      iexact H0
    isplitl [H1]
    · iexists _; isplitr; · ipureintro; exact hf1
      iexact H1
    isplitl [HW]
    · iexists _; isplitr; · ipureintro; exact hfw
      iexact HW
    isplitl [HB]
    · iexists _; isplitr; · ipureintro; exact hfb
      iexact HB
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
  · -- later column block, the last one
    sl_exec (disch := first | exact hc0 | exact hc1)
    sl_step
    iapply Hk
    rw [if_neg hc0, if_pos hc1]
    isplitl [H0]
    · iexists _; isplitr; · ipureintro; exact hf0
      iexact H0
    isplitl [H1]
    · iexists _; isplitr; · ipureintro; exact hf1
      iexact H1
    isplitl [HW]
    · iexists _; isplitr; · ipureintro; exact hfw
      iexact HW
    isplitl [HB]
    · iexists _; isplitr; · ipureintro; exact hfb
      iexact HB
    isplitl [HO]
    · iexists _; isplitr; swap; · iexact HO
      ipureintro
      sl_unfold_run_names
      simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]
  · -- later column block, not the last
    sl_exec (disch := first | exact hc0 | exact hc1)
    sl_step
    iapply Hk
    rw [if_neg hc0, if_neg hc1]
    isplitl [H0]
    · iexists _; isplitr; · ipureintro; exact hf0
      iexact H0
    isplitl [H1]
    · iexists _; isplitr; · ipureintro; exact hf1
      iexact H1
    isplitl [HW]
    · iexists _; isplitr; · ipureintro; exact hfw
      iexact HW
    isplitl [HB]
    · iexists _; isplitr; · ipureintro; exact hfb
      iexact HB
    isplitl [HO]
    · iexists _; isplitr; swap; · iexact HO
      ipureintro
      exact hfo
    iexists _; isplitr; swap; · iexact HS
    ipureintro
    sl_unfold_run_names
    simp only [View.read_writes_whole_last (S := S1x8192x512) _ _ Cert.Lib.zeros3, View.read_writes_whole_last (S := S1x512x64) _ _ Cert.Lib.zeros3, View.read_writes_whole_last (S := S64x64) _ _ Cert.Lib.zeros2, View.read_writes_whole_last (S := S1x64) _ _ Cert.Lib.zeros2, View.read_writes_whole_last (S := S1x8192x64) _ _ Cert.Lib.zeros3, View.read_writes_whole_last (S := S8192x64) _ _ Cert.Lib.zeros2, View.readCov_whole_last (S := S1x8192x512) _ Cert.Lib.zeros3, View.readCov_whole_last (S := S1x512x64) _ Cert.Lib.zeros3, View.readCov_whole_last (S := S64x64) _ Cert.Lib.zeros2, View.readCov_whole_last (S := S1x64) _ Cert.Lib.zeros2, View.readCov_whole_last (S := S1x8192x64) _ Cert.Lib.zeros3, View.readCov_whole_last (S := S8192x64) _ Cert.Lib.zeros2, View.readAt_whole (S := S1x8192x512) _ _ Cert.Lib.zeros3, View.readAt_whole (S := S1x512x64) _ _ Cert.Lib.zeros3, View.readAt_whole (S := S64x64) _ _ Cert.Lib.zeros2, View.readAt_whole (S := S1x64) _ _ Cert.Lib.zeros2, View.readAt_whole (S := S1x8192x64) _ _ Cert.Lib.zeros3, View.readAt_whole (S := S8192x64) _ _ Cert.Lib.zeros2, hf0, hf1, hfw, hfb, hfo, hfs]

end Cert.KernelIdeal.Hand

end
-- ==== Proof.HandKI.Dat8.lean ====
/-
  Last diffusion step of a layer fused with the layer's linear map (kernel region 8): the pipeline's proof data and the body
  obligation. Along the column blocks of one batch element the scratch accumulator carries the partial sum of block products;
  at the last column block the body applies the layer's weight and bias to the finished accumulator, adds the accumulator back and stores the
  result, the only point at which the output block is stored and written back. The weight and the bias are fetched once.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Run8
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The branch conditions and the idle table, decided over the grid -/

/-- The accumulator is reset exactly at the first of every 16 consecutive points: the first column block of a batch element. -/
theorem hfirst8 : ∀ t : Fin cfg8.N, first8 (grid8.coords t) ↔ t.val % 16 = 0 :=
  (by decide +kernel : ∀ t : Fin grid8.N, first8 (grid8.coords t) ↔ t.val % 16 = 0)
/-- The layer's output is computed from it exactly at the last of them. -/
theorem hlast8 : ∀ t : Fin cfg8.N, last8 (grid8.coords t) ↔ t.val % 16 = 15 :=
  (by decide +kernel : ∀ t : Fin grid8.N, last8 (grid8.coords t) ↔ t.val % 16 = 15)
theorem live8_0 : ∀ t : Fin cfg8.N, cfg8.idle 0 (grid8.coords t) = false := by decide +kernel
theorem live8_1 : ∀ t : Fin cfg8.N, cfg8.idle 1 (grid8.coords t) = false := by decide +kernel
theorem live8_2 : ∀ t : Fin cfg8.N, cfg8.idle 2 (grid8.coords t) = false := by decide +kernel
theorem live8_3 : ∀ t : Fin cfg8.N, cfg8.idle 3 (grid8.coords t) = false := by decide +kernel
/-- Where the output is not computed its block is not stored to, -/
theorem idle8_4 : ∀ t : Fin cfg8.N, ¬ last8 (grid8.coords t) → cfg8.idle 4 (grid8.coords t) = true := by decide +kernel
/-- nor written back; -/
theorem noflush8_4 : ∀ t : Fin cfg8.N, ¬ last8 (grid8.coords t) → (cfg8.win 4).flush t = false := by decide +kernel
/-- where it is, the block is stored to. -/
theorem live8_4 : ∀ t : Fin cfg8.N, last8 (grid8.coords t) → cfg8.idle 4 (grid8.coords t) = false := by decide +kernel

/-! ## The blocks and the accumulator, point by point -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The scratch accumulator's contents BEFORE point `n` (after the points below it): each point adds its block product to zero,
    at the first column block, or to what the point before left. Before the first point the scratch holds anything. -/
def accAt8 (c : Dev nD) : ℕ → Vec F S8192x64 .f32
  | 0 => fun _ => Classical.choice (Elt.nonempty F .f32)
  | n + 1 =>
    if h : n < cfg8.N then
      k8_pay2 (iblk8 V c 0 ⟨n, h⟩) (iblk8 V c 1 ⟨n, h⟩) (if n % 16 = 0 then k8_pay1 (F := F) else accAt8 c n)
    else accAt8 c n

/-- One point's step of the accumulator, in the form the body's run states it. -/
theorem accAt8_succ (c : Dev nD) (t : Fin cfg8.N) (X : Vec F S8192x64 .f32) (hX : t.val % 16 ≠ 0 → X = accAt8 V c t.val) :
    accAt8 V c (t.val + 1) = k8_pay2 (iblk8 V c 0 t) (iblk8 V c 1 t) (accIn8 (grid8.coords t) X) := by
  obtain ⟨n, hn⟩ := t
  rw [accAt8, dif_pos hn]; unfold accIn8
  by_cases h0 : n % 16 = 0
  · rw [if_pos h0, if_pos ((hfirst8 ⟨n, hn⟩).mpr h0)]
  · rw [if_neg h0, if_neg (fun h => h0 ((hfirst8 ⟨n, hn⟩).mp h)), hX h0]

/-- The scratch accumulator, a whole scoped buffer of the kernel's own. -/
abbrev scM8 : Memref sig .tc .vmem S8192x64 .f32 := Memref.whole cc8_scratch0

/-- The region's invariant before point `n`: the scratch at the accumulated value — at anything where the body will reset it —,
    every other scoped buffer no window stages at something. -/
def Phi8 (c : Dev nD) (n : ℕ) : sProp 𝕄 :=
  iprop((∃ X : Vec F S8192x64 .f32, ⌜n % 16 ≠ 0 → X = accAt8 V c n⌝ ∗ owns (c : Thread nD τ) scM8 fullShare X)
    ∗ Pipeline.scopedRestBut (Ix := Unit) (Name := ℕ) (U := UR sig nD τ) (Lvl := ℕ) (Val := Elt F) spec8 c [cc8_scratch0])

/-! ## The proof data -/

/-- The proof data on core `c`, from the contents `V` the region is entered at: after the body each input's buffer at its block,
    the output's at the layer's output computed from the accumulator, the weight block and the bias block (read where the block is
    written back: at the last column block); the invariant `Phi8`; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => k8_pay3 (accAt8 V c (t.val + 1)) (iblk8 V c 2 t) (iblk8 V c 3 t)
  Φ t := Phi8 V c t.val
  q _ := fullShare
  owed _ := 0

theorem A_eq8 (c : Dev nD) (w : Fin cfg8.W) : (dat8 V c).A w = V c (Pipeline.arrRef spec8 w) := by dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) :
    (dat8 V c).after 4 t = k8_pay3 (accAt8 V c (t.val + 1)) (iblk8 V c 2 t) (iblk8 V c 3 t) := by dsimp only [dat8]

/-- An input window fetched at every point holds its block when the body runs. -/
theorem before8_0 (c : Dev nD) (t : Fin cfg8.N) (d) : (dat8 V c).before 0 t d = iblk8 V c 0 t := by
  unfold Dat.before; rw [if_pos (fetch8_0 t)]; rfl
theorem before8_1 (c : Dev nD) (t : Fin cfg8.N) (d) : (dat8 V c).before 1 t d = iblk8 V c 1 t := by
  unfold Dat.before; rw [if_pos (fetch8_1 t)]; rfl
/-- The weight and the bias are fetched once, at the first point; their block index never moves and the body leaves them in place,
    so their buffers hold their block at every point. -/
theorem before8_2 (c : Dev nD) (t : Fin cfg8.N) (d) : (dat8 V c).before 2 t d = iblk8 V c 2 t :=
  ((dat8 V c).before_in_eq_fetched 2 rfl (fun _ => rfl) (fun _ _ _ => rfl)
    (fun t => by rw [after8_2]; unfold Dat.blockOf iblk8; rw [A_eq8]; try rfl) t d).trans
    (by unfold Dat.fetched Dat.blockOf iblk8; rw [A_eq8]; try rfl)
theorem before8_3 (c : Dev nD) (t : Fin cfg8.N) (d) : (dat8 V c).before 3 t d = iblk8 V c 3 t :=
  ((dat8 V c).before_in_eq_fetched 3 rfl (fun _ => rfl) (fun _ _ _ => rfl)
    (fun t => by rw [after8_3]; unfold Dat.blockOf iblk8; rw [A_eq8]; try rfl) t d).trans
    (by unfold Dat.fetched Dat.blockOf iblk8; rw [A_eq8]; try rfl)

/-! ## The body obligation -/

/-- What the body is called with at point `t` (the windows one by one), -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ (dat8 V c).leavesExact 0 t ∗ (dat8 V c).leavesExact 1 t ∗ (dat8 V c).leavesExact 2 t
    ∗ (dat8 V c).leavesExact 3 t ∗ (dat8 V c).leavesExact 4 t)

set_option maxHeartbeats 1600000 in
/-- The body at any point: the inputs' buffers hold their blocks, the invariant hands over the scratch at the accumulated value,
    the one-point run applies, and the invariant takes the scratch back one step further; the output block is handed back as found
    unless this is the last column block, where it holds the layer's output. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).owesAt () t.succ = (dat8 V c).owesAt () t.castSucc from rfl]
  rw [show (dat8 V c).Φ t.succ = Phi8 V c (t.val + 1) from rfl, show (dat8 V c).Φ t.castSucc = Phi8 V c t.val from rfl]
  rw [show (dat8 V c).leavesExact 0 t = owns (c : Thread nD τ) (st8_0 t) fullShare ((dat8 V c).after 0 t) from by
    unfold Dat.leavesExact; rw [live8_0 t], after8_0]
  rw [show (dat8 V c).leavesExact 1 t = owns (c : Thread nD τ) (st8_1 t) fullShare ((dat8 V c).after 1 t) from by
    unfold Dat.leavesExact; rw [live8_1 t], after8_1]
  rw [show (dat8 V c).leavesExact 2 t = owns (c : Thread nD τ) (st8_2 t) fullShare ((dat8 V c).after 2 t) from by
    unfold Dat.leavesExact; rw [live8_2 t], after8_2]
  rw [show (dat8 V c).leavesExact 3 t = owns (c : Thread nD τ) (st8_3 t) fullShare ((dat8 V c).after 3 t) from by
    unfold Dat.leavesExact; rw [live8_3 t], after8_3]
  unfold Phi8
  by_cases h1 : last8 (grid8.coords t)
  · rw [show (dat8 V c).leavesExact 4 t = owns (c : Thread nD τ) (st8_4 t) fullShare ((dat8 V c).after 4 t) from by
      unfold Dat.leavesExact; rw [live8_4 t h1], after8_4]
    iintro ⟨⟨⟨%X, %hX, HS⟩, Hrest⟩, Ho, ⟨%d0, H0⟩, ⟨%d1, H1⟩, ⟨%d2, H2⟩, ⟨%d3, H3⟩, ⟨%d4, H4⟩⟩
    iapply (run8 c (grid8.coords t) _ _ _ _ _ _ _ _ _ _ _ _ (iblk8 V c 0 t) (iblk8 V c 1 t) (iblk8 V c 2 t) (iblk8 V c 3 t) _ X Set.univ _)
    isplitl [H0]; · iexact H0
    isplitl [H1]; · iexact H1
    isplitl [H2]; · iexact H2
    isplitl [H3]; · iexact H3
    isplitl [H4]; · iexact H4
    isplitl [HS]; · iexact HS
    rw [if_pos h1, ← accAt8_succ V c t X hX]
    iintro ⟨H0, H1, H2, H3, H4, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    isplitl [H2]; · iexact H2
    isplitl [H3]; · iexact H3
    iexact H4
  · rw [Dat.leavesExact_idle (dat8 V c) 4 t (idle8_4 t h1) (noflush8_4 t h1)]
    iintro ⟨⟨⟨%X, %hX, HS⟩, Hrest⟩, Ho, ⟨%d0, H0⟩, ⟨%d1, H1⟩, ⟨%d2, H2⟩, ⟨%d3, H3⟩, ⟨%d4, H4⟩⟩
    iapply (run8 c (grid8.coords t) _ _ _ _ _ _ _ _ _ _ _ _ (iblk8 V c 0 t) (iblk8 V c 1 t) (iblk8 V c 2 t) (iblk8 V c 3 t) _ X Set.univ _)
    isplitl [H0]; · iexact H0
    isplitl [H1]; · iexact H1
    isplitl [H2]; · iexact H2
    isplitl [H3]; · iexact H3
    isplitl [H4]; · iexact H4
    isplitl [HS]; · iexact HS
    rw [if_neg h1, ← accAt8_succ V c t X hX]
    iintro ⟨H0, H1, H2, H3, H4, HS⟩
    isplitl [HS Hrest]
    · isplitl [HS]
      · iexists _; isplitr; · ipureintro; exact fun _ => rfl
        iexact HS
      iexact Hrest
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.HandKI.Inv8.lean ====
/-
  Kernel region 8: how the scoped buffers the launch hands a region become its invariant before the first point (the scratch
  accumulator at anything) and how the invariant gives them back after any point (the accumulator's contents forgotten).
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Dat8
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Into and out of the invariant -/

/-- The scoped buffers the launch hands the region make the invariant before the first point: the scratch at anything. -/
theorem hin8 (c : Dev nD) :
    (Pipeline.scopedRest (Ix := Unit) (Name := ℕ) (U := UR sig nD τ) (Lvl := ℕ) (Val := Elt F) spec8 c : sProp 𝕄) ⊢ Phi8 V c 0 := by
  unfold Phi8; rw [scopedRest8_split]
  iintro ⟨⟨%f, Hs⟩, Hr⟩
  isplitl [Hs]
  · iexists f; isplitr; · ipureintro; intro h; exact absurd (Nat.zero_mod _) h
    rw [owns_whole]; iexact Hs
  iexact Hr

/-- The invariant at any point gives them back, the scratch's contents forgotten. -/
theorem hout8 (c : Dev nD) (n : ℕ) :
    Phi8 V c n ⊢ (Pipeline.scopedRest (Ix := Unit) (Name := ℕ) (U := UR sig nD τ) (Lvl := ℕ) (Val := Elt F) spec8 c : sProp 𝕄) := by
  unfold Phi8; simp only [owns_whole]; rw [scopedRest8_split]
  iintro ⟨⟨%X, -, Hs⟩, Hr⟩
  isplitl [Hs]
  · iexists X; iexact Hs
  iexact Hr

end Cert.KernelIdeal.Hand

end
-- ==== Proof.HandKI.Chain.lean ====
/-
  The contents of every unscoped buffer at each boundary of @main, as a fold through its twelve segments — a host stretch applies
  its operations, a kernel region overwrites its output arrays with what its pipeline leaves and touches nothing else —, the facts
  that each segment leaves every buffer it does not write as it was (so every argument array is as launched at every boundary), and
  the family of the nine pipelines' proof data, each at its region's entry contents.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Dat0
import proofs.«169539_j48112223650339_2_alg».proof.Proof.HandKI.Inv1
import proofs.«169539_j48112223650339_2_alg».proof.Proof.HandKI.Inv2
import proofs.«169539_j48112223650339_2_alg».proof.Proof.HandKI.Inv3
import proofs.«169539_j48112223650339_2_alg».proof.Proof.HandKI.Inv4
import proofs.«169539_j48112223650339_2_alg».proof.Proof.HandKI.Inv5
import proofs.«169539_j48112223650339_2_alg».proof.Proof.HandKI.Inv6
import proofs.«169539_j48112223650339_2_alg».proof.Proof.HandKI.Inv7
import proofs.«169539_j48112223650339_2_alg».proof.Proof.HandKI.Inv8
import proofs.«169539_j48112223650339_2_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary of @main: a fold through its host stretches and kernel regions -/

/-- Core `c`'s unscoped buffers at launch. -/
abbrev W0 : Dev nD → Valuation τ sig (Elt F) := fun c b => m (c, b)
abbrev VV0 : (c : Dev nD) → (b : Ref sig .tc) → Buf (Elt F) ((c : Thread nD τ).loc b) := fun c b => W0 m c b

/-- After the host stretch `hostOps0`. -/
abbrev W1 : Dev nD → Valuation τ sig (Elt F) := fun c => StableHlo.after hostOps0 (W0 m c)
abbrev VV1 : (c : Dev nD) → (b : Ref sig .tc) → Buf (Elt F) ((c : Thread nD τ).loc b) := fun c b => W1 m c b
/-- The stretch writes only its own results. -/
theorem W1_keep (c : Dev nD) (b : Ref sig .tc) (hb : b ∉ hostOps0_W) : W1 m c (Proc.devRef .tc b) = W0 m c (Proc.devRef .tc b) :=
  StableHlo.after_of_writes_sub hostOps0 _ hostOps0_writes hb

/-- After kernel region 0: its windows' arrays at what the pipeline leaves (an input as entered, an output with its write-backs folded),
    every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)
/-- The region changes only its output array: an input window's array ends as entered, a buffer no window stages is not touched. -/
theorem W2_keep (c : Dev nD) (b : Ref sig .tc) (hb : b ∉ ([main_v1] : List (Ref sig .tc))) :
    W2 m c (Proc.devRef .tc b) = W1 m c (Proc.devRef .tc b) := by
  by_cases h : ∃ w, Pipeline.arrRef spec0 w = b
  · obtain ⟨w, rfl⟩ := h
    rw [W2_arr]
    fin_cases w
    · exact ((dat0 (VV1 m) c).arrAt_in 0 rfl _).trans (A_eq0 (VV1 m) c 0)
    · exact ((dat0 (VV1 m) c).arrAt_in 1 rfl _).trans (A_eq0 (VV1 m) c 1)
    · exact ((dat0 (VV1 m) c).arrAt_in 2 rfl _).trans (A_eq0 (VV1 m) c 2)
    · exact absurd (by decide) hb
  · exact W2_of_ne m c b (fun w e => h ⟨w, e⟩)

/-- After kernel region 1: its windows' arrays at what the pipeline leaves (an input as entered, an output with its write-backs folded),
    every other buffer as entered. -/
def W3 (c : Dev nD) : Valuation τ sig (Elt F) :=
  Pipeline.withArrays spec1 c (W2 m c) fun w => (dat1 (VV2 m) c).arrAt w cfg1.N
theorem W3_arr (c : Dev nD) (w : Fin cfg1.W) :
    W3 m c (Proc.devRef .tc (Pipeline.arrRef spec1 w)) = (dat1 (VV2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VV3 : (c : Dev nD) → (b : Ref sig .tc) → Buf (Elt F) ((c : Thread nD τ).loc b) := fun c b => W3 m c b
theorem hF1 (c : Dev nD) (w : Fin cfg1.W) : (dat1 (VV2 m) c).arrAt w cfg1.N = VV3 m c (Pipeline.arrRef spec1 w) :=
  (W3_arr m c w).symm
theorem hrest1 (c : Dev nD) : ∀ b, b ∉ Finset.univ.image (Pipeline.arrRef spec1) → VV3 m c b = VV2 m c b :=
  fun b hb => W3_of_ne m c b fun w e => hb (Finset.mem_image.mpr ⟨w, Finset.mem_univ _, e⟩)
/-- The region changes only its output arrays: an input window's array ends as entered, a buffer no window stages is not touched. -/
theorem W3_keep (c : Dev nD) (b : Ref sig .tc) (hb : b ∉ ([main_v2_0, main_v2_1] : List (Ref sig .tc))) :
    W3 m c (Proc.devRef .tc b) = W2 m c (Proc.devRef .tc b) := by
  by_cases h : ∃ w, Pipeline.arrRef spec1 w = b
  · obtain ⟨w, rfl⟩ := h
    rw [W3_arr]
    fin_cases w
    · exact ((dat1 (VV2 m) c).arrAt_in 0 rfl _).trans (A_eq1 (VV2 m) c 0)
    · exact ((dat1 (VV2 m) c).arrAt_in 1 rfl _).trans (A_eq1 (VV2 m) c 1)
    · exact absurd (by decide) hb
    · exact absurd (by decide) hb
  · exact W3_of_ne m c b (fun w e => h ⟨w, e⟩)

/-- After kernel region 2: its windows' arrays at what the pipeline leaves (an input as entered, an output with its write-backs folded),
    every other buffer as entered. -/
def W4 (c : Dev nD) : Valuation τ sig (Elt F) :=
  Pipeline.withArrays spec2 c (W3 m c) fun w => (dat2 (VV3 m) c).arrAt w cfg2.N
theorem W4_arr (c : Dev nD) (w : Fin cfg2.W) :
    W4 m c (Proc.devRef .tc (Pipeline.arrRef spec2 w)) = (dat2 (VV3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev VV4 : (c : Dev nD) → (b : Ref sig .tc) → Buf (Elt F) ((c : Thread nD τ).loc b) := fun c b => W4 m c b
theorem hF2 (c : Dev nD) (w : Fin cfg2.W) : (dat2 (VV3 m) c).arrAt w cfg2.N = VV4 m c (Pipeline.arrRef spec2 w) :=
  (W4_arr m c w).symm
theorem hrest2 (c : Dev nD) : ∀ b, b ∉ Finset.univ.image (Pipeline.arrRef spec2) → VV4 m c b = VV3 m c b :=
  fun b hb => W4_of_ne m c b fun w e => hb (Finset.mem_image.mpr ⟨w, Finset.mem_univ _, e⟩)
/-- The region changes only its output array: an input window's array ends as entered, a buffer no window stages is not touched. -/
theorem W4_keep (c : Dev nD) (b : Ref sig .tc) (hb : b ∉ ([main_v3] : List (Ref sig .tc))) :
    W4 m c (Proc.devRef .tc b) = W3 m c (Proc.devRef .tc b) := by
  by_cases h : ∃ w, Pipeline.arrRef spec2 w = b
  · obtain ⟨w, rfl⟩ := h
    rw [W4_arr]
    fin_cases w
    · exact ((dat2 (VV3 m) c).arrAt_in 0 rfl _).trans (A_eq2 (VV3 m) c 0)
    · exact ((dat2 (VV3 m) c).arrAt_in 1 rfl _).trans (A_eq2 (VV3 m) c 1)
    · exact absurd (by decide) hb
  · exact W4_of_ne m c b (fun w e => h ⟨w, e⟩)

/-- After kernel region 3: its windows' arrays at what the pipeline leaves (an input as entered, an output with its write-backs folded),
    every other buffer as entered. -/
def W5 (c : Dev nD) : Valuation τ sig (Elt F) :=
  Pipeline.withArrays spec3 c (W4 m c) fun w => (dat3 (VV4 m) c).arrAt w cfg3.N
theorem W5_arr (c : Dev nD) (w : Fin cfg3.W) :
    W5 m c (Proc.devRef .tc (Pipeline.arrRef spec3 w)) = (dat3 (VV4 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb
abbrev VV5 : (c : Dev nD) → (b : Ref sig .tc) → Buf (Elt F) ((c : Thread nD τ).loc b) := fun c b => W5 m c b
theorem hF3 (c : Dev nD) (w : Fin cfg3.W) : (dat3 (VV4 m) c).arrAt w cfg3.N = VV5 m c (Pipeline.arrRef spec3 w) :=
  (W5_arr m c w).symm
theorem hrest3 (c : Dev nD) : ∀ b, b ∉ Finset.univ.image (Pipeline.arrRef spec3) → VV5 m c b = VV4 m c b :=
  fun b hb => W5_of_ne m c b fun w e => hb (Finset.mem_image.mpr ⟨w, Finset.mem_univ _, e⟩)
/-- The region changes only its output array: an input window's array ends as entered, a buffer no window stages is not touched. -/
theorem W5_keep (c : Dev nD) (b : Ref sig .tc) (hb : b ∉ ([main_v4] : List (Ref sig .tc))) :
    W5 m c (Proc.devRef .tc b) = W4 m c (Proc.devRef .tc b) := by
  by_cases h : ∃ w, Pipeline.arrRef spec3 w = b
  · obtain ⟨w, rfl⟩ := h
    rw [W5_arr]
    fin_cases w
    · exact ((dat3 (VV4 m) c).arrAt_in 0 rfl _).trans (A_eq3 (VV4 m) c 0)
    · exact ((dat3 (VV4 m) c).arrAt_in 1 rfl _).trans (A_eq3 (VV4 m) c 1)
    · exact absurd (by decide) hb
  · exact W5_of_ne m c b (fun w e => h ⟨w, e⟩)

/-- After the host stretch `hostOps4`. -/
abbrev W6 : Dev nD → Valuation τ sig (Elt F) := fun c => StableHlo.after hostOps4 (W5 m c)
abbrev VV6 : (c : Dev nD) → (b : Ref sig .tc) → Buf (Elt F) ((c : Thread nD τ).loc b) := fun c b => W6 m c b
/-- The stretch writes only its own results. -/
theorem W6_keep (c : Dev nD) (b : Ref sig .tc) (hb : b ∉ hostOps4_W) : W6 m c (Proc.devRef .tc b) = W5 m c (Proc.devRef .tc b) :=
  StableHlo.after_of_writes_sub hostOps4 _ hostOps4_writes hb

/-- After kernel region 4: its windows' arrays at what the pipeline leaves (an input as entered, an output with its write-backs folded),
    every other buffer as entered. -/
def W7 (c : Dev nD) : Valuation τ sig (Elt F) :=
  Pipeline.withArrays spec4 c (W6 m c) fun w => (dat4 (VV6 m) c).arrAt w cfg4.N
theorem W7_arr (c : Dev nD) (w : Fin cfg4.W) :
    W7 m c (Proc.devRef .tc (Pipeline.arrRef spec4 w)) = (dat4 (VV6 m) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m c (Proc.devRef .tc b) = W6 m c (Proc.devRef .tc b) := by
  unfold W7; exact Pipeline.withArrays_of_ne spec4 c _ _ b hb
abbrev VV7 : (c : Dev nD) → (b : Ref sig .tc) → Buf (Elt F) ((c : Thread nD τ).loc b) := fun c b => W7 m c b
theorem hF4 (c : Dev nD) (w : Fin cfg4.W) : (dat4 (VV6 m) c).arrAt w cfg4.N = VV7 m c (Pipeline.arrRef spec4 w) :=
  (W7_arr m c w).symm
theorem hrest4 (c : Dev nD) : ∀ b, b ∉ Finset.univ.image (Pipeline.arrRef spec4) → VV7 m c b = VV6 m c b :=
  fun b hb => W7_of_ne m c b fun w e => hb (Finset.mem_image.mpr ⟨w, Finset.mem_univ _, e⟩)
/-- The region changes only its output array: an input window's array ends as entered, a buffer no window stages is not touched. -/
theorem W7_keep (c : Dev nD) (b : Ref sig .tc) (hb : b ∉ ([main_v10] : List (Ref sig .tc))) :
    W7 m c (Proc.devRef .tc b) = W6 m c (Proc.devRef .tc b) := by
  by_cases h : ∃ w, Pipeline.arrRef spec4 w = b
  · obtain ⟨w, rfl⟩ := h
    rw [W7_arr]
    fin_cases w
    · exact ((dat4 (VV6 m) c).arrAt_in 0 rfl _).trans (A_eq4 (VV6 m) c 0)
    · exact ((dat4 (VV6 m) c).arrAt_in 1 rfl _).trans (A_eq4 (VV6 m) c 1)
    · exact ((dat4 (VV6 m) c).arrAt_in 2 rfl _).trans (A_eq4 (VV6 m) c 2)
    · exact ((dat4 (VV6 m) c).arrAt_in 3 rfl _).trans (A_eq4 (VV6 m) c 3)
    · exact absurd (by decide) hb
  · exact W7_of_ne m c b (fun w e => h ⟨w, e⟩)

/-- After kernel region 5: its windows' arrays at what the pipeline leaves (an input as entered, an output with its write-backs folded),
    every other buffer as entered. -/
def W8 (c : Dev nD) : Valuation τ sig (Elt F) :=
  Pipeline.withArrays spec5 c (W7 m c) fun w => (dat5 (VV7 m) c).arrAt w cfg5.N
theorem W8_arr (c : Dev nD) (w : Fin cfg5.W) :
    W8 m c (Proc.devRef .tc (Pipeline.arrRef spec5 w)) = (dat5 (VV7 m) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 m c (Proc.devRef .tc b) = W7 m c (Proc.devRef .tc b) := by
  unfold W8; exact Pipeline.withArrays_of_ne spec5 c _ _ b hb
abbrev VV8 : (c : Dev nD) → (b : Ref sig .tc) → Buf (Elt F) ((c : Thread nD τ).loc b) := fun c b => W8 m c b
theorem hF5 (c : Dev nD) (w : Fin cfg5.W) : (dat5 (VV7 m) c).arrAt w cfg5.N = VV8 m c (Pipeline.arrRef spec5 w) :=
  (W8_arr m c w).symm
theorem hrest5 (c : Dev nD) : ∀ b, b ∉ Finset.univ.image (Pipeline.arrRef spec5) → VV8 m c b = VV7 m c b :=
  fun b hb => W8_of_ne m c b fun w e => hb (Finset.mem_image.mpr ⟨w, Finset.mem_univ _, e⟩)
/-- The region changes only its output array: an input window's array ends as entered, a buffer no window stages is not touched. -/
theorem W8_keep (c : Dev nD) (b : Ref sig .tc) (hb : b ∉ ([main_v11] : List (Ref sig .tc))) :
    W8 m c (Proc.devRef .tc b) = W7 m c (Proc.devRef .tc b) := by
  by_cases h : ∃ w, Pipeline.arrRef spec5 w = b
  · obtain ⟨w, rfl⟩ := h
    rw [W8_arr]
    fin_cases w
    · exact ((dat5 (VV7 m) c).arrAt_in 0 rfl _).trans (A_eq5 (VV7 m) c 0)
    · exact ((dat5 (VV7 m) c).arrAt_in 1 rfl _).trans (A_eq5 (VV7 m) c 1)
    · exact absurd (by decide) hb
  · exact W8_of_ne m c b (fun w e => h ⟨w, e⟩)

/-- After kernel region 6: its windows' arrays at what the pipeline leaves (an input as entered, an output with its write-backs folded),
    every other buffer as entered. -/
def W9 (c : Dev nD) : Valuation τ sig (Elt F) :=
  Pipeline.withArrays spec6 c (W8 m c) fun w => (dat6 (VV8 m) c).arrAt w cfg6.N
theorem W9_arr (c : Dev nD) (w : Fin cfg6.W) :
    W9 m c (Proc.devRef .tc (Pipeline.arrRef spec6 w)) = (dat6 (VV8 m) c).arrAt w cfg6.N := by
  unfold W9; exact Pipeline.withArrays_arr spec6 launch6.win.arr_inj c _ _ w
theorem W9_of_ne (c : Dev nD) (b : Ref sig .tc) (hb : ∀ w, Pipeline.arrRef spec6 w ≠ b) :
    W9 m c (Proc.devRef .tc b) = W8 m c (Proc.devRef .tc b) := by
  unfold W9; exact Pipeline.withArrays_of_ne spec6 c _ _ b hb
abbrev VV9 : (c : Dev nD) → (b : Ref sig .tc) → Buf (Elt F) ((c : Thread nD τ).loc b) := fun c b => W9 m c b
theorem hF6 (c : Dev nD) (w : Fin cfg6.W) : (dat6 (VV8 m) c).arrAt w cfg6.N = VV9 m c (Pipeline.arrRef spec6 w) :=
  (W9_arr m c w).symm
theorem hrest6 (c : Dev nD) : ∀ b, b ∉ Finset.univ.image (Pipeline.arrRef spec6) → VV9 m c b = VV8 m c b :=
  fun b hb => W9_of_ne m c b fun w e => hb (Finset.mem_image.mpr ⟨w, Finset.mem_univ _, e⟩)
/-- The region changes only its output array: an input window's array ends as entered, a buffer no window stages is not touched. -/
theorem W9_keep (c : Dev nD) (b : Ref sig .tc) (hb : b ∉ ([main_v12] : List (Ref sig .tc))) :
    W9 m c (Proc.devRef .tc b) = W8 m c (Proc.devRef .tc b) := by
  by_cases h : ∃ w, Pipeline.arrRef spec6 w = b
  · obtain ⟨w, rfl⟩ := h
    rw [W9_arr]
    fin_cases w
    · exact ((dat6 (VV8 m) c).arrAt_in 0 rfl _).trans (A_eq6 (VV8 m) c 0)
    · exact ((dat6 (VV8 m) c).arrAt_in 1 rfl _).trans (A_eq6 (VV8 m) c 1)
    · exact absurd (by decide) hb
  · exact W9_of_ne m c b (fun w e => h ⟨w, e⟩)

/-- After kernel region 7: its windows' arrays at what the pipeline leaves (an input as entered, an output with its write-backs folded),
    every other buffer as entered. -/
def W10 (c : Dev nD) : Valuation τ sig (Elt F) :=
  Pipeline.withArrays spec7 c (W9 m c) fun w => (dat7 (VV9 m) c).arrAt w cfg7.N
theorem W10_arr (c : Dev nD) (w : Fin cfg7.W) :
    W10 m c (Proc.devRef .tc (Pipeline.arrRef spec7 w)) = (dat7 (VV9 m) c).arrAt w cfg7.N := by
  unfold W10; exact Pipeline.withArrays_arr spec7 launch7.win.arr_inj c _ _ w
theorem W10_of_ne (c : Dev nD) (b : Ref sig .tc) (hb : ∀ w, Pipeline.arrRef spec7 w ≠ b) :
    W10 m c (Proc.devRef .tc b) = W9 m c (Proc.devRef .tc b) := by
  unfold W10; exact Pipeline.withArrays_of_ne spec7 c _ _ b hb
abbrev VV10 : (c : Dev nD) → (b : Ref sig .tc) → Buf (Elt F) ((c : Thread nD τ).loc b) := fun c b => W10 m c b
theorem hF7 (c : Dev nD) (w : Fin cfg7.W) : (dat7 (VV9 m) c).arrAt w cfg7.N = VV10 m c (Pipeline.arrRef spec7 w) :=
  (W10_arr m c w).symm
theorem hrest7 (c : Dev nD) : ∀ b, b ∉ Finset.univ.image (Pipeline.arrRef spec7) → VV10 m c b = VV9 m c b :=
  fun b hb => W10_of_ne m c b fun w e => hb (Finset.mem_image.mpr ⟨w, Finset.mem_univ _, e⟩)
/-- The region changes only its output array: an input window's array ends as entered, a buffer no window stages is not touched. -/
theorem W10_keep (c : Dev nD) (b : Ref sig .tc) (hb : b ∉ ([main_v13] : List (Ref sig .tc))) :
    W10 m c (Proc.devRef .tc b) = W9 m c (Proc.devRef .tc b) := by
  by_cases h : ∃ w, Pipeline.arrRef spec7 w = b
  · obtain ⟨w, rfl⟩ := h
    rw [W10_arr]
    fin_cases w
    · exact ((dat7 (VV9 m) c).arrAt_in 0 rfl _).trans (A_eq7 (VV9 m) c 0)
    · exact ((dat7 (VV9 m) c).arrAt_in 1 rfl _).trans (A_eq7 (VV9 m) c 1)
    · exact absurd (by decide) hb
  · exact W10_of_ne m c b (fun w e => h ⟨w, e⟩)

/-- After the host stretch `hostOps8`. -/
abbrev W11 : Dev nD → Valuation τ sig (Elt F) := fun c => StableHlo.after hostOps8 (W10 m c)
abbrev VV11 : (c : Dev nD) → (b : Ref sig .tc) → Buf (Elt F) ((c : Thread nD τ).loc b) := fun c b => W11 m c b
/-- The stretch writes only its own results. -/
theorem W11_keep (c : Dev nD) (b : Ref sig .tc) (hb : b ∉ hostOps8_W) : W11 m c (Proc.devRef .tc b) = W10 m c (Proc.devRef .tc b) :=
  StableHlo.after_of_writes_sub hostOps8 _ hostOps8_writes hb

/-- After kernel region 8: its windows' arrays at what the pipeline leaves (an input as entered, an output with its write-backs folded),
    every other buffer as entered. -/
def W12 (c : Dev nD) : Valuation τ sig (Elt F) :=
  Pipeline.withArrays spec8 c (W11 m c) fun w => (dat8 (VV11 m) c).arrAt w cfg8.N
theorem W12_arr (c : Dev nD) (w : Fin cfg8.W) :
    W12 m c (Proc.devRef .tc (Pipeline.arrRef spec8 w)) = (dat8 (VV11 m) c).arrAt w cfg8.N := by
  unfold W12; exact Pipeline.withArrays_arr spec8 launch8.win.arr_inj c _ _ w
theorem W12_of_ne (c : Dev nD) (b : Ref sig .tc) (hb : ∀ w, Pipeline.arrRef spec8 w ≠ b) :
    W12 m c (Proc.devRef .tc b) = W11 m c (Proc.devRef .tc b) := by
  unfold W12; exact Pipeline.withArrays_of_ne spec8 c _ _ b hb
abbrev VV12 : (c : Dev nD) → (b : Ref sig .tc) → Buf (Elt F) ((c : Thread nD τ).loc b) := fun c b => W12 m c b
theorem hF8 (c : Dev nD) (w : Fin cfg8.W) : (dat8 (VV11 m) c).arrAt w cfg8.N = VV12 m c (Pipeline.arrRef spec8 w) :=
  (W12_arr m c w).symm
theorem hrest8 (c : Dev nD) : ∀ b, b ∉ Finset.univ.image (Pipeline.arrRef spec8) → VV12 m c b = VV11 m c b :=
  fun b hb => W12_of_ne m c b fun w e => hb (Finset.mem_image.mpr ⟨w, Finset.mem_univ _, e⟩)
/-- The region changes only its output array: an input window's array ends as entered, a buffer no window stages is not touched. -/
theorem W12_keep (c : Dev nD) (b : Ref sig .tc) (hb : b ∉ ([main_v19] : List (Ref sig .tc))) :
    W12 m c (Proc.devRef .tc b) = W11 m c (Proc.devRef .tc b) := by
  by_cases h : ∃ w, Pipeline.arrRef spec8 w = b
  · obtain ⟨w, rfl⟩ := h
    rw [W12_arr]
    fin_cases w
    · exact ((dat8 (VV11 m) c).arrAt_in 0 rfl _).trans (A_eq8 (VV11 m) c 0)
    · exact ((dat8 (VV11 m) c).arrAt_in 1 rfl _).trans (A_eq8 (VV11 m) c 1)
    · exact ((dat8 (VV11 m) c).arrAt_in 2 rfl _).trans (A_eq8 (VV11 m) c 2)
    · exact ((dat8 (VV11 m) c).arrAt_in 3 rfl _).trans (A_eq8 (VV11 m) c 3)
    · exact absurd (by decide) hb
  · exact W12_of_ne m c b (fun w e => h ⟨w, e⟩)

/-! ## No segment writes an argument: at every boundary each argument's buffer is as launched -/

theorem W0_main_arg0 (c : Dev nD) : W0 m c (Proc.devRef .tc main_arg0) = m ((c : Thread nD τ).loc main_arg0) := rfl
theorem W1_main_arg0 (c : Dev nD) : W1 m c (Proc.devRef .tc main_arg0) = m ((c : Thread nD τ).loc main_arg0) :=
  (W1_keep m c main_arg0 (by decide)).trans (W0_main_arg0 m c)
theorem W2_main_arg0 (c : Dev nD) : W2 m c (Proc.devRef .tc main_arg0) = m ((c : Thread nD τ).loc main_arg0) :=
  (W2_keep m c main_arg0 (by decide)).trans (W1_main_arg0 m c)
theorem W3_main_arg0 (c : Dev nD) : W3 m c (Proc.devRef .tc main_arg0) = m ((c : Thread nD τ).loc main_arg0) :=
  (W3_keep m c main_arg0 (by decide)).trans (W2_main_arg0 m c)
theorem W4_main_arg0 (c : Dev nD) : W4 m c (Proc.devRef .tc main_arg0) = m ((c : Thread nD τ).loc main_arg0) :=
  (W4_keep m c main_arg0 (by decide)).trans (W3_main_arg0 m c)
theorem W5_main_arg0 (c : Dev nD) : W5 m c (Proc.devRef .tc main_arg0) = m ((c : Thread nD τ).loc main_arg0) :=
  (W5_keep m c main_arg0 (by decide)).trans (W4_main_arg0 m c)
theorem W6_main_arg0 (c : Dev nD) : W6 m c (Proc.devRef .tc main_arg0) = m ((c : Thread nD τ).loc main_arg0) :=
  (W6_keep m c main_arg0 (by decide)).trans (W5_main_arg0 m c)
theorem W7_main_arg0 (c : Dev nD) : W7 m c (Proc.devRef .tc main_arg0) = m ((c : Thread nD τ).loc main_arg0) :=
  (W7_keep m c main_arg0 (by decide)).trans (W6_main_arg0 m c)
theorem W8_main_arg0 (c : Dev nD) : W8 m c (Proc.devRef .tc main_arg0) = m ((c : Thread nD τ).loc main_arg0) :=
  (W8_keep m c main_arg0 (by decide)).trans (W7_main_arg0 m c)
theorem W9_main_arg0 (c : Dev nD) : W9 m c (Proc.devRef .tc main_arg0) = m ((c : Thread nD τ).loc main_arg0) :=
  (W9_keep m c main_arg0 (by decide)).trans (W8_main_arg0 m c)
theorem W10_main_arg0 (c : Dev nD) : W10 m c (Proc.devRef .tc main_arg0) = m ((c : Thread nD τ).loc main_arg0) :=
  (W10_keep m c main_arg0 (by decide)).trans (W9_main_arg0 m c)
theorem W11_main_arg0 (c : Dev nD) : W11 m c (Proc.devRef .tc main_arg0) = m ((c : Thread nD τ).loc main_arg0) :=
  (W11_keep m c main_arg0 (by decide)).trans (W10_main_arg0 m c)
theorem W12_main_arg0 (c : Dev nD) : W12 m c (Proc.devRef .tc main_arg0) = m ((c : Thread nD τ).loc main_arg0) :=
  (W12_keep m c main_arg0 (by decide)).trans (W11_main_arg0 m c)

theorem W0_main_arg1 (c : Dev nD) : W0 m c (Proc.devRef .tc main_arg1) = m ((c : Thread nD τ).loc main_arg1) := rfl
theorem W1_main_arg1 (c : Dev nD) : W1 m c (Proc.devRef .tc main_arg1) = m ((c : Thread nD τ).loc main_arg1) :=
  (W1_keep m c main_arg1 (by decide)).trans (W0_main_arg1 m c)
theorem W2_main_arg1 (c : Dev nD) : W2 m c (Proc.devRef .tc main_arg1) = m ((c : Thread nD τ).loc main_arg1) :=
  (W2_keep m c main_arg1 (by decide)).trans (W1_main_arg1 m c)
theorem W3_main_arg1 (c : Dev nD) : W3 m c (Proc.devRef .tc main_arg1) = m ((c : Thread nD τ).loc main_arg1) :=
  (W3_keep m c main_arg1 (by decide)).trans (W2_main_arg1 m c)
theorem W4_main_arg1 (c : Dev nD) : W4 m c (Proc.devRef .tc main_arg1) = m ((c : Thread nD τ).loc main_arg1) :=
  (W4_keep m c main_arg1 (by decide)).trans (W3_main_arg1 m c)
theorem W5_main_arg1 (c : Dev nD) : W5 m c (Proc.devRef .tc main_arg1) = m ((c : Thread nD τ).loc main_arg1) :=
  (W5_keep m c main_arg1 (by decide)).trans (W4_main_arg1 m c)
theorem W6_main_arg1 (c : Dev nD) : W6 m c (Proc.devRef .tc main_arg1) = m ((c : Thread nD τ).loc main_arg1) :=
  (W6_keep m c main_arg1 (by decide)).trans (W5_main_arg1 m c)
theorem W7_main_arg1 (c : Dev nD) : W7 m c (Proc.devRef .tc main_arg1) = m ((c : Thread nD τ).loc main_arg1) :=
  (W7_keep m c main_arg1 (by decide)).trans (W6_main_arg1 m c)
theorem W8_main_arg1 (c : Dev nD) : W8 m c (Proc.devRef .tc main_arg1) = m ((c : Thread nD τ).loc main_arg1) :=
  (W8_keep m c main_arg1 (by decide)).trans (W7_main_arg1 m c)
theorem W9_main_arg1 (c : Dev nD) : W9 m c (Proc.devRef .tc main_arg1) = m ((c : Thread nD τ).loc main_arg1) :=
  (W9_keep m c main_arg1 (by decide)).trans (W8_main_arg1 m c)
theorem W10_main_arg1 (c : Dev nD) : W10 m c (Proc.devRef .tc main_arg1) = m ((c : Thread nD τ).loc main_arg1) :=
  (W10_keep m c main_arg1 (by decide)).trans (W9_main_arg1 m c)
theorem W11_main_arg1 (c : Dev nD) : W11 m c (Proc.devRef .tc main_arg1) = m ((c : Thread nD τ).loc main_arg1) :=
  (W11_keep m c main_arg1 (by decide)).trans (W10_main_arg1 m c)
theorem W12_main_arg1 (c : Dev nD) : W12 m c (Proc.devRef .tc main_arg1) = m ((c : Thread nD τ).loc main_arg1) :=
  (W12_keep m c main_arg1 (by decide)).trans (W11_main_arg1 m c)

theorem W0_main_arg2 (c : Dev nD) : W0 m c (Proc.devRef .tc main_arg2) = m ((c : Thread nD τ).loc main_arg2) := rfl
theorem W1_main_arg2 (c : Dev nD) : W1 m c (Proc.devRef .tc main_arg2) = m ((c : Thread nD τ).loc main_arg2) :=
  (W1_keep m c main_arg2 (by decide)).trans (W0_main_arg2 m c)
theorem W2_main_arg2 (c : Dev nD) : W2 m c (Proc.devRef .tc main_arg2) = m ((c : Thread nD τ).loc main_arg2) :=
  (W2_keep m c main_arg2 (by decide)).trans (W1_main_arg2 m c)
theorem W3_main_arg2 (c : Dev nD) : W3 m c (Proc.devRef .tc main_arg2) = m ((c : Thread nD τ).loc main_arg2) :=
  (W3_keep m c main_arg2 (by decide)).trans (W2_main_arg2 m c)
theorem W4_main_arg2 (c : Dev nD) : W4 m c (Proc.devRef .tc main_arg2) = m ((c : Thread nD τ).loc main_arg2) :=
  (W4_keep m c main_arg2 (by decide)).trans (W3_main_arg2 m c)
theorem W5_main_arg2 (c : Dev nD) : W5 m c (Proc.devRef .tc main_arg2) = m ((c : Thread nD τ).loc main_arg2) :=
  (W5_keep m c main_arg2 (by decide)).trans (W4_main_arg2 m c)
theorem W6_main_arg2 (c : Dev nD) : W6 m c (Proc.devRef .tc main_arg2) = m ((c : Thread nD τ).loc main_arg2) :=
  (W6_keep m c main_arg2 (by decide)).trans (W5_main_arg2 m c)
theorem W7_main_arg2 (c : Dev nD) : W7 m c (Proc.devRef .tc main_arg2) = m ((c : Thread nD τ).loc main_arg2) :=
  (W7_keep m c main_arg2 (by decide)).trans (W6_main_arg2 m c)
theorem W8_main_arg2 (c : Dev nD) : W8 m c (Proc.devRef .tc main_arg2) = m ((c : Thread nD τ).loc main_arg2) :=
  (W8_keep m c main_arg2 (by decide)).trans (W7_main_arg2 m c)
theorem W9_main_arg2 (c : Dev nD) : W9 m c (Proc.devRef .tc main_arg2) = m ((c : Thread nD τ).loc main_arg2) :=
  (W9_keep m c main_arg2 (by decide)).trans (W8_main_arg2 m c)
theorem W10_main_arg2 (c : Dev nD) : W10 m c (Proc.devRef .tc main_arg2) = m ((c : Thread nD τ).loc main_arg2) :=
  (W10_keep m c main_arg2 (by decide)).trans (W9_main_arg2 m c)
theorem W11_main_arg2 (c : Dev nD) : W11 m c (Proc.devRef .tc main_arg2) = m ((c : Thread nD τ).loc main_arg2) :=
  (W11_keep m c main_arg2 (by decide)).trans (W10_main_arg2 m c)
theorem W12_main_arg2 (c : Dev nD) : W12 m c (Proc.devRef .tc main_arg2) = m ((c : Thread nD τ).loc main_arg2) :=
  (W12_keep m c main_arg2 (by decide)).trans (W11_main_arg2 m c)

theorem W0_main_arg3 (c : Dev nD) : W0 m c (Proc.devRef .tc main_arg3) = m ((c : Thread nD τ).loc main_arg3) := rfl
theorem W1_main_arg3 (c : Dev nD) : W1 m c (Proc.devRef .tc main_arg3) = m ((c : Thread nD τ).loc main_arg3) :=
  (W1_keep m c main_arg3 (by decide)).trans (W0_main_arg3 m c)
theorem W2_main_arg3 (c : Dev nD) : W2 m c (Proc.devRef .tc main_arg3) = m ((c : Thread nD τ).loc main_arg3) :=
  (W2_keep m c main_arg3 (by decide)).trans (W1_main_arg3 m c)
theorem W3_main_arg3 (c : Dev nD) : W3 m c (Proc.devRef .tc main_arg3) = m ((c : Thread nD τ).loc main_arg3) :=
  (W3_keep m c main_arg3 (by decide)).trans (W2_main_arg3 m c)
theorem W4_main_arg3 (c : Dev nD) : W4 m c (Proc.devRef .tc main_arg3) = m ((c : Thread nD τ).loc main_arg3) :=
  (W4_keep m c main_arg3 (by decide)).trans (W3_main_arg3 m c)
theorem W5_main_arg3 (c : Dev nD) : W5 m c (Proc.devRef .tc main_arg3) = m ((c : Thread nD τ).loc main_arg3) :=
  (W5_keep m c main_arg3 (by decide)).trans (W4_main_arg3 m c)
theorem W6_main_arg3 (c : Dev nD) : W6 m c (Proc.devRef .tc main_arg3) = m ((c : Thread nD τ).loc main_arg3) :=
  (W6_keep m c main_arg3 (by decide)).trans (W5_main_arg3 m c)
theorem W7_main_arg3 (c : Dev nD) : W7 m c (Proc.devRef .tc main_arg3) = m ((c : Thread nD τ).loc main_arg3) :=
  (W7_keep m c main_arg3 (by decide)).trans (W6_main_arg3 m c)
theorem W8_main_arg3 (c : Dev nD) : W8 m c (Proc.devRef .tc main_arg3) = m ((c : Thread nD τ).loc main_arg3) :=
  (W8_keep m c main_arg3 (by decide)).trans (W7_main_arg3 m c)
theorem W9_main_arg3 (c : Dev nD) : W9 m c (Proc.devRef .tc main_arg3) = m ((c : Thread nD τ).loc main_arg3) :=
  (W9_keep m c main_arg3 (by decide)).trans (W8_main_arg3 m c)
theorem W10_main_arg3 (c : Dev nD) : W10 m c (Proc.devRef .tc main_arg3) = m ((c : Thread nD τ).loc main_arg3) :=
  (W10_keep m c main_arg3 (by decide)).trans (W9_main_arg3 m c)
theorem W11_main_arg3 (c : Dev nD) : W11 m c (Proc.devRef .tc main_arg3) = m ((c : Thread nD τ).loc main_arg3) :=
  (W11_keep m c main_arg3 (by decide)).trans (W10_main_arg3 m c)
theorem W12_main_arg3 (c : Dev nD) : W12 m c (Proc.devRef .tc main_arg3) = m ((c : Thread nD τ).loc main_arg3) :=
  (W12_keep m c main_arg3 (by decide)).trans (W11_main_arg3 m c)

theorem W0_main_arg4 (c : Dev nD) : W0 m c (Proc.devRef .tc main_arg4) = m ((c : Thread nD τ).loc main_arg4) := rfl
theorem W1_main_arg4 (c : Dev nD) : W1 m c (Proc.devRef .tc main_arg4) = m ((c : Thread nD τ).loc main_arg4) :=
  (W1_keep m c main_arg4 (by decide)).trans (W0_main_arg4 m c)
theorem W2_main_arg4 (c : Dev nD) : W2 m c (Proc.devRef .tc main_arg4) = m ((c : Thread nD τ).loc main_arg4) :=
  (W2_keep m c main_arg4 (by decide)).trans (W1_main_arg4 m c)
theorem W3_main_arg4 (c : Dev nD) : W3 m c (Proc.devRef .tc main_arg4) = m ((c : Thread nD τ).loc main_arg4) :=
  (W3_keep m c main_arg4 (by decide)).trans (W2_main_arg4 m c)
theorem W4_main_arg4 (c : Dev nD) : W4 m c (Proc.devRef .tc main_arg4) = m ((c : Thread nD τ).loc main_arg4) :=
  (W4_keep m c main_arg4 (by decide)).trans (W3_main_arg4 m c)
theorem W5_main_arg4 (c : Dev nD) : W5 m c (Proc.devRef .tc main_arg4) = m ((c : Thread nD τ).loc main_arg4) :=
  (W5_keep m c main_arg4 (by decide)).trans (W4_main_arg4 m c)
theorem W6_main_arg4 (c : Dev nD) : W6 m c (Proc.devRef .tc main_arg4) = m ((c : Thread nD τ).loc main_arg4) :=
  (W6_keep m c main_arg4 (by decide)).trans (W5_main_arg4 m c)
theorem W7_main_arg4 (c : Dev nD) : W7 m c (Proc.devRef .tc main_arg4) = m ((c : Thread nD τ).loc main_arg4) :=
  (W7_keep m c main_arg4 (by decide)).trans (W6_main_arg4 m c)
theorem W8_main_arg4 (c : Dev nD) : W8 m c (Proc.devRef .tc main_arg4) = m ((c : Thread nD τ).loc main_arg4) :=
  (W8_keep m c main_arg4 (by decide)).trans (W7_main_arg4 m c)
theorem W9_main_arg4 (c : Dev nD) : W9 m c (Proc.devRef .tc main_arg4) = m ((c : Thread nD τ).loc main_arg4) :=
  (W9_keep m c main_arg4 (by decide)).trans (W8_main_arg4 m c)
theorem W10_main_arg4 (c : Dev nD) : W10 m c (Proc.devRef .tc main_arg4) = m ((c : Thread nD τ).loc main_arg4) :=
  (W10_keep m c main_arg4 (by decide)).trans (W9_main_arg4 m c)
theorem W11_main_arg4 (c : Dev nD) : W11 m c (Proc.devRef .tc main_arg4) = m ((c : Thread nD τ).loc main_arg4) :=
  (W11_keep m c main_arg4 (by decide)).trans (W10_main_arg4 m c)
theorem W12_main_arg4 (c : Dev nD) : W12 m c (Proc.devRef .tc main_arg4) = m ((c : Thread nD τ).loc main_arg4) :=
  (W12_keep m c main_arg4 (by decide)).trans (W11_main_arg4 m c)

theorem W0_main_arg5 (c : Dev nD) : W0 m c (Proc.devRef .tc main_arg5) = m ((c : Thread nD τ).loc main_arg5) := rfl
theorem W1_main_arg5 (c : Dev nD) : W1 m c (Proc.devRef .tc main_arg5) = m ((c : Thread nD τ).loc main_arg5) :=
  (W1_keep m c main_arg5 (by decide)).trans (W0_main_arg5 m c)
theorem W2_main_arg5 (c : Dev nD) : W2 m c (Proc.devRef .tc main_arg5) = m ((c : Thread nD τ).loc main_arg5) :=
  (W2_keep m c main_arg5 (by decide)).trans (W1_main_arg5 m c)
theorem W3_main_arg5 (c : Dev nD) : W3 m c (Proc.devRef .tc main_arg5) = m ((c : Thread nD τ).loc main_arg5) :=
  (W3_keep m c main_arg5 (by decide)).trans (W2_main_arg5 m c)
theorem W4_main_arg5 (c : Dev nD) : W4 m c (Proc.devRef .tc main_arg5) = m ((c : Thread nD τ).loc main_arg5) :=
  (W4_keep m c main_arg5 (by decide)).trans (W3_main_arg5 m c)
theorem W5_main_arg5 (c : Dev nD) : W5 m c (Proc.devRef .tc main_arg5) = m ((c : Thread nD τ).loc main_arg5) :=
  (W5_keep m c main_arg5 (by decide)).trans (W4_main_arg5 m c)
theorem W6_main_arg5 (c : Dev nD) : W6 m c (Proc.devRef .tc main_arg5) = m ((c : Thread nD τ).loc main_arg5) :=
  (W6_keep m c main_arg5 (by decide)).trans (W5_main_arg5 m c)
theorem W7_main_arg5 (c : Dev nD) : W7 m c (Proc.devRef .tc main_arg5) = m ((c : Thread nD τ).loc main_arg5) :=
  (W7_keep m c main_arg5 (by decide)).trans (W6_main_arg5 m c)
theorem W8_main_arg5 (c : Dev nD) : W8 m c (Proc.devRef .tc main_arg5) = m ((c : Thread nD τ).loc main_arg5) :=
  (W8_keep m c main_arg5 (by decide)).trans (W7_main_arg5 m c)
theorem W9_main_arg5 (c : Dev nD) : W9 m c (Proc.devRef .tc main_arg5) = m ((c : Thread nD τ).loc main_arg5) :=
  (W9_keep m c main_arg5 (by decide)).trans (W8_main_arg5 m c)
theorem W10_main_arg5 (c : Dev nD) : W10 m c (Proc.devRef .tc main_arg5) = m ((c : Thread nD τ).loc main_arg5) :=
  (W10_keep m c main_arg5 (by decide)).trans (W9_main_arg5 m c)
theorem W11_main_arg5 (c : Dev nD) : W11 m c (Proc.devRef .tc main_arg5) = m ((c : Thread nD τ).loc main_arg5) :=
  (W11_keep m c main_arg5 (by decide)).trans (W10_main_arg5 m c)
theorem W12_main_arg5 (c : Dev nD) : W12 m c (Proc.devRef .tc main_arg5) = m ((c : Thread nD τ).loc main_arg5) :=
  (W12_keep m c main_arg5 (by decide)).trans (W11_main_arg5 m c)

/-- The prefetched tables' admissible contents: no pipeline has a table. -/
abbrev admH : (p : Fin 9) → (pcfgs (F := F) p).Adm := fun p => (cfgs p).toPCfg_adm
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the core's generator register at some state and its `owes`, at nothing. -/
abbrev RH (c : Dev nD) : sProp 𝕄 := iprop((∃ r, prngReg c r) ∗ ∃ W, owes (c : Thread nD τ) (0 : CellTallies nD τ sig Unit) W)

/-- Every pipeline's proof data, each at its region's entry contents — a literal match on the pipeline, so that the launch theorem's
    pinned configuration at a numeral reduces to the printed one. -/
def pdats : (p : Fin 9) → (c : Dev nD) → Dat τ (Elt F) Unit ℕ (UR sig nD τ) ℕ (Pipeline.pin (pcfgs (F := F)) admH p) c
  | ⟨0, _⟩ => fun c => dat0 (VV1 m) c
  | ⟨1, _⟩ => fun c => dat1 (VV2 m) c
  | ⟨2, _⟩ => fun c => dat2 (VV3 m) c
  | ⟨3, _⟩ => fun c => dat3 (VV4 m) c
  | ⟨4, _⟩ => fun c => dat4 (VV6 m) c
  | ⟨5, _⟩ => fun c => dat5 (VV7 m) c
  | ⟨6, _⟩ => fun c => dat6 (VV8 m) c
  | ⟨7, _⟩ => fun c => dat7 (VV9 m) c
  | ⟨8, _⟩ => fun c => dat8 (VV11 m) c

/-- A host stretch as a segment over the unscoped references from the contents `W`, `RH` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.HandKI.Reg0.lean ====
/-
  Kernel region 0 as a segment of @main over the thread state "every unscoped buffer at the boundary's contents".
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Chain
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 0 over the thread state: entered with every unscoped buffer at the contents before it, left with them at the
    contents after it; its windows' arrays are split out of the unscoped buffers and put back at what the pipeline leaves; its scratch
    comes out of the scoped rest into the invariant and goes back; nothing is owed; the kernel has no semaphore of its own. -/
def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X _ := BI.emp
  Y _ := BI.emp
  Z c := iprop(Pipeline.unscopedRest (Ix := Unit) (Name := ℕ) (U := UR sig nD τ) (Lvl := ℕ) spec0 c (VV1 m c) ∗ ∃ r, prngReg c r)
  hentry c := by
    rw [Pipeline.ownSems0_none]
    have hsplit := Pipeline.arrays_of_unscopedBufs (p := 0) (pcfgs (F := F)) admH (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = Phi0 (VV1 m) c 0 from rfl]
    iintro ⟨-, -, Hr⟩
    iapply (hin0 (VV1 m) c); iexact Hr
  hout c := by
    rw [Pipeline.ownSems0_none, show (pdats m 0 c).Φ (Fin.last _) = Phi0 (VV1 m) c cfg0.N from rfl]
    iintro H
    isplitr; · iempintro
    isplitr; · iempintro
    iapply (hout0 (VV1 m) c _); iexact H
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (VV1 m c) (fun b => W2 m c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.HandKI.Reg1.lean ====
/-
  Kernel region 1 as a segment of @main over the thread state "every unscoped buffer at the boundary's contents".
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Chain
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 1 over the thread state: entered with every unscoped buffer at the contents before it, left with them at the
    contents after it; its windows' arrays are split out of the unscoped buffers and put back at what the pipeline leaves; its scratch
    comes out of the scoped rest into the invariant and goes back; nothing is owed; the kernel has no semaphore of its own. -/
def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(StableHlo.held (c : Thread nD τ) (Pipeline.ucRefs τ sig) (W3 m c) ∗ RH c)
  X _ := BI.emp
  Y _ := BI.emp
  Z c := iprop(Pipeline.unscopedRest (Ix := Unit) (Name := ℕ) (U := UR sig nD τ) (Lvl := ℕ) spec1 c (VV2 m c) ∗ ∃ r, prngReg c r)
  hentry c := by
    rw [Pipeline.ownSems0_none]
    have hsplit := Pipeline.arrays_of_unscopedBufs (p := 1) (pcfgs (F := F)) admH (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = Phi1 (VV2 m) c 0 from rfl]
    iintro ⟨-, -, Hr⟩
    iapply (hin1 (VV2 m) c); iexact Hr
  hout c := by
    rw [Pipeline.ownSems0_none, show (pdats m 1 c).Φ (Fin.last _) = Phi1 (VV2 m) c cfg1.N from rfl]
    iintro H
    isplitr; · iempintro
    isplitr; · iempintro
    iapply (hout1 (VV2 m) c _); iexact H
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (VV2 m c) (fun b => W3 m c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.HandKI.Reg2.lean ====
/-
  Kernel region 2 as a segment of @main over the thread state "every unscoped buffer at the boundary's contents".
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Chain
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 2 over the thread state: entered with every unscoped buffer at the contents before it, left with them at the
    contents after it; its windows' arrays are split out of the unscoped buffers and put back at what the pipeline leaves; its scratch
    comes out of the scoped rest into the invariant and goes back; nothing is owed; the kernel has no semaphore of its own. -/
def reg2 : Pipeline.RegionSeg (pcfgs (F := F)) admH (pdats m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (VV3 m) c).loose
  hwaits := Pipeline.hwaits_of_owed_zero _ _ _ _ LH lvH 2 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X _ := BI.emp
  Y _ := BI.emp
  Z c := iprop(Pipeline.unscopedRest (Ix := Unit) (Name := ℕ) (U := UR sig nD τ) (Lvl := ℕ) spec2 c (VV3 m c) ∗ ∃ r, prngReg c r)
  hentry c := by
    rw [Pipeline.ownSems0_none]
    have hsplit := Pipeline.arrays_of_unscopedBufs (p := 2) (pcfgs (F := F)) admH (pdats m) launch2.win launch2.arr_whole c
      ((pdats m 2 c).share_full fun _ => rfl) (VV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = Phi2 (VV3 m) c 0 from rfl]
    iintro ⟨-, -, Hr⟩
    iapply (hin2 (VV3 m) c); iexact Hr
  hout c := by
    rw [Pipeline.ownSems0_none, show (pdats m 2 c).Φ (Fin.last _) = Phi2 (VV3 m) c cfg2.N from rfl]
    iintro H
    isplitr; · iempintro
    isplitr; · iempintro
    iapply (hout2 (VV3 m) c _); iexact H
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (VV3 m c) (fun b => W4 m c b) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.HandKI.Reg3.lean ====
/-
  Kernel region 3 as a segment of @main over the thread state "every unscoped buffer at the boundary's contents".
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Chain
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 3 over the thread state: entered with every unscoped buffer at the contents before it, left with them at the
    contents after it; its windows' arrays are split out of the unscoped buffers and put back at what the pipeline leaves; its scratch
    comes out of the scoped rest into the invariant and goes back; nothing is owed; the kernel has no semaphore of its own. -/
def reg3 : Pipeline.RegionSeg (pcfgs (F := F)) admH (pdats m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (VV4 m) c).loose
  hwaits := Pipeline.hwaits_of_owed_zero _ _ _ _ LH lvH 3 fun _ _ => rfl
  pre c := iprop(StableHlo.held (c : Thread nD τ) (Pipeline.ucRefs τ sig) (W4 m c) ∗ RH c)
  post c := iprop(StableHlo.held (c : Thread nD τ) (Pipeline.ucRefs τ sig) (W5 m c) ∗ RH c)
  X _ := BI.emp
  Y _ := BI.emp
  Z c := iprop(Pipeline.unscopedRest (Ix := Unit) (Name := ℕ) (U := UR sig nD τ) (Lvl := ℕ) spec3 c (VV4 m c) ∗ ∃ r, prngReg c r)
  hentry c := by
    rw [Pipeline.ownSems0_none]
    have hsplit := Pipeline.arrays_of_unscopedBufs (p := 3) (pcfgs (F := F)) admH (pdats m) launch3.win launch3.arr_whole c
      ((pdats m 3 c).share_full fun _ => rfl) (VV4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 3 c).Φ 0 = Phi3 (VV4 m) c 0 from rfl]
    iintro ⟨-, -, Hr⟩
    iapply (hin3 (VV4 m) c); iexact Hr
  hout c := by
    rw [Pipeline.ownSems0_none, show (pdats m 3 c).Φ (Fin.last _) = Phi3 (VV4 m) c cfg3.N from rfl]
    iintro H
    isplitr; · iempintro
    isplitr; · iempintro
    iapply (hout3 (VV4 m) c _); iexact H
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full fun _ => rfl)
      (VV4 m c) (fun b => W5 m c b) ((pdats m 3 c).arrAt · cfg3.N) (hF3 m c) (hrest3 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.HandKI.Reg4.lean ====
/-
  Kernel region 4 as a segment of @main over the thread state "every unscoped buffer at the boundary's contents".
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Chain
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 4 over the thread state: entered with every unscoped buffer at the contents before it, left with them at the
    contents after it; its windows' arrays are split out of the unscoped buffers and put back at what the pipeline leaves; its scratch
    comes out of the scoped rest into the invariant and goes back; nothing is owed; the kernel has no semaphore of its own. -/
def reg4 : Pipeline.RegionSeg (pcfgs (F := F)) admH (pdats m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (VV6 m) c).loose
  hwaits := Pipeline.hwaits_of_owed_zero _ _ _ _ LH lvH 4 fun _ _ => rfl
  pre c := iprop(StableHlo.held (c : Thread nD τ) (Pipeline.ucRefs τ sig) (W6 m c) ∗ RH c)
  post c := iprop(StableHlo.held (c : Thread nD τ) (Pipeline.ucRefs τ sig) (W7 m c) ∗ RH c)
  X _ := BI.emp
  Y _ := BI.emp
  Z c := iprop(Pipeline.unscopedRest (Ix := Unit) (Name := ℕ) (U := UR sig nD τ) (Lvl := ℕ) spec4 c (VV6 m c) ∗ ∃ r, prngReg c r)
  hentry c := by
    rw [Pipeline.ownSems0_none]
    have hsplit := Pipeline.arrays_of_unscopedBufs (p := 4) (pcfgs (F := F)) admH (pdats m) launch4.win launch4.arr_whole c
      ((pdats m 4 c).share_full fun _ => rfl) (VV6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 4 c).Φ 0 = Phi4 (VV6 m) c 0 from rfl]
    iintro ⟨-, -, Hr⟩
    iapply (hin4 (VV6 m) c); iexact Hr
  hout c := by
    rw [Pipeline.ownSems0_none, show (pdats m 4 c).Φ (Fin.last _) = Phi4 (VV6 m) c cfg4.N from rfl]
    iintro H
    isplitr; · iempintro
    isplitr; · iempintro
    iapply (hout4 (VV6 m) c _); iexact H
  hexit c := by
    have hjoin := Pipeline.unscopedBufs_of_arrays (p := 4) (pcfgs (F := F)) admH (Ix := Unit) (Name := ℕ) (U := UR sig nD τ) (Lvl := ℕ)
      launch4.win launch4.arr_whole c (pdats m) ((pdats m 4 c).share_full fun _ => rfl)
      (VV6 m c) (fun b => W7 m c b) ((pdats m 4 c).arrAt · cfg4.N) (hF4 m c) (hrest4 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.HandKI.Reg5.lean ====
/-
  Kernel region 5 as a segment of @main over the thread state "every unscoped buffer at the boundary's contents".
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Chain
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 5 over the thread state: entered with every unscoped buffer at the contents before it, left with them at the
    contents after it; its windows' arrays are split out of the unscoped buffers and put back at what the pipeline leaves; its scratch
    comes out of the scoped rest into the invariant and goes back; nothing is owed; the kernel has no semaphore of its own. -/
def reg5 : Pipeline.RegionSeg (pcfgs (F := F)) admH (pdats m) () defs₀ 𝒱H LH lvH 5 where
  win := launch5.win.to₀
  block_pos := launch5.block_pos
  stage_whole := launch5.stage_whole
  K := PEmpty
  osem k := k.elim
  ho := Pipeline.OwnSemFacts.none _
  hbody c := (body_obligation5 (VV7 m) c).loose
  hwaits := Pipeline.hwaits_of_owed_zero _ _ _ _ LH lvH 5 fun _ _ => rfl
  pre c := iprop(StableHlo.held (c : Thread nD τ) (Pipeline.ucRefs τ sig) (W7 m c) ∗ RH c)
  post c := iprop(StableHlo.held (c : Thread nD τ) (Pipeline.ucRefs τ sig) (W8 m c) ∗ RH c)
  X _ := BI.emp
  Y _ := BI.emp
  Z c := iprop(Pipeline.unscopedRest (Ix := Unit) (Name := ℕ) (U := UR sig nD τ) (Lvl := ℕ) spec5 c (VV7 m c) ∗ ∃ r, prngReg c r)
  hentry c := by
    rw [Pipeline.ownSems0_none]
    have hsplit := Pipeline.arrays_of_unscopedBufs (p := 5) (pcfgs (F := F)) admH (pdats m) launch5.win launch5.arr_whole c
      ((pdats m 5 c).share_full fun _ => rfl) (VV7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 5 c).Φ 0 = Phi5 (VV7 m) c 0 from rfl]
    iintro ⟨-, -, Hr⟩
    iapply (hin5 (VV7 m) c); iexact Hr
  hout c := by
    rw [Pipeline.ownSems0_none, show (pdats m 5 c).Φ (Fin.last _) = Phi5 (VV7 m) c cfg5.N from rfl]
    iintro H
    isplitr; · iempintro
    isplitr; · iempintro
    iapply (hout5 (VV7 m) c _); iexact H
  hexit c := by
    have hjoin := Pipeline.unscopedBufs_of_arrays (p := 5) (pcfgs (F := F)) admH (Ix := Unit) (Name := ℕ) (U := UR sig nD τ) (Lvl := ℕ)
      launch5.win launch5.arr_whole c (pdats m) ((pdats m 5 c).share_full fun _ => rfl)
      (VV7 m c) (fun b => W8 m c b) ((pdats m 5 c).arrAt · cfg5.N) (hF5 m c) (hrest5 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.HandKI.Reg6.lean ====
/-
  Kernel region 6 as a segment of @main over the thread state "every unscoped buffer at the boundary's contents".
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Chain
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 6 over the thread state: entered with every unscoped buffer at the contents before it, left with them at the
    contents after it; its windows' arrays are split out of the unscoped buffers and put back at what the pipeline leaves; its scratch
    comes out of the scoped rest into the invariant and goes back; nothing is owed; the kernel has no semaphore of its own. -/
def reg6 : Pipeline.RegionSeg (pcfgs (F := F)) admH (pdats m) () defs₀ 𝒱H LH lvH 6 where
  win := launch6.win.to₀
  block_pos := launch6.block_pos
  stage_whole := launch6.stage_whole
  K := PEmpty
  osem k := k.elim
  ho := Pipeline.OwnSemFacts.none _
  hbody c := (body_obligation6 (VV8 m) c).loose
  hwaits := Pipeline.hwaits_of_owed_zero _ _ _ _ LH lvH 6 fun _ _ => rfl
  pre c := iprop(StableHlo.held (c : Thread nD τ) (Pipeline.ucRefs τ sig) (W8 m c) ∗ RH c)
  post c := iprop(StableHlo.held (c : Thread nD τ) (Pipeline.ucRefs τ sig) (W9 m c) ∗ RH c)
  X _ := BI.emp
  Y _ := BI.emp
  Z c := iprop(Pipeline.unscopedRest (Ix := Unit) (Name := ℕ) (U := UR sig nD τ) (Lvl := ℕ) spec6 c (VV8 m c) ∗ ∃ r, prngReg c r)
  hentry c := by
    rw [Pipeline.ownSems0_none]
    have hsplit := Pipeline.arrays_of_unscopedBufs (p := 6) (pcfgs (F := F)) admH (pdats m) launch6.win launch6.arr_whole c
      ((pdats m 6 c).share_full fun _ => rfl) (VV8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 6 c).Φ 0 = Phi6 (VV8 m) c 0 from rfl]
    iintro ⟨-, -, Hr⟩
    iapply (hin6 (VV8 m) c); iexact Hr
  hout c := by
    rw [Pipeline.ownSems0_none, show (pdats m 6 c).Φ (Fin.last _) = Phi6 (VV8 m) c cfg6.N from rfl]
    iintro H
    isplitr; · iempintro
    isplitr; · iempintro
    iapply (hout6 (VV8 m) c _); iexact H
  hexit c := by
    have hjoin := Pipeline.unscopedBufs_of_arrays (p := 6) (pcfgs (F := F)) admH (Ix := Unit) (Name := ℕ) (U := UR sig nD τ) (Lvl := ℕ)
      launch6.win launch6.arr_whole c (pdats m) ((pdats m 6 c).share_full fun _ => rfl)
      (VV8 m c) (fun b => W9 m c b) ((pdats m 6 c).arrAt · cfg6.N) (hF6 m c) (hrest6 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.HandKI.Reg7.lean ====
/-
  Kernel region 7 as a segment of @main over the thread state "every unscoped buffer at the boundary's contents".
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Chain
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 7 over the thread state: entered with every unscoped buffer at the contents before it, left with them at the
    contents after it; its windows' arrays are split out of the unscoped buffers and put back at what the pipeline leaves; its scratch
    comes out of the scoped rest into the invariant and goes back; nothing is owed; the kernel has no semaphore of its own. -/
def reg7 : Pipeline.RegionSeg (pcfgs (F := F)) admH (pdats m) () defs₀ 𝒱H LH lvH 7 where
  win := launch7.win.to₀
  block_pos := launch7.block_pos
  stage_whole := launch7.stage_whole
  K := PEmpty
  osem k := k.elim
  ho := Pipeline.OwnSemFacts.none _
  hbody c := (body_obligation7 (VV9 m) c).loose
  hwaits := Pipeline.hwaits_of_owed_zero _ _ _ _ LH lvH 7 fun _ _ => rfl
  pre c := iprop(StableHlo.held (c : Thread nD τ) (Pipeline.ucRefs τ sig) (W9 m c) ∗ RH c)
  post c := iprop(StableHlo.held (c : Thread nD τ) (Pipeline.ucRefs τ sig) (W10 m c) ∗ RH c)
  X _ := BI.emp
  Y _ := BI.emp
  Z c := iprop(Pipeline.unscopedRest (Ix := Unit) (Name := ℕ) (U := UR sig nD τ) (Lvl := ℕ) spec7 c (VV9 m c) ∗ ∃ r, prngReg c r)
  hentry c := by
    rw [Pipeline.ownSems0_none]
    have hsplit := Pipeline.arrays_of_unscopedBufs (p := 7) (pcfgs (F := F)) admH (pdats m) launch7.win launch7.arr_whole c
      ((pdats m 7 c).share_full fun _ => rfl) (VV9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 7 c).Φ 0 = Phi7 (VV9 m) c 0 from rfl]
    iintro ⟨-, -, Hr⟩
    iapply (hin7 (VV9 m) c); iexact Hr
  hout c := by
    rw [Pipeline.ownSems0_none, show (pdats m 7 c).Φ (Fin.last _) = Phi7 (VV9 m) c cfg7.N from rfl]
    iintro H
    isplitr; · iempintro
    isplitr; · iempintro
    iapply (hout7 (VV9 m) c _); iexact H
  hexit c := by
    have hjoin := Pipeline.unscopedBufs_of_arrays (p := 7) (pcfgs (F := F)) admH (Ix := Unit) (Name := ℕ) (U := UR sig nD τ) (Lvl := ℕ)
      launch7.win launch7.arr_whole c (pdats m) ((pdats m 7 c).share_full fun _ => rfl)
      (VV9 m c) (fun b => W10 m c b) ((pdats m 7 c).arrAt · cfg7.N) (hF7 m c) (hrest7 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.HandKI.Reg8.lean ====
/-
  Kernel region 8 as a segment of @main over the thread state "every unscoped buffer at the boundary's contents".
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Chain
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `iapply` of a library lemma stated over `pin pcs a p` unifies with the pinned configuration only when unification may
-- unfold plain definitions in a metavariable's type
set_option backward.isDefEq.respectTransparency.types false in
/-- Kernel region 8 over the thread state: entered with every unscoped buffer at the contents before it, left with them at the
    contents after it; its windows' arrays are split out of the unscoped buffers and put back at what the pipeline leaves; its scratch
    comes out of the scoped rest into the invariant and goes back; nothing is owed; the kernel has no semaphore of its own. -/
def reg8 : Pipeline.RegionSeg (pcfgs (F := F)) admH (pdats m) () defs₀ 𝒱H LH lvH 8 where
  win := launch8.win.to₀
  block_pos := launch8.block_pos
  stage_whole := launch8.stage_whole
  K := PEmpty
  osem k := k.elim
  ho := Pipeline.OwnSemFacts.none _
  hbody c := (body_obligation8 (VV11 m) c).loose
  hwaits := Pipeline.hwaits_of_owed_zero _ _ _ _ LH lvH 8 fun _ _ => rfl
  pre c := iprop(StableHlo.held (c : Thread nD τ) (Pipeline.ucRefs τ sig) (W11 m c) ∗ RH c)
  post c := iprop(StableHlo.held (c : Thread nD τ) (Pipeline.ucRefs τ sig) (W12 m c) ∗ RH c)
  X _ := BI.emp
  Y _ := BI.emp
  Z c := iprop(Pipeline.unscopedRest (Ix := Unit) (Name := ℕ) (U := UR sig nD τ) (Lvl := ℕ) spec8 c (VV11 m c) ∗ ∃ r, prngReg c r)
  hentry c := by
    rw [Pipeline.ownSems0_none]
    have hsplit := Pipeline.arrays_of_unscopedBufs (p := 8) (pcfgs (F := F)) admH (pdats m) launch8.win launch8.arr_whole c
      ((pdats m 8 c).share_full fun _ => rfl) (VV11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 8 c).Φ 0 = Phi8 (VV11 m) c 0 from rfl]
    iintro ⟨-, -, Hr⟩
    iapply (hin8 (VV11 m) c); iexact Hr
  hout c := by
    rw [Pipeline.ownSems0_none, show (pdats m 8 c).Φ (Fin.last _) = Phi8 (VV11 m) c cfg8.N from rfl]
    iintro H
    isplitr; · iempintro
    isplitr; · iempintro
    iapply (hout8 (VV11 m) c _); iexact H
  hexit c := by
    have hjoin := Pipeline.unscopedBufs_of_arrays (p := 8) (pcfgs (F := F)) admH (Ix := Unit) (Name := ℕ) (U := UR sig nD τ) (Lvl := ℕ)
      launch8.win launch8.arr_whole c (pdats m) ((pdats m 8 c).share_full fun _ => rfl)
      (VV11 m c) (fun b => W12 m c b) ((pdats m 8 c).arrAt · cfg8.N) (hF8 m c) (hrest8 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.HandKI.MainRun.lean ====
/-
  The whole program as a run: @main is twelve segments — three stretches of host operations and nine kernel regions. Every weakly
  fair execution terminates, nothing faulting, with all unscoped buffers at the last boundary's contents; in particular every
  argument array ends as launched.
-/
import proofs.«169539_j48112223650339_2_alg».proof.Proof.Gen.KernelIdeal.Launch
import proofs.«169539_j48112223650339_2_alg».proof.Proof.Gen.KernelIdeal.Skeleton
import proofs.«169539_j48112223650339_2_alg».proof.Proof.Gen.KernelIdeal.Points
import proofs.«169539_j48112223650339_2_alg».proof.Proof.HandKI.Reg0
import proofs.«169539_j48112223650339_2_alg».proof.Proof.HandKI.Reg1
import proofs.«169539_j48112223650339_2_alg».proof.Proof.HandKI.Reg2
import proofs.«169539_j48112223650339_2_alg».proof.Proof.HandKI.Reg3
import proofs.«169539_j48112223650339_2_alg».proof.Proof.HandKI.Reg4
import proofs.«169539_j48112223650339_2_alg».proof.Proof.HandKI.Reg5
import proofs.«169539_j48112223650339_2_alg».proof.Proof.HandKI.Reg6
import proofs.«169539_j48112223650339_2_alg».proof.Proof.HandKI.Reg7
import proofs.«169539_j48112223650339_2_alg».proof.Proof.HandKI.Reg8
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)
/-! ## @main as segments, and the launch -/

/-- @main's twelve segments in order: a host segment per stretch from its boundary's contents, a region per kernel call. -/
abbrev allSegs : List (Pipeline.Seg (pcfgs (F := F)) admH (pdats m) () defs₀ 𝒱H LH lvH) :=
  [ .host (hseg hostOps0 hostOps0_sub hostOps0_fresh (W0 m)),
    .region (reg0 m),
    .region (reg1 m),
    .region (reg2 m),
    .region (reg3 m),
    .host (hseg hostOps4 hostOps4_sub hostOps4_fresh (W5 m)),
    .region (reg4 m),
    .region (reg5 m),
    .region (reg6 m),
    .region (reg7 m),
    .host (hseg hostOps8 hostOps8_sub hostOps8_fresh (W10 m)),
    .region (reg8 m) ]

/-- @main IS the run of the segments. -/
theorem main_run (c : Dev nD) : main (F := F) c = Pipeline.Seg.run (allSegs m) := (main_chain c).trans (by chain_rfl)

variable (ρ : Dev nD → PrngReg)

-- the launch theorem's implicit arguments are found by unifying its conclusion with this one, which takes unfolding
-- plain definitions in a metavariable's type
set_option backward.isDefEq.respectTransparency.types false in
/-- THE RUN. At the compiled mesh, from any memory with zero counters, every weakly fair execution of @main on the TensorCores
    terminates, nothing faulting, and every final state holds every unscoped buffer at the last boundary's contents `W12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) admH (pdats m) () cellOf_inj emb₁ defs₀ 𝒱H LH lvH m ρ main (allSegs m)
    (fun c Q => by rw [main_run m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c))
    (Tₙ := fun c => iprop(StableHlo.held (c : Thread nD τ) (Pipeline.ucRefs τ sig) (W12 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W12 m c) ∗ RH c) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- THE FRAME: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_arg0 (by decide))).trans (W12_main_arg0 m c),
    (h c _ (mem_uc main_arg1 (by decide))).trans (W12_main_arg1 m c),
    (h c _ (mem_uc main_arg2 (by decide))).trans (W12_main_arg2 m c),
    (h c _ (mem_uc main_arg3 (by decide))).trans (W12_main_arg3 m c),
    (h c _ (mem_uc main_arg4 (by decide))).trans (W12_main_arg4 m c),
    (h c _ (mem_uc main_arg5 (by decide))).trans (W12_main_arg5 m c)⟩) (run_all m ρ)

end Cert.KernelIdeal.Hand

end
-- ==== Proof.Spec.lean ====
/-
  The specification of the two-layer graph diffusion network, index by index, over the extended reals.

  The arguments: node features `x[b, n, f]` (2 × 8192 × 128), a dense diffusion operator `adj[b, n, j]` (2 × 8192 × 8192),
  the input projection `W0[h, f]` (64 × 128) with bias `b0[h]`, and per layer a square map `Ws[l, g, h]` (2 × 64 × 64)
  with bias `bs[l, g]`.

    h      = x · W0ᵀ + b0                                   (`lin`)
    d₀     = adj · (adj · (adj · (adj · h)))                (`diffuse`, four times: `diffuse4`)
    h'     = max (d₀ · Ws[0]ᵀ + bs[0]) 0                    (`postLin` at layer 0, then `relu`)
    d₁     = adj · (adj · (adj · (adj · h')))
    result = (d₁ · Ws[1]ᵀ + bs[1]) + d₁                     (`postLin` at layer 1, plus the diffusion it was computed from)

  Every array is a function of its index; every sum is the finite sum of the extended reals (a commutative monoid, so a
  sum may be re-associated and re-ordered freely; no finiteness of the entries is used anywhere). Each stage comes with
  its value at an index given by coordinates (`…_apply`, by definition).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## The shapes -/

/-- Node features `x[b, n, f]`. -/
abbrev SX : Shape := ⟨3, ![2, 8192, 128]⟩
/-- The diffusion operator `adj[b, n, j]`. -/
abbrev SAdj : Shape := ⟨3, ![2, 8192, 8192]⟩
/-- The input projection `W0[h, f]`. -/
abbrev SW0 : Shape := ⟨2, ![64, 128]⟩
/-- The input bias `b0[h]`. -/
abbrev SB0 : Shape := ⟨1, ![64]⟩
/-- The per-layer maps `Ws[l, g, h]`. -/
abbrev SWs : Shape := ⟨3, ![2, 64, 64]⟩
/-- The per-layer biases `bs[l, g]`. -/
abbrev SBs : Shape := ⟨2, ![2, 64]⟩
/-- Hidden states and the result, `[b, n, h]`. -/
abbrev SH : Shape := ⟨3, ![2, 8192, 64]⟩

/-! ## The stages -/

/-- The input projection: `lin[b, n, h] = (∑ f, x[b, n, f] · W0[h, f]) + b0[h]`. -/
def lin (x : SX.Idx → EReal) (W0 : SW0.Idx → EReal) (b0 : SB0.Idx → EReal) : SH.Idx → EReal := fun i =>
  (∑ f : Fin 128, x (ix3 (i 0 : Fin 2) (i 1 : Fin 8192) f) * W0 (ix2 (i 2 : Fin 64) f)) + b0 (ix1 (i 2 : Fin 64))

/-- One diffusion step, a batched matrix product: `diffuse[b, n, h] = ∑ j, adj[b, n, j] · d[b, j, h]`. -/
def diffuse (adj : SAdj.Idx → EReal) (d : SH.Idx → EReal) : SH.Idx → EReal := fun i =>
  ∑ j : Fin 8192, adj (ix3 (i 0 : Fin 2) (i 1 : Fin 8192) j) * d (ix3 (i 0 : Fin 2) j (i 2 : Fin 64))

/-- Four diffusion steps. -/
def diffuse4 (adj : SAdj.Idx → EReal) (d : SH.Idx → EReal) : SH.Idx → EReal :=
  diffuse adj (diffuse adj (diffuse adj (diffuse adj d)))

/-- The layer's map after diffusion: `postLin[b, n, g] = (∑ h, d[b, n, h] · Ws[l, g, h]) + bs[l, g]`. -/
def postLin (d : SH.Idx → EReal) (Ws : SWs.Idx → EReal) (bs : SBs.Idx → EReal) (layer : Fin 2) : SH.Idx → EReal := fun i =>
  (∑ h : Fin 64, d (ix3 (i 0 : Fin 2) (i 1 : Fin 8192) h) * Ws (ix3 layer (i 2 : Fin 64) h)) + bs (ix2 layer (i 2 : Fin 64))

/-- The rectifier: the pointwise maximum with the extended real the all-zero binary32 word denotes, which is `0`
    (`relu_apply_zero`). -/
def relu (y : SH.Idx → EReal) : SH.Idx → EReal := fun i =>
  max (y i) (Ideal.ofBits .f32 0x00000000#32)

/-- The hidden state after layer 0: the rectified map of the four-fold diffusion of the input projection. -/
def hidden (x : SX.Idx → EReal) (adj : SAdj.Idx → EReal) (W0 : SW0.Idx → EReal) (b0 : SB0.Idx → EReal)
    (Ws : SWs.Idx → EReal) (bs : SBs.Idx → EReal) : SH.Idx → EReal :=
  relu (postLin (diffuse4 adj (lin x W0 b0)) Ws bs 0)

/-- The last layer's diffusion: the four-fold diffusion of the hidden state. -/
def lastDiffusion (x : SX.Idx → EReal) (adj : SAdj.Idx → EReal) (W0 : SW0.Idx → EReal) (b0 : SB0.Idx → EReal)
    (Ws : SWs.Idx → EReal) (bs : SBs.Idx → EReal) : SH.Idx → EReal :=
  diffuse4 adj (hidden x adj W0 b0 Ws bs)

/-- The network's result: the last layer's map of its diffusion, plus that diffusion (the residual), in this order:
    `(product + bias) + diffusion`. -/
def G (x : SX.Idx → EReal) (adj : SAdj.Idx → EReal) (W0 : SW0.Idx → EReal) (b0 : SB0.Idx → EReal)
    (Ws : SWs.Idx → EReal) (bs : SBs.Idx → EReal) : SH.Idx → EReal := fun i =>
  postLin (lastDiffusion x adj W0 b0 Ws bs) Ws bs 1 i + lastDiffusion x adj W0 b0 Ws bs i

/-! ## The stages at an index given by its coordinates -/

theorem lin_apply (x : SX.Idx → EReal) (W0 : SW0.Idx → EReal) (b0 : SB0.Idx → EReal) (b : Fin 2) (n : Fin 8192) (h : Fin 64) :
    lin x W0 b0 (ix3 b n h) = (∑ f : Fin 128, x (ix3 b n f) * W0 (ix2 h f)) + b0 (ix1 h) := rfl

theorem diffuse_apply (adj : SAdj.Idx → EReal) (d : SH.Idx → EReal) (b : Fin 2) (n : Fin 8192) (h : Fin 64) :
    diffuse adj d (ix3 b n h) = ∑ j : Fin 8192, adj (ix3 b n j) * d (ix3 b j h) := rfl

theorem postLin_apply (d : SH.Idx → EReal) (Ws : SWs.Idx → EReal) (bs : SBs.Idx → EReal) (layer : Fin 2)
    (b : Fin 2) (n : Fin 8192) (g : Fin 64) :
    postLin d Ws bs layer (ix3 b n g) = (∑ h : Fin 64, d (ix3 b n h) * Ws (ix3 layer g h)) + bs (ix2 layer g) := rfl

theorem relu_apply (y : SH.Idx → EReal) (i : SH.Idx) :
    relu y i = max (y i) (Ideal.ofBits .f32 0x00000000#32) := rfl

/-- The rectifier is the maximum with zero. -/
theorem relu_apply_zero (y : SH.Idx → EReal) (i : SH.Idx) : relu y i = max (y i) 0 := by
  rw [relu_apply, Ideal.ofBits_zero_f32]

theorem G_apply (x : SX.Idx → EReal) (adj : SAdj.Idx → EReal) (W0 : SW0.Idx → EReal) (b0 : SB0.Idx → EReal)
    (Ws : SWs.Idx → EReal) (bs : SBs.Idx → EReal) (i : SH.Idx) :
    G x adj W0 b0 Ws bs i
      = postLin (lastDiffusion x adj W0 b0 Ws bs) Ws bs 1 i + lastDiffusion x adj W0 b0 Ws bs i := rfl

end Cert.Spec

end
-- ==== Proof.HandKI.ValDots.lean ====
/-
  The kernel's four matrix products, read at a position of the result.

  Each is a plain product of two matrices with one contracted axis, formed on a zero accumulator: at `[n, h]` it is the
  sum, over the contracted position `k`, of the left operand at `[n, k]` times the right operand at `[k, h]` — or at
  `[h, k]` where the right operand is used transposed. The contraction's index set has a single axis; summing over it
  is summing over that axis' positions.

  * the input projection: 1024 × 128 by (64 × 128)ᵀ;
  * a diffusion step on 128 columns of the operator: 8192 × 128 by 128 × 64;
  * a diffusion step on 512 columns: 8192 × 512 by 512 × 64;
  * a layer's map: 8192 × 64 by (64 × 64)ᵀ.
-/
import proofs.«169539_j48112223650339_2_alg».proof.Proof.Gen.KernelIdeal.Skeleton
import Idealize.ShloMosaic.PureOps.Ideal.Laws
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.ValueIdx

/-! ## The input projection: 1024 × 128 by (64 × 128)ᵀ -/

/-- The left operand's position: row `n` of the result, contracted position `k`. -/
theorem dotLin_lhsIdx (n : Fin 1024) (h : Fin 64) (k : Fin 128) :
    dot_S1024x128_S64x128_S1024x64_1_1_0_0_n_n.lhsIdx (ix2 n h)
        ((contrEquiv1 dot_S1024x128_S64x128_S1024x64_1_1_0_0_n_n 128 rfl rfl).symm k) = ix2 n k :=
  funext fun a => Fin.ext (by
    match a with
    | ⟨0, _⟩ => rfl
    | ⟨1, _⟩ =>
      exact (dot_S1024x128_S64x128_S1024x64_1_1_0_0_n_n.lhsIdx_val_of_single rfl _ _).trans
        (contrEquiv1_symm_val dot_S1024x128_S64x128_S1024x64_1_1_0_0_n_n 128 rfl rfl k))

/-- The right operand's position: column `h` of the result, contracted position `k`. -/
theorem dotLin_rhsIdx (n : Fin 1024) (h : Fin 64) (k : Fin 128) :
    dot_S1024x128_S64x128_S1024x64_1_1_0_0_n_n.rhsIdx (ix2 n h)
        ((contrEquiv1 dot_S1024x128_S64x128_S1024x64_1_1_0_0_n_n 128 rfl rfl).symm k) = ix2 h k :=
  funext fun a => Fin.ext (by
    match a with
    | ⟨0, _⟩ => rfl
    | ⟨1, _⟩ =>
      exact (dot_S1024x128_S64x128_S1024x64_1_1_0_0_n_n.rhsIdx_val_of_single rfl _ _).trans
        (contrEquiv1_symm_val dot_S1024x128_S64x128_S1024x64_1_1_0_0_n_n 128 rfl rfl k))

/-- The product formed on a zero accumulator, at `[n, h]`: the sum over the 128 contracted positions. -/
theorem dotLin_zero_apply {φ₁ φ₂ : FTy} (l : FVec Ideal S1024x128 φ₁) (r : FVec Ideal S64x128 φ₂) (n : Fin 1024) (h : Fin 64) :
    matmul dot_S1024x128_S64x128_S1024x64_1_1_0_0_n_n none l r (constant S1024x64 .f32 0x00000000#32) (ix2 n h)
      = ∑ k : Fin 128, l (ix2 n k) * r (ix2 h k) := by
  simp only [matmul]
  rw [Ideal.matmul_constant_zero_apply,
    ← Equiv.sum_comp (contrEquiv1 dot_S1024x128_S64x128_S1024x64_1_1_0_0_n_n 128 rfl rfl).symm]
  refine Finset.sum_congr rfl fun k _ => ?_
  rw [dotLin_lhsIdx, dotLin_rhsIdx]

/-! ## A diffusion step on 128 columns: 8192 × 128 by 128 × 64 -/

/-- The left operand's position: row `n` of the result, contracted position `k`. -/
theorem dotCast_lhsIdx (n : Fin 8192) (h : Fin 64) (k : Fin 128) :
    dot_S8192x128_S128x64_S8192x64_1_0_0_1_n_n.lhsIdx (ix2 n h)
        ((contrEquiv1 dot_S8192x128_S128x64_S8192x64_1_0_0_1_n_n 128 rfl rfl).symm k) = ix2 n k :=
  funext fun a => Fin.ext (by
    match a with
    | ⟨0, _⟩ => rfl
    | ⟨1, _⟩ =>
      exact (dot_S8192x128_S128x64_S8192x64_1_0_0_1_n_n.lhsIdx_val_of_single rfl _ _).trans
        (contrEquiv1_symm_val dot_S8192x128_S128x64_S8192x64_1_0_0_1_n_n 128 rfl rfl k))

/-- The right operand's position: column `h` of the result, contracted position `k`. -/
theorem dotCast_rhsIdx (n : Fin 8192) (h : Fin 64) (k : Fin 128) :
    dot_S8192x128_S128x64_S8192x64_1_0_0_1_n_n.rhsIdx (ix2 n h)
        ((contrEquiv1 dot_S8192x128_S128x64_S8192x64_1_0_0_1_n_n 128 rfl rfl).symm k) = ix2 k h :=
  funext fun a => Fin.ext (by
    match a with
    | ⟨0, _⟩ =>
      exact (dot_S8192x128_S128x64_S8192x64_1_0_0_1_n_n.rhsIdx_val_of_single rfl _ _).trans
        (contrEquiv1_symm_val dot_S8192x128_S128x64_S8192x64_1_0_0_1_n_n 128 rfl rfl k)
    | ⟨1, _⟩ => rfl)

/-- The product formed on a zero accumulator, at `[n, h]`: the sum over the 128 contracted positions. -/
theorem dotCast_zero_apply {φ₁ φ₂ : FTy} (l : FVec Ideal S8192x128 φ₁) (r : FVec Ideal S128x64 φ₂) (n : Fin 8192) (h : Fin 64) :
    matmul dot_S8192x128_S128x64_S8192x64_1_0_0_1_n_n none l r (constant S8192x64 .f32 0x00000000#32) (ix2 n h)
      = ∑ k : Fin 128, l (ix2 n k) * r (ix2 k h) := by
  simp only [matmul]
  rw [Ideal.matmul_constant_zero_apply,
    ← Equiv.sum_comp (contrEquiv1 dot_S8192x128_S128x64_S8192x64_1_0_0_1_n_n 128 rfl rfl).symm]
  refine Finset.sum_congr rfl fun k _ => ?_
  rw [dotCast_lhsIdx, dotCast_rhsIdx]

/-! ## A diffusion step on 512 columns: 8192 × 512 by 512 × 64 -/

/-- The left operand's position: row `n` of the result, contracted position `k`. -/
theorem dotStep_lhsIdx (n : Fin 8192) (h : Fin 64) (k : Fin 512) :
    dot_S8192x512_S512x64_S8192x64_1_0_0_1_n_n.lhsIdx (ix2 n h)
        ((contrEquiv1 dot_S8192x512_S512x64_S8192x64_1_0_0_1_n_n 512 rfl rfl).symm k) = ix2 n k :=
  funext fun a => Fin.ext (by
    match a with
    | ⟨0, _⟩ => rfl
    | ⟨1, _⟩ =>
      exact (dot_S8192x512_S512x64_S8192x64_1_0_0_1_n_n.lhsIdx_val_of_single rfl _ _).trans
        (contrEquiv1_symm_val dot_S8192x512_S512x64_S8192x64_1_0_0_1_n_n 512 rfl rfl k))

/-- The right operand's position: column `h` of the result, contracted position `k`. -/
theorem dotStep_rhsIdx (n : Fin 8192) (h : Fin 64) (k : Fin 512) :
    dot_S8192x512_S512x64_S8192x64_1_0_0_1_n_n.rhsIdx (ix2 n h)
        ((contrEquiv1 dot_S8192x512_S512x64_S8192x64_1_0_0_1_n_n 512 rfl rfl).symm k) = ix2 k h :=
  funext fun a => Fin.ext (by
    match a with
    | ⟨0, _⟩ =>
      exact (dot_S8192x512_S512x64_S8192x64_1_0_0_1_n_n.rhsIdx_val_of_single rfl _ _).trans
        (contrEquiv1_symm_val dot_S8192x512_S512x64_S8192x64_1_0_0_1_n_n 512 rfl rfl k)
    | ⟨1, _⟩ => rfl)

/-- The product formed on a zero accumulator, at `[n, h]`: the sum over the 512 contracted positions. -/
theorem dotStep_zero_apply {φ₁ φ₂ : FTy} (l : FVec Ideal S8192x512 φ₁) (r : FVec Ideal S512x64 φ₂) (n : Fin 8192) (h : Fin 64) :
    matmul dot_S8192x512_S512x64_S8192x64_1_0_0_1_n_n none l r (constant S8192x64 .f32 0x00000000#32) (ix2 n h)
      = ∑ k : Fin 512, l (ix2 n k) * r (ix2 k h) := by
  simp only [matmul]
  rw [Ideal.matmul_constant_zero_apply,
    ← Equiv.sum_comp (contrEquiv1 dot_S8192x512_S512x64_S8192x64_1_0_0_1_n_n 512 rfl rfl).symm]
  refine Finset.sum_congr rfl fun k _ => ?_
  rw [dotStep_lhsIdx, dotStep_rhsIdx]

/-! ## A layer's map: 8192 × 64 by (64 × 64)ᵀ -/

/-- The left operand's position: row `n` of the result, contracted position `k`. -/
theorem dotPost_lhsIdx (n : Fin 8192) (h : Fin 64) (k : Fin 64) :
    dot_S8192x64_S64x64_S8192x64_1_1_0_0_n_n.lhsIdx (ix2 n h)
        ((contrEquiv1 dot_S8192x64_S64x64_S8192x64_1_1_0_0_n_n 64 rfl rfl).symm k) = ix2 n k :=
  funext fun a => Fin.ext (by
    match a with
    | ⟨0, _⟩ => rfl
    | ⟨1, _⟩ =>
      exact (dot_S8192x64_S64x64_S8192x64_1_1_0_0_n_n.lhsIdx_val_of_single rfl _ _).trans
        (contrEquiv1_symm_val dot_S8192x64_S64x64_S8192x64_1_1_0_0_n_n 64 rfl rfl k))

/-- The right operand's position: column `h` of the result, contracted position `k`. -/
theorem dotPost_rhsIdx (n : Fin 8192) (h : Fin 64) (k : Fin 64) :
    dot_S8192x64_S64x64_S8192x64_1_1_0_0_n_n.rhsIdx (ix2 n h)
        ((contrEquiv1 dot_S8192x64_S64x64_S8192x64_1_1_0_0_n_n 64 rfl rfl).symm k) = ix2 h k :=
  funext fun a => Fin.ext (by
    match a with
    | ⟨0, _⟩ => rfl
    | ⟨1, _⟩ =>
      exact (dot_S8192x64_S64x64_S8192x64_1_1_0_0_n_n.rhsIdx_val_of_single rfl _ _).trans
        (contrEquiv1_symm_val dot_S8192x64_S64x64_S8192x64_1_1_0_0_n_n 64 rfl rfl k))

/-- The product formed on a zero accumulator, at `[n, h]`: the sum over the 64 contracted positions. -/
theorem dotPost_zero_apply {φ₁ φ₂ : FTy} (l : FVec Ideal S8192x64 φ₁) (r : FVec Ideal S64x64 φ₂) (n : Fin 8192) (h : Fin 64) :
    matmul dot_S8192x64_S64x64_S8192x64_1_1_0_0_n_n none l r (constant S8192x64 .f32 0x00000000#32) (ix2 n h)
      = ∑ k : Fin 64, l (ix2 n k) * r (ix2 h k) := by
  simp only [matmul]
  rw [Ideal.matmul_constant_zero_apply,
    ← Equiv.sum_comp (contrEquiv1 dot_S8192x64_S64x64_S8192x64_1_1_0_0_n_n 64 rfl rfl).symm]
  refine Finset.sum_congr rfl fun k _ => ?_
  rw [dotPost_lhsIdx, dotPost_rhsIdx]

end Cert.KernelIdeal.Hand

end
-- ==== Proof.HandKI.Val0Pay.lean ====
/-
  The input projection, kernel region 0, over the extended reals: the stored block at a position.

  A block of 1024 nodes: at `[0, n, h]` the stored value is the product of the features' block with the projection,
  formed on a fresh zero — `0 + ∑ f, x[0, n, f] · W0[h, f]` over the 128 features — plus the bias `b0[0, h]`, one row
  broadcast over the nodes. Casts between float formats are the identity on the extended reals; dropping or adding a
  leading axis of extent one does not move an element.
-/
import proofs.«169539_j48112223650339_2_alg».proof.Proof.HandKI.ValDots
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.ValueIdx

/-- The stored block at `[0, n, h]`. -/
theorem k0_pay1_apply (v0 : Vec Ideal S1x1024x128 .f32) (v3 : Vec Ideal S64x128 .f32) (v6 : Vec Ideal S1x64 .f32)
    (n : Fin 1024) (h : Fin 64) :
    k0_pay1 (F := Ideal) v0 v3 v6 (ix3 (0 : Fin 1) n h)
      = (0 + ∑ f : Fin 128, v0 (ix3 (0 : Fin 1) n f) * v3 (ix2 h f)) + v6 (ix2 (0 : Fin 1) h) := by
  unfold k0_pay1
  rw [shapeCast_ab_1ab_apply, addf_apply, dotLin_zero_apply, shapeCast_self, broadcastTo_1b_ab_apply, zero_add]
  refine congrArg (· + v6 (ix2 (0 : Fin 1) h)) ?_
  refine Finset.sum_congr rfl fun f _ => ?_
  rw [truncf_apply, truncf_apply, shapeCast_1ab_ab_apply]

/-- The same with the fresh zero dropped: the input projection's own spelling. -/
theorem k0_pay1_apply' (v0 : Vec Ideal S1x1024x128 .f32) (v3 : Vec Ideal S64x128 .f32) (v6 : Vec Ideal S1x64 .f32)
    (n : Fin 1024) (h : Fin 64) :
    k0_pay1 (F := Ideal) v0 v3 v6 (ix3 (0 : Fin 1) n h)
      = (∑ f : Fin 128, v0 (ix3 (0 : Fin 1) n f) * v3 (ix2 h f)) + v6 (ix2 (0 : Fin 1) h) := by
  rw [k0_pay1_apply, zero_add]

end Cert.KernelIdeal.Hand

end
-- ==== Proof.HandKI.Val0Final.lean ====
/-
  The input projection, kernel region 0, over the extended reals: what the region leaves in its output array.

  Point t of the grid is batch element b = t / 8 and row block r = t mod 8, 1024 nodes each. The features' block at t is
  rows 1024 r .. 1024 r + 1023 of batch b: its element [0, n, f] is the array's [b, 1024 r + n, f]. The projection and the
  bias are one block each, at every point the whole array. (On every axis a block's element sits at block index times
  block size plus its own coordinate.) The output block is written back at every point and holds, at [0, n, h], the
  projection of node 1024 r + n of batch b: the sum over the 128 features of x[b, 1024 r + n, f] · W0[h, f], plus the
  bias at [0, h]. The sixteen blocks tile the output array, so it ends holding the input projection of the three arrays as
  the region found them.
-/
import proofs.«169539_j48112223650339_2_alg».proof.Proof.HandKI.Dat0
import proofs.«169539_j48112223650339_2_alg».proof.Proof.HandKI.Val0Pay
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The blocks at coordinates of the whole arrays -/

/-- The features window's block index at point t: (t / 8, t mod 8, 0). -/
theorem idx0_0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

/-- The projection window's block index at every point: (0, 0). -/
theorem idx0_1 : ∀ t : Fin cfg0.N, win0_1.index t 0 = 0 ∧ win0_1.index t 1 = 0 :=
  (by decide +kernel : ∀ t : Fin grid0.N, win0_1.index t 0 = 0 ∧ win0_1.index t 1 = 0)

/-- The bias window's block index at every point: (0, 0). -/
theorem idx0_2 : ∀ t : Fin cfg0.N, win0_2.index t 0 = 0 ∧ win0_2.index t 1 = 0 :=
  (by decide +kernel : ∀ t : Fin grid0.N, win0_2.index t 0 = 0 ∧ win0_2.index t 1 = 0)

/-- The output window's block index at point t: (t / 8, t mod 8, 0). -/
theorem idx0_3 : ∀ t : Fin cfg0.N, win0_3.index t 0 = t.val / 8 ∧ win0_3.index t 1 = t.val % 8 ∧ win0_3.index t 2 = 0 :=
  (by decide +kernel : ∀ t : Fin grid0.N, win0_3.index t 0 = t.val / 8 ∧ win0_3.index t 1 = t.val % 8 ∧ win0_3.index t 2 = 0)

/-- The features' block at point t, element [0, n, f], is the array's element [b, q, f] with b = t / 8 and
    q = 1024 (t mod 8) + n. -/
theorem iblk0_0_at (c : Dev nD) (t : Fin cfg0.N) (n : Fin 1024) (f : Fin 128) (b : Fin 2) (q : Fin 8192)
    (hb : b.val = t.val / 8) (hq : q.val = 1024 * (t.val % 8) + n.val) :
    iblk0 V c 0 t (ix3 (0 : Fin 1) n f) = V c (Pipeline.arrRef spec0 0) (ix3 b q f) := by
  obtain ⟨e0, e1, e2⟩ := idx0_0 t
  unfold iblk0
  rw [View.read_apply]
  show V c (Pipeline.arrRef spec0 0) _ = V c (Pipeline.arrRef spec0 0) _
  congr 1
  funext a
  apply Fin.ext
  match a with
  | ⟨0, _⟩ => show win0_0.index t 0 * 1 + 1 * 0 = b.val; omega
  | ⟨1, _⟩ => show win0_0.index t 1 * 1024 + 1 * n.val = q.val; omega
  | ⟨2, _⟩ => show win0_0.index t 2 * 128 + 1 * f.val = f.val; omega

/-- The projection's block at any point is the whole array. -/
theorem iblk0_1_at (c : Dev nD) (t : Fin cfg0.N) (h : Fin 64) (f : Fin 128) :
    iblk0 V c 1 t (ix2 h f) = V c (Pipeline.arrRef spec0 1) (ix2 h f) := by
  obtain ⟨e0, e1⟩ := idx0_1 t
  unfold iblk0
  rw [View.read_apply]
  show V c (Pipeline.arrRef spec0 1) _ = V c (Pipeline.arrRef spec0 1) _
  congr 1
  funext a
  apply Fin.ext
  match a with
  | ⟨0, _⟩ => show win0_1.index t 0 * 64 + 1 * h.val = h.val; omega
  | ⟨1, _⟩ => show win0_1.index t 1 * 128 + 1 * f.val = f.val; omega

/-- The bias' block at any point is the whole array. -/
theorem iblk0_2_at (c : Dev nD) (t : Fin cfg0.N) (h : Fin 64) :
    iblk0 V c 2 t (ix2 (0 : Fin 1) h) = V c (Pipeline.arrRef spec0 2) (ix2 (0 : Fin 1) h) := by
  obtain ⟨e0, e1⟩ := idx0_2 t
  unfold iblk0
  rw [View.read_apply]
  show V c (Pipeline.arrRef spec0 2) _ = V c (Pipeline.arrRef spec0 2) _
  congr 1
  funext a
  apply Fin.ext
  match a with
  | ⟨0, _⟩ => show win0_2.index t 0 * 1 + 1 * 0 = 0; omega
  | ⟨1, _⟩ => show win0_2.index t 1 * 64 + 1 * h.val = h.val; omega

/-! ## The output array -/

/-- The features array as the region finds it, as a function of its index. -/
abbrev feat0 (c : Dev nD) : S2x8192x128.Idx → EReal := V c (Pipeline.arrRef spec0 0)
/-- The projection array as the region finds it. -/
abbrev proj0 (c : Dev nD) : S64x128.Idx → EReal := V c (Pipeline.arrRef spec0 1)
/-- The bias array (one row) as the region finds it. -/
abbrev bias0 (c : Dev nD) : S1x64.Idx → EReal := V c (Pipeline.arrRef spec0 2)

/-- The input projection of the three arrays as the region finds them: at [b, n, h] the sum over the features of
    x[b, n, f] · W0[h, f], plus the bias at [0, h]. -/
def lin0 (c : Dev nD) : S2x8192x64.Idx → EReal := fun i =>
  (∑ f : Fin 128, feat0 V c (ix3 (i 0 : Fin 2) (i 1 : Fin 8192) f) * proj0 V c (ix2 (i 2 : Fin 64) f))
    + bias0 V c (ix2 (0 : Fin 1) (i 2 : Fin 64))

theorem lin0_apply (c : Dev nD) (b : Fin 2) (q : Fin 8192) (h : Fin 64) :
    lin0 V c (ix3 b q h)
      = (∑ f : Fin 128, feat0 V c (ix3 b q f) * proj0 V c (ix2 h f)) + bias0 V c (ix2 (0 : Fin 1) h) := rfl

/-- What a point writes back is its block of the input projection. -/
theorem flushed0_eq (c : Dev nD) (t : Fin cfg0.N) :
    (dat0 V c).flushed 3 t = ((cfg0.win 3).blk t).view.read (Elt Ideal) (lin0 V c) := by
  have hlt : t.val < 16 := Nat.lt_of_lt_of_eq t.isLt N_0
  obtain ⟨b, hb⟩ : ∃ b : Fin 2, b.val = t.val / 8 := ⟨⟨t.val / 8, by omega⟩, rfl⟩
  obtain ⟨e0, e1, e2⟩ := idx0_3 t
  show (cfg0.win 3).cut (grid0.coords t) ((dat0 V c).after 3 t) = _
  rw [after0_3]
  refine funext fun (y : S1x1024x64.Idx) => ?_
  obtain ⟨u, n, h, rfl⟩ : ∃ (u : Fin 1) (n : Fin 1024) (h : Fin 64), y = ix3 u n h := ⟨y 0, y 1, y 2, eq_ix3 y⟩
  obtain rfl : u = 0 := Subsingleton.elim _ _
  obtain ⟨q, hq⟩ : ∃ q : Fin 8192, q.val = 1024 * (t.val % 8) + n.val := ⟨⟨1024 * (t.val % 8) + n.val, by omega⟩, rfl⟩
  show k0_pay1 (F := Ideal) (iblk0 V c 0 t) (iblk0 V c 1 t) (iblk0 V c 2 t) (ix3 (0 : Fin 1) n h)
    = lin0 V c (((cfg0.win 3).blk t).view.emb (ix3 (0 : Fin 1) n h))
  have hemb : ((cfg0.win 3).blk t).view.emb (ix3 (0 : Fin 1) n h) = (ix3 b q h : S2x8192x64.Idx) := by
    funext a
    apply Fin.ext
    match a with
    | ⟨0, _⟩ => show win0_3.index t 0 * 1 + 1 * 0 = b.val; omega
    | ⟨1, _⟩ => show win0_3.index t 1 * 1024 + 1 * n.val = q.val; omega
    | ⟨2, _⟩ => show win0_3.index t 2 * 64 + 1 * h.val = h.val; omega
  refine Eq.trans ?_ (congrArg (lin0 V c) hemb).symm
  refine (k0_pay1_apply' _ _ _ n h).trans ?_
  rw [lin0_apply]
  exact congrArg₂ (· + ·)
    (Finset.sum_congr rfl fun f _ =>
      congrArg₂ (· * ·) (iblk0_0_at V c t n f b q hb hq) (iblk0_1_at V c t h f))
    (iblk0_2_at V c t h)

/-- An index of the output array is in point t's block iff each coordinate is in the block's range on its axis. -/
theorem mem_blk0 (t : Fin cfg0.N) (i : S2x8192x64.Idx) :
    i ∈ ((cfg0.win 3).blk t).view.set
      ↔ ∀ a : Fin 3, win0_3.index t a * S1x1024x64.size a ≤ (i a).val ∧ (i a).val < win0_3.index t a * S1x1024x64.size a + S1x1024x64.size a := by
  show i ∈ ((View.whole main_v1).slice (win0_3.rect t)).set ↔ _
  rw [View.set_slice_whole, Rect.mem_set_unit]
  exact Iff.rfl

/-- Every index [b, q, h] of the output array is in the block written back at point 8 b + q / 1024. -/
theorem cover0 (i : S2x8192x64.Idx) :
    ∃ t : Fin cfg0.N, (cfg0.win 3).flush t = true ∧ i ∈ ((cfg0.win 3).blk t).view.set := by
  have h0 : (i 0).val < 2 := (i 0).isLt
  have h1 : (i 1).val < 8192 := (i 1).isLt
  have h2 : (i 2).val < 64 := (i 2).isLt
  obtain ⟨t, ht⟩ : ∃ t : Fin cfg0.N, t.val = 8 * (i 0).val + (i 1).val / 1024 :=
    ⟨⟨8 * (i 0).val + (i 1).val / 1024, by show _ < grid0.N; rw [N_0]; omega⟩, rfl⟩
  obtain ⟨e0, e1, e2⟩ := idx0_3 t
  refine ⟨t, flush0_3 t, ?_⟩
  rw [mem_blk0]
  intro a
  match a with
  | ⟨0, _⟩ => show win0_3.index t 0 * 1 ≤ (i 0).val ∧ (i 0).val < win0_3.index t 0 * 1 + 1; omega
  | ⟨1, _⟩ => show win0_3.index t 1 * 1024 ≤ (i 1).val ∧ (i 1).val < win0_3.index t 1 * 1024 + 1024; omega
  | ⟨2, _⟩ => show win0_3.index t 2 * 64 ≤ (i 2).val ∧ (i 2).val < win0_3.index t 2 * 64 + 64; omega

/-- The output array after the region: the input projection of the features, the projection and the bias as the region
    found them. -/
theorem final0 (c : Dev nD) : (dat0 V c).arrAt 3 cfg0.N = lin0 V c :=
  (dat0 V c).arrAt_eq_of_cover 3 (lin0 V c) (fun t _ => flushed0_eq V c t) (fun i => cover0 i)

/-- The same with the projection written out. -/
theorem final0_apply (c : Dev nD) (i : S2x8192x64.Idx) :
    (dat0 V c).arrAt 3 cfg0.N i
      = (∑ f : Fin 128, feat0 V c (ix3 (i 0 : Fin 2) (i 1 : Fin 8192) f) * proj0 V c (ix2 (i 2 : Fin 64) f))
          + bias0 V c (ix2 (0 : Fin 1) (i 2 : Fin 64)) :=
  congrFun (final0 V c) i

/-- The features array is left as found. -/
theorem final0_in0 (c : Dev nD) : (dat0 V c).arrAt 0 cfg0.N = V c (Pipeline.arrRef spec0 0) :=
  ((dat0 V c).arrAt_in 0 rfl _).trans (A_eq0 V c 0)

/-- The projection array is left as found. -/
theorem final0_in1 (c : Dev nD) : (dat0 V c).arrAt 1 cfg0.N = V c (Pipeline.arrRef spec0 1) :=
  ((dat0 V c).arrAt_in 1 rfl _).trans (A_eq0 V c 1)

/-- The bias array is left as found. -/
theorem final0_in2 (c : Dev nD) : (dat0 V c).arrAt 2 cfg0.N = V c (Pipeline.arrRef spec0 2) :=
  ((dat0 V c).arrAt_in 2 rfl _).trans (A_eq0 V c 2)

end Cert.KernelIdeal.Hand

end
-- ==== Proof.HandKI.ValHost.lean ====
/-
  The three host stretches of the kernel's program, read at an index.

  Before its first region the program reshapes the input bias from 64 to 1 × 64. Before each layer's last region it
  takes the layer's slice of the per-layer maps (2 × 64 × 64 → 1 × 64 × 64) and drops the unit axis (→ 64 × 64), and
  takes the layer's slice of the per-layer biases (2 × 64 → 1 × 64), drops the unit axis (→ 64) and puts one back
  (→ 1 × 64). Each of these is a re-indexing of the argument: position `[0, h]` of the reshaped input bias is `b0[h]`,
  position `[g, h]` of layer `l`'s map is `Ws[l, g, h]`, position `[0, g]` of layer `l`'s bias is `bs[l, g]`.

  A slice reads its operand shifted by the slice's offsets; a reshape reads its operand at the same row-major position,
  and adding or dropping a leading unit axis leaves the row-major position unchanged.
-/
import proofs.«169539_j48112223650339_2_alg».proof.Proof.Gen.KernelIdeal.Launch
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx
open Idealize.SL.Sem

/-! ## The re-indexings, for arrays of any entries -/

section Layout
variable {α : Type}

/-- Layer 0's slice of the maps with its unit axis dropped: position `[g, h]` is `Ws[0, g, h]`. -/
theorem sliceWs0_apply (x : S2x64x64.Idx → α) (g h : Fin 64) :
    shapeCast S64x64 (extractStridedSlice S1x64x64 ![0, 0, 0] x slices_S2x64x64_S1x64x64_0_0_0) shapeCasts_S1x64x64_S64x64 (ix2 g h)
      = x (ix3 (0 : Fin 2) g h) :=
  (shapeCast_1ab_ab_apply _ shapeCasts_S1x64x64_S64x64 g h).trans
    (extractStridedSlice_apply ![0, 0, 0] x slices_S2x64x64_S1x64x64_0_0_0 (ix3 (0 : Fin 1) g h) (ix3 (0 : Fin 2) g h) (fun a => match a with
      | ⟨0, _⟩ => rfl
      | ⟨1, _⟩ => by show g.val = 0 + g.val; omega
      | ⟨2, _⟩ => by show h.val = 0 + h.val; omega))

/-- Layer 1's slice of the maps with its unit axis dropped: position `[g, h]` is `Ws[1, g, h]`. -/
theorem sliceWs1_apply (x : S2x64x64.Idx → α) (g h : Fin 64) :
    shapeCast S64x64 (extractStridedSlice S1x64x64 ![1, 0, 0] x slices_S2x64x64_S1x64x64_1_0_0) shapeCasts_S1x64x64_S64x64 (ix2 g h)
      = x (ix3 (1 : Fin 2) g h) :=
  (shapeCast_1ab_ab_apply _ shapeCasts_S1x64x64_S64x64 g h).trans
    (extractStridedSlice_apply ![1, 0, 0] x slices_S2x64x64_S1x64x64_1_0_0 (ix3 (0 : Fin 1) g h) (ix3 (1 : Fin 2) g h) (fun a => match a with
      | ⟨0, _⟩ => rfl
      | ⟨1, _⟩ => by show g.val = 0 + g.val; omega
      | ⟨2, _⟩ => by show h.val = 0 + h.val; omega))

/-- Layer 0's slice of the biases, its unit axis dropped and put back: position `[0, g]` is `bs[0, g]`. -/
theorem sliceBs0_apply (x : S2x64.Idx → α) (g : Fin 64) :
    shapeCast S1x64 (shapeCast S64 (extractStridedSlice S1x64 ![0, 0] x slices_S2x64_S1x64_0_0) shapeCasts_S1x64_S64) shapeCasts_S64_S1x64 (ix2 (0 : Fin 1) g)
      = x (ix2 (0 : Fin 2) g) :=
  (shapeCast_a_1a_apply _ shapeCasts_S64_S1x64 (0 : Fin 1) g).trans
    ((shapeCast_1a_a_apply _ shapeCasts_S1x64_S64 g).trans
      (extractStridedSlice_apply ![0, 0] x slices_S2x64_S1x64_0_0 (ix2 (0 : Fin 1) g) (ix2 (0 : Fin 2) g) (fun a => match a with
        | ⟨0, _⟩ => rfl
        | ⟨1, _⟩ => by show g.val = 0 + g.val; omega)))

/-- Layer 1's slice of the biases, its unit axis dropped and put back: position `[0, g]` is `bs[1, g]`. -/
theorem sliceBs1_apply (x : S2x64.Idx → α) (g : Fin 64) :
    shapeCast S1x64 (shapeCast S64 (extractStridedSlice S1x64 ![1, 0] x slices_S2x64_S1x64_1_0) shapeCasts_S1x64_S64) shapeCasts_S64_S1x64 (ix2 (0 : Fin 1) g)
      = x (ix2 (1 : Fin 2) g) :=
  (shapeCast_a_1a_apply _ shapeCasts_S64_S1x64 (0 : Fin 1) g).trans
    ((shapeCast_1a_a_apply _ shapeCasts_S1x64_S64 g).trans
      (extractStridedSlice_apply ![1, 0] x slices_S2x64_S1x64_1_0 (ix2 (0 : Fin 1) g) (ix2 (1 : Fin 2) g) (fun a => match a with
        | ⟨0, _⟩ => rfl
        | ⟨1, _⟩ => by show g.val = 0 + g.val; omega)))

end Layout

/-! ## The stretches, from any contents `V` of the buffers -/

/-- After the first stretch the reshaped input bias holds `b0[h]` at `[0, h]`. -/
theorem hostOps0_v0 (V : Valuation τ sig (Elt Ideal)) (h : Fin 64) :
    (StableHlo.after (hostOps0 (F := Ideal)) V (Proc.devRef .tc main_v0) : S1x64.Idx → EReal) (ix2 (0 : Fin 1) h)
      = (V (Proc.devRef .tc main_arg3) : S64.Idx → EReal) (ix1 h) := by
  have e : (StableHlo.after (hostOps0 (F := Ideal)) V (Proc.devRef .tc main_v0) : S1x64.Idx → EReal)
      = shapeCast S1x64 (V (Proc.devRef .tc main_arg3) : S64.Idx → EReal) shapeCasts_S64_S1x64 := by
    after_results; rfl
  rw [e]
  exact shapeCast_a_1a_apply _ shapeCasts_S64_S1x64 (0 : Fin 1) h

/-- After the second stretch layer 0's map holds `Ws[0, g, h]` at `[g, h]`. -/
theorem hostOps4_v6 (V : Valuation τ sig (Elt Ideal)) (g h : Fin 64) :
    (StableHlo.after (hostOps4 (F := Ideal)) V (Proc.devRef .tc main_v6) : S64x64.Idx → EReal) (ix2 g h)
      = (V (Proc.devRef .tc main_arg4) : S2x64x64.Idx → EReal) (ix3 (0 : Fin 2) g h) := by
  have e : (StableHlo.after (hostOps4 (F := Ideal)) V (Proc.devRef .tc main_v6) : S64x64.Idx → EReal)
      = shapeCast S64x64 (extractStridedSlice S1x64x64 ![0, 0, 0] (V (Proc.devRef .tc main_arg4) : S2x64x64.Idx → EReal) slices_S2x64x64_S1x64x64_0_0_0) shapeCasts_S1x64x64_S64x64 := by
    after_results; rfl
  rw [e]
  exact sliceWs0_apply _ g h

/-- After the second stretch layer 0's bias holds `bs[0, g]` at `[0, g]`. -/
theorem hostOps4_v9 (V : Valuation τ sig (Elt Ideal)) (g : Fin 64) :
    (StableHlo.after (hostOps4 (F := Ideal)) V (Proc.devRef .tc main_v9) : S1x64.Idx → EReal) (ix2 (0 : Fin 1) g)
      = (V (Proc.devRef .tc main_arg5) : S2x64.Idx → EReal) (ix2 (0 : Fin 2) g) := by
  have e : (StableHlo.after (hostOps4 (F := Ideal)) V (Proc.devRef .tc main_v9) : S1x64.Idx → EReal)
      = shapeCast S1x64 (shapeCast S64 (extractStridedSlice S1x64 ![0, 0] (V (Proc.devRef .tc main_arg5) : S2x64.Idx → EReal) slices_S2x64_S1x64_0_0) shapeCasts_S1x64_S64) shapeCasts_S64_S1x64 := by
    after_results; rfl
  rw [e]
  exact sliceBs0_apply _ g

/-- After the third stretch layer 1's map holds `Ws[1, g, h]` at `[g, h]`. -/
theorem hostOps8_v15 (V : Valuation τ sig (Elt Ideal)) (g h : Fin 64) :
    (StableHlo.after (hostOps8 (F := Ideal)) V (Proc.devRef .tc main_v15) : S64x64.Idx → EReal) (ix2 g h)
      = (V (Proc.devRef .tc main_arg4) : S2x64x64.Idx → EReal) (ix3 (1 : Fin 2) g h) := by
  have e : (StableHlo.after (hostOps8 (F := Ideal)) V (Proc.devRef .tc main_v15) : S64x64.Idx → EReal)
      = shapeCast S64x64 (extractStridedSlice S1x64x64 ![1, 0, 0] (V (Proc.devRef .tc main_arg4) : S2x64x64.Idx → EReal) slices_S2x64x64_S1x64x64_1_0_0) shapeCasts_S1x64x64_S64x64 := by
    after_results; rfl
  rw [e]
  exact sliceWs1_apply _ g h

/-- After the third stretch layer 1's bias holds `bs[1, g]` at `[0, g]`. -/
theorem hostOps8_v18 (V : Valuation τ sig (Elt Ideal)) (g : Fin 64) :
    (StableHlo.after (hostOps8 (F := Ideal)) V (Proc.devRef .tc main_v18) : S1x64.Idx → EReal) (ix2 (0 : Fin 1) g)
      = (V (Proc.devRef .tc main_arg5) : S2x64.Idx → EReal) (ix2 (1 : Fin 2) g) := by
  have e : (StableHlo.after (hostOps8 (F := Ideal)) V (Proc.devRef .tc main_v18) : S1x64.Idx → EReal)
      = shapeCast S1x64 (shapeCast S64 (extractStridedSlice S1x64 ![1, 0] (V (Proc.devRef .tc main_arg5) : S2x64.Idx → EReal) slices_S2x64_S1x64_1_0) shapeCasts_S1x64_S64) shapeCasts_S64_S1x64 := by
    after_results; rfl
  rw [e]
  exact sliceBs1_apply _ g

end Cert.KernelIdeal.Hand

end
-- ==== Proof.HandKI.ValueStage0.lean ====
/-
  The input projection in the run of the whole program: after the first host stretch and kernel region 0 the first
  hidden array holds the specification's input projection of the arguments.

  The region's output is the projection of its three input arrays as it finds them. Two of them are arguments, which no
  earlier segment writes; the third is the input bias reshaped by the host stretch from 64 to 1 × 64, whose position
  [0, h] is the bias at h.
-/
import proofs.«169539_j48112223650339_2_alg».proof.Proof.Spec
import proofs.«169539_j48112223650339_2_alg».proof.Proof.HandKI.Chain
import proofs.«169539_j48112223650339_2_alg».proof.Proof.HandKI.Val0Final
import proofs.«169539_j48112223650339_2_alg».proof.Proof.HandKI.ValHost

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec

variable (m : (ℓ : Loc nD τ sig) → Buf (Elt Ideal) ℓ)

/-- The six arguments as launched on core `c`, as functions of their indices. -/
abbrev argX (c : Dev nD) : SX.Idx → EReal := m ((c : Thread nD τ).loc main_arg0)
abbrev argA (c : Dev nD) : SAdj.Idx → EReal := m ((c : Thread nD τ).loc main_arg1)
abbrev argW0 (c : Dev nD) : SW0.Idx → EReal := m ((c : Thread nD τ).loc main_arg2)
abbrev argB0 (c : Dev nD) : SB0.Idx → EReal := m ((c : Thread nD τ).loc main_arg3)
abbrev argWs (c : Dev nD) : SWs.Idx → EReal := m ((c : Thread nD τ).loc main_arg4)
abbrev argBs (c : Dev nD) : SBs.Idx → EReal := m ((c : Thread nD τ).loc main_arg5)

/-- After region 0 the first hidden array is the input projection of the arguments. -/
theorem stage0 (c : Dev nD) :
    (W2 m c (Proc.devRef .tc main_v1) : SH.Idx → EReal) = lin (argX m c) (argW0 m c) (argB0 m c) := by
  refine ((W2_arr m c 3).trans (final0 (VV1 m) c)).trans ?_
  funext i
  obtain ⟨b, n, h, rfl⟩ : ∃ (b : Fin 2) (n : Fin 8192) (h : Fin 64), i = ix3 b n h := ⟨i 0, i 1, i 2, eq_ix3 i⟩
  rw [lin0_apply, lin_apply]
  have e0 : feat0 (VV1 m) c = argX m c := W1_main_arg0 m c
  have e1 : proj0 (VV1 m) c = argW0 m c := W1_main_arg2 m c
  have e2 : bias0 (VV1 m) c (ix2 (0 : Fin 1) h) = argB0 m c (ix1 h) := hostOps0_v0 (W0 m c) h
  rw [e0, e1, e2]

end Cert.KernelIdeal.Hand

end
-- ==== Proof.HandKI.Val1Pay.lean ====
/-
  The first diffusion step of the first layer, kernel region 1, over the extended reals: its stored values at a position.

  The region walks the operator's columns in 64 blocks of 128. Besides accumulating the product it writes the operator's
  block back in a narrower float format, which on the extended reals is the block itself.

  * The accumulator's reset value is zero everywhere.
  * The operator's block, narrowed, at `[n, j]` is the block at `[0, n, j]`; stored with its leading axis put back, at
    `[0, n, j]` it is the block at `[0, n, j]`.
  * One step of the accumulator at `[n, h]`: what it held plus the block product formed on a fresh zero,
    `0 + ∑ j, adj[0, n, j] · d[0, j, h]` over the block's 128 columns.
  * The value copied out at `[0, n, h]` is the accumulator at `[n, h]`.

  Casts between float formats are the identity on the extended reals; dropping or adding a leading axis of extent one
  does not move an element.
-/
import proofs.«169539_j48112223650339_2_alg».proof.Proof.HandKI.ValDots
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.ValueIdx

/-- The reset value of the accumulator is zero at every position. -/
theorem k1_pay1_apply (n : Fin 8192) (h : Fin 64) : k1_pay1 (F := Ideal) (ix2 n h) = 0 := by
  unfold k1_pay1
  rw [shapeCast_self, broadcast_apply]
  exact Ideal.ofBits_zero_f32

/-- The operator's block, narrowed: at `[n, j]` the block at `[0, n, j]`. -/
theorem k1_pay2_apply (x0 : Vec Ideal S1x8192x128 .f32) (n : Fin 8192) (j : Fin 128) :
    k1_pay2 (F := Ideal) x0 (ix2 n j) = x0 (ix3 (0 : Fin 1) n j) := by
  unfold k1_pay2
  rw [truncf_apply, shapeCast_1ab_ab_apply]

/-- The narrowed block as stored: at `[0, n, j]` the block at `[0, n, j]`. -/
theorem k1_pay3_apply (x0 : Vec Ideal S1x8192x128 .f32) (n : Fin 8192) (j : Fin 128) :
    k1_pay3 (F := Ideal) x0 (ix3 (0 : Fin 1) n j) = x0 (ix3 (0 : Fin 1) n j) := by
  unfold k1_pay3
  rw [shapeCast_ab_1ab_apply, k1_pay2_apply]

/-- One step of the accumulator at a position: what it held plus the block product formed on a fresh zero. -/
theorem k1_pay4_apply (x0 : Vec Ideal S1x8192x128 .f32) (x1 : Vec Ideal S1x128x64 .f32) (xs : Vec Ideal S8192x64 .f32)
    (n : Fin 8192) (h : Fin 64) :
    k1_pay4 (F := Ideal) x0 x1 xs (ix2 n h)
      = xs (ix2 n h) + (0 + ∑ j : Fin 128, x0 (ix3 (0 : Fin 1) n j) * x1 (ix3 (0 : Fin 1) j h)) := by
  unfold k1_pay4
  rw [shapeCast_self, addf_apply, dotCast_zero_apply, zero_add]
  refine congrArg (xs (ix2 n h) + ·) ?_
  refine Finset.sum_congr rfl fun j _ => ?_
  rw [k1_pay2_apply, truncf_apply, shapeCast_1ab_ab_apply]

/-- The value copied out at `[0, n, h]` is the accumulator at `[n, h]`. -/
theorem k1_pay5_apply (v : Vec Ideal S8192x64 .f32) (n : Fin 8192) (h : Fin 64) :
    k1_pay5 (F := Ideal) v (ix3 (0 : Fin 1) n h) = v (ix2 n h) := by
  unfold k1_pay5
  rw [shapeCast_ab_1ab_apply]

end Cert.KernelIdeal.Hand

end
-- ==== Proof.HandKI.Val1Blk.lean ====
/-
  The first diffusion step of the first layer, kernel region 1: the blocks the body reads and writes, at coordinates of
  the whole arrays.

  Point t of the grid is batch element b = t / 64 and column block k = t mod 64, 128 columns each. The operator's block
  at t is rows 0 .. 8191 and columns 128 k .. 128 k + 127 of batch b: its element [0, n, j] is the array's
  [b, n, 128 k + j]; the narrowed copy's block at t is placed the same way. The state's block at t is rows
  128 k .. 128 k + 127 of batch b: its element [0, j, h] is the array's [b, 128 k + j, h]. The output block of batch b
  is rows [b, *, *]. (On every axis a block's element sits at block index times block size plus its own coordinate.)
-/
import proofs.«169539_j48112223650339_2_alg».proof.Proof.Gen.KernelIdeal.Launch
import proofs.«169539_j48112223650339_2_alg».proof.Proof.Gen.KernelIdeal.Points
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The operator window's block index at point t: (t / 64, 0, t mod 64). -/
theorem idx1_0 : ∀ t : Fin cfg1.N, win1_0.index t 0 = t.val / 64 ∧ win1_0.index t 1 = 0 ∧ win1_0.index t 2 = t.val % 64 :=
  (by decide +kernel : ∀ t : Fin grid1.N, win1_0.index t 0 = t.val / 64 ∧ win1_0.index t 1 = 0 ∧ win1_0.index t 2 = t.val % 64)

/-- The state window's block index at point t: (t / 64, t mod 64, 0). -/
theorem idx1_1 : ∀ t : Fin cfg1.N, win1_1.index t 0 = t.val / 64 ∧ win1_1.index t 1 = t.val % 64 ∧ win1_1.index t 2 = 0 :=
  (by decide +kernel : ∀ t : Fin grid1.N, win1_1.index t 0 = t.val / 64 ∧ win1_1.index t 1 = t.val % 64 ∧ win1_1.index t 2 = 0)

/-- The output window's block index at point t: (t / 64, 0, 0). -/
theorem idx1_2 : ∀ t : Fin cfg1.N, win1_2.index t 0 = t.val / 64 ∧ win1_2.index t 1 = 0 ∧ win1_2.index t 2 = 0 :=
  (by decide +kernel : ∀ t : Fin grid1.N, win1_2.index t 0 = t.val / 64 ∧ win1_2.index t 1 = 0 ∧ win1_2.index t 2 = 0)

/-- The narrowed copy's window's block index at point t: (t / 64, 0, t mod 64). -/
theorem idx1_3 : ∀ t : Fin cfg1.N, win1_3.index t 0 = t.val / 64 ∧ win1_3.index t 1 = 0 ∧ win1_3.index t 2 = t.val % 64 :=
  (by decide +kernel : ∀ t : Fin grid1.N, win1_3.index t 0 = t.val / 64 ∧ win1_3.index t 1 = 0 ∧ win1_3.index t 2 = t.val % 64)

/-- The operator's block at point t, element [0, n, j], is the array's element [b, n, q] with b = t / 64 and
    q = 128 (t mod 64) + j. -/
theorem blk1_0_at (c : Dev nD) (t : Fin cfg1.N) (n : Fin 8192) (j : Fin 128) (b : Fin 2) (q : Fin 8192)
    (hb : b.val = t.val / 64) (hq : q.val = 128 * (t.val % 64) + j.val) :
    ((cfg1.win 0).blk t).view.read (Elt Ideal) (V c (Pipeline.arrRef spec1 0)) (ix3 (0 : Fin 1) n j)
      = V c (Pipeline.arrRef spec1 0) (ix3 b n q) := by
  obtain ⟨e0, e1, e2⟩ := idx1_0 t
  rw [View.read_apply]
  show V c (Pipeline.arrRef spec1 0) _ = V c (Pipeline.arrRef spec1 0) _
  congr 1
  funext a
  apply Fin.ext
  match a with
  | ⟨0, _⟩ => show win1_0.index t 0 * 1 + 1 * 0 = b.val; omega
  | ⟨1, _⟩ => show win1_0.index t 1 * 8192 + 1 * n.val = n.val; omega
  | ⟨2, _⟩ => show win1_0.index t 2 * 128 + 1 * j.val = q.val; omega

/-- The state's block at point t, element [0, j, h], is the array's element [b, q, h] with b = t / 64 and
    q = 128 (t mod 64) + j. -/
theorem blk1_1_at (c : Dev nD) (t : Fin cfg1.N) (j : Fin 128) (h : Fin 64) (b : Fin 2) (q : Fin 8192)
    (hb : b.val = t.val / 64) (hq : q.val = 128 * (t.val % 64) + j.val) :
    ((cfg1.win 1).blk t).view.read (Elt Ideal) (V c (Pipeline.arrRef spec1 1)) (ix3 (0 : Fin 1) j h)
      = V c (Pipeline.arrRef spec1 1) (ix3 b q h) := by
  obtain ⟨e0, e1, e2⟩ := idx1_1 t
  rw [View.read_apply]
  show V c (Pipeline.arrRef spec1 1) _ = V c (Pipeline.arrRef spec1 1) _
  congr 1
  funext a
  apply Fin.ext
  match a with
  | ⟨0, _⟩ => show win1_1.index t 0 * 1 + 1 * 0 = b.val; omega
  | ⟨1, _⟩ => show win1_1.index t 1 * 128 + 1 * j.val = q.val; omega
  | ⟨2, _⟩ => show win1_1.index t 2 * 64 + 1 * h.val = h.val; omega

/-- Where the output block of point t sits in the output array: its element [0, n, h] is the array's [b, n, h], b = t / 64. -/
theorem emb1_2 (t : Fin cfg1.N) (n : Fin 8192) (h : Fin 64) (b : Fin 2) (hb : b.val = t.val / 64) :
    ((cfg1.win 2).blk t).view.emb (ix3 (0 : Fin 1) n h) = (ix3 b n h : S2x8192x64.Idx) := by
  obtain ⟨e0, e1, e2⟩ := idx1_2 t
  funext a
  apply Fin.ext
  match a with
  | ⟨0, _⟩ => show win1_2.index t 0 * 1 + 1 * 0 = b.val; omega
  | ⟨1, _⟩ => show win1_2.index t 1 * 8192 + 1 * n.val = n.val; omega
  | ⟨2, _⟩ => show win1_2.index t 2 * 64 + 1 * h.val = h.val; omega

/-- Where the narrowed copy's block of point t sits in its array: its element [0, n, j] is the array's [b, n, q] with
    b = t / 64 and q = 128 (t mod 64) + j. -/
theorem emb1_3 (t : Fin cfg1.N) (n : Fin 8192) (j : Fin 128) (b : Fin 2) (q : Fin 8192)
    (hb : b.val = t.val / 64) (hq : q.val = 128 * (t.val % 64) + j.val) :
    ((cfg1.win 3).blk t).view.emb (ix3 (0 : Fin 1) n j) = (ix3 b n q : S2x8192x8192.Idx) := by
  obtain ⟨e0, e1, e2⟩ := idx1_3 t
  funext a
  apply Fin.ext
  match a with
  | ⟨0, _⟩ => show win1_3.index t 0 * 1 + 1 * 0 = b.val; omega
  | ⟨1, _⟩ => show win1_3.index t 1 * 8192 + 1 * n.val = n.val; omega
  | ⟨2, _⟩ => show win1_3.index t 2 * 128 + 1 * j.val = q.val; omega

/-- An index of the output array is in point t's block iff each coordinate is in the block's range on its axis. -/
theorem mem_blk1_2 (t : Fin cfg1.N) (i : S2x8192x64.Idx) :
    i ∈ ((cfg1.win 2).blk t).view.set
      ↔ ∀ a : Fin 3, win1_2.index t a * S1x8192x64.size a ≤ (i a).val ∧ (i a).val < win1_2.index t a * S1x8192x64.size a + S1x8192x64.size a := by
  show i ∈ ((View.whole main_v2_0).slice (win1_2.rect t)).set ↔ _
  rw [View.set_slice_whole, Rect.mem_set_unit]
  exact Iff.rfl

/-- An index of the narrowed copy's array is in point t's block iff each coordinate is in the block's range on its axis. -/
theorem mem_blk1_3 (t : Fin cfg1.N) (i : S2x8192x8192.Idx) :
    i ∈ ((cfg1.win 3).blk t).view.set
      ↔ ∀ a : Fin 3, win1_3.index t a * S1x8192x128.size a ≤ (i a).val ∧ (i a).val < win1_3.index t a * S1x8192x128.size a + S1x8192x128.size a := by
  show i ∈ ((View.whole main_v2_1).slice (win1_3.rect t)).set ↔ _
  rw [View.set_slice_whole, Rect.mem_set_unit]
  exact Iff.rfl

/-- Every index [b, n, h] of the output array is in the block written back at point 64 b + 63. -/
theorem cover1_2 (i : S2x8192x64.Idx) :
    ∃ t : Fin cfg1.N, (cfg1.win 2).flush t = true ∧ i ∈ ((cfg1.win 2).blk t).view.set := by
  have h0 : (i 0).val < 2 := (i 0).isLt
  have h1 : (i 1).val < 8192 := (i 1).isLt
  have h2 : (i 2).val < 64 := (i 2).isLt
  obtain ⟨t, ht⟩ : ∃ t : Fin cfg1.N, t.val = 64 * (i 0).val + 63 :=
    ⟨⟨64 * (i 0).val + 63, by show _ < grid1.N; rw [N_1]; omega⟩, rfl⟩
  obtain ⟨e0, e1, e2⟩ := idx1_2 t
  refine ⟨t, (flush1_2 t).mpr (by omega), ?_⟩
  rw [mem_blk1_2]
  intro a
  match a with
  | ⟨0, _⟩ => show win1_2.index t 0 * 1 ≤ (i 0).val ∧ (i 0).val < win1_2.index t 0 * 1 + 1; omega
  | ⟨1, _⟩ => show win1_2.index t 1 * 8192 ≤ (i 1).val ∧ (i 1).val < win1_2.index t 1 * 8192 + 8192; omega
  | ⟨2, _⟩ => show win1_2.index t 2 * 64 ≤ (i 2).val ∧ (i 2).val < win1_2.index t 2 * 64 + 64; omega

/-- Every index [b, n, q] of the narrowed copy's array is in the block written back at point 64 b + q / 128. -/
theorem cover1_3 (i : S2x8192x8192.Idx) :
    ∃ t : Fin cfg1.N, (cfg1.win 3).flush t = true ∧ i ∈ ((cfg1.win 3).blk t).view.set := by
  have h0 : (i 0).val < 2 := (i 0).isLt
  have h1 : (i 1).val < 8192 := (i 1).isLt
  have h2 : (i 2).val < 8192 := (i 2).isLt
  obtain ⟨t, ht⟩ : ∃ t : Fin cfg1.N, t.val = 64 * (i 0).val + (i 2).val / 128 :=
    ⟨⟨64 * (i 0).val + (i 2).val / 128, by show _ < grid1.N; rw [N_1]; omega⟩, rfl⟩
  obtain ⟨e0, e1, e2⟩ := idx1_3 t
  refine ⟨t, flush1_3 t, ?_⟩
  rw [mem_blk1_3]
  intro a
  match a with
  | ⟨0, _⟩ => show win1_3.index t 0 * 1 ≤ (i 0).val ∧ (i 0).val < win1_3.index t 0 * 1 + 1; omega
  | ⟨1, _⟩ => show win1_3.index t 1 * 8192 ≤ (i 1).val ∧ (i 1).val < win1_3.index t 1 * 8192 + 8192; omega
  | ⟨2, _⟩ => show win1_3.index t 2 * 128 ≤ (i 2).val ∧ (i 2).val < win1_3.index t 2 * 128 + 128; omega

end Cert.KernelIdeal.Hand

end
-- ==== Proof.SpecBlocks.lean ====
/-
  A sum over a contracted axis accumulated block by block.

  The axis has `N = nb · bs` positions, cut into `nb` consecutive blocks of `bs`. An accumulator starts at zero; block
  `k` adds to it the block's own partial sum, which is itself formed on a fresh zero (`0 + ∑ j < bs, f (k·bs + j)`). After
  the `nb` blocks the accumulator holds the whole sum `∑ j < N, f j`.

  This is associativity and commutativity of addition and nothing else: it is stated and proved in any commutative
  additive monoid, in particular in the extended reals with no finiteness assumption on the terms. The proof extends
  the summand by zero to all naturals, where a sum over the first `k·bs + bs` naturals splits into the first `k·bs` and
  the next `bs`.

  The two cuts of the axis of length 8192 that are used, 16 blocks of 512 and 64 blocks of 128, are stated on the
  diffusion step's summand: accumulating `adj[b, n, ·] · d[b, ·, h]` block by block gives `Spec.diffuse`.
-/
import proofs.«169539_j48112223650339_2_alg».proof.Proof.Spec

noncomputable section

open scoped BigOperators

namespace Cert.Spec.Blocks

open Idealize.ShloMosaic Idealize.ShloMosaic.ValueIdx

variable {M : Type*} [AddCommMonoid M]

/-! ## The positions of a block -/

/-- Block `k`'s local position `j` is the axis' position `k · bs + j`. -/
def col {N : ℕ} (nb bs : ℕ) (hN : nb * bs = N) (k : Fin nb) (j : Fin bs) : Fin N :=
  ⟨k.val * bs + j.val, by
    have hk : k.val + 1 ≤ nb := k.isLt
    have hj : j.val < bs := j.isLt
    calc k.val * bs + j.val < k.val * bs + bs := Nat.add_lt_add_left hj _
      _ = (k.val + 1) * bs := (Nat.succ_mul _ _).symm
      _ ≤ nb * bs := Nat.mul_le_mul_right _ hk
      _ = N := hN⟩

/-- The index bookkeeping: the position's value. -/
@[simp] theorem col_val {N : ℕ} (nb bs : ℕ) (hN : nb * bs = N) (k : Fin nb) (j : Fin bs) :
    (col nb bs hN k j).val = k.val * bs + j.val := rfl

/-- A position is the block position it was cut from: any `c : Fin N` whose value is `k · bs + j` is `col k j`. -/
theorem eq_col {N : ℕ} (nb bs : ℕ) (hN : nb * bs = N) (k : Fin nb) (j : Fin bs) (c : Fin N)
    (hc : c.val = k.val * bs + j.val) : c = col nb bs hN k j := Fin.ext hc

/-! ## The accumulation -/

/-- Block `k`'s partial sum (zero past the last block, which no statement below reads). -/
def blockSum {N : ℕ} (nb bs : ℕ) (hN : nb * bs = N) (f : Fin N → M) (k : ℕ) : M :=
  if h : k < nb then ∑ j : Fin bs, f (col nb bs hN ⟨k, h⟩ j) else 0

theorem blockSum_of_lt {N : ℕ} (nb bs : ℕ) (hN : nb * bs = N) (f : Fin N → M) {k : ℕ} (h : k < nb) :
    blockSum nb bs hN f k = ∑ j : Fin bs, f (col nb bs hN ⟨k, h⟩ j) := dif_pos h

/-- The accumulator after `k` blocks: it starts at zero, and each block adds its partial sum formed on a fresh zero. -/
def acc {N : ℕ} (nb bs : ℕ) (hN : nb * bs = N) (f : Fin N → M) : ℕ → M
  | 0 => 0
  | k + 1 => acc nb bs hN f k + (0 + blockSum nb bs hN f k)

@[simp] theorem acc_zero {N : ℕ} (nb bs : ℕ) (hN : nb * bs = N) (f : Fin N → M) : acc nb bs hN f 0 = 0 := rfl

theorem acc_succ {N : ℕ} (nb bs : ℕ) (hN : nb * bs = N) (f : Fin N → M) (k : ℕ) :
    acc nb bs hN f (k + 1) = acc nb bs hN f k + (0 + blockSum nb bs hN f k) := rfl

/-- One step of the accumulation inside the axis, with the block's sum written out. -/
theorem acc_succ_of_lt {N : ℕ} (nb bs : ℕ) (hN : nb * bs = N) (f : Fin N → M) {k : ℕ} (h : k < nb) :
    acc nb bs hN f (k + 1) = acc nb bs hN f k + (0 + ∑ j : Fin bs, f (col nb bs hN ⟨k, h⟩ j)) := by
  rw [acc_succ, blockSum_of_lt nb bs hN f h]

/-- The summand extended by zero to all naturals. -/
def ext0 {N : ℕ} (f : Fin N → M) (n : ℕ) : M := if h : n < N then f ⟨n, h⟩ else 0

theorem ext0_val {N : ℕ} (f : Fin N → M) (c : Fin N) : ext0 f c.val = f c := dif_pos c.isLt

/-- A block's partial sum is the extended summand's sum over the block's `bs` naturals. -/
theorem blockSum_eq_range {N : ℕ} (nb bs : ℕ) (hN : nb * bs = N) (f : Fin N → M) {k : ℕ} (h : k < nb) :
    blockSum nb bs hN f k = ∑ j ∈ Finset.range bs, ext0 f (k * bs + j) := by
  rw [blockSum_of_lt nb bs hN f h, ← Fin.sum_univ_eq_sum_range (fun j => ext0 f (k * bs + j)) bs]
  exact Finset.sum_congr rfl fun j _ => (ext0_val f (col nb bs hN ⟨k, h⟩ j)).symm

/-- After `k` blocks the accumulator holds the sum over the first `k · bs` positions. -/
theorem acc_eq_range {N : ℕ} (nb bs : ℕ) (hN : nb * bs = N) (f : Fin N → M) :
    ∀ k : ℕ, k ≤ nb → acc nb bs hN f k = ∑ n ∈ Finset.range (k * bs), ext0 f n
  | 0, _ => by rw [acc_zero, Nat.zero_mul, Finset.range_zero, Finset.sum_empty]
  | k + 1, hk => by
    have hlt : k < nb := hk
    rw [acc_succ, acc_eq_range nb bs hN f k (Nat.le_of_lt hlt), zero_add, blockSum_eq_range nb bs hN f hlt,
      Nat.succ_mul, Finset.sum_range_add]

/-- **The law**: after all `nb` blocks the accumulator holds the sum over the whole axis. -/
theorem acc_eq_sum {N : ℕ} (nb bs : ℕ) (hN : nb * bs = N) (f : Fin N → M) :
    acc nb bs hN f nb = ∑ j : Fin N, f j := by
  rw [acc_eq_range nb bs hN f nb (Nat.le_refl _), hN, ← Fin.sum_univ_eq_sum_range (ext0 f) N]
  exact Finset.sum_congr rfl fun c _ => ext0_val f c

/-! ## The two cuts of the axis of length 8192 -/

/-- 16 blocks of 512. -/
theorem cut_16_512 : 16 * 512 = 8192 := rfl
/-- 64 blocks of 128. -/
theorem cut_64_128 : 64 * 128 = 8192 := rfl

/-- 16 blocks of 512: the accumulated sum is the sum over the 8192 positions. -/
theorem acc_16_512 (f : Fin 8192 → EReal) : acc 16 512 cut_16_512 f 16 = ∑ j : Fin 8192, f j :=
  acc_eq_sum 16 512 cut_16_512 f

/-- 64 blocks of 128: the accumulated sum is the sum over the 8192 positions. -/
theorem acc_64_128 (f : Fin 8192 → EReal) : acc 64 128 cut_64_128 f 64 = ∑ j : Fin 8192, f j :=
  acc_eq_sum 64 128 cut_64_128 f

/-- The diffusion step's summand at a result position `[b, n, h]`, as a function of the contracted position. -/
def summand (adj : SAdj.Idx → EReal) (d : SH.Idx → EReal) (b : Fin 2) (n : Fin 8192) (h : Fin 64) : Fin 8192 → EReal :=
  fun j => adj (ix3 b n j) * d (ix3 b j h)

theorem summand_apply (adj : SAdj.Idx → EReal) (d : SH.Idx → EReal) (b : Fin 2) (n : Fin 8192) (h : Fin 64) (j : Fin 8192) :
    summand adj d b n h j = adj (ix3 b n j) * d (ix3 b j h) := rfl

/-- One diffusion step accumulated in 16 blocks of 512 columns. -/
theorem diffuse_acc_16_512 (adj : SAdj.Idx → EReal) (d : SH.Idx → EReal) (b : Fin 2) (n : Fin 8192) (h : Fin 64) :
    acc 16 512 cut_16_512 (summand adj d b n h) 16 = diffuse adj d (ix3 b n h) :=
  acc_16_512 (summand adj d b n h)

/-- One diffusion step accumulated in 64 blocks of 128 columns. -/
theorem diffuse_acc_64_128 (adj : SAdj.Idx → EReal) (d : SH.Idx → EReal) (b : Fin 2) (n : Fin 8192) (h : Fin 64) :
    acc 64 128 cut_64_128 (summand adj d b n h) 64 = diffuse adj d (ix3 b n h) :=
  acc_64_128 (summand adj d b n h)

end Cert.Spec.Blocks

end
-- ==== Proof.HandKI.Val1Acc.lean ====
/-
  First diffusion step, kernel region 1, over the extended reals: the scratch accumulator is the block-wise partial sum.

  Along the 64 column blocks of batch element b the accumulator starts from zero and each block k adds its own product, formed
  on a fresh zero: at row n, column h, 0 + sum over j < 128 of adj[b, n, 128 k + j] * d[b, 128 k + j, h]. So after column block
  k (point 64 b + k) the accumulator at [n, h] is the accumulation over blocks 0 .. k of the summand j |-> adj[b, n, j] * d[b, j, h],
  the contracted axis cut into 64 blocks of 128. By induction on k.
-/
import proofs.«169539_j48112223650339_2_alg».proof.Proof.HandKI.Val1Pay
import proofs.«169539_j48112223650339_2_alg».proof.Proof.HandKI.Val1Blk
import proofs.«169539_j48112223650339_2_alg».proof.Proof.HandKI.Dat1
import proofs.«169539_j48112223650339_2_alg».proof.Proof.SpecBlocks

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec Cert.Spec.Blocks

variable (V : (c : Dev nD) → (b : Ref sig .tc) → Buf (Elt Ideal) ((c : Thread nD τ).loc b))

/-- The adjacency array as the region finds it, as a function of its index. -/
abbrev adj1 (c : Dev nD) : SAdj.Idx → EReal := V c (Pipeline.arrRef spec1 0)
/-- The activation array as the region finds it, as a function of its index. -/
abbrev act1 (c : Dev nD) : SH.Idx → EReal := V c (Pipeline.arrRef spec1 1)

/-- The adjacency block the body reads at point t, element [0, n, j], is the array's element [b, n, q] with b = t / 64 and
    q = 128 (t mod 64) + j. -/
theorem iblk1_0_at (c : Dev nD) (t : Fin cfg1.N) (n : Fin 8192) (j : Fin 128) (b : Fin 2) (q : Fin 8192)
    (hb : b.val = t.val / 64) (hq : q.val = 128 * (t.val % 64) + j.val) :
    iblk1 V c 0 t (ix3 (0 : Fin 1) n j) = V c (Pipeline.arrRef spec1 0) (ix3 b n q) := by
  unfold iblk1
  exact blk1_0_at V c t n j b q hb hq

/-- The activation block the body reads at point t, element [0, j, h], is the array's element [b, q, h] with b = t / 64 and
    q = 128 (t mod 64) + j. -/
theorem iblk1_1_at (c : Dev nD) (t : Fin cfg1.N) (j : Fin 128) (h : Fin 64) (b : Fin 2) (q : Fin 8192)
    (hb : b.val = t.val / 64) (hq : q.val = 128 * (t.val % 64) + j.val) :
    iblk1 V c 1 t (ix3 (0 : Fin 1) j h) = V c (Pipeline.arrRef spec1 1) (ix3 b q h) := by
  unfold iblk1
  exact blk1_1_at V c t j h b q hb hq

/-- Column block k of batch element b is a point of the grid. -/
theorem pt1_lt (b : Fin 2) (k : ℕ) (hk : k < 64) : 64 * b.val + k < cfg1.N := by
  show 64 * b.val + k < grid1.N
  rw [N_1]; omega

/-- The accumulator after a point, from the accumulator before it. -/
theorem accAt1_next (c : Dev nD) (m : ℕ) (hm : m < cfg1.N) :
    accAt1 V c (m + 1)
      = k1_pay4 (iblk1 V c 0 ⟨m, hm⟩) (iblk1 V c 1 ⟨m, hm⟩) (if m % 64 = 0 then k1_pay1 (F := Ideal) else accAt1 V c m) := by
  rw [accAt1, dif_pos hm]

/-- One step at an index: column block k of batch b adds, to whatever the accumulator held, the block's partial sum of the
    summand, formed on a fresh zero. -/
theorem step1_apply (c : Dev nD) (b : Fin 2) (k : ℕ) (hk : k < 64) (n : Fin 8192) (h : Fin 64) (X : Vec Ideal S8192x64 .f32) :
    k1_pay4 (F := Ideal) (iblk1 V c 0 ⟨64 * b.val + k, pt1_lt b k hk⟩) (iblk1 V c 1 ⟨64 * b.val + k, pt1_lt b k hk⟩) X (ix2 n h)
      = X (ix2 n h) + (0 + ∑ j : Fin 128, summand (adj1 V c) (act1 V c) b n h (col 64 128 cut_64_128 ⟨k, hk⟩ j)) := by
  refine (k1_pay4_apply _ _ X n h).trans ?_
  refine congrArg (fun s => X (ix2 n h) + (0 + s)) ?_
  refine Finset.sum_congr rfl fun j _ => ?_
  have hb : b.val = (64 * b.val + k) / 64 := by omega
  have hq : (col 64 128 cut_64_128 ⟨k, hk⟩ j).val = 128 * ((64 * b.val + k) % 64) + j.val := by
    show k * 128 + j.val = 128 * ((64 * b.val + k) % 64) + j.val
    omega
  rw [summand_apply]
  exact congrArg₂ (· * ·)
    (iblk1_0_at V c ⟨64 * b.val + k, pt1_lt b k hk⟩ n j b (col 64 128 cut_64_128 ⟨k, hk⟩ j) hb hq)
    (iblk1_1_at V c ⟨64 * b.val + k, pt1_lt b k hk⟩ j h b (col 64 128 cut_64_128 ⟨k, hk⟩ j) hb hq)

/-- After column block k of batch element b the accumulator at [n, h] is the accumulation of the summand over blocks 0 .. k. -/
theorem accAt1_eq_acc (c : Dev nD) (b : Fin 2) (n : Fin 8192) (h : Fin 64) :
    ∀ (k : ℕ) (hk : k < 64), accAt1 V c (64 * b.val + k + 1) (ix2 n h)
      = acc 64 128 cut_64_128 (summand (adj1 V c) (act1 V c) b n h) (k + 1)
  | 0, hk => by
    rw [accAt1_next V c (64 * b.val + 0) (pt1_lt b 0 hk), if_pos (by omega)]
    refine (step1_apply V c b 0 hk n h _).trans ?_
    rw [k1_pay1_apply, acc_succ_of_lt 64 128 cut_64_128 _ hk, acc_zero]
  | k + 1, hk => by
    have ih := accAt1_eq_acc c b n h k (by omega)
    rw [accAt1_next V c (64 * b.val + (k + 1)) (pt1_lt b (k + 1) hk), if_neg (by omega)]
    refine (step1_apply V c b (k + 1) hk n h _).trans ?_
    rw [acc_succ_of_lt 64 128 cut_64_128 _ hk]
    exact congrArg (· + _) ih

end Cert.KernelIdeal.Hand

end
-- ==== Proof.HandKI.Val1Final.lean ====
/-
  First diffusion step, kernel region 1, over the extended reals: what the region leaves in its arrays.

  The output block of batch element b is written back once, after the last column block (point 64 b + 63), holding the
  accumulator after all 64 column blocks: at [0, n, h] the accumulation of adj[b, n, j] * d[b, j, h] over the 64 blocks of 128
  positions j, which is the whole sum over j < 8192. The block of batch b is rows [b, *, *] of the output array, and the two
  write-backs cover it, so the output array ends holding the diffusion step of the adjacency and the activation as the region
  found them.

  The second output is written back at every point: point 64 b + k writes columns 128 k .. 128 k + 127 of batch b with the
  adjacency block it read there, changed of format, which over the extended reals is the block itself. The 128 write-backs
  tile the array, so it ends holding the adjacency as the region found it. The two input arrays are never written.
-/
import proofs.«169539_j48112223650339_2_alg».proof.Proof.HandKI.Val1Acc

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec Cert.Spec.Blocks

variable (V : (c : Dev nD) → (b : Ref sig .tc) → Buf (Elt Ideal) ((c : Thread nD τ).loc b))

/-- After the last column block of batch element b the accumulator holds the diffusion step's row of batch b. -/
theorem accAt1_last (c : Dev nD) (b : Fin 2) (n : Fin 8192) (h : Fin 64) :
    accAt1 V c (64 * b.val + 63 + 1) (ix2 n h) = diffuse (adj1 V c) (act1 V c) (ix3 b n h) :=
  (accAt1_eq_acc V c b n h 63 (by omega)).trans (diffuse_acc_64_128 _ _ b n h)

/-- What a write-back point of the output writes is its block of the diffusion step. -/
theorem flushed1_eq (c : Dev nD) (t : Fin cfg1.N) (hf : (cfg1.win 2).flush t = true) :
    (dat1 V c).flushed 2 t = ((cfg1.win 2).blk t).view.read (Elt Ideal) (diffuse (adj1 V c) (act1 V c)) := by
  have h63 : t.val % 64 = 63 := (flush1_2 t).mp hf
  have hlt : t.val < 128 := Nat.lt_of_lt_of_eq t.isLt N_1
  obtain ⟨b, hb⟩ : ∃ b : Fin 2, b.val = t.val / 64 := ⟨⟨t.val / 64, by omega⟩, rfl⟩
  show (cfg1.win 2).cut (grid1.coords t) ((dat1 V c).after 2 t) = _
  rw [after1_2]
  refine funext fun (y : S1x8192x64.Idx) => ?_
  obtain ⟨u, n, h, rfl⟩ : ∃ (u : Fin 1) (n : Fin 8192) (h : Fin 64), y = ix3 u n h := ⟨y 0, y 1, y 2, eq_ix3 y⟩
  obtain rfl : u = 0 := Subsingleton.elim _ _
  show k1_pay5 (F := Ideal) (accAt1 V c (t.val + 1)) (ix3 (0 : Fin 1) n h)
    = diffuse (adj1 V c) (act1 V c) (((cfg1.win 2).blk t).view.emb (ix3 (0 : Fin 1) n h))
  refine Eq.trans ?_ (congrArg (diffuse (adj1 V c) (act1 V c)) (emb1_2 t n h b hb)).symm
  rw [k1_pay5_apply, show t.val + 1 = 64 * b.val + 63 + 1 from by omega]
  exact accAt1_last V c b n h

/-- What a point writes back to the second output is its block of the adjacency: the block it read, whose change of format is
    the identity over the extended reals, sits in the second output where it sat in the adjacency. -/
theorem flushed1_cast_eq (c : Dev nD) (t : Fin cfg1.N) (hf : (cfg1.win 3).flush t = true) :
    (dat1 V c).flushed 3 t = ((cfg1.win 3).blk t).view.read (Elt Ideal) (adj1 V c) := by
  have hlt : t.val < 128 := Nat.lt_of_lt_of_eq t.isLt N_1
  obtain ⟨b, hb⟩ : ∃ b : Fin 2, b.val = t.val / 64 := ⟨⟨t.val / 64, by omega⟩, rfl⟩
  show (cfg1.win 3).cut (grid1.coords t) ((dat1 V c).after 3 t) = _
  rw [after1_3]
  refine funext fun (y : S1x8192x128.Idx) => ?_
  obtain ⟨u, n, j, rfl⟩ : ∃ (u : Fin 1) (n : Fin 8192) (j : Fin 128), y = ix3 u n j := ⟨y 0, y 1, y 2, eq_ix3 y⟩
  obtain rfl : u = 0 := Subsingleton.elim _ _
  have hj : j.val < 128 := j.isLt
  obtain ⟨q, hq⟩ : ∃ q : Fin 8192, q.val = 128 * (t.val % 64) + j.val := ⟨⟨128 * (t.val % 64) + j.val, by omega⟩, rfl⟩
  show k1_pay3 (F := Ideal) (iblk1 V c 0 t) (ix3 (0 : Fin 1) n j)
    = adj1 V c (((cfg1.win 3).blk t).view.emb (ix3 (0 : Fin 1) n j))
  refine Eq.trans ?_ (congrArg (adj1 V c) (emb1_3 t n j b q hb hq)).symm
  rw [k1_pay3_apply]
  exact iblk1_0_at V c t n j b q hb hq

/-- The output array after the region: the diffusion step of the adjacency and the activation as the region found them. -/
theorem final1 (c : Dev nD) : (dat1 V c).arrAt 2 cfg1.N = diffuse (adj1 V c) (act1 V c) :=
  (dat1 V c).arrAt_eq_of_cover 2 (diffuse (adj1 V c) (act1 V c)) (fun t hf => flushed1_eq V c t hf) (fun i => cover1_2 i)

/-- The second output after the region: the adjacency as the region found it. -/
theorem final1_cast (c : Dev nD) : ((dat1 V c).arrAt 3 cfg1.N : SAdj.Idx → EReal) = adj1 V c :=
  (dat1 V c).arrAt_eq_of_cover 3 (adj1 V c) (fun t hf => flushed1_cast_eq V c t hf) (fun i => cover1_3 i)

/-- The adjacency array is left as found. -/
theorem final1_in0 (c : Dev nD) : (dat1 V c).arrAt 0 cfg1.N = V c (Pipeline.arrRef spec1 0) :=
  ((dat1 V c).arrAt_in 0 rfl _).trans (A_eq1 V c 0)

/-- The activation array is left as found. -/
theorem final1_in1 (c : Dev nD) : (dat1 V c).arrAt 1 cfg1.N = V c (Pipeline.arrRef spec1 1) :=
  ((dat1 V c).arrAt_in 1 rfl _).trans (A_eq1 V c 1)

end Cert.KernelIdeal.Hand

end
-- ==== Proof.HandKI.ValueStage1.lean ====
/-
  The first diffusion step in the run of the whole program: kernel region 1 leaves, in its first output array, one
  diffusion step of the operator argument and of the state it finds, and in its second output array the operator itself
  (its narrowed copy, which on the extended reals is the operator).
-/
import proofs.«169539_j48112223650339_2_alg».proof.Proof.HandKI.Chain
import proofs.«169539_j48112223650339_2_alg».proof.Proof.HandKI.Val1Final
import proofs.«169539_j48112223650339_2_alg».proof.Proof.HandKI.ValueStage0

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec

variable (m : (ℓ : Loc nD τ sig) → Buf (Elt Ideal) ℓ)

/-- Region 1: from a state `D` it leaves the diffusion step `adj · D` of the operator argument. -/
theorem stage1 (c : Dev nD) (D : SH.Idx → EReal)
    (hD : (W2 m c (Proc.devRef .tc main_v1) : SH.Idx → EReal) = D) :
    (W3 m c (Proc.devRef .tc main_v2_0) : SH.Idx → EReal) = diffuse (argA m c) D := by
  refine ((W3_arr m c 2).trans (final1 (VV2 m) c)).trans ?_
  have eA : adj1 (VV2 m) c = argA m c := W2_main_arg1 m c
  have eD : act1 (VV2 m) c = D := hD
  rw [eA, eD]

/-- Region 1 leaves the operator's narrowed copy equal to the operator argument. -/
theorem stage1_cast (c : Dev nD) :
    (W3 m c (Proc.devRef .tc main_v2_1) : SAdj.Idx → EReal) = argA m c :=
  ((W3_arr m c 3).trans (final1_cast (VV2 m) c)).trans (W2_main_arg1 m c)

end Cert.KernelIdeal.Hand

end
-- ==== Proof.HandKI.Val2Pay.lean ====
/-
  Diffusion step, kernel region 2, over the extended reals: what the body's three stored values are at an index.

  The accumulator's reset value is zero everywhere. One step's value at row n, column h is the accumulator there plus the
  block product formed on a fresh zero: 0 + sum over the 512 columns j of the adjacency block of x0[0, n, j] * x1[0, j, h]
  (casts between float formats are the identity on the extended reals, and dropping or adding a leading axis of extent one
  does not move an element). The value copied to the output block at [0, n, h] is the accumulator at [n, h].
-/
import proofs.«169539_j48112223650339_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.ValueIdx

/-- The reset value of the accumulator is zero at every index. -/
theorem k2_pay1_apply (n : Fin 8192) (h : Fin 64) : k2_pay1 (F := Ideal) (ix2 n h) = 0 := by
  unfold k2_pay1
  rw [shapeCast_self, broadcast_apply]
  exact Ideal.ofBits_zero_f32

/-- The left operand's index of the block product: row n of the result, column k of the block. -/
theorem k2_lhsIdx (n : Fin 8192) (h : Fin 64) (k : Fin 512) :
    dot_S8192x512_S512x64_S8192x64_1_0_0_1_n_n.lhsIdx (ix2 n h)
        ((contrEquiv1 dot_S8192x512_S512x64_S8192x64_1_0_0_1_n_n 512 rfl rfl).symm k) = ix2 n k :=
  funext fun a => Fin.ext (by
    match a with
    | ⟨0, _⟩ => rfl
    | ⟨1, _⟩ =>
      exact (dot_S8192x512_S512x64_S8192x64_1_0_0_1_n_n.lhsIdx_val_of_single rfl _ _).trans
        (contrEquiv1_symm_val dot_S8192x512_S512x64_S8192x64_1_0_0_1_n_n 512 rfl rfl k))

/-- The right operand's index: row k of the block, column h of the result. -/
theorem k2_rhsIdx (n : Fin 8192) (h : Fin 64) (k : Fin 512) :
    dot_S8192x512_S512x64_S8192x64_1_0_0_1_n_n.rhsIdx (ix2 n h)
        ((contrEquiv1 dot_S8192x512_S512x64_S8192x64_1_0_0_1_n_n 512 rfl rfl).symm k) = ix2 k h :=
  funext fun a => Fin.ext (by
    match a with
    | ⟨0, _⟩ =>
      exact (dot_S8192x512_S512x64_S8192x64_1_0_0_1_n_n.rhsIdx_val_of_single rfl _ _).trans
        (contrEquiv1_symm_val dot_S8192x512_S512x64_S8192x64_1_0_0_1_n_n 512 rfl rfl k)
    | ⟨1, _⟩ => rfl)

/-- One step of the accumulator at an index: what it held plus the block product formed on a fresh zero. -/
theorem k2_pay2_apply (x0 : Vec Ideal S1x8192x512 .bf16) (x1 : Vec Ideal S1x512x64 .f32) (xs : Vec Ideal S8192x64 .f32)
    (n : Fin 8192) (h : Fin 64) :
    k2_pay2 (F := Ideal) x0 x1 xs (ix2 n h)
      = xs (ix2 n h) + (0 + ∑ j : Fin 512, x0 (ix3 (0 : Fin 1) n j) * x1 (ix3 (0 : Fin 1) j h)) := by
  unfold k2_pay2
  rw [shapeCast_self, addf_apply, zero_add]
  refine congrArg (xs (ix2 n h) + ·) ?_
  simp only [matmul]
  rw [Ideal.matmul_constant_zero_apply,
    ← Equiv.sum_comp (contrEquiv1 dot_S8192x512_S512x64_S8192x64_1_0_0_1_n_n 512 rfl rfl).symm]
  refine Finset.sum_congr rfl fun k _ => ?_
  rw [k2_lhsIdx, k2_rhsIdx, truncf_apply, shapeCast_1ab_ab_apply, shapeCast_1ab_ab_apply]

/-- The value copied out at [0, n, h] is the accumulator at [n, h]. -/
theorem k2_pay3_apply (v : Vec Ideal S8192x64 .f32) (n : Fin 8192) (h : Fin 64) :
    k2_pay3 (F := Ideal) v (ix3 (0 : Fin 1) n h) = v (ix2 n h) := by
  unfold k2_pay3
  rw [shapeCast_ab_1ab_apply]

end Cert.KernelIdeal.Hand

end
-- ==== Proof.HandKI.Val2Blk.lean ====
/-
  Diffusion step, kernel region 2: the blocks the body reads, at coordinates of the whole arrays.

  Point t of the grid is batch element b = t / 16 and column block k = t mod 16. The adjacency block at t is rows 0..8191 and
  columns 512 k .. 512 k + 511 of batch b: its element [0, n, j] is the array's [b, n, 512 k + j]. The activation block at t is
  rows 512 k .. 512 k + 511 of batch b: its element [0, j, h] is the array's [b, 512 k + j, h]. (On every axis a block's element sits
  at block index times block size plus its own coordinate.)
-/
import proofs.«169539_j48112223650339_2_alg».proof.Proof.HandKI.Dat2
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-- The adjacency window's block index at point t: (t / 16, 0, t mod 16). -/
theorem idx2_0 : ∀ t : Fin cfg2.N, win2_0.index t 0 = t.val / 16 ∧ win2_0.index t 1 = 0 ∧ win2_0.index t 2 = t.val % 16 :=
  (by decide +kernel : ∀ t : Fin grid2.N, win2_0.index t 0 = t.val / 16 ∧ win2_0.index t 1 = 0 ∧ win2_0.index t 2 = t.val % 16)

/-- The activation window's block index at point t: (t / 16, t mod 16, 0). -/
theorem idx2_1 : ∀ t : Fin cfg2.N, win2_1.index t 0 = t.val / 16 ∧ win2_1.index t 1 = t.val % 16 ∧ win2_1.index t 2 = 0 :=
  (by decide +kernel : ∀ t : Fin grid2.N, win2_1.index t 0 = t.val / 16 ∧ win2_1.index t 1 = t.val % 16 ∧ win2_1.index t 2 = 0)

/-- The adjacency block at point t, element [0, n, j], is the array's element [b, n, q] with b = t / 16 and
    q = 512 (t mod 16) + j. -/
theorem iblk2_0_at (c : Dev nD) (t : Fin cfg2.N) (n : Fin 8192) (j : Fin 512) (b : Fin 2) (q : Fin 8192)
    (hb : b.val = t.val / 16) (hq : q.val = 512 * (t.val % 16) + j.val) :
    iblk2 V c 0 t (ix3 (0 : Fin 1) n j) = V c (Pipeline.arrRef spec2 0) (ix3 b n q) := by
  obtain ⟨e0, e1, e2⟩ := idx2_0 t
  unfold iblk2
  rw [View.read_apply]
  show V c (Pipeline.arrRef spec2 0) _ = V c (Pipeline.arrRef spec2 0) _
  congr 1
  funext a
  apply Fin.ext
  match a with
  | ⟨0, _⟩ => show win2_0.index t 0 * 1 + 1 * 0 = b.val; omega
  | ⟨1, _⟩ => show win2_0.index t 1 * 8192 + 1 * n.val = n.val; omega
  | ⟨2, _⟩ => show win2_0.index t 2 * 512 + 1 * j.val = q.val; omega

/-- The activation block at point t, element [0, j, h], is the array's element [b, q, h] with b = t / 16 and
    q = 512 (t mod 16) + j. -/
theorem iblk2_1_at (c : Dev nD) (t : Fin cfg2.N) (j : Fin 512) (h : Fin 64) (b : Fin 2) (q : Fin 8192)
    (hb : b.val = t.val / 16) (hq : q.val = 512 * (t.val % 16) + j.val) :
    iblk2 V c 1 t (ix3 (0 : Fin 1) j h) = V c (Pipeline.arrRef spec2 1) (ix3 b q h) := by
  obtain ⟨e0, e1, e2⟩ := idx2_1 t
  unfold iblk2
  rw [View.read_apply]
  show V c (Pipeline.arrRef spec2 1) _ = V c (Pipeline.arrRef spec2 1) _
  congr 1
  funext a
  apply Fin.ext
  match a with
  | ⟨0, _⟩ => show win2_1.index t 0 * 1 + 1 * 0 = b.val; omega
  | ⟨1, _⟩ => show win2_1.index t 1 * 512 + 1 * j.val = q.val; omega
  | ⟨2, _⟩ => show win2_1.index t 2 * 64 + 1 * h.val = h.val; omega

/-- The same with the array's coordinates written out. -/
theorem iblk2_0_apply (c : Dev nD) (t : Fin cfg2.N) (n : Fin 8192) (j : Fin 512)
    (hb : t.val / 16 < 2) (hq : 512 * (t.val % 16) + j.val < 8192) :
    iblk2 V c 0 t (ix3 (0 : Fin 1) n j)
      = V c (Pipeline.arrRef spec2 0) (ix3 (⟨t.val / 16, hb⟩ : Fin 2) n (⟨512 * (t.val % 16) + j.val, hq⟩ : Fin 8192)) :=
  iblk2_0_at V c t n j _ _ rfl rfl

theorem iblk2_1_apply (c : Dev nD) (t : Fin cfg2.N) (j : Fin 512) (h : Fin 64)
    (hb : t.val / 16 < 2) (hq : 512 * (t.val % 16) + j.val < 8192) :
    iblk2 V c 1 t (ix3 (0 : Fin 1) j h)
      = V c (Pipeline.arrRef spec2 1) (ix3 (⟨t.val / 16, hb⟩ : Fin 2) (⟨512 * (t.val % 16) + j.val, hq⟩ : Fin 8192) h) :=
  iblk2_1_at V c t j h _ _ rfl rfl

end Cert.KernelIdeal.Hand

end
-- ==== Proof.HandKI.Val2Acc.lean ====
/-
  Diffusion step, kernel region 2, over the extended reals: the scratch accumulator is the block-wise partial sum.

  Along the 16 column blocks of batch element b the accumulator starts from zero and each block k adds its own product, formed
  on a fresh zero: at row n, column h, 0 + sum over j < 512 of adj[b, n, 512 k + j] * d[b, 512 k + j, h]. So after column block
  k (point 16 b + k) the accumulator at [n, h] is the accumulation over blocks 0 .. k of the summand j |-> adj[b, n, j] * d[b, j, h],
  the contracted axis cut into 16 blocks of 512. By induction on k.
-/
import proofs.«169539_j48112223650339_2_alg».proof.Proof.HandKI.Val2Pay
import proofs.«169539_j48112223650339_2_alg».proof.Proof.HandKI.Val2Blk
import proofs.«169539_j48112223650339_2_alg».proof.Proof.SpecBlocks

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec Cert.Spec.Blocks

variable (V : (c : Dev nD) → (b : Ref sig .tc) → Buf (Elt Ideal) ((c : Thread nD τ).loc b))

/-- The adjacency array as the region finds it, as a function of its index. -/
abbrev adj2 (c : Dev nD) : SAdj.Idx → EReal := V c (Pipeline.arrRef spec2 0)
/-- The activation array as the region finds it, as a function of its index. -/
abbrev act2 (c : Dev nD) : SH.Idx → EReal := V c (Pipeline.arrRef spec2 1)

/-- Column block k of batch element b is a point of the grid. -/
theorem pt2_lt (b : Fin 2) (k : ℕ) (hk : k < 16) : 16 * b.val + k < cfg2.N := by
  show 16 * b.val + k < grid2.N
  rw [N_2]; omega

/-- The accumulator after a point, from the accumulator before it. -/
theorem accAt2_next (c : Dev nD) (m : ℕ) (hm : m < cfg2.N) :
    accAt2 V c (m + 1)
      = k2_pay2 (iblk2 V c 0 ⟨m, hm⟩) (iblk2 V c 1 ⟨m, hm⟩) (if m % 16 = 0 then k2_pay1 (F := Ideal) else accAt2 V c m) := by
  rw [accAt2, dif_pos hm]

/-- One step at an index: column block k of batch b adds, to whatever the accumulator held, the block's partial sum of the
    summand, formed on a fresh zero. -/
theorem step2_apply (c : Dev nD) (b : Fin 2) (k : ℕ) (hk : k < 16) (n : Fin 8192) (h : Fin 64) (X : Vec Ideal S8192x64 .f32) :
    k2_pay2 (F := Ideal) (iblk2 V c 0 ⟨16 * b.val + k, pt2_lt b k hk⟩) (iblk2 V c 1 ⟨16 * b.val + k, pt2_lt b k hk⟩) X (ix2 n h)
      = X (ix2 n h) + (0 + ∑ j : Fin 512, summand (adj2 V c) (act2 V c) b n h (col 16 512 cut_16_512 ⟨k, hk⟩ j)) := by
  refine (k2_pay2_apply _ _ X n h).trans ?_
  refine congrArg (fun s => X (ix2 n h) + (0 + s)) ?_
  refine Finset.sum_congr rfl fun j _ => ?_
  have hb : b.val = (16 * b.val + k) / 16 := by omega
  have hq : (col 16 512 cut_16_512 ⟨k, hk⟩ j).val = 512 * ((16 * b.val + k) % 16) + j.val := by
    show k * 512 + j.val = 512 * ((16 * b.val + k) % 16) + j.val
    omega
  rw [summand_apply]
  exact congrArg₂ (· * ·)
    (iblk2_0_at V c ⟨16 * b.val + k, pt2_lt b k hk⟩ n j b (col 16 512 cut_16_512 ⟨k, hk⟩ j) hb hq)
    (iblk2_1_at V c ⟨16 * b.val + k, pt2_lt b k hk⟩ j h b (col 16 512 cut_16_512 ⟨k, hk⟩ j) hb hq)

/-- After column block k of batch element b the accumulator at [n, h] is the accumulation of the summand over blocks 0 .. k. -/
theorem accAt2_eq_acc (c : Dev nD) (b : Fin 2) (n : Fin 8192) (h : Fin 64) :
    ∀ (k : ℕ) (hk : k < 16), accAt2 V c (16 * b.val + k + 1) (ix2 n h)
      = acc 16 512 cut_16_512 (summand (adj2 V c) (act2 V c) b n h) (k + 1)
  | 0, hk => by
    rw [accAt2_next V c (16 * b.val + 0) (pt2_lt b 0 hk), if_pos (by omega)]
    refine (step2_apply V c b 0 hk n h _).trans ?_
    rw [k2_pay1_apply, acc_succ_of_lt 16 512 cut_16_512 _ hk, acc_zero]
  | k + 1, hk => by
    have ih := accAt2_eq_acc c b n h k (by omega)
    rw [accAt2_next V c (16 * b.val + (k + 1)) (pt2_lt b (k + 1) hk), if_neg (by omega)]
    refine (step2_apply V c b (k + 1) hk n h _).trans ?_
    rw [acc_succ_of_lt 16 512 cut_16_512 _ hk]
    exact congrArg (· + _) ih

end Cert.KernelIdeal.Hand

end
-- ==== Proof.HandKI.Val2Final.lean ====
/-
  Diffusion step, kernel region 2, over the extended reals: what the region leaves in its arrays.

  The output block of batch element b is written back once, after the last column block (point 16 b + 15), holding the
  accumulator after all 16 column blocks: at [0, n, h] the accumulation of adj[b, n, j] * d[b, j, h] over the 16 blocks of 512
  positions j, which is the whole sum over j < 8192. The block of batch b is rows [b, *, *] of the output array, and the two
  write-backs cover it, so the output array ends holding the diffusion step of the adjacency and the activation as the region
  found them. The two input arrays are never written.
-/
import proofs.«169539_j48112223650339_2_alg».proof.Proof.HandKI.Val2Acc

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec Cert.Spec.Blocks

variable (V : (c : Dev nD) → (b : Ref sig .tc) → Buf (Elt Ideal) ((c : Thread nD τ).loc b))

/-- The output window's block index at point t: (t / 16, 0, 0). -/
theorem idx2_2 : ∀ t : Fin cfg2.N, win2_2.index t 0 = t.val / 16 ∧ win2_2.index t 1 = 0 ∧ win2_2.index t 2 = 0 :=
  (by decide +kernel : ∀ t : Fin grid2.N, win2_2.index t 0 = t.val / 16 ∧ win2_2.index t 1 = 0 ∧ win2_2.index t 2 = 0)

/-- After the last column block of batch element b the accumulator holds the diffusion step's row of batch b. -/
theorem accAt2_last (c : Dev nD) (b : Fin 2) (n : Fin 8192) (h : Fin 64) :
    accAt2 V c (16 * b.val + 15 + 1) (ix2 n h) = diffuse (adj2 V c) (act2 V c) (ix3 b n h) :=
  (accAt2_eq_acc V c b n h 15 (by omega)).trans (diffuse_acc_16_512 _ _ b n h)

/-- What a write-back point writes is its block of the diffusion step. -/
theorem flushed2_eq (c : Dev nD) (t : Fin cfg2.N) (hf : (cfg2.win 2).flush t = true) :
    (dat2 V c).flushed 2 t = ((cfg2.win 2).blk t).view.read (Elt Ideal) (diffuse (adj2 V c) (act2 V c)) := by
  have h15 : t.val % 16 = 15 := (flush2_2 t).mp hf
  have hlt : t.val < 32 := Nat.lt_of_lt_of_eq t.isLt N_2
  obtain ⟨b, hb⟩ : ∃ b : Fin 2, b.val = t.val / 16 := ⟨⟨t.val / 16, by omega⟩, rfl⟩
  obtain ⟨e0, e1, e2⟩ := idx2_2 t
  show (cfg2.win 2).cut (grid2.coords t) ((dat2 V c).after 2 t) = _
  rw [after2_2]
  refine funext fun (y : S1x8192x64.Idx) => ?_
  obtain ⟨u, n, h, rfl⟩ : ∃ (u : Fin 1) (n : Fin 8192) (h : Fin 64), y = ix3 u n h := ⟨y 0, y 1, y 2, eq_ix3 y⟩
  obtain rfl : u = 0 := Subsingleton.elim _ _
  show k2_pay3 (F := Ideal) (accAt2 V c (t.val + 1)) (ix3 (0 : Fin 1) n h)
    = diffuse (adj2 V c) (act2 V c) (((cfg2.win 2).blk t).view.emb (ix3 (0 : Fin 1) n h))
  have hemb : ((cfg2.win 2).blk t).view.emb (ix3 (0 : Fin 1) n h) = (ix3 b n h : S2x8192x64.Idx) := by
    funext a
    apply Fin.ext
    match a with
    | ⟨0, _⟩ => show win2_2.index t 0 * 1 + 1 * 0 = b.val; omega
    | ⟨1, _⟩ => show win2_2.index t 1 * 8192 + 1 * n.val = n.val; omega
    | ⟨2, _⟩ => show win2_2.index t 2 * 64 + 1 * h.val = h.val; omega
  refine Eq.trans ?_ (congrArg (diffuse (adj2 V c) (act2 V c)) hemb).symm
  rw [k2_pay3_apply, show t.val + 1 = 16 * b.val + 15 + 1 from by omega]
  exact accAt2_last V c b n h

/-- An index of the output array is in point t's block iff each coordinate is in the block's range on its axis. -/
theorem mem_blk2 (t : Fin cfg2.N) (i : S2x8192x64.Idx) :
    i ∈ ((cfg2.win 2).blk t).view.set
      ↔ ∀ a : Fin 3, win2_2.index t a * S1x8192x64.size a ≤ (i a).val ∧ (i a).val < win2_2.index t a * S1x8192x64.size a + S1x8192x64.size a := by
  show i ∈ ((View.whole main_v3).slice (win2_2.rect t)).set ↔ _
  rw [View.set_slice_whole, Rect.mem_set_unit]
  exact Iff.rfl

/-- Every index [b, n, h] of the output array is in the block written back at point 16 b + 15. -/
theorem cover2 (i : S2x8192x64.Idx) :
    ∃ t : Fin cfg2.N, (cfg2.win 2).flush t = true ∧ i ∈ ((cfg2.win 2).blk t).view.set := by
  have h0 : (i 0).val < 2 := (i 0).isLt
  have h1 : (i 1).val < 8192 := (i 1).isLt
  have h2 : (i 2).val < 64 := (i 2).isLt
  obtain ⟨t, ht⟩ : ∃ t : Fin cfg2.N, t.val = 16 * (i 0).val + 15 :=
    ⟨⟨16 * (i 0).val + 15, by show _ < grid2.N; rw [N_2]; omega⟩, rfl⟩
  obtain ⟨e0, e1, e2⟩ := idx2_2 t
  refine ⟨t, (flush2_2 t).mpr (by omega), ?_⟩
  rw [mem_blk2]
  intro a
  match a with
  | ⟨0, _⟩ => show win2_2.index t 0 * 1 ≤ (i 0).val ∧ (i 0).val < win2_2.index t 0 * 1 + 1; omega
  | ⟨1, _⟩ => show win2_2.index t 1 * 8192 ≤ (i 1).val ∧ (i 1).val < win2_2.index t 1 * 8192 + 8192; omega
  | ⟨2, _⟩ => show win2_2.index t 2 * 64 ≤ (i 2).val ∧ (i 2).val < win2_2.index t 2 * 64 + 64; omega

/-- The output array after the region: the diffusion step of the adjacency and the activation as the region found them. -/
theorem final2 (c : Dev nD) : (dat2 V c).arrAt 2 cfg2.N = diffuse (adj2 V c) (act2 V c) :=
  (dat2 V c).arrAt_eq_of_cover 2 (diffuse (adj2 V c) (act2 V c)) (fun t hf => flushed2_eq V c t hf) (fun i => cover2 i)

/-- The adjacency array is left as found. -/
theorem final2_in0 (c : Dev nD) : (dat2 V c).arrAt 0 cfg2.N = V c (Pipeline.arrRef spec2 0) :=
  ((dat2 V c).arrAt_in 0 rfl _).trans (A_eq2 V c 0)

/-- The activation array is left as found. -/
theorem final2_in1 (c : Dev nD) : (dat2 V c).arrAt 1 cfg2.N = V c (Pipeline.arrRef spec2 1) :=
  ((dat2 V c).arrAt_in 1 rfl _).trans (A_eq2 V c 1)

end Cert.KernelIdeal.Hand

end
-- ==== Proof.HandKI.Val3Pay.lean ====
/-
  Diffusion step, kernel region 3, over the extended reals: what the body's three stored values are at an index.

  The accumulator's reset value is zero everywhere. One step's value at row n, column h is the accumulator there plus the
  block product formed on a fresh zero: 0 + sum over the 512 columns j of the adjacency block of x0[0, n, j] * x1[0, j, h]
  (casts between float formats are the identity on the extended reals, and dropping or adding a leading axis of extent one
  does not move an element). The value copied to the output block at [0, n, h] is the accumulator at [n, h].
-/
import proofs.«169539_j48112223650339_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.ValueIdx

/-- The reset value of the accumulator is zero at every index. -/
theorem k3_pay1_apply (n : Fin 8192) (h : Fin 64) : k3_pay1 (F := Ideal) (ix2 n h) = 0 := by
  unfold k3_pay1
  rw [shapeCast_self, broadcast_apply]
  exact Ideal.ofBits_zero_f32

/-- The left operand's index of the block product: row n of the result, column k of the block. -/
theorem k3_lhsIdx (n : Fin 8192) (h : Fin 64) (k : Fin 512) :
    dot_S8192x512_S512x64_S8192x64_1_0_0_1_n_n.lhsIdx (ix2 n h)
        ((contrEquiv1 dot_S8192x512_S512x64_S8192x64_1_0_0_1_n_n 512 rfl rfl).symm k) = ix2 n k :=
  funext fun a => Fin.ext (by
    match a with
    | ⟨0, _⟩ => rfl
    | ⟨1, _⟩ =>
      exact (dot_S8192x512_S512x64_S8192x64_1_0_0_1_n_n.lhsIdx_val_of_single rfl _ _).trans
        (contrEquiv1_symm_val dot_S8192x512_S512x64_S8192x64_1_0_0_1_n_n 512 rfl rfl k))

/-- The right operand's index: row k of the block, column h of the result. -/
theorem k3_rhsIdx (n : Fin 8192) (h : Fin 64) (k : Fin 512) :
    dot_S8192x512_S512x64_S8192x64_1_0_0_1_n_n.rhsIdx (ix2 n h)
        ((contrEquiv1 dot_S8192x512_S512x64_S8192x64_1_0_0_1_n_n 512 rfl rfl).symm k) = ix2 k h :=
  funext fun a => Fin.ext (by
    match a with
    | ⟨0, _⟩ =>
      exact (dot_S8192x512_S512x64_S8192x64_1_0_0_1_n_n.rhsIdx_val_of_single rfl _ _).trans
        (contrEquiv1_symm_val dot_S8192x512_S512x64_S8192x64_1_0_0_1_n_n 512 rfl rfl k)
    | ⟨1, _⟩ => rfl)

/-- One step of the accumulator at an index: what it held plus the block product formed on a fresh zero. -/
theorem k3_pay2_apply (x0 : Vec Ideal S1x8192x512 .bf16) (x1 : Vec Ideal S1x512x64 .f32) (xs : Vec Ideal S8192x64 .f32)
    (n : Fin 8192) (h : Fin 64) :
    k3_pay2 (F := Ideal) x0 x1 xs (ix2 n h)
      = xs (ix2 n h) + (0 + ∑ j : Fin 512, x0 (ix3 (0 : Fin 1) n j) * x1 (ix3 (0 : Fin 1) j h)) := by
  unfold k3_pay2
  rw [shapeCast_self, addf_apply, zero_add]
  refine congrArg (xs (ix2 n h) + ·) ?_
  simp only [matmul]
  rw [Ideal.matmul_constant_zero_apply,
    ← Equiv.sum_comp (contrEquiv1 dot_S8192x512_S512x64_S8192x64_1_0_0_1_n_n 512 rfl rfl).symm]
  refine Finset.sum_congr rfl fun k _ => ?_
  rw [k3_lhsIdx, k3_rhsIdx, truncf_apply, shapeCast_1ab_ab_apply, shapeCast_1ab_ab_apply]

/-- The value copied out at [0, n, h] is the accumulator at [n, h]. -/
theorem k3_pay3_apply (v : Vec Ideal S8192x64 .f32) (n : Fin 8192) (h : Fin 64) :
    k3_pay3 (F := Ideal) v (ix3 (0 : Fin 1) n h) = v (ix2 n h) := by
  unfold k3_pay3
  rw [shapeCast_ab_1ab_apply]

end Cert.KernelIdeal.Hand

end
-- ==== Proof.HandKI.Val3Blk.lean ====
/-
  Diffusion step, kernel region 3: the blocks the body reads, at coordinates of the whole arrays.

  Point t of the grid is batch element b = t / 16 and column block k = t mod 16. The adjacency block at t is rows 0..8191 and
  columns 512 k .. 512 k + 511 of batch b: its element [0, n, j] is the array's [b, n, 512 k + j]. The activation block at t is
  rows 512 k .. 512 k + 511 of batch b: its element [0, j, h] is the array's [b, 512 k + j, h]. (On every axis a block's element sits
  at block index times block size plus its own coordinate.)
-/
import proofs.«169539_j48112223650339_2_alg».proof.Proof.HandKI.Dat3
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-- The adjacency window's block index at point t: (t / 16, 0, t mod 16). -/
theorem idx3_0 : ∀ t : Fin cfg3.N, win3_0.index t 0 = t.val / 16 ∧ win3_0.index t 1 = 0 ∧ win3_0.index t 2 = t.val % 16 :=
  (by decide +kernel : ∀ t : Fin grid3.N, win3_0.index t 0 = t.val / 16 ∧ win3_0.index t 1 = 0 ∧ win3_0.index t 2 = t.val % 16)

/-- The activation window's block index at point t: (t / 16, t mod 16, 0). -/
theorem idx3_1 : ∀ t : Fin cfg3.N, win3_1.index t 0 = t.val / 16 ∧ win3_1.index t 1 = t.val % 16 ∧ win3_1.index t 2 = 0 :=
  (by decide +kernel : ∀ t : Fin grid3.N, win3_1.index t 0 = t.val / 16 ∧ win3_1.index t 1 = t.val % 16 ∧ win3_1.index t 2 = 0)

/-- The adjacency block at point t, element [0, n, j], is the array's element [b, n, q] with b = t / 16 and
    q = 512 (t mod 16) + j. -/
theorem iblk3_0_at (c : Dev nD) (t : Fin cfg3.N) (n : Fin 8192) (j : Fin 512) (b : Fin 2) (q : Fin 8192)
    (hb : b.val = t.val / 16) (hq : q.val = 512 * (t.val % 16) + j.val) :
    iblk3 V c 0 t (ix3 (0 : Fin 1) n j) = V c (Pipeline.arrRef spec3 0) (ix3 b n q) := by
  obtain ⟨e0, e1, e2⟩ := idx3_0 t
  unfold iblk3
  rw [View.read_apply]
  show V c (Pipeline.arrRef spec3 0) _ = V c (Pipeline.arrRef spec3 0) _
  congr 1
  funext a
  apply Fin.ext
  match a with
  | ⟨0, _⟩ => show win3_0.index t 0 * 1 + 1 * 0 = b.val; omega
  | ⟨1, _⟩ => show win3_0.index t 1 * 8192 + 1 * n.val = n.val; omega
  | ⟨2, _⟩ => show win3_0.index t 2 * 512 + 1 * j.val = q.val; omega

/-- The activation block at point t, element [0, j, h], is the array's element [b, q, h] with b = t / 16 and
    q = 512 (t mod 16) + j. -/
theorem iblk3_1_at (c : Dev nD) (t : Fin cfg3.N) (j : Fin 512) (h : Fin 64) (b : Fin 2) (q : Fin 8192)
    (hb : b.val = t.val / 16) (hq : q.val = 512 * (t.val % 16) + j.val) :
    iblk3 V c 1 t (ix3 (0 : Fin 1) j h) = V c (Pipeline.arrRef spec3 1) (ix3 b q h) := by
  obtain ⟨e0, e1, e2⟩ := idx3_1 t
  unfold iblk3
  rw [View.read_apply]
  show V c (Pipeline.arrRef spec3 1) _ = V c (Pipeline.arrRef spec3 1) _
  congr 1
  funext a
  apply Fin.ext
  match a with
  | ⟨0, _⟩ => show win3_1.index t 0 * 1 + 1 * 0 = b.val; omega
  | ⟨1, _⟩ => show win3_1.index t 1 * 512 + 1 * j.val = q.val; omega
  | ⟨2, _⟩ => show win3_1.index t 2 * 64 + 1 * h.val = h.val; omega

/-- The same with the array's coordinates written out. -/
theorem iblk3_0_apply (c : Dev nD) (t : Fin cfg3.N) (n : Fin 8192) (j : Fin 512)
    (hb : t.val / 16 < 2) (hq : 512 * (t.val % 16) + j.val < 8192) :
    iblk3 V c 0 t (ix3 (0 : Fin 1) n j)
      = V c (Pipeline.arrRef spec3 0) (ix3 (⟨t.val / 16, hb⟩ : Fin 2) n (⟨512 * (t.val % 16) + j.val, hq⟩ : Fin 8192)) :=
  iblk3_0_at V c t n j _ _ rfl rfl

theorem iblk3_1_apply (c : Dev nD) (t : Fin cfg3.N) (j : Fin 512) (h : Fin 64)
    (hb : t.val / 16 < 2) (hq : 512 * (t.val % 16) + j.val < 8192) :
    iblk3 V c 1 t (ix3 (0 : Fin 1) j h)
      = V c (Pipeline.arrRef spec3 1) (ix3 (⟨t.val / 16, hb⟩ : Fin 2) (⟨512 * (t.val % 16) + j.val, hq⟩ : Fin 8192) h) :=
  iblk3_1_at V c t j h _ _ rfl rfl

end Cert.KernelIdeal.Hand

end
-- ==== Proof.HandKI.Val3Acc.lean ====
/-
  Diffusion step, kernel region 3, over the extended reals: the scratch accumulator is the block-wise partial sum.

  Along the 16 column blocks of batch element b the accumulator starts from zero and each block k adds its own product, formed
  on a fresh zero: at row n, column h, 0 + sum over j < 512 of adj[b, n, 512 k + j] * d[b, 512 k + j, h]. So after column block
  k (point 16 b + k) the accumulator at [n, h] is the accumulation over blocks 0 .. k of the summand j |-> adj[b, n, j] * d[b, j, h],
  the contracted axis cut into 16 blocks of 512. By induction on k.
-/
import proofs.«169539_j48112223650339_2_alg».proof.Proof.HandKI.Val3Pay
import proofs.«169539_j48112223650339_2_alg».proof.Proof.HandKI.Val3Blk
import proofs.«169539_j48112223650339_2_alg».proof.Proof.SpecBlocks

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec Cert.Spec.Blocks

variable (V : (c : Dev nD) → (b : Ref sig .tc) → Buf (Elt Ideal) ((c : Thread nD τ).loc b))

/-- The adjacency array as the region finds it, as a function of its index. -/
abbrev adj3 (c : Dev nD) : SAdj.Idx → EReal := V c (Pipeline.arrRef spec3 0)
/-- The activation array as the region finds it, as a function of its index. -/
abbrev act3 (c : Dev nD) : SH.Idx → EReal := V c (Pipeline.arrRef spec3 1)

/-- Column block k of batch element b is a point of the grid. -/
theorem pt3_lt (b : Fin 2) (k : ℕ) (hk : k < 16) : 16 * b.val + k < cfg3.N := by
  show 16 * b.val + k < grid3.N
  rw [N_3]; omega

/-- The accumulator after a point, from the accumulator before it. -/
theorem accAt3_next (c : Dev nD) (m : ℕ) (hm : m < cfg3.N) :
    accAt3 V c (m + 1)
      = k3_pay2 (iblk3 V c 0 ⟨m, hm⟩) (iblk3 V c 1 ⟨m, hm⟩) (if m % 16 = 0 then k3_pay1 (F := Ideal) else accAt3 V c m) := by
  rw [accAt3, dif_pos hm]

/-- One step at an index: column block k of batch b adds, to whatever the accumulator held, the block's partial sum of the
    summand, formed on a fresh zero. -/
theorem step3_apply (c : Dev nD) (b : Fin 2) (k : ℕ) (hk : k < 16) (n : Fin 8192) (h : Fin 64) (X : Vec Ideal S8192x64 .f32) :
    k3_pay2 (F := Ideal) (iblk3 V c 0 ⟨16 * b.val + k, pt3_lt b k hk⟩) (iblk3 V c 1 ⟨16 * b.val + k, pt3_lt b k hk⟩) X (ix2 n h)
      = X (ix2 n h) + (0 + ∑ j : Fin 512, summand (adj3 V c) (act3 V c) b n h (col 16 512 cut_16_512 ⟨k, hk⟩ j)) := by
  refine (k3_pay2_apply _ _ X n h).trans ?_
  refine congrArg (fun s => X (ix2 n h) + (0 + s)) ?_
  refine Finset.sum_congr rfl fun j _ => ?_
  have hb : b.val = (16 * b.val + k) / 16 := by omega
  have hq : (col 16 512 cut_16_512 ⟨k, hk⟩ j).val = 512 * ((16 * b.val + k) % 16) + j.val := by
    show k * 512 + j.val = 512 * ((16 * b.val + k) % 16) + j.val
    omega
  rw [summand_apply]
  exact congrArg₂ (· * ·)
    (iblk3_0_at V c ⟨16 * b.val + k, pt3_lt b k hk⟩ n j b (col 16 512 cut_16_512 ⟨k, hk⟩ j) hb hq)
    (iblk3_1_at V c ⟨16 * b.val + k, pt3_lt b k hk⟩ j h b (col 16 512 cut_16_512 ⟨k, hk⟩ j) hb hq)

/-- After column block k of batch element b the accumulator at [n, h] is the accumulation of the summand over blocks 0 .. k. -/
theorem accAt3_eq_acc (c : Dev nD) (b : Fin 2) (n : Fin 8192) (h : Fin 64) :
    ∀ (k : ℕ) (hk : k < 16), accAt3 V c (16 * b.val + k + 1) (ix2 n h)
      = acc 16 512 cut_16_512 (summand (adj3 V c) (act3 V c) b n h) (k + 1)
  | 0, hk => by
    rw [accAt3_next V c (16 * b.val + 0) (pt3_lt b 0 hk), if_pos (by omega)]
    refine (step3_apply V c b 0 hk n h _).trans ?_
    rw [k3_pay1_apply, acc_succ_of_lt 16 512 cut_16_512 _ hk, acc_zero]
  | k + 1, hk => by
    have ih := accAt3_eq_acc c b n h k (by omega)
    rw [accAt3_next V c (16 * b.val + (k + 1)) (pt3_lt b (k + 1) hk), if_neg (by omega)]
    refine (step3_apply V c b (k + 1) hk n h _).trans ?_
    rw [acc_succ_of_lt 16 512 cut_16_512 _ hk]
    exact congrArg (· + _) ih

end Cert.KernelIdeal.Hand

end
-- ==== Proof.HandKI.Val3Final.lean ====
/-
  Diffusion step, kernel region 3, over the extended reals: what the region leaves in its arrays.

  The output block of batch element b is written back once, after the last column block (point 16 b + 15), holding the
  accumulator after all 16 column blocks: at [0, n, h] the accumulation of adj[b, n, j] * d[b, j, h] over the 16 blocks of 512
  positions j, which is the whole sum over j < 8192. The block of batch b is rows [b, *, *] of the output array, and the two
  write-backs cover it, so the output array ends holding the diffusion step of the adjacency and the activation as the region
  found them. The two input arrays are never written.
-/
import proofs.«169539_j48112223650339_2_alg».proof.Proof.HandKI.Val3Acc

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec Cert.Spec.Blocks

variable (V : (c : Dev nD) → (b : Ref sig .tc) → Buf (Elt Ideal) ((c : Thread nD τ).loc b))

/-- The output window's block index at point t: (t / 16, 0, 0). -/
theorem idx3_2 : ∀ t : Fin cfg3.N, win3_2.index t 0 = t.val / 16 ∧ win3_2.index t 1 = 0 ∧ win3_2.index t 2 = 0 :=
  (by decide +kernel : ∀ t : Fin grid3.N, win3_2.index t 0 = t.val / 16 ∧ win3_2.index t 1 = 0 ∧ win3_2.index t 2 = 0)

/-- After the last column block of batch element b the accumulator holds the diffusion step's row of batch b. -/
theorem accAt3_last (c : Dev nD) (b : Fin 2) (n : Fin 8192) (h : Fin 64) :
    accAt3 V c (16 * b.val + 15 + 1) (ix2 n h) = diffuse (adj3 V c) (act3 V c) (ix3 b n h) :=
  (accAt3_eq_acc V c b n h 15 (by omega)).trans (diffuse_acc_16_512 _ _ b n h)

/-- What a write-back point writes is its block of the diffusion step. -/
theorem flushed3_eq (c : Dev nD) (t : Fin cfg3.N) (hf : (cfg3.win 2).flush t = true) :
    (dat3 V c).flushed 2 t = ((cfg3.win 2).blk t).view.read (Elt Ideal) (diffuse (adj3 V c) (act3 V c)) := by
  have h15 : t.val % 16 = 15 := (flush3_2 t).mp hf
  have hlt : t.val < 32 := Nat.lt_of_lt_of_eq t.isLt N_3
  obtain ⟨b, hb⟩ : ∃ b : Fin 2, b.val = t.val / 16 := ⟨⟨t.val / 16, by omega⟩, rfl⟩
  obtain ⟨e0, e1, e2⟩ := idx3_2 t
  show (cfg3.win 2).cut (grid3.coords t) ((dat3 V c).after 2 t) = _
  rw [after3_2]
  refine funext fun (y : S1x8192x64.Idx) => ?_
  obtain ⟨u, n, h, rfl⟩ : ∃ (u : Fin 1) (n : Fin 8192) (h : Fin 64), y = ix3 u n h := ⟨y 0, y 1, y 2, eq_ix3 y⟩
  obtain rfl : u = 0 := Subsingleton.elim _ _
  show k3_pay3 (F := Ideal) (accAt3 V c (t.val + 1)) (ix3 (0 : Fin 1) n h)
    = diffuse (adj3 V c) (act3 V c) (((cfg3.win 2).blk t).view.emb (ix3 (0 : Fin 1) n h))
  have hemb : ((cfg3.win 2).blk t).view.emb (ix3 (0 : Fin 1) n h) = (ix3 b n h : S2x8192x64.Idx) := by
    funext a
    apply Fin.ext
    match a with
    | ⟨0, _⟩ => show win3_2.index t 0 * 1 + 1 * 0 = b.val; omega
    | ⟨1, _⟩ => show win3_2.index t 1 * 8192 + 1 * n.val = n.val; omega
    | ⟨2, _⟩ => show win3_2.index t 2 * 64 + 1 * h.val = h.val; omega
  refine Eq.trans ?_ (congrArg (diffuse (adj3 V c) (act3 V c)) hemb).symm
  rw [k3_pay3_apply, show t.val + 1 = 16 * b.val + 15 + 1 from by omega]
  exact accAt3_last V c b n h

/-- An index of the output array is in point t's block iff each coordinate is in the block's range on its axis. -/
theorem mem_blk3 (t : Fin cfg3.N) (i : S2x8192x64.Idx) :
    i ∈ ((cfg3.win 2).blk t).view.set
      ↔ ∀ a : Fin 3, win3_2.index t a * S1x8192x64.size a ≤ (i a).val ∧ (i a).val < win3_2.index t a * S1x8192x64.size a + S1x8192x64.size a := by
  show i ∈ ((View.whole main_v4).slice (win3_2.rect t)).set ↔ _
  rw [View.set_slice_whole, Rect.mem_set_unit]
  exact Iff.rfl

/-- Every index [b, n, h] of the output array is in the block written back at point 16 b + 15. -/
theorem cover3 (i : S2x8192x64.Idx) :
    ∃ t : Fin cfg3.N, (cfg3.win 2).flush t = true ∧ i ∈ ((cfg3.win 2).blk t).view.set := by
  have h0 : (i 0).val < 2 := (i 0).isLt
  have h1 : (i 1).val < 8192 := (i 1).isLt
  have h2 : (i 2).val < 64 := (i 2).isLt
  obtain ⟨t, ht⟩ : ∃ t : Fin cfg3.N, t.val = 16 * (i 0).val + 15 :=
    ⟨⟨16 * (i 0).val + 15, by show _ < grid3.N; rw [N_3]; omega⟩, rfl⟩
  obtain ⟨e0, e1, e2⟩ := idx3_2 t
  refine ⟨t, (flush3_2 t).mpr (by omega), ?_⟩
  rw [mem_blk3]
  intro a
  match a with
  | ⟨0, _⟩ => show win3_2.index t 0 * 1 ≤ (i 0).val ∧ (i 0).val < win3_2.index t 0 * 1 + 1; omega
  | ⟨1, _⟩ => show win3_2.index t 1 * 8192 ≤ (i 1).val ∧ (i 1).val < win3_2.index t 1 * 8192 + 8192; omega
  | ⟨2, _⟩ => show win3_2.index t 2 * 64 ≤ (i 2).val ∧ (i 2).val < win3_2.index t 2 * 64 + 64; omega

/-- The output array after the region: the diffusion step of the adjacency and the activation as the region found them. -/
theorem final3 (c : Dev nD) : (dat3 V c).arrAt 2 cfg3.N = diffuse (adj3 V c) (act3 V c) :=
  (dat3 V c).arrAt_eq_of_cover 2 (diffuse (adj3 V c) (act3 V c)) (fun t hf => flushed3_eq V c t hf) (fun i => cover3 i)

/-- The adjacency array is left as found. -/
theorem final3_in0 (c : Dev nD) : (dat3 V c).arrAt 0 cfg3.N = V c (Pipeline.arrRef spec3 0) :=
  ((dat3 V c).arrAt_in 0 rfl _).trans (A_eq3 V c 0)

/-- The activation array is left as found. -/
theorem final3_in1 (c : Dev nD) : (dat3 V c).arrAt 1 cfg3.N = V c (Pipeline.arrRef spec3 1) :=
  ((dat3 V c).arrAt_in 1 rfl _).trans (A_eq3 V c 1)

end Cert.KernelIdeal.Hand

end
-- ==== Proof.HandKI.Val5Pay.lean ====
/-
  Diffusion step, kernel region 5, over the extended reals: what the body's three stored values are at an index.

  The accumulator's reset value is zero everywhere. One step's value at row n, column h is the accumulator there plus the
  block product formed on a fresh zero: 0 + sum over the 512 columns j of the adjacency block of x0[0, n, j] * x1[0, j, h]
  (casts between float formats are the identity on the extended reals, and dropping or adding a leading axis of extent one
  does not move an element). The value copied to the output block at [0, n, h] is the accumulator at [n, h].
-/
import proofs.«169539_j48112223650339_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.ValueIdx

/-- The reset value of the accumulator is zero at every index. -/
theorem k5_pay1_apply (n : Fin 8192) (h : Fin 64) : k5_pay1 (F := Ideal) (ix2 n h) = 0 := by
  unfold k5_pay1
  rw [shapeCast_self, broadcast_apply]
  exact Ideal.ofBits_zero_f32

/-- The left operand's index of the block product: row n of the result, column k of the block. -/
theorem k5_lhsIdx (n : Fin 8192) (h : Fin 64) (k : Fin 512) :
    dot_S8192x512_S512x64_S8192x64_1_0_0_1_n_n.lhsIdx (ix2 n h)
        ((contrEquiv1 dot_S8192x512_S512x64_S8192x64_1_0_0_1_n_n 512 rfl rfl).symm k) = ix2 n k :=
  funext fun a => Fin.ext (by
    match a with
    | ⟨0, _⟩ => rfl
    | ⟨1, _⟩ =>
      exact (dot_S8192x512_S512x64_S8192x64_1_0_0_1_n_n.lhsIdx_val_of_single rfl _ _).trans
        (contrEquiv1_symm_val dot_S8192x512_S512x64_S8192x64_1_0_0_1_n_n 512 rfl rfl k))

/-- The right operand's index: row k of the block, column h of the result. -/
theorem k5_rhsIdx (n : Fin 8192) (h : Fin 64) (k : Fin 512) :
    dot_S8192x512_S512x64_S8192x64_1_0_0_1_n_n.rhsIdx (ix2 n h)
        ((contrEquiv1 dot_S8192x512_S512x64_S8192x64_1_0_0_1_n_n 512 rfl rfl).symm k) = ix2 k h :=
  funext fun a => Fin.ext (by
    match a with
    | ⟨0, _⟩ =>
      exact (dot_S8192x512_S512x64_S8192x64_1_0_0_1_n_n.rhsIdx_val_of_single rfl _ _).trans
        (contrEquiv1_symm_val dot_S8192x512_S512x64_S8192x64_1_0_0_1_n_n 512 rfl rfl k)
    | ⟨1, _⟩ => rfl)

/-- One step of the accumulator at an index: what it held plus the block product formed on a fresh zero. -/
theorem k5_pay2_apply (x0 : Vec Ideal S1x8192x512 .bf16) (x1 : Vec Ideal S1x512x64 .f32) (xs : Vec Ideal S8192x64 .f32)
    (n : Fin 8192) (h : Fin 64) :
    k5_pay2 (F := Ideal) x0 x1 xs (ix2 n h)
      = xs (ix2 n h) + (0 + ∑ j : Fin 512, x0 (ix3 (0 : Fin 1) n j) * x1 (ix3 (0 : Fin 1) j h)) := by
  unfold k5_pay2
  rw [shapeCast_self, addf_apply, zero_add]
  refine congrArg (xs (ix2 n h) + ·) ?_
  simp only [matmul]
  rw [Ideal.matmul_constant_zero_apply,
    ← Equiv.sum_comp (contrEquiv1 dot_S8192x512_S512x64_S8192x64_1_0_0_1_n_n 512 rfl rfl).symm]
  refine Finset.sum_congr rfl fun k _ => ?_
  rw [k5_lhsIdx, k5_rhsIdx, truncf_apply, shapeCast_1ab_ab_apply, shapeCast_1ab_ab_apply]

/-- The value copied out at [0, n, h] is the accumulator at [n, h]. -/
theorem k5_pay3_apply (v : Vec Ideal S8192x64 .f32) (n : Fin 8192) (h : Fin 64) :
    k5_pay3 (F := Ideal) v (ix3 (0 : Fin 1) n h) = v (ix2 n h) := by
  unfold k5_pay3
  rw [shapeCast_ab_1ab_apply]

end Cert.KernelIdeal.Hand

end
-- ==== Proof.HandKI.Val5Blk.lean ====
/-
  Diffusion step, kernel region 5: the blocks the body reads, at coordinates of the whole arrays.

  Point t of the grid is batch element b = t / 16 and column block k = t mod 16. The adjacency block at t is rows 0..8191 and
  columns 512 k .. 512 k + 511 of batch b: its element [0, n, j] is the array's [b, n, 512 k + j]. The activation block at t is
  rows 512 k .. 512 k + 511 of batch b: its element [0, j, h] is the array's [b, 512 k + j, h]. (On every axis a block's element sits
  at block index times block size plus its own coordinate.)
-/
import proofs.«169539_j48112223650339_2_alg».proof.Proof.HandKI.Dat5
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-- The adjacency window's block index at point t: (t / 16, 0, t mod 16). -/
theorem idx5_0 : ∀ t : Fin cfg5.N, win5_0.index t 0 = t.val / 16 ∧ win5_0.index t 1 = 0 ∧ win5_0.index t 2 = t.val % 16 :=
  (by decide +kernel : ∀ t : Fin grid5.N, win5_0.index t 0 = t.val / 16 ∧ win5_0.index t 1 = 0 ∧ win5_0.index t 2 = t.val % 16)

/-- The activation window's block index at point t: (t / 16, t mod 16, 0). -/
theorem idx5_1 : ∀ t : Fin cfg5.N, win5_1.index t 0 = t.val / 16 ∧ win5_1.index t 1 = t.val % 16 ∧ win5_1.index t 2 = 0 :=
  (by decide +kernel : ∀ t : Fin grid5.N, win5_1.index t 0 = t.val / 16 ∧ win5_1.index t 1 = t.val % 16 ∧ win5_1.index t 2 = 0)

/-- The adjacency block at point t, element [0, n, j], is the array's element [b, n, q] with b = t / 16 and
    q = 512 (t mod 16) + j. -/
theorem iblk5_0_at (c : Dev nD) (t : Fin cfg5.N) (n : Fin 8192) (j : Fin 512) (b : Fin 2) (q : Fin 8192)
    (hb : b.val = t.val / 16) (hq : q.val = 512 * (t.val % 16) + j.val) :
    iblk5 V c 0 t (ix3 (0 : Fin 1) n j) = V c (Pipeline.arrRef spec5 0) (ix3 b n q) := by
  obtain ⟨e0, e1, e2⟩ := idx5_0 t
  unfold iblk5
  rw [View.read_apply]
  show V c (Pipeline.arrRef spec5 0) _ = V c (Pipeline.arrRef spec5 0) _
  congr 1
  funext a
  apply Fin.ext
  match a with
  | ⟨0, _⟩ => show win5_0.index t 0 * 1 + 1 * 0 = b.val; omega
  | ⟨1, _⟩ => show win5_0.index t 1 * 8192 + 1 * n.val = n.val; omega
  | ⟨2, _⟩ => show win5_0.index t 2 * 512 + 1 * j.val = q.val; omega

/-- The activation block at point t, element [0, j, h], is the array's element [b, q, h] with b = t / 16 and
    q = 512 (t mod 16) + j. -/
theorem iblk5_1_at (c : Dev nD) (t : Fin cfg5.N) (j : Fin 512) (h : Fin 64) (b : Fin 2) (q : Fin 8192)
    (hb : b.val = t.val / 16) (hq : q.val = 512 * (t.val % 16) + j.val) :
    iblk5 V c 1 t (ix3 (0 : Fin 1) j h) = V c (Pipeline.arrRef spec5 1) (ix3 b q h) := by
  obtain ⟨e0, e1, e2⟩ := idx5_1 t
  unfold iblk5
  rw [View.read_apply]
  show V c (Pipeline.arrRef spec5 1) _ = V c (Pipeline.arrRef spec5 1) _
  congr 1
  funext a
  apply Fin.ext
  match a with
  | ⟨0, _⟩ => show win5_1.index t 0 * 1 + 1 * 0 = b.val; omega
  | ⟨1, _⟩ => show win5_1.index t 1 * 512 + 1 * j.val = q.val; omega
  | ⟨2, _⟩ => show win5_1.index t 2 * 64 + 1 * h.val = h.val; omega

/-- The same with the array's coordinates written out. -/
theorem iblk5_0_apply (c : Dev nD) (t : Fin cfg5.N) (n : Fin 8192) (j : Fin 512)
    (hb : t.val / 16 < 2) (hq : 512 * (t.val % 16) + j.val < 8192) :
    iblk5 V c 0 t (ix3 (0 : Fin 1) n j)
      = V c (Pipeline.arrRef spec5 0) (ix3 (⟨t.val / 16, hb⟩ : Fin 2) n (⟨512 * (t.val % 16) + j.val, hq⟩ : Fin 8192)) :=
  iblk5_0_at V c t n j _ _ rfl rfl

theorem iblk5_1_apply (c : Dev nD) (t : Fin cfg5.N) (j : Fin 512) (h : Fin 64)
    (hb : t.val / 16 < 2) (hq : 512 * (t.val % 16) + j.val < 8192) :
    iblk5 V c 1 t (ix3 (0 : Fin 1) j h)
      = V c (Pipeline.arrRef spec5 1) (ix3 (⟨t.val / 16, hb⟩ : Fin 2) (⟨512 * (t.val % 16) + j.val, hq⟩ : Fin 8192) h) :=
  iblk5_1_at V c t j h _ _ rfl rfl

end Cert.KernelIdeal.Hand

end
-- ==== Proof.HandKI.Val5Acc.lean ====
/-
  Diffusion step, kernel region 5, over the extended reals: the scratch accumulator is the block-wise partial sum.

  Along the 16 column blocks of batch element b the accumulator starts from zero and each block k adds its own product, formed
  on a fresh zero: at row n, column h, 0 + sum over j < 512 of adj[b, n, 512 k + j] * d[b, 512 k + j, h]. So after column block
  k (point 16 b + k) the accumulator at [n, h] is the accumulation over blocks 0 .. k of the summand j |-> adj[b, n, j] * d[b, j, h],
  the contracted axis cut into 16 blocks of 512. By induction on k.
-/
import proofs.«169539_j48112223650339_2_alg».proof.Proof.HandKI.Val5Pay
import proofs.«169539_j48112223650339_2_alg».proof.Proof.HandKI.Val5Blk
import proofs.«169539_j48112223650339_2_alg».proof.Proof.SpecBlocks

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec Cert.Spec.Blocks

variable (V : (c : Dev nD) → (b : Ref sig .tc) → Buf (Elt Ideal) ((c : Thread nD τ).loc b))

/-- The adjacency array as the region finds it, as a function of its index. -/
abbrev adj5 (c : Dev nD) : SAdj.Idx → EReal := V c (Pipeline.arrRef spec5 0)
/-- The activation array as the region finds it, as a function of its index. -/
abbrev act5 (c : Dev nD) : SH.Idx → EReal := V c (Pipeline.arrRef spec5 1)

/-- Column block k of batch element b is a point of the grid. -/
theorem pt5_lt (b : Fin 2) (k : ℕ) (hk : k < 16) : 16 * b.val + k < cfg5.N := by
  show 16 * b.val + k < grid5.N
  rw [N_5]; omega

/-- The accumulator after a point, from the accumulator before it. -/
theorem accAt5_next (c : Dev nD) (m : ℕ) (hm : m < cfg5.N) :
    accAt5 V c (m + 1)
      = k5_pay2 (iblk5 V c 0 ⟨m, hm⟩) (iblk5 V c 1 ⟨m, hm⟩) (if m % 16 = 0 then k5_pay1 (F := Ideal) else accAt5 V c m) := by
  rw [accAt5, dif_pos hm]

/-- One step at an index: column block k of batch b adds, to whatever the accumulator held, the block's partial sum of the
    summand, formed on a fresh zero. -/
theorem step5_apply (c : Dev nD) (b : Fin 2) (k : ℕ) (hk : k < 16) (n : Fin 8192) (h : Fin 64) (X : Vec Ideal S8192x64 .f32) :
    k5_pay2 (F := Ideal) (iblk5 V c 0 ⟨16 * b.val + k, pt5_lt b k hk⟩) (iblk5 V c 1 ⟨16 * b.val + k, pt5_lt b k hk⟩) X (ix2 n h)
      = X (ix2 n h) + (0 + ∑ j : Fin 512, summand (adj5 V c) (act5 V c) b n h (col 16 512 cut_16_512 ⟨k, hk⟩ j)) := by
  refine (k5_pay2_apply _ _ X n h).trans ?_
  refine congrArg (fun s => X (ix2 n h) + (0 + s)) ?_
  refine Finset.sum_congr rfl fun j _ => ?_
  have hb : b.val = (16 * b.val + k) / 16 := by omega
  have hq : (col 16 512 cut_16_512 ⟨k, hk⟩ j).val = 512 * ((16 * b.val + k) % 16) + j.val := by
    show k * 512 + j.val = 512 * ((16 * b.val + k) % 16) + j.val
    omega
  rw [summand_apply]
  exact congrArg₂ (· * ·)
    (iblk5_0_at V c ⟨16 * b.val + k, pt5_lt b k hk⟩ n j b (col 16 512 cut_16_512 ⟨k, hk⟩ j) hb hq)
    (iblk5_1_at V c ⟨16 * b.val + k, pt5_lt b k hk⟩ j h b (col 16 512 cut_16_512 ⟨k, hk⟩ j) hb hq)

/-- After column block k of batch element b the accumulator at [n, h] is the accumulation of the summand over blocks 0 .. k. -/
theorem accAt5_eq_acc (c : Dev nD) (b : Fin 2) (n : Fin 8192) (h : Fin 64) :
    ∀ (k : ℕ) (hk : k < 16), accAt5 V c (16 * b.val + k + 1) (ix2 n h)
      = acc 16 512 cut_16_512 (summand (adj5 V c) (act5 V c) b n h) (k + 1)
  | 0, hk => by
    rw [accAt5_next V c (16 * b.val + 0) (pt5_lt b 0 hk), if_pos (by omega)]
    refine (step5_apply V c b 0 hk n h _).trans ?_
    rw [k5_pay1_apply, acc_succ_of_lt 16 512 cut_16_512 _ hk, acc_zero]
  | k + 1, hk => by
    have ih := accAt5_eq_acc c b n h k (by omega)
    rw [accAt5_next V c (16 * b.val + (k + 1)) (pt5_lt b (k + 1) hk), if_neg (by omega)]
    refine (step5_apply V c b (k + 1) hk n h _).trans ?_
    rw [acc_succ_of_lt 16 512 cut_16_512 _ hk]
    exact congrArg (· + _) ih

end Cert.KernelIdeal.Hand

end
-- ==== Proof.HandKI.Val5Final.lean ====
/-
  Diffusion step, kernel region 5, over the extended reals: what the region leaves in its arrays.

  The output block of batch element b is written back once, after the last column block (point 16 b + 15), holding the
  accumulator after all 16 column blocks: at [0, n, h] the accumulation of adj[b, n, j] * d[b, j, h] over the 16 blocks of 512
  positions j, which is the whole sum over j < 8192. The block of batch b is rows [b, *, *] of the output array, and the two
  write-backs cover it, so the output array ends holding the diffusion step of the adjacency and the activation as the region
  found them. The two input arrays are never written.
-/
import proofs.«169539_j48112223650339_2_alg».proof.Proof.HandKI.Val5Acc

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec Cert.Spec.Blocks

variable (V : (c : Dev nD) → (b : Ref sig .tc) → Buf (Elt Ideal) ((c : Thread nD τ).loc b))

/-- The output window's block index at point t: (t / 16, 0, 0). -/
theorem idx5_2 : ∀ t : Fin cfg5.N, win5_2.index t 0 = t.val / 16 ∧ win5_2.index t 1 = 0 ∧ win5_2.index t 2 = 0 :=
  (by decide +kernel : ∀ t : Fin grid5.N, win5_2.index t 0 = t.val / 16 ∧ win5_2.index t 1 = 0 ∧ win5_2.index t 2 = 0)

/-- After the last column block of batch element b the accumulator holds the diffusion step's row of batch b. -/
theorem accAt5_last (c : Dev nD) (b : Fin 2) (n : Fin 8192) (h : Fin 64) :
    accAt5 V c (16 * b.val + 15 + 1) (ix2 n h) = diffuse (adj5 V c) (act5 V c) (ix3 b n h) :=
  (accAt5_eq_acc V c b n h 15 (by omega)).trans (diffuse_acc_16_512 _ _ b n h)

/-- What a write-back point writes is its block of the diffusion step. -/
theorem flushed5_eq (c : Dev nD) (t : Fin cfg5.N) (hf : (cfg5.win 2).flush t = true) :
    (dat5 V c).flushed 2 t = ((cfg5.win 2).blk t).view.read (Elt Ideal) (diffuse (adj5 V c) (act5 V c)) := by
  have h15 : t.val % 16 = 15 := (flush5_2 t).mp hf
  have hlt : t.val < 32 := Nat.lt_of_lt_of_eq t.isLt N_5
  obtain ⟨b, hb⟩ : ∃ b : Fin 2, b.val = t.val / 16 := ⟨⟨t.val / 16, by omega⟩, rfl⟩
  obtain ⟨e0, e1, e2⟩ := idx5_2 t
  show (cfg5.win 2).cut (grid5.coords t) ((dat5 V c).after 2 t) = _
  rw [after5_2]
  refine funext fun (y : S1x8192x64.Idx) => ?_
  obtain ⟨u, n, h, rfl⟩ : ∃ (u : Fin 1) (n : Fin 8192) (h : Fin 64), y = ix3 u n h := ⟨y 0, y 1, y 2, eq_ix3 y⟩
  obtain rfl : u = 0 := Subsingleton.elim _ _
  show k5_pay3 (F := Ideal) (accAt5 V c (t.val + 1)) (ix3 (0 : Fin 1) n h)
    = diffuse (adj5 V c) (act5 V c) (((cfg5.win 2).blk t).view.emb (ix3 (0 : Fin 1) n h))
  have hemb : ((cfg5.win 2).blk t).view.emb (ix3 (0 : Fin 1) n h) = (ix3 b n h : S2x8192x64.Idx) := by
    funext a
    apply Fin.ext
    match a with
    | ⟨0, _⟩ => show win5_2.index t 0 * 1 + 1 * 0 = b.val; omega
    | ⟨1, _⟩ => show win5_2.index t 1 * 8192 + 1 * n.val = n.val; omega
    | ⟨2, _⟩ => show win5_2.index t 2 * 64 + 1 * h.val = h.val; omega
  refine Eq.trans ?_ (congrArg (diffuse (adj5 V c) (act5 V c)) hemb).symm
  rw [k5_pay3_apply, show t.val + 1 = 16 * b.val + 15 + 1 from by omega]
  exact accAt5_last V c b n h

/-- An index of the output array is in point t's block iff each coordinate is in the block's range on its axis. -/
theorem mem_blk5 (t : Fin cfg5.N) (i : S2x8192x64.Idx) :
    i ∈ ((cfg5.win 2).blk t).view.set
      ↔ ∀ a : Fin 3, win5_2.index t a * S1x8192x64.size a ≤ (i a).val ∧ (i a).val < win5_2.index t a * S1x8192x64.size a + S1x8192x64.size a := by
  show i ∈ ((View.whole main_v11).slice (win5_2.rect t)).set ↔ _
  rw [View.set_slice_whole, Rect.mem_set_unit]
  exact Iff.rfl

/-- Every index [b, n, h] of the output array is in the block written back at point 16 b + 15. -/
theorem cover5 (i : S2x8192x64.Idx) :
    ∃ t : Fin cfg5.N, (cfg5.win 2).flush t = true ∧ i ∈ ((cfg5.win 2).blk t).view.set := by
  have h0 : (i 0).val < 2 := (i 0).isLt
  have h1 : (i 1).val < 8192 := (i 1).isLt
  have h2 : (i 2).val < 64 := (i 2).isLt
  obtain ⟨t, ht⟩ : ∃ t : Fin cfg5.N, t.val = 16 * (i 0).val + 15 :=
    ⟨⟨16 * (i 0).val + 15, by show _ < grid5.N; rw [N_5]; omega⟩, rfl⟩
  obtain ⟨e0, e1, e2⟩ := idx5_2 t
  refine ⟨t, (flush5_2 t).mpr (by omega), ?_⟩
  rw [mem_blk5]
  intro a
  match a with
  | ⟨0, _⟩ => show win5_2.index t 0 * 1 ≤ (i 0).val ∧ (i 0).val < win5_2.index t 0 * 1 + 1; omega
  | ⟨1, _⟩ => show win5_2.index t 1 * 8192 ≤ (i 1).val ∧ (i 1).val < win5_2.index t 1 * 8192 + 8192; omega
  | ⟨2, _⟩ => show win5_2.index t 2 * 64 ≤ (i 2).val ∧ (i 2).val < win5_2.index t 2 * 64 + 64; omega

/-- The output array after the region: the diffusion step of the adjacency and the activation as the region found them. -/
theorem final5 (c : Dev nD) : (dat5 V c).arrAt 2 cfg5.N = diffuse (adj5 V c) (act5 V c) :=
  (dat5 V c).arrAt_eq_of_cover 2 (diffuse (adj5 V c) (act5 V c)) (fun t hf => flushed5_eq V c t hf) (fun i => cover5 i)

/-- The adjacency array is left as found. -/
theorem final5_in0 (c : Dev nD) : (dat5 V c).arrAt 0 cfg5.N = V c (Pipeline.arrRef spec5 0) :=
  ((dat5 V c).arrAt_in 0 rfl _).trans (A_eq5 V c 0)

/-- The activation array is left as found. -/
theorem final5_in1 (c : Dev nD) : (dat5 V c).arrAt 1 cfg5.N = V c (Pipeline.arrRef spec5 1) :=
  ((dat5 V c).arrAt_in 1 rfl _).trans (A_eq5 V c 1)

end Cert.KernelIdeal.Hand

end
-- ==== Proof.HandKI.Val6Pay.lean ====
/-
  Diffusion step, kernel region 6, over the extended reals: what the body's three stored values are at an index.

  The accumulator's reset value is zero everywhere. One step's value at row n, column h is the accumulator there plus the
  block product formed on a fresh zero: 0 + sum over the 512 columns j of the adjacency block of x0[0, n, j] * x1[0, j, h]
  (casts between float formats are the identity on the extended reals, and dropping or adding a leading axis of extent one
  does not move an element). The value copied to the output block at [0, n, h] is the accumulator at [n, h].
-/
import proofs.«169539_j48112223650339_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.ValueIdx

/-- The reset value of the accumulator is zero at every index. -/
theorem k6_pay1_apply (n : Fin 8192) (h : Fin 64) : k6_pay1 (F := Ideal) (ix2 n h) = 0 := by
  unfold k6_pay1
  rw [shapeCast_self, broadcast_apply]
  exact Ideal.ofBits_zero_f32

/-- The left operand's index of the block product: row n of the result, column k of the block. -/
theorem k6_lhsIdx (n : Fin 8192) (h : Fin 64) (k : Fin 512) :
    dot_S8192x512_S512x64_S8192x64_1_0_0_1_n_n.lhsIdx (ix2 n h)
        ((contrEquiv1 dot_S8192x512_S512x64_S8192x64_1_0_0_1_n_n 512 rfl rfl).symm k) = ix2 n k :=
  funext fun a => Fin.ext (by
    match a with
    | ⟨0, _⟩ => rfl
    | ⟨1, _⟩ =>
      exact (dot_S8192x512_S512x64_S8192x64_1_0_0_1_n_n.lhsIdx_val_of_single rfl _ _).trans
        (contrEquiv1_symm_val dot_S8192x512_S512x64_S8192x64_1_0_0_1_n_n 512 rfl rfl k))

/-- The right operand's index: row k of the block, column h of the result. -/
theorem k6_rhsIdx (n : Fin 8192) (h : Fin 64) (k : Fin 512) :
    dot_S8192x512_S512x64_S8192x64_1_0_0_1_n_n.rhsIdx (ix2 n h)
        ((contrEquiv1 dot_S8192x512_S512x64_S8192x64_1_0_0_1_n_n 512 rfl rfl).symm k) = ix2 k h :=
  funext fun a => Fin.ext (by
    match a with
    | ⟨0, _⟩ =>
      exact (dot_S8192x512_S512x64_S8192x64_1_0_0_1_n_n.rhsIdx_val_of_single rfl _ _).trans
        (contrEquiv1_symm_val dot_S8192x512_S512x64_S8192x64_1_0_0_1_n_n 512 rfl rfl k)
    | ⟨1, _⟩ => rfl)

/-- One step of the accumulator at an index: what it held plus the block product formed on a fresh zero. -/
theorem k6_pay2_apply (x0 : Vec Ideal S1x8192x512 .bf16) (x1 : Vec Ideal S1x512x64 .f32) (xs : Vec Ideal S8192x64 .f32)
    (n : Fin 8192) (h : Fin 64) :
    k6_pay2 (F := Ideal) x0 x1 xs (ix2 n h)
      = xs (ix2 n h) + (0 + ∑ j : Fin 512, x0 (ix3 (0 : Fin 1) n j) * x1 (ix3 (0 : Fin 1) j h)) := by
  unfold k6_pay2
  rw [shapeCast_self, addf_apply, zero_add]
  refine congrArg (xs (ix2 n h) + ·) ?_
  simp only [matmul]
  rw [Ideal.matmul_constant_zero_apply,
    ← Equiv.sum_comp (contrEquiv1 dot_S8192x512_S512x64_S8192x64_1_0_0_1_n_n 512 rfl rfl).symm]
  refine Finset.sum_congr rfl fun k _ => ?_
  rw [k6_lhsIdx, k6_rhsIdx, truncf_apply, shapeCast_1ab_ab_apply, shapeCast_1ab_ab_apply]

/-- The value copied out at [0, n, h] is the accumulator at [n, h]. -/
theorem k6_pay3_apply (v : Vec Ideal S8192x64 .f32) (n : Fin 8192) (h : Fin 64) :
    k6_pay3 (F := Ideal) v (ix3 (0 : Fin 1) n h) = v (ix2 n h) := by
  unfold k6_pay3
  rw [shapeCast_ab_1ab_apply]

end Cert.KernelIdeal.Hand

end
-- ==== Proof.HandKI.Val6Blk.lean ====
/-
  Diffusion step, kernel region 6: the blocks the body reads, at coordinates of the whole arrays.

  Point t of the grid is batch element b = t / 16 and column block k = t mod 16. The adjacency block at t is rows 0..8191 and
  columns 512 k .. 512 k + 511 of batch b: its element [0, n, j] is the array's [b, n, 512 k + j]. The activation block at t is
  rows 512 k .. 512 k + 511 of batch b: its element [0, j, h] is the array's [b, 512 k + j, h]. (On every axis a block's element sits
  at block index times block size plus its own coordinate.)
-/
import proofs.«169539_j48112223650339_2_alg».proof.Proof.HandKI.Dat6
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-- The adjacency window's block index at point t: (t / 16, 0, t mod 16). -/
theorem idx6_0 : ∀ t : Fin cfg6.N, win6_0.index t 0 = t.val / 16 ∧ win6_0.index t 1 = 0 ∧ win6_0.index t 2 = t.val % 16 :=
  (by decide +kernel : ∀ t : Fin grid6.N, win6_0.index t 0 = t.val / 16 ∧ win6_0.index t 1 = 0 ∧ win6_0.index t 2 = t.val % 16)

/-- The activation window's block index at point t: (t / 16, t mod 16, 0). -/
theorem idx6_1 : ∀ t : Fin cfg6.N, win6_1.index t 0 = t.val / 16 ∧ win6_1.index t 1 = t.val % 16 ∧ win6_1.index t 2 = 0 :=
  (by decide +kernel : ∀ t : Fin grid6.N, win6_1.index t 0 = t.val / 16 ∧ win6_1.index t 1 = t.val % 16 ∧ win6_1.index t 2 = 0)

/-- The adjacency block at point t, element [0, n, j], is the array's element [b, n, q] with b = t / 16 and
    q = 512 (t mod 16) + j. -/
theorem iblk6_0_at (c : Dev nD) (t : Fin cfg6.N) (n : Fin 8192) (j : Fin 512) (b : Fin 2) (q : Fin 8192)
    (hb : b.val = t.val / 16) (hq : q.val = 512 * (t.val % 16) + j.val) :
    iblk6 V c 0 t (ix3 (0 : Fin 1) n j) = V c (Pipeline.arrRef spec6 0) (ix3 b n q) := by
  obtain ⟨e0, e1, e2⟩ := idx6_0 t
  unfold iblk6
  rw [View.read_apply]
  show V c (Pipeline.arrRef spec6 0) _ = V c (Pipeline.arrRef spec6 0) _
  congr 1
  funext a
  apply Fin.ext
  match a with
  | ⟨0, _⟩ => show win6_0.index t 0 * 1 + 1 * 0 = b.val; omega
  | ⟨1, _⟩ => show win6_0.index t 1 * 8192 + 1 * n.val = n.val; omega
  | ⟨2, _⟩ => show win6_0.index t 2 * 512 + 1 * j.val = q.val; omega

/-- The activation block at point t, element [0, j, h], is the array's element [b, q, h] with b = t / 16 and
    q = 512 (t mod 16) + j. -/
theorem iblk6_1_at (c : Dev nD) (t : Fin cfg6.N) (j : Fin 512) (h : Fin 64) (b : Fin 2) (q : Fin 8192)
    (hb : b.val = t.val / 16) (hq : q.val = 512 * (t.val % 16) + j.val) :
    iblk6 V c 1 t (ix3 (0 : Fin 1) j h) = V c (Pipeline.arrRef spec6 1) (ix3 b q h) := by
  obtain ⟨e0, e1, e2⟩ := idx6_1 t
  unfold iblk6
  rw [View.read_apply]
  show V c (Pipeline.arrRef spec6 1) _ = V c (Pipeline.arrRef spec6 1) _
  congr 1
  funext a
  apply Fin.ext
  match a with
  | ⟨0, _⟩ => show win6_1.index t 0 * 1 + 1 * 0 = b.val; omega
  | ⟨1, _⟩ => show win6_1.index t 1 * 512 + 1 * j.val = q.val; omega
  | ⟨2, _⟩ => show win6_1.index t 2 * 64 + 1 * h.val = h.val; omega

/-- The same with the array's coordinates written out. -/
theorem iblk6_0_apply (c : Dev nD) (t : Fin cfg6.N) (n : Fin 8192) (j : Fin 512)
    (hb : t.val / 16 < 2) (hq : 512 * (t.val % 16) + j.val < 8192) :
    iblk6 V c 0 t (ix3 (0 : Fin 1) n j)
      = V c (Pipeline.arrRef spec6 0) (ix3 (⟨t.val / 16, hb⟩ : Fin 2) n (⟨512 * (t.val % 16) + j.val, hq⟩ : Fin 8192)) :=
  iblk6_0_at V c t n j _ _ rfl rfl

theorem iblk6_1_apply (c : Dev nD) (t : Fin cfg6.N) (j : Fin 512) (h : Fin 64)
    (hb : t.val / 16 < 2) (hq : 512 * (t.val % 16) + j.val < 8192) :
    iblk6 V c 1 t (ix3 (0 : Fin 1) j h)
      = V c (Pipeline.arrRef spec6 1) (ix3 (⟨t.val / 16, hb⟩ : Fin 2) (⟨512 * (t.val % 16) + j.val, hq⟩ : Fin 8192) h) :=
  iblk6_1_at V c t j h _ _ rfl rfl

end Cert.KernelIdeal.Hand

end
-- ==== Proof.HandKI.Val6Acc.lean ====
/-
  Diffusion step, kernel region 6, over the extended reals: the scratch accumulator is the block-wise partial sum.

  Along the 16 column blocks of batch element b the accumulator starts from zero and each block k adds its own product, formed
  on a fresh zero: at row n, column h, 0 + sum over j < 512 of adj[b, n, 512 k + j] * d[b, 512 k + j, h]. So after column block
  k (point 16 b + k) the accumulator at [n, h] is the accumulation over blocks 0 .. k of the summand j |-> adj[b, n, j] * d[b, j, h],
  the contracted axis cut into 16 blocks of 512. By induction on k.
-/
import proofs.«169539_j48112223650339_2_alg».proof.Proof.HandKI.Val6Pay
import proofs.«169539_j48112223650339_2_alg».proof.Proof.HandKI.Val6Blk
import proofs.«169539_j48112223650339_2_alg».proof.Proof.SpecBlocks

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec Cert.Spec.Blocks

variable (V : (c : Dev nD) → (b : Ref sig .tc) → Buf (Elt Ideal) ((c : Thread nD τ).loc b))

/-- The adjacency array as the region finds it, as a function of its index. -/
abbrev adj6 (c : Dev nD) : SAdj.Idx → EReal := V c (Pipeline.arrRef spec6 0)
/-- The activation array as the region finds it, as a function of its index. -/
abbrev act6 (c : Dev nD) : SH.Idx → EReal := V c (Pipeline.arrRef spec6 1)

/-- Column block k of batch element b is a point of the grid. -/
theorem pt6_lt (b : Fin 2) (k : ℕ) (hk : k < 16) : 16 * b.val + k < cfg6.N := by
  show 16 * b.val + k < grid6.N
  rw [N_6]; omega

/-- The accumulator after a point, from the accumulator before it. -/
theorem accAt6_next (c : Dev nD) (m : ℕ) (hm : m < cfg6.N) :
    accAt6 V c (m + 1)
      = k6_pay2 (iblk6 V c 0 ⟨m, hm⟩) (iblk6 V c 1 ⟨m, hm⟩) (if m % 16 = 0 then k6_pay1 (F := Ideal) else accAt6 V c m) := by
  rw [accAt6, dif_pos hm]

/-- One step at an index: column block k of batch b adds, to whatever the accumulator held, the block's partial sum of the
    summand, formed on a fresh zero. -/
theorem step6_apply (c : Dev nD) (b : Fin 2) (k : ℕ) (hk : k < 16) (n : Fin 8192) (h : Fin 64) (X : Vec Ideal S8192x64 .f32) :
    k6_pay2 (F := Ideal) (iblk6 V c 0 ⟨16 * b.val + k, pt6_lt b k hk⟩) (iblk6 V c 1 ⟨16 * b.val + k, pt6_lt b k hk⟩) X (ix2 n h)
      = X (ix2 n h) + (0 + ∑ j : Fin 512, summand (adj6 V c) (act6 V c) b n h (col 16 512 cut_16_512 ⟨k, hk⟩ j)) := by
  refine (k6_pay2_apply _ _ X n h).trans ?_
  refine congrArg (fun s => X (ix2 n h) + (0 + s)) ?_
  refine Finset.sum_congr rfl fun j _ => ?_
  have hb : b.val = (16 * b.val + k) / 16 := by omega
  have hq : (col 16 512 cut_16_512 ⟨k, hk⟩ j).val = 512 * ((16 * b.val + k) % 16) + j.val := by
    show k * 512 + j.val = 512 * ((16 * b.val + k) % 16) + j.val
    omega
  rw [summand_apply]
  exact congrArg₂ (· * ·)
    (iblk6_0_at V c ⟨16 * b.val + k, pt6_lt b k hk⟩ n j b (col 16 512 cut_16_512 ⟨k, hk⟩ j) hb hq)
    (iblk6_1_at V c ⟨16 * b.val + k, pt6_lt b k hk⟩ j h b (col 16 512 cut_16_512 ⟨k, hk⟩ j) hb hq)

/-- After column block k of batch element b the accumulator at [n, h] is the accumulation of the summand over blocks 0 .. k. -/
theorem accAt6_eq_acc (c : Dev nD) (b : Fin 2) (n : Fin 8192) (h : Fin 64) :
    ∀ (k : ℕ) (hk : k < 16), accAt6 V c (16 * b.val + k + 1) (ix2 n h)
      = acc 16 512 cut_16_512 (summand (adj6 V c) (act6 V c) b n h) (k + 1)
  | 0, hk => by
    rw [accAt6_next V c (16 * b.val + 0) (pt6_lt b 0 hk), if_pos (by omega)]
    refine (step6_apply V c b 0 hk n h _).trans ?_
    rw [k6_pay1_apply, acc_succ_of_lt 16 512 cut_16_512 _ hk, acc_zero]
  | k + 1, hk => by
    have ih := accAt6_eq_acc c b n h k (by omega)
    rw [accAt6_next V c (16 * b.val + (k + 1)) (pt6_lt b (k + 1) hk), if_neg (by omega)]
    refine (step6_apply V c b (k + 1) hk n h _).trans ?_
    rw [acc_succ_of_lt 16 512 cut_16_512 _ hk]
    exact congrArg (· + _) ih

end Cert.KernelIdeal.Hand

end
-- ==== Proof.HandKI.Val6Final.lean ====
/-
  Diffusion step, kernel region 6, over the extended reals: what the region leaves in its arrays.

  The output block of batch element b is written back once, after the last column block (point 16 b + 15), holding the
  accumulator after all 16 column blocks: at [0, n, h] the accumulation of adj[b, n, j] * d[b, j, h] over the 16 blocks of 512
  positions j, which is the whole sum over j < 8192. The block of batch b is rows [b, *, *] of the output array, and the two
  write-backs cover it, so the output array ends holding the diffusion step of the adjacency and the activation as the region
  found them. The two input arrays are never written.
-/
import proofs.«169539_j48112223650339_2_alg».proof.Proof.HandKI.Val6Acc

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec Cert.Spec.Blocks

variable (V : (c : Dev nD) → (b : Ref sig .tc) → Buf (Elt Ideal) ((c : Thread nD τ).loc b))

/-- The output window's block index at point t: (t / 16, 0, 0). -/
theorem idx6_2 : ∀ t : Fin cfg6.N, win6_2.index t 0 = t.val / 16 ∧ win6_2.index t 1 = 0 ∧ win6_2.index t 2 = 0 :=
  (by decide +kernel : ∀ t : Fin grid6.N, win6_2.index t 0 = t.val / 16 ∧ win6_2.index t 1 = 0 ∧ win6_2.index t 2 = 0)

/-- After the last column block of batch element b the accumulator holds the diffusion step's row of batch b. -/
theorem accAt6_last (c : Dev nD) (b : Fin 2) (n : Fin 8192) (h : Fin 64) :
    accAt6 V c (16 * b.val + 15 + 1) (ix2 n h) = diffuse (adj6 V c) (act6 V c) (ix3 b n h) :=
  (accAt6_eq_acc V c b n h 15 (by omega)).trans (diffuse_acc_16_512 _ _ b n h)

/-- What a write-back point writes is its block of the diffusion step. -/
theorem flushed6_eq (c : Dev nD) (t : Fin cfg6.N) (hf : (cfg6.win 2).flush t = true) :
    (dat6 V c).flushed 2 t = ((cfg6.win 2).blk t).view.read (Elt Ideal) (diffuse (adj6 V c) (act6 V c)) := by
  have h15 : t.val % 16 = 15 := (flush6_2 t).mp hf
  have hlt : t.val < 32 := Nat.lt_of_lt_of_eq t.isLt N_6
  obtain ⟨b, hb⟩ : ∃ b : Fin 2, b.val = t.val / 16 := ⟨⟨t.val / 16, by omega⟩, rfl⟩
  obtain ⟨e0, e1, e2⟩ := idx6_2 t
  show (cfg6.win 2).cut (grid6.coords t) ((dat6 V c).after 2 t) = _
  rw [after6_2]
  refine funext fun (y : S1x8192x64.Idx) => ?_
  obtain ⟨u, n, h, rfl⟩ : ∃ (u : Fin 1) (n : Fin 8192) (h : Fin 64), y = ix3 u n h := ⟨y 0, y 1, y 2, eq_ix3 y⟩
  obtain rfl : u = 0 := Subsingleton.elim _ _
  show k6_pay3 (F := Ideal) (accAt6 V c (t.val + 1)) (ix3 (0 : Fin 1) n h)
    = diffuse (adj6 V c) (act6 V c) (((cfg6.win 2).blk t).view.emb (ix3 (0 : Fin 1) n h))
  have hemb : ((cfg6.win 2).blk t).view.emb (ix3 (0 : Fin 1) n h) = (ix3 b n h : S2x8192x64.Idx) := by
    funext a
    apply Fin.ext
    match a with
    | ⟨0, _⟩ => show win6_2.index t 0 * 1 + 1 * 0 = b.val; omega
    | ⟨1, _⟩ => show win6_2.index t 1 * 8192 + 1 * n.val = n.val; omega
    | ⟨2, _⟩ => show win6_2.index t 2 * 64 + 1 * h.val = h.val; omega
  refine Eq.trans ?_ (congrArg (diffuse (adj6 V c) (act6 V c)) hemb).symm
  rw [k6_pay3_apply, show t.val + 1 = 16 * b.val + 15 + 1 from by omega]
  exact accAt6_last V c b n h

/-- An index of the output array is in point t's block iff each coordinate is in the block's range on its axis. -/
theorem mem_blk6 (t : Fin cfg6.N) (i : S2x8192x64.Idx) :
    i ∈ ((cfg6.win 2).blk t).view.set
      ↔ ∀ a : Fin 3, win6_2.index t a * S1x8192x64.size a ≤ (i a).val ∧ (i a).val < win6_2.index t a * S1x8192x64.size a + S1x8192x64.size a := by
  show i ∈ ((View.whole main_v12).slice (win6_2.rect t)).set ↔ _
  rw [View.set_slice_whole, Rect.mem_set_unit]
  exact Iff.rfl

/-- Every index [b, n, h] of the output array is in the block written back at point 16 b + 15. -/
theorem cover6 (i : S2x8192x64.Idx) :
    ∃ t : Fin cfg6.N, (cfg6.win 2).flush t = true ∧ i ∈ ((cfg6.win 2).blk t).view.set := by
  have h0 : (i 0).val < 2 := (i 0).isLt
  have h1 : (i 1).val < 8192 := (i 1).isLt
  have h2 : (i 2).val < 64 := (i 2).isLt
  obtain ⟨t, ht⟩ : ∃ t : Fin cfg6.N, t.val = 16 * (i 0).val + 15 :=
    ⟨⟨16 * (i 0).val + 15, by show _ < grid6.N; rw [N_6]; omega⟩, rfl⟩
  obtain ⟨e0, e1, e2⟩ := idx6_2 t
  refine ⟨t, (flush6_2 t).mpr (by omega), ?_⟩
  rw [mem_blk6]
  intro a
  match a with
  | ⟨0, _⟩ => show win6_2.index t 0 * 1 ≤ (i 0).val ∧ (i 0).val < win6_2.index t 0 * 1 + 1; omega
  | ⟨1, _⟩ => show win6_2.index t 1 * 8192 ≤ (i 1).val ∧ (i 1).val < win6_2.index t 1 * 8192 + 8192; omega
  | ⟨2, _⟩ => show win6_2.index t 2 * 64 ≤ (i 2).val ∧ (i 2).val < win6_2.index t 2 * 64 + 64; omega

/-- The output array after the region: the diffusion step of the adjacency and the activation as the region found them. -/
theorem final6 (c : Dev nD) : (dat6 V c).arrAt 2 cfg6.N = diffuse (adj6 V c) (act6 V c) :=
  (dat6 V c).arrAt_eq_of_cover 2 (diffuse (adj6 V c) (act6 V c)) (fun t hf => flushed6_eq V c t hf) (fun i => cover6 i)

/-- The adjacency array is left as found. -/
theorem final6_in0 (c : Dev nD) : (dat6 V c).arrAt 0 cfg6.N = V c (Pipeline.arrRef spec6 0) :=
  ((dat6 V c).arrAt_in 0 rfl _).trans (A_eq6 V c 0)

/-- The activation array is left as found. -/
theorem final6_in1 (c : Dev nD) : (dat6 V c).arrAt 1 cfg6.N = V c (Pipeline.arrRef spec6 1) :=
  ((dat6 V c).arrAt_in 1 rfl _).trans (A_eq6 V c 1)

end Cert.KernelIdeal.Hand

end
-- ==== Proof.HandKI.Val7Pay.lean ====
/-
  Diffusion step, kernel region 7, over the extended reals: what the body's three stored values are at an index.

  The accumulator's reset value is zero everywhere. One step's value at row n, column h is the accumulator there plus the
  block product formed on a fresh zero: 0 + sum over the 512 columns j of the adjacency block of x0[0, n, j] * x1[0, j, h]
  (casts between float formats are the identity on the extended reals, and dropping or adding a leading axis of extent one
  does not move an element). The value copied to the output block at [0, n, h] is the accumulator at [n, h].
-/
import proofs.«169539_j48112223650339_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.ValueIdx

/-- The reset value of the accumulator is zero at every index. -/
theorem k7_pay1_apply (n : Fin 8192) (h : Fin 64) : k7_pay1 (F := Ideal) (ix2 n h) = 0 := by
  unfold k7_pay1
  rw [shapeCast_self, broadcast_apply]
  exact Ideal.ofBits_zero_f32

/-- The left operand's index of the block product: row n of the result, column k of the block. -/
theorem k7_lhsIdx (n : Fin 8192) (h : Fin 64) (k : Fin 512) :
    dot_S8192x512_S512x64_S8192x64_1_0_0_1_n_n.lhsIdx (ix2 n h)
        ((contrEquiv1 dot_S8192x512_S512x64_S8192x64_1_0_0_1_n_n 512 rfl rfl).symm k) = ix2 n k :=
  funext fun a => Fin.ext (by
    match a with
    | ⟨0, _⟩ => rfl
    | ⟨1, _⟩ =>
      exact (dot_S8192x512_S512x64_S8192x64_1_0_0_1_n_n.lhsIdx_val_of_single rfl _ _).trans
        (contrEquiv1_symm_val dot_S8192x512_S512x64_S8192x64_1_0_0_1_n_n 512 rfl rfl k))

/-- The right operand's index: row k of the block, column h of the result. -/
theorem k7_rhsIdx (n : Fin 8192) (h : Fin 64) (k : Fin 512) :
    dot_S8192x512_S512x64_S8192x64_1_0_0_1_n_n.rhsIdx (ix2 n h)
        ((contrEquiv1 dot_S8192x512_S512x64_S8192x64_1_0_0_1_n_n 512 rfl rfl).symm k) = ix2 k h :=
  funext fun a => Fin.ext (by
    match a with
    | ⟨0, _⟩ =>
      exact (dot_S8192x512_S512x64_S8192x64_1_0_0_1_n_n.rhsIdx_val_of_single rfl _ _).trans
        (contrEquiv1_symm_val dot_S8192x512_S512x64_S8192x64_1_0_0_1_n_n 512 rfl rfl k)
    | ⟨1, _⟩ => rfl)

/-- One step of the accumulator at an index: what it held plus the block product formed on a fresh zero. -/
theorem k7_pay2_apply (x0 : Vec Ideal S1x8192x512 .bf16) (x1 : Vec Ideal S1x512x64 .f32) (xs : Vec Ideal S8192x64 .f32)
    (n : Fin 8192) (h : Fin 64) :
    k7_pay2 (F := Ideal) x0 x1 xs (ix2 n h)
      = xs (ix2 n h) + (0 + ∑ j : Fin 512, x0 (ix3 (0 : Fin 1) n j) * x1 (ix3 (0 : Fin 1) j h)) := by
  unfold k7_pay2
  rw [shapeCast_self, addf_apply, zero_add]
  refine congrArg (xs (ix2 n h) + ·) ?_
  simp only [matmul]
  rw [Ideal.matmul_constant_zero_apply,
    ← Equiv.sum_comp (contrEquiv1 dot_S8192x512_S512x64_S8192x64_1_0_0_1_n_n 512 rfl rfl).symm]
  refine Finset.sum_congr rfl fun k _ => ?_
  rw [k7_lhsIdx, k7_rhsIdx, truncf_apply, shapeCast_1ab_ab_apply, shapeCast_1ab_ab_apply]

/-- The value copied out at [0, n, h] is the accumulator at [n, h]. -/
theorem k7_pay3_apply (v : Vec Ideal S8192x64 .f32) (n : Fin 8192) (h : Fin 64) :
    k7_pay3 (F := Ideal) v (ix3 (0 : Fin 1) n h) = v (ix2 n h) := by
  unfold k7_pay3
  rw [shapeCast_ab_1ab_apply]

end Cert.KernelIdeal.Hand

end
-- ==== Proof.HandKI.Val7Blk.lean ====
/-
  Diffusion step, kernel region 7: the blocks the body reads, at coordinates of the whole arrays.

  Point t of the grid is batch element b = t / 16 and column block k = t mod 16. The adjacency block at t is rows 0..8191 and
  columns 512 k .. 512 k + 511 of batch b: its element [0, n, j] is the array's [b, n, 512 k + j]. The activation block at t is
  rows 512 k .. 512 k + 511 of batch b: its element [0, j, h] is the array's [b, 512 k + j, h]. (On every axis a block's element sits
  at block index times block size plus its own coordinate.)
-/
import proofs.«169539_j48112223650339_2_alg».proof.Proof.HandKI.Dat7
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-- The adjacency window's block index at point t: (t / 16, 0, t mod 16). -/
theorem idx7_0 : ∀ t : Fin cfg7.N, win7_0.index t 0 = t.val / 16 ∧ win7_0.index t 1 = 0 ∧ win7_0.index t 2 = t.val % 16 :=
  (by decide +kernel : ∀ t : Fin grid7.N, win7_0.index t 0 = t.val / 16 ∧ win7_0.index t 1 = 0 ∧ win7_0.index t 2 = t.val % 16)

/-- The activation window's block index at point t: (t / 16, t mod 16, 0). -/
theorem idx7_1 : ∀ t : Fin cfg7.N, win7_1.index t 0 = t.val / 16 ∧ win7_1.index t 1 = t.val % 16 ∧ win7_1.index t 2 = 0 :=
  (by decide +kernel : ∀ t : Fin grid7.N, win7_1.index t 0 = t.val / 16 ∧ win7_1.index t 1 = t.val % 16 ∧ win7_1.index t 2 = 0)

/-- The adjacency block at point t, element [0, n, j], is the array's element [b, n, q] with b = t / 16 and
    q = 512 (t mod 16) + j. -/
theorem iblk7_0_at (c : Dev nD) (t : Fin cfg7.N) (n : Fin 8192) (j : Fin 512) (b : Fin 2) (q : Fin 8192)
    (hb : b.val = t.val / 16) (hq : q.val = 512 * (t.val % 16) + j.val) :
    iblk7 V c 0 t (ix3 (0 : Fin 1) n j) = V c (Pipeline.arrRef spec7 0) (ix3 b n q) := by
  obtain ⟨e0, e1, e2⟩ := idx7_0 t
  unfold iblk7
  rw [View.read_apply]
  show V c (Pipeline.arrRef spec7 0) _ = V c (Pipeline.arrRef spec7 0) _
  congr 1
  funext a
  apply Fin.ext
  match a with
  | ⟨0, _⟩ => show win7_0.index t 0 * 1 + 1 * 0 = b.val; omega
  | ⟨1, _⟩ => show win7_0.index t 1 * 8192 + 1 * n.val = n.val; omega
  | ⟨2, _⟩ => show win7_0.index t 2 * 512 + 1 * j.val = q.val; omega

/-- The activation block at point t, element [0, j, h], is the array's element [b, q, h] with b = t / 16 and
    q = 512 (t mod 16) + j. -/
theorem iblk7_1_at (c : Dev nD) (t : Fin cfg7.N) (j : Fin 512) (h : Fin 64) (b : Fin 2) (q : Fin 8192)
    (hb : b.val = t.val / 16) (hq : q.val = 512 * (t.val % 16) + j.val) :
    iblk7 V c 1 t (ix3 (0 : Fin 1) j h) = V c (Pipeline.arrRef spec7 1) (ix3 b q h) := by
  obtain ⟨e0, e1, e2⟩ := idx7_1 t
  unfold iblk7
  rw [View.read_apply]
  show V c (Pipeline.arrRef spec7 1) _ = V c (Pipeline.arrRef spec7 1) _
  congr 1
  funext a
  apply Fin.ext
  match a with
  | ⟨0, _⟩ => show win7_1.index t 0 * 1 + 1 * 0 = b.val; omega
  | ⟨1, _⟩ => show win7_1.index t 1 * 512 + 1 * j.val = q.val; omega
  | ⟨2, _⟩ => show win7_1.index t 2 * 64 + 1 * h.val = h.val; omega

/-- The same with the array's coordinates written out. -/
theorem iblk7_0_apply (c : Dev nD) (t : Fin cfg7.N) (n : Fin 8192) (j : Fin 512)
    (hb : t.val / 16 < 2) (hq : 512 * (t.val % 16) + j.val < 8192) :
    iblk7 V c 0 t (ix3 (0 : Fin 1) n j)
      = V c (Pipeline.arrRef spec7 0) (ix3 (⟨t.val / 16, hb⟩ : Fin 2) n (⟨512 * (t.val % 16) + j.val, hq⟩ : Fin 8192)) :=
  iblk7_0_at V c t n j _ _ rfl rfl

theorem iblk7_1_apply (c : Dev nD) (t : Fin cfg7.N) (j : Fin 512) (h : Fin 64)
    (hb : t.val / 16 < 2) (hq : 512 * (t.val % 16) + j.val < 8192) :
    iblk7 V c 1 t (ix3 (0 : Fin 1) j h)
      = V c (Pipeline.arrRef spec7 1) (ix3 (⟨t.val / 16, hb⟩ : Fin 2) (⟨512 * (t.val % 16) + j.val, hq⟩ : Fin 8192) h) :=
  iblk7_1_at V c t j h _ _ rfl rfl

end Cert.KernelIdeal.Hand

end
-- ==== Proof.HandKI.Val7Acc.lean ====
/-
  Diffusion step, kernel region 7, over the extended reals: the scratch accumulator is the block-wise partial sum.

  Along the 16 column blocks of batch element b the accumulator starts from zero and each block k adds its own product, formed
  on a fresh zero: at row n, column h, 0 + sum over j < 512 of adj[b, n, 512 k + j] * d[b, 512 k + j, h]. So after column block
  k (point 16 b + k) the accumulator at [n, h] is the accumulation over blocks 0 .. k of the summand j |-> adj[b, n, j] * d[b, j, h],
  the contracted axis cut into 16 blocks of 512. By induction on k.
-/
import proofs.«169539_j48112223650339_2_alg».proof.Proof.HandKI.Val7Pay
import proofs.«169539_j48112223650339_2_alg».proof.Proof.HandKI.Val7Blk
import proofs.«169539_j48112223650339_2_alg».proof.Proof.SpecBlocks

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec Cert.Spec.Blocks

variable (V : (c : Dev nD) → (b : Ref sig .tc) → Buf (Elt Ideal) ((c : Thread nD τ).loc b))

/-- The adjacency array as the region finds it, as a function of its index. -/
abbrev adj7 (c : Dev nD) : SAdj.Idx → EReal := V c (Pipeline.arrRef spec7 0)
/-- The activation array as the region finds it, as a function of its index. -/
abbrev act7 (c : Dev nD) : SH.Idx → EReal := V c (Pipeline.arrRef spec7 1)

/-- Column block k of batch element b is a point of the grid. -/
theorem pt7_lt (b : Fin 2) (k : ℕ) (hk : k < 16) : 16 * b.val + k < cfg7.N := by
  show 16 * b.val + k < grid7.N
  rw [N_7]; omega

/-- The accumulator after a point, from the accumulator before it. -/
theorem accAt7_next (c : Dev nD) (m : ℕ) (hm : m < cfg7.N) :
    accAt7 V c (m + 1)
      = k7_pay2 (iblk7 V c 0 ⟨m, hm⟩) (iblk7 V c 1 ⟨m, hm⟩) (if m % 16 = 0 then k7_pay1 (F := Ideal) else accAt7 V c m) := by
  rw [accAt7, dif_pos hm]

/-- One step at an index: column block k of batch b adds, to whatever the accumulator held, the block's partial sum of the
    summand, formed on a fresh zero. -/
theorem step7_apply (c : Dev nD) (b : Fin 2) (k : ℕ) (hk : k < 16) (n : Fin 8192) (h : Fin 64) (X : Vec Ideal S8192x64 .f32) :
    k7_pay2 (F := Ideal) (iblk7 V c 0 ⟨16 * b.val + k, pt7_lt b k hk⟩) (iblk7 V c 1 ⟨16 * b.val + k, pt7_lt b k hk⟩) X (ix2 n h)
      = X (ix2 n h) + (0 + ∑ j : Fin 512, summand (adj7 V c) (act7 V c) b n h (col 16 512 cut_16_512 ⟨k, hk⟩ j)) := by
  refine (k7_pay2_apply _ _ X n h).trans ?_
  refine congrArg (fun s => X (ix2 n h) + (0 + s)) ?_
  refine Finset.sum_congr rfl fun j _ => ?_
  have hb : b.val = (16 * b.val + k) / 16 := by omega
  have hq : (col 16 512 cut_16_512 ⟨k, hk⟩ j).val = 512 * ((16 * b.val + k) % 16) + j.val := by
    show k * 512 + j.val = 512 * ((16 * b.val + k) % 16) + j.val
    omega
  rw [summand_apply]
  exact congrArg₂ (· * ·)
    (iblk7_0_at V c ⟨16 * b.val + k, pt7_lt b k hk⟩ n j b (col 16 512 cut_16_512 ⟨k, hk⟩ j) hb hq)
    (iblk7_1_at V c ⟨16 * b.val + k, pt7_lt b k hk⟩ j h b (col 16 512 cut_16_512 ⟨k, hk⟩ j) hb hq)

/-- After column block k of batch element b the accumulator at [n, h] is the accumulation of the summand over blocks 0 .. k. -/
theorem accAt7_eq_acc (c : Dev nD) (b : Fin 2) (n : Fin 8192) (h : Fin 64) :
    ∀ (k : ℕ) (hk : k < 16), accAt7 V c (16 * b.val + k + 1) (ix2 n h)
      = acc 16 512 cut_16_512 (summand (adj7 V c) (act7 V c) b n h) (k + 1)
  | 0, hk => by
    rw [accAt7_next V c (16 * b.val + 0) (pt7_lt b 0 hk), if_pos (by omega)]
    refine (step7_apply V c b 0 hk n h _).trans ?_
    rw [k7_pay1_apply, acc_succ_of_lt 16 512 cut_16_512 _ hk, acc_zero]
  | k + 1, hk => by
    have ih := accAt7_eq_acc c b n h k (by omega)
    rw [accAt7_next V c (16 * b.val + (k + 1)) (pt7_lt b (k + 1) hk), if_neg (by omega)]
    refine (step7_apply V c b (k + 1) hk n h _).trans ?_
    rw [acc_succ_of_lt 16 512 cut_16_512 _ hk]
    exact congrArg (· + _) ih

end Cert.KernelIdeal.Hand

end
-- ==== Proof.HandKI.Val7Final.lean ====
/-
  Diffusion step, kernel region 7, over the extended reals: what the region leaves in its arrays.

  The output block of batch element b is written back once, after the last column block (point 16 b + 15), holding the
  accumulator after all 16 column blocks: at [0, n, h] the accumulation of adj[b, n, j] * d[b, j, h] over the 16 blocks of 512
  positions j, which is the whole sum over j < 8192. The block of batch b is rows [b, *, *] of the output array, and the two
  write-backs cover it, so the output array ends holding the diffusion step of the adjacency and the activation as the region
  found them. The two input arrays are never written.
-/
import proofs.«169539_j48112223650339_2_alg».proof.Proof.HandKI.Val7Acc

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec Cert.Spec.Blocks

variable (V : (c : Dev nD) → (b : Ref sig .tc) → Buf (Elt Ideal) ((c : Thread nD τ).loc b))

/-- The output window's block index at point t: (t / 16, 0, 0). -/
theorem idx7_2 : ∀ t : Fin cfg7.N, win7_2.index t 0 = t.val / 16 ∧ win7_2.index t 1 = 0 ∧ win7_2.index t 2 = 0 :=
  (by decide +kernel : ∀ t : Fin grid7.N, win7_2.index t 0 = t.val / 16 ∧ win7_2.index t 1 = 0 ∧ win7_2.index t 2 = 0)

/-- After the last column block of batch element b the accumulator holds the diffusion step's row of batch b. -/
theorem accAt7_last (c : Dev nD) (b : Fin 2) (n : Fin 8192) (h : Fin 64) :
    accAt7 V c (16 * b.val + 15 + 1) (ix2 n h) = diffuse (adj7 V c) (act7 V c) (ix3 b n h) :=
  (accAt7_eq_acc V c b n h 15 (by omega)).trans (diffuse_acc_16_512 _ _ b n h)

/-- What a write-back point writes is its block of the diffusion step. -/
theorem flushed7_eq (c : Dev nD) (t : Fin cfg7.N) (hf : (cfg7.win 2).flush t = true) :
    (dat7 V c).flushed 2 t = ((cfg7.win 2).blk t).view.read (Elt Ideal) (diffuse (adj7 V c) (act7 V c)) := by
  have h15 : t.val % 16 = 15 := (flush7_2 t).mp hf
  have hlt : t.val < 32 := Nat.lt_of_lt_of_eq t.isLt N_7
  obtain ⟨b, hb⟩ : ∃ b : Fin 2, b.val = t.val / 16 := ⟨⟨t.val / 16, by omega⟩, rfl⟩
  obtain ⟨e0, e1, e2⟩ := idx7_2 t
  show (cfg7.win 2).cut (grid7.coords t) ((dat7 V c).after 2 t) = _
  rw [after7_2]
  refine funext fun (y : S1x8192x64.Idx) => ?_
  obtain ⟨u, n, h, rfl⟩ : ∃ (u : Fin 1) (n : Fin 8192) (h : Fin 64), y = ix3 u n h := ⟨y 0, y 1, y 2, eq_ix3 y⟩
  obtain rfl : u = 0 := Subsingleton.elim _ _
  show k7_pay3 (F := Ideal) (accAt7 V c (t.val + 1)) (ix3 (0 : Fin 1) n h)
    = diffuse (adj7 V c) (act7 V c) (((cfg7.win 2).blk t).view.emb (ix3 (0 : Fin 1) n h))
  have hemb : ((cfg7.win 2).blk t).view.emb (ix3 (0 : Fin 1) n h) = (ix3 b n h : S2x8192x64.Idx) := by
    funext a
    apply Fin.ext
    match a with
    | ⟨0, _⟩ => show win7_2.index t 0 * 1 + 1 * 0 = b.val; omega
    | ⟨1, _⟩ => show win7_2.index t 1 * 8192 + 1 * n.val = n.val; omega
    | ⟨2, _⟩ => show win7_2.index t 2 * 64 + 1 * h.val = h.val; omega
  refine Eq.trans ?_ (congrArg (diffuse (adj7 V c) (act7 V c)) hemb).symm
  rw [k7_pay3_apply, show t.val + 1 = 16 * b.val + 15 + 1 from by omega]
  exact accAt7_last V c b n h

/-- An index of the output array is in point t's block iff each coordinate is in the block's range on its axis. -/
theorem mem_blk7 (t : Fin cfg7.N) (i : S2x8192x64.Idx) :
    i ∈ ((cfg7.win 2).blk t).view.set
      ↔ ∀ a : Fin 3, win7_2.index t a * S1x8192x64.size a ≤ (i a).val ∧ (i a).val < win7_2.index t a * S1x8192x64.size a + S1x8192x64.size a := by
  show i ∈ ((View.whole main_v13).slice (win7_2.rect t)).set ↔ _
  rw [View.set_slice_whole, Rect.mem_set_unit]
  exact Iff.rfl

/-- Every index [b, n, h] of the output array is in the block written back at point 16 b + 15. -/
theorem cover7 (i : S2x8192x64.Idx) :
    ∃ t : Fin cfg7.N, (cfg7.win 2).flush t = true ∧ i ∈ ((cfg7.win 2).blk t).view.set := by
  have h0 : (i 0).val < 2 := (i 0).isLt
  have h1 : (i 1).val < 8192 := (i 1).isLt
  have h2 : (i 2).val < 64 := (i 2).isLt
  obtain ⟨t, ht⟩ : ∃ t : Fin cfg7.N, t.val = 16 * (i 0).val + 15 :=
    ⟨⟨16 * (i 0).val + 15, by show _ < grid7.N; rw [N_7]; omega⟩, rfl⟩
  obtain ⟨e0, e1, e2⟩ := idx7_2 t
  refine ⟨t, (flush7_2 t).mpr (by omega), ?_⟩
  rw [mem_blk7]
  intro a
  match a with
  | ⟨0, _⟩ => show win7_2.index t 0 * 1 ≤ (i 0).val ∧ (i 0).val < win7_2.index t 0 * 1 + 1; omega
  | ⟨1, _⟩ => show win7_2.index t 1 * 8192 ≤ (i 1).val ∧ (i 1).val < win7_2.index t 1 * 8192 + 8192; omega
  | ⟨2, _⟩ => show win7_2.index t 2 * 64 ≤ (i 2).val ∧ (i 2).val < win7_2.index t 2 * 64 + 64; omega

/-- The output array after the region: the diffusion step of the adjacency and the activation as the region found them. -/
theorem final7 (c : Dev nD) : (dat7 V c).arrAt 2 cfg7.N = diffuse (adj7 V c) (act7 V c) :=
  (dat7 V c).arrAt_eq_of_cover 2 (diffuse (adj7 V c) (act7 V c)) (fun t hf => flushed7_eq V c t hf) (fun i => cover7 i)

/-- The adjacency array is left as found. -/
theorem final7_in0 (c : Dev nD) : (dat7 V c).arrAt 0 cfg7.N = V c (Pipeline.arrRef spec7 0) :=
  ((dat7 V c).arrAt_in 0 rfl _).trans (A_eq7 V c 0)

/-- The activation array is left as found. -/
theorem final7_in1 (c : Dev nD) : (dat7 V c).arrAt 1 cfg7.N = V c (Pipeline.arrRef spec7 1) :=
  ((dat7 V c).arrAt_in 1 rfl _).trans (A_eq7 V c 1)

end Cert.KernelIdeal.Hand

end
-- ==== Proof.HandKI.ValueStageD.lean ====
/-
  The plain diffusion steps in the run of the whole program: kernel regions 2, 3, 5, 6 and 7 each leave, in their output
  array, one diffusion step of the narrowed copy of the operator and of the state they find — whatever those are.
-/
import proofs.«169539_j48112223650339_2_alg».proof.Proof.HandKI.Chain
import proofs.«169539_j48112223650339_2_alg».proof.Proof.HandKI.Val2Final
import proofs.«169539_j48112223650339_2_alg».proof.Proof.HandKI.Val3Final
import proofs.«169539_j48112223650339_2_alg».proof.Proof.HandKI.Val5Final
import proofs.«169539_j48112223650339_2_alg».proof.Proof.HandKI.Val6Final
import proofs.«169539_j48112223650339_2_alg».proof.Proof.HandKI.Val7Final

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec

variable (m : (ℓ : Loc nD τ sig) → Buf (Elt Ideal) ℓ)

/-- Region 2: from an operator copy `A` and a state `D` it leaves the diffusion step `A · D`. -/
theorem stage2 (c : Dev nD) (A : SAdj.Idx → EReal) (D : SH.Idx → EReal)
    (hA : (W3 m c (Proc.devRef .tc main_v2_1) : SAdj.Idx → EReal) = A)
    (hD : (W3 m c (Proc.devRef .tc main_v2_0) : SH.Idx → EReal) = D) :
    (W4 m c (Proc.devRef .tc main_v3) : SH.Idx → EReal) = diffuse A D := by
  refine ((W4_arr m c 2).trans (final2 (VV3 m) c)).trans ?_
  have eA : adj2 (VV3 m) c = A := hA
  have eD : act2 (VV3 m) c = D := hD
  rw [eA, eD]

/-- Region 3: from an operator copy `A` and a state `D` it leaves the diffusion step `A · D`. -/
theorem stage3 (c : Dev nD) (A : SAdj.Idx → EReal) (D : SH.Idx → EReal)
    (hA : (W4 m c (Proc.devRef .tc main_v2_1) : SAdj.Idx → EReal) = A)
    (hD : (W4 m c (Proc.devRef .tc main_v3) : SH.Idx → EReal) = D) :
    (W5 m c (Proc.devRef .tc main_v4) : SH.Idx → EReal) = diffuse A D := by
  refine ((W5_arr m c 2).trans (final3 (VV4 m) c)).trans ?_
  have eA : adj3 (VV4 m) c = A := hA
  have eD : act3 (VV4 m) c = D := hD
  rw [eA, eD]

/-- Region 5: from an operator copy `A` and a state `D` it leaves the diffusion step `A · D`. -/
theorem stage5 (c : Dev nD) (A : SAdj.Idx → EReal) (D : SH.Idx → EReal)
    (hA : (W7 m c (Proc.devRef .tc main_v2_1) : SAdj.Idx → EReal) = A)
    (hD : (W7 m c (Proc.devRef .tc main_v10) : SH.Idx → EReal) = D) :
    (W8 m c (Proc.devRef .tc main_v11) : SH.Idx → EReal) = diffuse A D := by
  refine ((W8_arr m c 2).trans (final5 (VV7 m) c)).trans ?_
  have eA : adj5 (VV7 m) c = A := hA
  have eD : act5 (VV7 m) c = D := hD
  rw [eA, eD]

/-- Region 6: from an operator copy `A` and a state `D` it leaves the diffusion step `A · D`. -/
theorem stage6 (c : Dev nD) (A : SAdj.Idx → EReal) (D : SH.Idx → EReal)
    (hA : (W8 m c (Proc.devRef .tc main_v2_1) : SAdj.Idx → EReal) = A)
    (hD : (W8 m c (Proc.devRef .tc main_v11) : SH.Idx → EReal) = D) :
    (W9 m c (Proc.devRef .tc main_v12) : SH.Idx → EReal) = diffuse A D := by
  refine ((W9_arr m c 2).trans (final6 (VV8 m) c)).trans ?_
  have eA : adj6 (VV8 m) c = A := hA
  have eD : act6 (VV8 m) c = D := hD
  rw [eA, eD]

/-- Region 7: from an operator copy `A` and a state `D` it leaves the diffusion step `A · D`. -/
theorem stage7 (c : Dev nD) (A : SAdj.Idx → EReal) (D : SH.Idx → EReal)
    (hA : (W9 m c (Proc.devRef .tc main_v2_1) : SAdj.Idx → EReal) = A)
    (hD : (W9 m c (Proc.devRef .tc main_v12) : SH.Idx → EReal) = D) :
    (W10 m c (Proc.devRef .tc main_v13) : SH.Idx → EReal) = diffuse A D := by
  refine ((W10_arr m c 2).trans (final7 (VV9 m) c)).trans ?_
  have eA : adj7 (VV9 m) c = A := hA
  have eD : act7 (VV9 m) c = D := hD
  rw [eA, eD]

end Cert.KernelIdeal.Hand

end
-- ==== Proof.HandKI.Val4Pay.lean ====
/-
  The last diffusion step of the first layer together with the layer's map, kernel region 4, over the extended reals:
  its stored values at a position.

  The region walks the operator's columns in 16 blocks of 512, accumulating the product; at the last block it applies
  the layer's map to the accumulated diffusion and rectifies.

  * The accumulator's reset value is zero everywhere.
  * One step of the accumulator at `[n, h]`: what it held plus the block product formed on a fresh zero,
    `0 + ∑ j, adj[0, n, j] · d[0, j, h]` over the block's 512 columns.
  * The stored result at `[0, n, g]`: the layer's map of the accumulated diffusion, `(∑ h, d[n, h] · w[g, h]) + b[0, g]`
    over the 64 hidden units, rectified: its maximum with the extended real the all-zero binary32 word denotes.

  Casts between float formats are the identity on the extended reals; dropping or adding a leading axis of extent one
  does not move an element; the bias is one row broadcast over the nodes.
-/
import proofs.«169539_j48112223650339_2_alg».proof.Proof.HandKI.ValDots
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.ValueIdx

/-- The reset value of the accumulator is zero at every position. -/
theorem k4_pay1_apply (n : Fin 8192) (h : Fin 64) : k4_pay1 (F := Ideal) (ix2 n h) = 0 := by
  unfold k4_pay1
  rw [shapeCast_self, broadcast_apply]
  exact Ideal.ofBits_zero_f32

/-- One step of the accumulator at a position: what it held plus the block product formed on a fresh zero. -/
theorem k4_pay2_apply (x0 : Vec Ideal S1x8192x512 .bf16) (x1 : Vec Ideal S1x512x64 .f32) (xs : Vec Ideal S8192x64 .f32)
    (n : Fin 8192) (h : Fin 64) :
    k4_pay2 (F := Ideal) x0 x1 xs (ix2 n h)
      = xs (ix2 n h) + (0 + ∑ j : Fin 512, x0 (ix3 (0 : Fin 1) n j) * x1 (ix3 (0 : Fin 1) j h)) := by
  unfold k4_pay2
  rw [shapeCast_self, addf_apply, dotStep_zero_apply, zero_add]
  refine congrArg (xs (ix2 n h) + ·) ?_
  refine Finset.sum_congr rfl fun j _ => ?_
  rw [shapeCast_1ab_ab_apply, truncf_apply, shapeCast_1ab_ab_apply]

/-- The stored result at `[0, n, g]`: the rectified map of the diffusion (the map's product is formed on a zero
    accumulator, which adds nothing). -/
theorem k4_pay3_apply (d : Vec Ideal S8192x64 .f32) (w : Vec Ideal S64x64 .f32) (b : Vec Ideal S1x64 .f32)
    (n : Fin 8192) (g : Fin 64) :
    k4_pay3 (F := Ideal) d w b (ix3 (0 : Fin 1) n g)
      = max ((∑ h : Fin 64, d (ix2 n h) * w (ix2 g h)) + b (ix2 (0 : Fin 1) g)) (Ideal.ofBits .f32 0x00000000#32) := by
  unfold k4_pay3
  rw [shapeCast_ab_1ab_apply, maximumf_apply, addf_apply, dotPost_zero_apply, shapeCast_self, broadcastTo_1b_ab_apply,
    shapeCast_self, broadcast_apply]
  refine congrArg (fun s => max (s + b (ix2 (0 : Fin 1) g)) (Ideal.ofBits .f32 0x00000000#32)) ?_
  refine Finset.sum_congr rfl fun h _ => ?_
  rw [truncf_apply, truncf_apply]

end Cert.KernelIdeal.Hand

end
-- ==== Proof.HandKI.Val4Blk.lean ====
/-
  Last diffusion step of a layer fused with the layer's map, kernel region 4: the blocks the body reads, at coordinates of
  the whole arrays.

  Point t of the grid is batch element b = t / 16 and column block k = t mod 16. The adjacency block at t is rows 0..8191 and
  columns 512 k .. 512 k + 511 of batch b: its element [0, n, j] is the array's [b, n, 512 k + j]. The activation block at t is
  rows 512 k .. 512 k + 511 of batch b: its element [0, j, h] is the array's [b, 512 k + j, h]. (On every axis a block's element sits
  at block index times block size plus its own coordinate.) The weight's block and the bias' block are their whole arrays at
  every point.
-/
import proofs.«169539_j48112223650339_2_alg».proof.Proof.HandKI.Dat4
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-- The adjacency window's block index at point t: (t / 16, 0, t mod 16). -/
theorem idx4_0 : ∀ t : Fin cfg4.N, win4_0.index t 0 = t.val / 16 ∧ win4_0.index t 1 = 0 ∧ win4_0.index t 2 = t.val % 16 :=
  (by decide +kernel : ∀ t : Fin grid4.N, win4_0.index t 0 = t.val / 16 ∧ win4_0.index t 1 = 0 ∧ win4_0.index t 2 = t.val % 16)

/-- The activation window's block index at point t: (t / 16, t mod 16, 0). -/
theorem idx4_1 : ∀ t : Fin cfg4.N, win4_1.index t 0 = t.val / 16 ∧ win4_1.index t 1 = t.val % 16 ∧ win4_1.index t 2 = 0 :=
  (by decide +kernel : ∀ t : Fin grid4.N, win4_1.index t 0 = t.val / 16 ∧ win4_1.index t 1 = t.val % 16 ∧ win4_1.index t 2 = 0)

/-- The adjacency block at point t, element [0, n, j], is the array's element [b, n, q] with b = t / 16 and
    q = 512 (t mod 16) + j. -/
theorem iblk4_0_at (c : Dev nD) (t : Fin cfg4.N) (n : Fin 8192) (j : Fin 512) (b : Fin 2) (q : Fin 8192)
    (hb : b.val = t.val / 16) (hq : q.val = 512 * (t.val % 16) + j.val) :
    iblk4 V c 0 t (ix3 (0 : Fin 1) n j) = V c (Pipeline.arrRef spec4 0) (ix3 b n q) := by
  obtain ⟨e0, e1, e2⟩ := idx4_0 t
  unfold iblk4
  rw [View.read_apply]
  show V c (Pipeline.arrRef spec4 0) _ = V c (Pipeline.arrRef spec4 0) _
  congr 1
  funext a
  apply Fin.ext
  match a with
  | ⟨0, _⟩ => show win4_0.index t 0 * 1 + 1 * 0 = b.val; omega
  | ⟨1, _⟩ => show win4_0.index t 1 * 8192 + 1 * n.val = n.val; omega
  | ⟨2, _⟩ => show win4_0.index t 2 * 512 + 1 * j.val = q.val; omega

/-- The activation block at point t, element [0, j, h], is the array's element [b, q, h] with b = t / 16 and
    q = 512 (t mod 16) + j. -/
theorem iblk4_1_at (c : Dev nD) (t : Fin cfg4.N) (j : Fin 512) (h : Fin 64) (b : Fin 2) (q : Fin 8192)
    (hb : b.val = t.val / 16) (hq : q.val = 512 * (t.val % 16) + j.val) :
    iblk4 V c 1 t (ix3 (0 : Fin 1) j h) = V c (Pipeline.arrRef spec4 1) (ix3 b q h) := by
  obtain ⟨e0, e1, e2⟩ := idx4_1 t
  unfold iblk4
  rw [View.read_apply]
  show V c (Pipeline.arrRef spec4 1) _ = V c (Pipeline.arrRef spec4 1) _
  congr 1
  funext a
  apply Fin.ext
  match a with
  | ⟨0, _⟩ => show win4_1.index t 0 * 1 + 1 * 0 = b.val; omega
  | ⟨1, _⟩ => show win4_1.index t 1 * 512 + 1 * j.val = q.val; omega
  | ⟨2, _⟩ => show win4_1.index t 2 * 64 + 1 * h.val = h.val; omega

/-- The same with the array's coordinates written out. -/
theorem iblk4_0_apply (c : Dev nD) (t : Fin cfg4.N) (n : Fin 8192) (j : Fin 512)
    (hb : t.val / 16 < 2) (hq : 512 * (t.val % 16) + j.val < 8192) :
    iblk4 V c 0 t (ix3 (0 : Fin 1) n j)
      = V c (Pipeline.arrRef spec4 0) (ix3 (⟨t.val / 16, hb⟩ : Fin 2) n (⟨512 * (t.val % 16) + j.val, hq⟩ : Fin 8192)) :=
  iblk4_0_at V c t n j _ _ rfl rfl

theorem iblk4_1_apply (c : Dev nD) (t : Fin cfg4.N) (j : Fin 512) (h : Fin 64)
    (hb : t.val / 16 < 2) (hq : 512 * (t.val % 16) + j.val < 8192) :
    iblk4 V c 1 t (ix3 (0 : Fin 1) j h)
      = V c (Pipeline.arrRef spec4 1) (ix3 (⟨t.val / 16, hb⟩ : Fin 2) (⟨512 * (t.val % 16) + j.val, hq⟩ : Fin 8192) h) :=
  iblk4_1_at V c t j h _ _ rfl rfl

/-- The weight window's block index never moves: (0, 0). -/
theorem idx4_2 : ∀ t : Fin cfg4.N, win4_2.index t 0 = 0 ∧ win4_2.index t 1 = 0 :=
  (by decide +kernel : ∀ t : Fin grid4.N, win4_2.index t 0 = 0 ∧ win4_2.index t 1 = 0)

/-- Nor does the bias window's: (0, 0). -/
theorem idx4_3 : ∀ t : Fin cfg4.N, win4_3.index t 0 = 0 ∧ win4_3.index t 1 = 0 :=
  (by decide +kernel : ∀ t : Fin grid4.N, win4_3.index t 0 = 0 ∧ win4_3.index t 1 = 0)

/-- The weight block at any point is the weight array. -/
theorem iblk4_2_at (c : Dev nD) (t : Fin cfg4.N) (g : Fin 64) (h : Fin 64) :
    iblk4 V c 2 t (ix2 g h) = V c (Pipeline.arrRef spec4 2) (ix2 g h) := by
  obtain ⟨e0, e1⟩ := idx4_2 t
  unfold iblk4
  rw [View.read_apply]
  show V c (Pipeline.arrRef spec4 2) _ = V c (Pipeline.arrRef spec4 2) _
  congr 1
  funext a
  apply Fin.ext
  match a with
  | ⟨0, _⟩ => show win4_2.index t 0 * 64 + 1 * g.val = g.val; omega
  | ⟨1, _⟩ => show win4_2.index t 1 * 64 + 1 * h.val = h.val; omega

/-- The bias block at any point is the bias array. -/
theorem iblk4_3_at (c : Dev nD) (t : Fin cfg4.N) (u : Fin 1) (g : Fin 64) :
    iblk4 V c 3 t (ix2 u g) = V c (Pipeline.arrRef spec4 3) (ix2 u g) := by
  obtain ⟨e0, e1⟩ := idx4_3 t
  unfold iblk4
  rw [View.read_apply]
  show V c (Pipeline.arrRef spec4 3) _ = V c (Pipeline.arrRef spec4 3) _
  congr 1
  funext a
  apply Fin.ext
  match a with
  | ⟨0, _⟩ => show win4_3.index t 0 * 1 + 1 * u.val = u.val; omega
  | ⟨1, _⟩ => show win4_3.index t 1 * 64 + 1 * g.val = g.val; omega

end Cert.KernelIdeal.Hand

end
-- ==== Proof.HandKI.Val4Acc.lean ====
/-
  Last diffusion step of a layer fused with the layer's map, kernel region 4, over the extended reals: the scratch accumulator is
  the block-wise partial sum.

  Along the 16 column blocks of batch element b the accumulator starts from zero and each block k adds its own product, formed
  on a fresh zero: at row n, column h, 0 + sum over j < 512 of adj[b, n, 512 k + j] * d[b, 512 k + j, h]. So after column block
  k (point 16 b + k) the accumulator at [n, h] is the accumulation over blocks 0 .. k of the summand j |-> adj[b, n, j] * d[b, j, h],
  the contracted axis cut into 16 blocks of 512. By induction on k.
-/
import proofs.«169539_j48112223650339_2_alg».proof.Proof.HandKI.Val4Pay
import proofs.«169539_j48112223650339_2_alg».proof.Proof.HandKI.Val4Blk
import proofs.«169539_j48112223650339_2_alg».proof.Proof.SpecBlocks

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec Cert.Spec.Blocks

variable (V : (c : Dev nD) → (b : Ref sig .tc) → Buf (Elt Ideal) ((c : Thread nD τ).loc b))

/-- The adjacency array as the region finds it, as a function of its index. -/
abbrev adj4 (c : Dev nD) : SAdj.Idx → EReal := V c (Pipeline.arrRef spec4 0)
/-- The activation array as the region finds it, as a function of its index. -/
abbrev act4 (c : Dev nD) : SH.Idx → EReal := V c (Pipeline.arrRef spec4 1)

/-- Column block k of batch element b is a point of the grid. -/
theorem pt4_lt (b : Fin 2) (k : ℕ) (hk : k < 16) : 16 * b.val + k < cfg4.N := by
  show 16 * b.val + k < grid4.N
  rw [N_4]; omega

/-- The accumulator after a point, from the accumulator before it. -/
theorem accAt4_next (c : Dev nD) (m : ℕ) (hm : m < cfg4.N) :
    accAt4 V c (m + 1)
      = k4_pay2 (iblk4 V c 0 ⟨m, hm⟩) (iblk4 V c 1 ⟨m, hm⟩) (if m % 16 = 0 then k4_pay1 (F := Ideal) else accAt4 V c m) := by
  rw [accAt4, dif_pos hm]

/-- One step at an index: column block k of batch b adds, to whatever the accumulator held, the block's partial sum of the
    summand, formed on a fresh zero. -/
theorem step4_apply (c : Dev nD) (b : Fin 2) (k : ℕ) (hk : k < 16) (n : Fin 8192) (h : Fin 64) (X : Vec Ideal S8192x64 .f32) :
    k4_pay2 (F := Ideal) (iblk4 V c 0 ⟨16 * b.val + k, pt4_lt b k hk⟩) (iblk4 V c 1 ⟨16 * b.val + k, pt4_lt b k hk⟩) X (ix2 n h)
      = X (ix2 n h) + (0 + ∑ j : Fin 512, summand (adj4 V c) (act4 V c) b n h (col 16 512 cut_16_512 ⟨k, hk⟩ j)) := by
  refine (k4_pay2_apply _ _ X n h).trans ?_
  refine congrArg (fun s => X (ix2 n h) + (0 + s)) ?_
  refine Finset.sum_congr rfl fun j _ => ?_
  have hb : b.val = (16 * b.val + k) / 16 := by omega
  have hq : (col 16 512 cut_16_512 ⟨k, hk⟩ j).val = 512 * ((16 * b.val + k) % 16) + j.val := by
    show k * 512 + j.val = 512 * ((16 * b.val + k) % 16) + j.val
    omega
  rw [summand_apply]
  exact congrArg₂ (· * ·)
    (iblk4_0_at V c ⟨16 * b.val + k, pt4_lt b k hk⟩ n j b (col 16 512 cut_16_512 ⟨k, hk⟩ j) hb hq)
    (iblk4_1_at V c ⟨16 * b.val + k, pt4_lt b k hk⟩ j h b (col 16 512 cut_16_512 ⟨k, hk⟩ j) hb hq)

/-- After column block k of batch element b the accumulator at [n, h] is the accumulation of the summand over blocks 0 .. k. -/
theorem accAt4_eq_acc (c : Dev nD) (b : Fin 2) (n : Fin 8192) (h : Fin 64) :
    ∀ (k : ℕ) (hk : k < 16), accAt4 V c (16 * b.val + k + 1) (ix2 n h)
      = acc 16 512 cut_16_512 (summand (adj4 V c) (act4 V c) b n h) (k + 1)
  | 0, hk => by
    rw [accAt4_next V c (16 * b.val + 0) (pt4_lt b 0 hk), if_pos (by omega)]
    refine (step4_apply V c b 0 hk n h _).trans ?_
    rw [k4_pay1_apply, acc_succ_of_lt 16 512 cut_16_512 _ hk, acc_zero]
  | k + 1, hk => by
    have ih := accAt4_eq_acc c b n h k (by omega)
    rw [accAt4_next V c (16 * b.val + (k + 1)) (pt4_lt b (k + 1) hk), if_neg (by omega)]
    refine (step4_apply V c b (k + 1) hk n h _).trans ?_
    rw [acc_succ_of_lt 16 512 cut_16_512 _ hk]
    exact congrArg (· + _) ih

end Cert.KernelIdeal.Hand

end
-- ==== Proof.HandKI.Val4Final.lean ====
/-
  Last diffusion step of the first layer fused with the layer's map, kernel region 4, over the extended reals: what the region
  leaves in its arrays.

  The output block of batch element b is written back once, after the last column block (point 16 b + 15). By then the
  accumulator holds the whole diffusion step of batch b (the accumulation over the 16 blocks of 512 columns is the sum over all
  8192), and the body stores, at [0, n, g], the layer's map of it, (sum over h < 64 of diff[b, n, h] * w[g, h]) + bias[0, g],
  rectified: its maximum with the extended real the all-zero binary32 word denotes. The block of batch b is rows [b, *, *] of the
  output array and the two write-backs cover it. The four input arrays are never written.
-/
import proofs.«169539_j48112223650339_2_alg».proof.Proof.HandKI.Val4Acc

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec Cert.Spec.Blocks

variable (V : (c : Dev nD) → (b : Ref sig .tc) → Buf (Elt Ideal) ((c : Thread nD τ).loc b))

/-- The layer's weight array as the region finds it, as a function of its index. -/
abbrev wgt4 (c : Dev nD) : S64x64.Idx → EReal := V c (Pipeline.arrRef spec4 2)
/-- The layer's bias array as the region finds it, as a function of its index. -/
abbrev bias4 (c : Dev nD) : S1x64.Idx → EReal := V c (Pipeline.arrRef spec4 3)

/-- What the region computes, index by index: the rectified map of the diffusion step. -/
def out4 (c : Dev nD) : S2x8192x64.Idx → EReal := fun i =>
  max ((∑ h : Fin 64, diffuse (adj4 V c) (act4 V c) (ix3 (i 0 : Fin 2) (i 1 : Fin 8192) h) * wgt4 V c (ix2 (i 2 : Fin 64) h))
      + bias4 V c (ix2 (0 : Fin 1) (i 2 : Fin 64))) (Ideal.ofBits .f32 0x00000000#32)

theorem out4_apply (c : Dev nD) (b : Fin 2) (n : Fin 8192) (g : Fin 64) :
    out4 V c (ix3 b n g)
      = max ((∑ h : Fin 64, diffuse (adj4 V c) (act4 V c) (ix3 b n h) * wgt4 V c (ix2 g h)) + bias4 V c (ix2 (0 : Fin 1) g))
          (Ideal.ofBits .f32 0x00000000#32) := rfl

/-- The output window's block index at point t: (t / 16, 0, 0). -/
theorem idx4_4 : ∀ t : Fin cfg4.N, win4_4.index t 0 = t.val / 16 ∧ win4_4.index t 1 = 0 ∧ win4_4.index t 2 = 0 :=
  (by decide +kernel : ∀ t : Fin grid4.N, win4_4.index t 0 = t.val / 16 ∧ win4_4.index t 1 = 0 ∧ win4_4.index t 2 = 0)

/-- After the last column block of batch element b the accumulator holds the diffusion step's row of batch b. -/
theorem accAt4_last (c : Dev nD) (b : Fin 2) (n : Fin 8192) (h : Fin 64) :
    accAt4 V c (16 * b.val + 15 + 1) (ix2 n h) = diffuse (adj4 V c) (act4 V c) (ix3 b n h) :=
  (accAt4_eq_acc V c b n h 15 (by omega)).trans (diffuse_acc_16_512 _ _ b n h)

/-- What a write-back point writes is its block of the region's result. -/
theorem flushed4_eq (c : Dev nD) (t : Fin cfg4.N) (hf : (cfg4.win 4).flush t = true) :
    (dat4 V c).flushed 4 t = ((cfg4.win 4).blk t).view.read (Elt Ideal) (out4 V c) := by
  have h15 : t.val % 16 = 15 := (flush4_4 t).mp hf
  have hlt : t.val < 32 := Nat.lt_of_lt_of_eq t.isLt N_4
  obtain ⟨b, hb⟩ : ∃ b : Fin 2, b.val = t.val / 16 := ⟨⟨t.val / 16, by omega⟩, rfl⟩
  obtain ⟨e0, e1, e2⟩ := idx4_4 t
  show (cfg4.win 4).cut (grid4.coords t) ((dat4 V c).after 4 t) = _
  rw [after4_4]
  refine funext fun (y : S1x8192x64.Idx) => ?_
  obtain ⟨u, n, g, rfl⟩ : ∃ (u : Fin 1) (n : Fin 8192) (g : Fin 64), y = ix3 u n g := ⟨y 0, y 1, y 2, eq_ix3 y⟩
  obtain rfl : u = 0 := Subsingleton.elim _ _
  show k4_pay3 (F := Ideal) (accAt4 V c (t.val + 1)) (iblk4 V c 2 t) (iblk4 V c 3 t) (ix3 (0 : Fin 1) n g)
    = out4 V c (((cfg4.win 4).blk t).view.emb (ix3 (0 : Fin 1) n g))
  have hemb : ((cfg4.win 4).blk t).view.emb (ix3 (0 : Fin 1) n g) = (ix3 b n g : S2x8192x64.Idx) := by
    funext a
    apply Fin.ext
    match a with
    | ⟨0, _⟩ => show win4_4.index t 0 * 1 + 1 * 0 = b.val; omega
    | ⟨1, _⟩ => show win4_4.index t 1 * 8192 + 1 * n.val = n.val; omega
    | ⟨2, _⟩ => show win4_4.index t 2 * 64 + 1 * g.val = g.val; omega
  have hacc : ∀ h : Fin 64, accAt4 V c (t.val + 1) (ix2 n h) = diffuse (adj4 V c) (act4 V c) (ix3 b n h) := fun h => by
    rw [show t.val + 1 = 16 * b.val + 15 + 1 from by omega]
    exact accAt4_last V c b n h
  refine Eq.trans ?_ (congrArg (out4 V c) hemb).symm
  refine (k4_pay3_apply _ _ _ n g).trans ?_
  rw [out4_apply]
  refine congrArg₂ (fun s z => max (s + z) (Ideal.ofBits .f32 0x00000000#32)) (Finset.sum_congr rfl fun h _ => ?_) (iblk4_3_at V c t 0 g)
  exact congrArg₂ (· * ·) (hacc h) (iblk4_2_at V c t g h)

/-- An index of the output array is in point t's block iff each coordinate is in the block's range on its axis. -/
theorem mem_blk4 (t : Fin cfg4.N) (i : S2x8192x64.Idx) :
    i ∈ ((cfg4.win 4).blk t).view.set
      ↔ ∀ a : Fin 3, win4_4.index t a * S1x8192x64.size a ≤ (i a).val ∧ (i a).val < win4_4.index t a * S1x8192x64.size a + S1x8192x64.size a := by
  show i ∈ ((View.whole main_v10).slice (win4_4.rect t)).set ↔ _
  rw [View.set_slice_whole, Rect.mem_set_unit]
  exact Iff.rfl

/-- Every index [b, n, g] of the output array is in the block written back at point 16 b + 15. -/
theorem cover4 (i : S2x8192x64.Idx) :
    ∃ t : Fin cfg4.N, (cfg4.win 4).flush t = true ∧ i ∈ ((cfg4.win 4).blk t).view.set := by
  have h0 : (i 0).val < 2 := (i 0).isLt
  have h1 : (i 1).val < 8192 := (i 1).isLt
  have h2 : (i 2).val < 64 := (i 2).isLt
  obtain ⟨t, ht⟩ : ∃ t : Fin cfg4.N, t.val = 16 * (i 0).val + 15 :=
    ⟨⟨16 * (i 0).val + 15, by show _ < grid4.N; rw [N_4]; omega⟩, rfl⟩
  obtain ⟨e0, e1, e2⟩ := idx4_4 t
  refine ⟨t, (flush4_4 t).mpr (by omega), ?_⟩
  rw [mem_blk4]
  intro a
  match a with
  | ⟨0, _⟩ => show win4_4.index t 0 * 1 ≤ (i 0).val ∧ (i 0).val < win4_4.index t 0 * 1 + 1; omega
  | ⟨1, _⟩ => show win4_4.index t 1 * 8192 ≤ (i 1).val ∧ (i 1).val < win4_4.index t 1 * 8192 + 8192; omega
  | ⟨2, _⟩ => show win4_4.index t 2 * 64 ≤ (i 2).val ∧ (i 2).val < win4_4.index t 2 * 64 + 64; omega

/-- The output array after the region: the rectified map of the diffusion step, of the arrays as the region found them. -/
theorem final4 (c : Dev nD) : (dat4 V c).arrAt 4 cfg4.N = out4 V c :=
  (dat4 V c).arrAt_eq_of_cover 4 (out4 V c) (fun t hf => flushed4_eq V c t hf) (fun i => cover4 i)

/-- The same with the result written out index by index. -/
theorem final4_fun (c : Dev nD) : (dat4 V c).arrAt 4 cfg4.N = fun i =>
  max ((∑ h : Fin 64, diffuse (adj4 V c) (act4 V c) (ix3 (i 0 : Fin 2) (i 1 : Fin 8192) h) * wgt4 V c (ix2 (i 2 : Fin 64) h))
      + bias4 V c (ix2 (0 : Fin 1) (i 2 : Fin 64))) (Ideal.ofBits .f32 0x00000000#32) :=
  final4 V c

/-- The adjacency array is left as found. -/
theorem final4_in0 (c : Dev nD) : (dat4 V c).arrAt 0 cfg4.N = V c (Pipeline.arrRef spec4 0) :=
  ((dat4 V c).arrAt_in 0 rfl _).trans (A_eq4 V c 0)

/-- The activation array is left as found. -/
theorem final4_in1 (c : Dev nD) : (dat4 V c).arrAt 1 cfg4.N = V c (Pipeline.arrRef spec4 1) :=
  ((dat4 V c).arrAt_in 1 rfl _).trans (A_eq4 V c 1)

/-- The weight array is left as found. -/
theorem final4_in2 (c : Dev nD) : (dat4 V c).arrAt 2 cfg4.N = V c (Pipeline.arrRef spec4 2) :=
  ((dat4 V c).arrAt_in 2 rfl _).trans (A_eq4 V c 2)

/-- The bias array is left as found. -/
theorem final4_in3 (c : Dev nD) : (dat4 V c).arrAt 3 cfg4.N = V c (Pipeline.arrRef spec4 3) :=
  ((dat4 V c).arrAt_in 3 rfl _).trans (A_eq4 V c 3)

end Cert.KernelIdeal.Hand

end
-- ==== Proof.HandKI.ValueStage4.lean ====
/-
  The first layer's map in the run of the whole program: the host stretch before kernel region 4 slices layer 0's map
  and bias out of the per-layer arguments, and the region leaves, in its output array, the layer's map of the last diffusion
  step of the operator copy and the state it finds, rectified.
-/
import proofs.«169539_j48112223650339_2_alg».proof.Proof.HandKI.Chain
import proofs.«169539_j48112223650339_2_alg».proof.Proof.HandKI.Val4Final
import proofs.«169539_j48112223650339_2_alg».proof.Proof.HandKI.ValHost
import proofs.«169539_j48112223650339_2_alg».proof.Proof.HandKI.ValueStage0

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec

variable (m : (ℓ : Loc nD τ sig) → Buf (Elt Ideal) ℓ)

/-- After the host stretch layer 0's map holds `Ws[0, g, h]` at `[g, h]`: the stretch reads the argument, which nothing before it writes. -/
theorem host4_wgt (c : Dev nD) (g h : Fin 64) :
    (W6 m c (Proc.devRef .tc main_v6) : S64x64.Idx → EReal) (ix2 g h) = argWs m c (ix3 (0 : Fin 2) g h) :=
  (hostOps4_v6 (W5 m c) g h).trans (congrFun (W5_main_arg4 m c) _)

/-- After the host stretch layer 0's bias holds `bs[0, g]` at `[0, g]`. -/
theorem host4_bias (c : Dev nD) (g : Fin 64) :
    (W6 m c (Proc.devRef .tc main_v9) : S1x64.Idx → EReal) (ix2 (0 : Fin 1) g) = argBs m c (ix2 (0 : Fin 2) g) :=
  (hostOps4_v9 (W5 m c) g).trans (congrFun (W5_main_arg5 m c) _)

/-- Region 4: from an operator copy `A` and a state `D` it leaves the rectified layer's map of `A · D`. -/
theorem stage4 (c : Dev nD) (A : SAdj.Idx → EReal) (D : SH.Idx → EReal)
    (hA : (W6 m c (Proc.devRef .tc main_v2_1) : SAdj.Idx → EReal) = A)
    (hD : (W6 m c (Proc.devRef .tc main_v4) : SH.Idx → EReal) = D) :
    (W7 m c (Proc.devRef .tc main_v10) : SH.Idx → EReal)
      = relu (postLin (diffuse A D) (argWs m c) (argBs m c) 0) := by
  refine ((W7_arr m c 4).trans (final4 (VV6 m) c)).trans ?_
  funext i
  obtain ⟨b, n, g, rfl⟩ : ∃ (b : Fin 2) (n : Fin 8192) (g : Fin 64), i = ix3 b n g := ⟨i 0, i 1, i 2, eq_ix3 i⟩
  have eA : adj4 (VV6 m) c = A := hA
  have eD : act4 (VV6 m) c = D := hD
  have eB : bias4 (VV6 m) c (ix2 (0 : Fin 1) g) = argBs m c (ix2 (0 : Fin 2) g) := host4_bias m c g
  have eW : ∀ h : Fin 64, wgt4 (VV6 m) c (ix2 g h) = argWs m c (ix3 (0 : Fin 2) g h) := fun h => host4_wgt m c g h
  rw [out4_apply, relu_apply, postLin_apply, eA, eD, eB]
  refine congrArg (fun s => max (s + argBs m c (ix2 (0 : Fin 2) g)) (Ideal.ofBits .f32 0x00000000#32)) ?_
  exact Finset.sum_congr rfl fun h _ => by rw [eW h]

end Cert.KernelIdeal.Hand

end
-- ==== Proof.HandKI.Val8Pay.lean ====
/-
  The last diffusion step of the last layer together with the layer's map, kernel region 8, over the extended reals:
  its stored values at a position.

  The region walks the operator's columns in 16 blocks of 512, accumulating the product; at the last block it applies
  the layer's map to the accumulated diffusion and adds the diffusion back.

  * The accumulator's reset value is zero everywhere.
  * One step of the accumulator at `[n, h]`: what it held plus the block product formed on a fresh zero,
    `0 + ∑ j, adj[0, n, j] · d[0, j, h]` over the block's 512 columns.
  * The stored result at `[0, n, g]`: the layer's map of the accumulated diffusion, `(∑ h, d[n, h] · w[g, h]) + b[0, g]`
    over the 64 hidden units, plus the diffusion itself at `[n, g]` (the residual), in this order.

  Casts between float formats are the identity on the extended reals; dropping or adding a leading axis of extent one
  does not move an element; the bias is one row broadcast over the nodes.
-/
import proofs.«169539_j48112223650339_2_alg».proof.Proof.HandKI.ValDots
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.ValueIdx

/-- The reset value of the accumulator is zero at every position. -/
theorem k8_pay1_apply (n : Fin 8192) (h : Fin 64) : k8_pay1 (F := Ideal) (ix2 n h) = 0 := by
  unfold k8_pay1
  rw [shapeCast_self, broadcast_apply]
  exact Ideal.ofBits_zero_f32

/-- One step of the accumulator at a position: what it held plus the block product formed on a fresh zero. -/
theorem k8_pay2_apply (x0 : Vec Ideal S1x8192x512 .bf16) (x1 : Vec Ideal S1x512x64 .f32) (xs : Vec Ideal S8192x64 .f32)
    (n : Fin 8192) (h : Fin 64) :
    k8_pay2 (F := Ideal) x0 x1 xs (ix2 n h)
      = xs (ix2 n h) + (0 + ∑ j : Fin 512, x0 (ix3 (0 : Fin 1) n j) * x1 (ix3 (0 : Fin 1) j h)) := by
  unfold k8_pay2
  rw [shapeCast_self, addf_apply, dotStep_zero_apply, zero_add]
  refine congrArg (xs (ix2 n h) + ·) ?_
  refine Finset.sum_congr rfl fun j _ => ?_
  rw [shapeCast_1ab_ab_apply, truncf_apply, shapeCast_1ab_ab_apply]

/-- The stored result at `[0, n, g]`: the layer's map of the diffusion plus the diffusion (the map's product is formed on a
    zero accumulator, which adds nothing). -/
theorem k8_pay3_apply (d : Vec Ideal S8192x64 .f32) (w : Vec Ideal S64x64 .f32) (b : Vec Ideal S1x64 .f32)
    (n : Fin 8192) (g : Fin 64) :
    k8_pay3 (F := Ideal) d w b (ix3 (0 : Fin 1) n g)
      = ((∑ h : Fin 64, d (ix2 n h) * w (ix2 g h)) + b (ix2 (0 : Fin 1) g)) + d (ix2 n g) := by
  unfold k8_pay3
  rw [shapeCast_ab_1ab_apply, addf_apply, addf_apply, dotPost_zero_apply, shapeCast_self, broadcastTo_1b_ab_apply,
    shapeCast_self]
  refine congrArg (fun s => (s + b (ix2 (0 : Fin 1) g)) + d (ix2 n g)) ?_
  refine Finset.sum_congr rfl fun h _ => ?_
  rw [truncf_apply, truncf_apply]

end Cert.KernelIdeal.Hand

end
-- ==== Proof.HandKI.Val8Blk.lean ====
/-
  Last diffusion step of a layer fused with the layer's map, kernel region 8: the blocks the body reads, at coordinates of
  the whole arrays.

  Point t of the grid is batch element b = t / 16 and column block k = t mod 16. The adjacency block at t is rows 0..8191 and
  columns 512 k .. 512 k + 511 of batch b: its element [0, n, j] is the array's [b, n, 512 k + j]. The activation block at t is
  rows 512 k .. 512 k + 511 of batch b: its element [0, j, h] is the array's [b, 512 k + j, h]. (On every axis a block's element sits
  at block index times block size plus its own coordinate.) The weight's block and the bias' block are their whole arrays at
  every point.
-/
import proofs.«169539_j48112223650339_2_alg».proof.Proof.HandKI.Dat8
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-- The adjacency window's block index at point t: (t / 16, 0, t mod 16). -/
theorem idx8_0 : ∀ t : Fin cfg8.N, win8_0.index t 0 = t.val / 16 ∧ win8_0.index t 1 = 0 ∧ win8_0.index t 2 = t.val % 16 :=
  (by decide +kernel : ∀ t : Fin grid8.N, win8_0.index t 0 = t.val / 16 ∧ win8_0.index t 1 = 0 ∧ win8_0.index t 2 = t.val % 16)

/-- The activation window's block index at point t: (t / 16, t mod 16, 0). -/
theorem idx8_1 : ∀ t : Fin cfg8.N, win8_1.index t 0 = t.val / 16 ∧ win8_1.index t 1 = t.val % 16 ∧ win8_1.index t 2 = 0 :=
  (by decide +kernel : ∀ t : Fin grid8.N, win8_1.index t 0 = t.val / 16 ∧ win8_1.index t 1 = t.val % 16 ∧ win8_1.index t 2 = 0)

/-- The adjacency block at point t, element [0, n, j], is the array's element [b, n, q] with b = t / 16 and
    q = 512 (t mod 16) + j. -/
theorem iblk8_0_at (c : Dev nD) (t : Fin cfg8.N) (n : Fin 8192) (j : Fin 512) (b : Fin 2) (q : Fin 8192)
    (hb : b.val = t.val / 16) (hq : q.val = 512 * (t.val % 16) + j.val) :
    iblk8 V c 0 t (ix3 (0 : Fin 1) n j) = V c (Pipeline.arrRef spec8 0) (ix3 b n q) := by
  obtain ⟨e0, e1, e2⟩ := idx8_0 t
  unfold iblk8
  rw [View.read_apply]
  show V c (Pipeline.arrRef spec8 0) _ = V c (Pipeline.arrRef spec8 0) _
  congr 1
  funext a
  apply Fin.ext
  match a with
  | ⟨0, _⟩ => show win8_0.index t 0 * 1 + 1 * 0 = b.val; omega
  | ⟨1, _⟩ => show win8_0.index t 1 * 8192 + 1 * n.val = n.val; omega
  | ⟨2, _⟩ => show win8_0.index t 2 * 512 + 1 * j.val = q.val; omega

/-- The activation block at point t, element [0, j, h], is the array's element [b, q, h] with b = t / 16 and
    q = 512 (t mod 16) + j. -/
theorem iblk8_1_at (c : Dev nD) (t : Fin cfg8.N) (j : Fin 512) (h : Fin 64) (b : Fin 2) (q : Fin 8192)
    (hb : b.val = t.val / 16) (hq : q.val = 512 * (t.val % 16) + j.val) :
    iblk8 V c 1 t (ix3 (0 : Fin 1) j h) = V c (Pipeline.arrRef spec8 1) (ix3 b q h) := by
  obtain ⟨e0, e1, e2⟩ := idx8_1 t
  unfold iblk8
  rw [View.read_apply]
  show V c (Pipeline.arrRef spec8 1) _ = V c (Pipeline.arrRef spec8 1) _
  congr 1
  funext a
  apply Fin.ext
  match a with
  | ⟨0, _⟩ => show win8_1.index t 0 * 1 + 1 * 0 = b.val; omega
  | ⟨1, _⟩ => show win8_1.index t 1 * 512 + 1 * j.val = q.val; omega
  | ⟨2, _⟩ => show win8_1.index t 2 * 64 + 1 * h.val = h.val; omega

/-- The same with the array's coordinates written out. -/
theorem iblk8_0_apply (c : Dev nD) (t : Fin cfg8.N) (n : Fin 8192) (j : Fin 512)
    (hb : t.val / 16 < 2) (hq : 512 * (t.val % 16) + j.val < 8192) :
    iblk8 V c 0 t (ix3 (0 : Fin 1) n j)
      = V c (Pipeline.arrRef spec8 0) (ix3 (⟨t.val / 16, hb⟩ : Fin 2) n (⟨512 * (t.val % 16) + j.val, hq⟩ : Fin 8192)) :=
  iblk8_0_at V c t n j _ _ rfl rfl

theorem iblk8_1_apply (c : Dev nD) (t : Fin cfg8.N) (j : Fin 512) (h : Fin 64)
    (hb : t.val / 16 < 2) (hq : 512 * (t.val % 16) + j.val < 8192) :
    iblk8 V c 1 t (ix3 (0 : Fin 1) j h)
      = V c (Pipeline.arrRef spec8 1) (ix3 (⟨t.val / 16, hb⟩ : Fin 2) (⟨512 * (t.val % 16) + j.val, hq⟩ : Fin 8192) h) :=
  iblk8_1_at V c t j h _ _ rfl rfl

/-- The weight window's block index never moves: (0, 0). -/
theorem idx8_2 : ∀ t : Fin cfg8.N, win8_2.index t 0 = 0 ∧ win8_2.index t 1 = 0 :=
  (by decide +kernel : ∀ t : Fin grid8.N, win8_2.index t 0 = 0 ∧ win8_2.index t 1 = 0)

/-- Nor does the bias window's: (0, 0). -/
theorem idx8_3 : ∀ t : Fin cfg8.N, win8_3.index t 0 = 0 ∧ win8_3.index t 1 = 0 :=
  (by decide +kernel : ∀ t : Fin grid8.N, win8_3.index t 0 = 0 ∧ win8_3.index t 1 = 0)

/-- The weight block at any point is the weight array. -/
theorem iblk8_2_at (c : Dev nD) (t : Fin cfg8.N) (g : Fin 64) (h : Fin 64) :
    iblk8 V c 2 t (ix2 g h) = V c (Pipeline.arrRef spec8 2) (ix2 g h) := by
  obtain ⟨e0, e1⟩ := idx8_2 t
  unfold iblk8
  rw [View.read_apply]
  show V c (Pipeline.arrRef spec8 2) _ = V c (Pipeline.arrRef spec8 2) _
  congr 1
  funext a
  apply Fin.ext
  match a with
  | ⟨0, _⟩ => show win8_2.index t 0 * 64 + 1 * g.val = g.val; omega
  | ⟨1, _⟩ => show win8_2.index t 1 * 64 + 1 * h.val = h.val; omega

/-- The bias block at any point is the bias array. -/
theorem iblk8_3_at (c : Dev nD) (t : Fin cfg8.N) (u : Fin 1) (g : Fin 64) :
    iblk8 V c 3 t (ix2 u g) = V c (Pipeline.arrRef spec8 3) (ix2 u g) := by
  obtain ⟨e0, e1⟩ := idx8_3 t
  unfold iblk8
  rw [View.read_apply]
  show V c (Pipeline.arrRef spec8 3) _ = V c (Pipeline.arrRef spec8 3) _
  congr 1
  funext a
  apply Fin.ext
  match a with
  | ⟨0, _⟩ => show win8_3.index t 0 * 1 + 1 * u.val = u.val; omega
  | ⟨1, _⟩ => show win8_3.index t 1 * 64 + 1 * g.val = g.val; omega

end Cert.KernelIdeal.Hand

end
-- ==== Proof.HandKI.Val8Acc.lean ====
/-
  Last diffusion step of a layer fused with the layer's map, kernel region 8, over the extended reals: the scratch accumulator is
  the block-wise partial sum.

  Along the 16 column blocks of batch element b the accumulator starts from zero and each block k adds its own product, formed
  on a fresh zero: at row n, column h, 0 + sum over j < 512 of adj[b, n, 512 k + j] * d[b, 512 k + j, h]. So after column block
  k (point 16 b + k) the accumulator at [n, h] is the accumulation over blocks 0 .. k of the summand j |-> adj[b, n, j] * d[b, j, h],
  the contracted axis cut into 16 blocks of 512. By induction on k.
-/
import proofs.«169539_j48112223650339_2_alg».proof.Proof.HandKI.Val8Pay
import proofs.«169539_j48112223650339_2_alg».proof.Proof.HandKI.Val8Blk
import proofs.«169539_j48112223650339_2_alg».proof.Proof.SpecBlocks

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec Cert.Spec.Blocks

variable (V : (c : Dev nD) → (b : Ref sig .tc) → Buf (Elt Ideal) ((c : Thread nD τ).loc b))

/-- The adjacency array as the region finds it, as a function of its index. -/
abbrev adj8 (c : Dev nD) : SAdj.Idx → EReal := V c (Pipeline.arrRef spec8 0)
/-- The activation array as the region finds it, as a function of its index. -/
abbrev act8 (c : Dev nD) : SH.Idx → EReal := V c (Pipeline.arrRef spec8 1)

/-- Column block k of batch element b is a point of the grid. -/
theorem pt8_lt (b : Fin 2) (k : ℕ) (hk : k < 16) : 16 * b.val + k < cfg8.N := by
  show 16 * b.val + k < grid8.N
  rw [N_8]; omega

/-- The accumulator after a point, from the accumulator before it. -/
theorem accAt8_next (c : Dev nD) (m : ℕ) (hm : m < cfg8.N) :
    accAt8 V c (m + 1)
      = k8_pay2 (iblk8 V c 0 ⟨m, hm⟩) (iblk8 V c 1 ⟨m, hm⟩) (if m % 16 = 0 then k8_pay1 (F := Ideal) else accAt8 V c m) := by
  rw [accAt8, dif_pos hm]

/-- One step at an index: column block k of batch b adds, to whatever the accumulator held, the block's partial sum of the
    summand, formed on a fresh zero. -/
theorem step8_apply (c : Dev nD) (b : Fin 2) (k : ℕ) (hk : k < 16) (n : Fin 8192) (h : Fin 64) (X : Vec Ideal S8192x64 .f32) :
    k8_pay2 (F := Ideal) (iblk8 V c 0 ⟨16 * b.val + k, pt8_lt b k hk⟩) (iblk8 V c 1 ⟨16 * b.val + k, pt8_lt b k hk⟩) X (ix2 n h)
      = X (ix2 n h) + (0 + ∑ j : Fin 512, summand (adj8 V c) (act8 V c) b n h (col 16 512 cut_16_512 ⟨k, hk⟩ j)) := by
  refine (k8_pay2_apply _ _ X n h).trans ?_
  refine congrArg (fun s => X (ix2 n h) + (0 + s)) ?_
  refine Finset.sum_congr rfl fun j _ => ?_
  have hb : b.val = (16 * b.val + k) / 16 := by omega
  have hq : (col 16 512 cut_16_512 ⟨k, hk⟩ j).val = 512 * ((16 * b.val + k) % 16) + j.val := by
    show k * 512 + j.val = 512 * ((16 * b.val + k) % 16) + j.val
    omega
  rw [summand_apply]
  exact congrArg₂ (· * ·)
    (iblk8_0_at V c ⟨16 * b.val + k, pt8_lt b k hk⟩ n j b (col 16 512 cut_16_512 ⟨k, hk⟩ j) hb hq)
    (iblk8_1_at V c ⟨16 * b.val + k, pt8_lt b k hk⟩ j h b (col 16 512 cut_16_512 ⟨k, hk⟩ j) hb hq)

/-- After column block k of batch element b the accumulator at [n, h] is the accumulation of the summand over blocks 0 .. k. -/
theorem accAt8_eq_acc (c : Dev nD) (b : Fin 2) (n : Fin 8192) (h : Fin 64) :
    ∀ (k : ℕ) (hk : k < 16), accAt8 V c (16 * b.val + k + 1) (ix2 n h)
      = acc 16 512 cut_16_512 (summand (adj8 V c) (act8 V c) b n h) (k + 1)
  | 0, hk => by
    rw [accAt8_next V c (16 * b.val + 0) (pt8_lt b 0 hk), if_pos (by omega)]
    refine (step8_apply V c b 0 hk n h _).trans ?_
    rw [k8_pay1_apply, acc_succ_of_lt 16 512 cut_16_512 _ hk, acc_zero]
  | k + 1, hk => by
    have ih := accAt8_eq_acc c b n h k (by omega)
    rw [accAt8_next V c (16 * b.val + (k + 1)) (pt8_lt b (k + 1) hk), if_neg (by omega)]
    refine (step8_apply V c b (k + 1) hk n h _).trans ?_
    rw [acc_succ_of_lt 16 512 cut_16_512 _ hk]
    exact congrArg (· + _) ih

end Cert.KernelIdeal.Hand

end
-- ==== Proof.HandKI.Val8Final.lean ====
/-
  Last diffusion step of the last layer fused with the layer's map, kernel region 8, over the extended reals: what the region
  leaves in its arrays.

  The output block of batch element b is written back once, after the last column block (point 16 b + 15). By then the
  accumulator holds the whole diffusion step of batch b (the accumulation over the 16 blocks of 512 columns is the sum over all
  8192), and the body stores, at [0, n, g], the layer's map of it plus the diffusion itself:
  ((sum over h < 64 of diff[b, n, h] * w[g, h]) + bias[0, g]) + diff[b, n, g]. The block of batch b is rows [b, *, *] of the
  output array and the two write-backs cover it. The four input arrays are never written.
-/
import proofs.«169539_j48112223650339_2_alg».proof.Proof.HandKI.Val8Acc

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec Cert.Spec.Blocks

variable (V : (c : Dev nD) → (b : Ref sig .tc) → Buf (Elt Ideal) ((c : Thread nD τ).loc b))

/-- The layer's weight array as the region finds it, as a function of its index. -/
abbrev wgt8 (c : Dev nD) : S64x64.Idx → EReal := V c (Pipeline.arrRef spec8 2)
/-- The layer's bias array as the region finds it, as a function of its index. -/
abbrev bias8 (c : Dev nD) : S1x64.Idx → EReal := V c (Pipeline.arrRef spec8 3)

/-- What the region computes, index by index: the layer's map of the diffusion step plus the diffusion step. -/
def out8 (c : Dev nD) : S2x8192x64.Idx → EReal := fun i =>
  ((∑ h : Fin 64, diffuse (adj8 V c) (act8 V c) (ix3 (i 0 : Fin 2) (i 1 : Fin 8192) h) * wgt8 V c (ix2 (i 2 : Fin 64) h))
      + bias8 V c (ix2 (0 : Fin 1) (i 2 : Fin 64))) + diffuse (adj8 V c) (act8 V c) i

theorem out8_apply (c : Dev nD) (b : Fin 2) (n : Fin 8192) (g : Fin 64) :
    out8 V c (ix3 b n g)
      = ((∑ h : Fin 64, diffuse (adj8 V c) (act8 V c) (ix3 b n h) * wgt8 V c (ix2 g h)) + bias8 V c (ix2 (0 : Fin 1) g))
          + diffuse (adj8 V c) (act8 V c) (ix3 b n g) := rfl

/-- The output window's block index at point t: (t / 16, 0, 0). -/
theorem idx8_4 : ∀ t : Fin cfg8.N, win8_4.index t 0 = t.val / 16 ∧ win8_4.index t 1 = 0 ∧ win8_4.index t 2 = 0 :=
  (by decide +kernel : ∀ t : Fin grid8.N, win8_4.index t 0 = t.val / 16 ∧ win8_4.index t 1 = 0 ∧ win8_4.index t 2 = 0)

/-- After the last column block of batch element b the accumulator holds the diffusion step's row of batch b. -/
theorem accAt8_last (c : Dev nD) (b : Fin 2) (n : Fin 8192) (h : Fin 64) :
    accAt8 V c (16 * b.val + 15 + 1) (ix2 n h) = diffuse (adj8 V c) (act8 V c) (ix3 b n h) :=
  (accAt8_eq_acc V c b n h 15 (by omega)).trans (diffuse_acc_16_512 _ _ b n h)

/-- What a write-back point writes is its block of the region's result. -/
theorem flushed8_eq (c : Dev nD) (t : Fin cfg8.N) (hf : (cfg8.win 4).flush t = true) :
    (dat8 V c).flushed 4 t = ((cfg8.win 4).blk t).view.read (Elt Ideal) (out8 V c) := by
  have h15 : t.val % 16 = 15 := (flush8_4 t).mp hf
  have hlt : t.val < 32 := Nat.lt_of_lt_of_eq t.isLt N_8
  obtain ⟨b, hb⟩ : ∃ b : Fin 2, b.val = t.val / 16 := ⟨⟨t.val / 16, by omega⟩, rfl⟩
  obtain ⟨e0, e1, e2⟩ := idx8_4 t
  show (cfg8.win 4).cut (grid8.coords t) ((dat8 V c).after 4 t) = _
  rw [after8_4]
  refine funext fun (y : S1x8192x64.Idx) => ?_
  obtain ⟨u, n, g, rfl⟩ : ∃ (u : Fin 1) (n : Fin 8192) (g : Fin 64), y = ix3 u n g := ⟨y 0, y 1, y 2, eq_ix3 y⟩
  obtain rfl : u = 0 := Subsingleton.elim _ _
  show k8_pay3 (F := Ideal) (accAt8 V c (t.val + 1)) (iblk8 V c 2 t) (iblk8 V c 3 t) (ix3 (0 : Fin 1) n g)
    = out8 V c (((cfg8.win 4).blk t).view.emb (ix3 (0 : Fin 1) n g))
  have hemb : ((cfg8.win 4).blk t).view.emb (ix3 (0 : Fin 1) n g) = (ix3 b n g : S2x8192x64.Idx) := by
    funext a
    apply Fin.ext
    match a with
    | ⟨0, _⟩ => show win8_4.index t 0 * 1 + 1 * 0 = b.val; omega
    | ⟨1, _⟩ => show win8_4.index t 1 * 8192 + 1 * n.val = n.val; omega
    | ⟨2, _⟩ => show win8_4.index t 2 * 64 + 1 * g.val = g.val; omega
  have hacc : ∀ h : Fin 64, accAt8 V c (t.val + 1) (ix2 n h) = diffuse (adj8 V c) (act8 V c) (ix3 b n h) := fun h => by
    rw [show t.val + 1 = 16 * b.val + 15 + 1 from by omega]
    exact accAt8_last V c b n h
  refine Eq.trans ?_ (congrArg (out8 V c) hemb).symm
  refine (k8_pay3_apply _ _ _ n g).trans ?_
  rw [out8_apply]
  refine congrArg₂ (fun s z => s + z) (congrArg₂ (fun s z => s + z) (Finset.sum_congr rfl fun h _ => ?_) (iblk8_3_at V c t 0 g)) (hacc g)
  exact congrArg₂ (· * ·) (hacc h) (iblk8_2_at V c t g h)

/-- An index of the output array is in point t's block iff each coordinate is in the block's range on its axis. -/
theorem mem_blk8 (t : Fin cfg8.N) (i : S2x8192x64.Idx) :
    i ∈ ((cfg8.win 4).blk t).view.set
      ↔ ∀ a : Fin 3, win8_4.index t a * S1x8192x64.size a ≤ (i a).val ∧ (i a).val < win8_4.index t a * S1x8192x64.size a + S1x8192x64.size a := by
  show i ∈ ((View.whole main_v19).slice (win8_4.rect t)).set ↔ _
  rw [View.set_slice_whole, Rect.mem_set_unit]
  exact Iff.rfl

/-- Every index [b, n, g] of the output array is in the block written back at point 16 b + 15. -/
theorem cover8 (i : S2x8192x64.Idx) :
    ∃ t : Fin cfg8.N, (cfg8.win 4).flush t = true ∧ i ∈ ((cfg8.win 4).blk t).view.set := by
  have h0 : (i 0).val < 2 := (i 0).isLt
  have h1 : (i 1).val < 8192 := (i 1).isLt
  have h2 : (i 2).val < 64 := (i 2).isLt
  obtain ⟨t, ht⟩ : ∃ t : Fin cfg8.N, t.val = 16 * (i 0).val + 15 :=
    ⟨⟨16 * (i 0).val + 15, by show _ < grid8.N; rw [N_8]; omega⟩, rfl⟩
  obtain ⟨e0, e1, e2⟩ := idx8_4 t
  refine ⟨t, (flush8_4 t).mpr (by omega), ?_⟩
  rw [mem_blk8]
  intro a
  match a with
  | ⟨0, _⟩ => show win8_4.index t 0 * 1 ≤ (i 0).val ∧ (i 0).val < win8_4.index t 0 * 1 + 1; omega
  | ⟨1, _⟩ => show win8_4.index t 1 * 8192 ≤ (i 1).val ∧ (i 1).val < win8_4.index t 1 * 8192 + 8192; omega
  | ⟨2, _⟩ => show win8_4.index t 2 * 64 ≤ (i 2).val ∧ (i 2).val < win8_4.index t 2 * 64 + 64; omega

/-- The output array after the region: the layer's map of the diffusion step plus the diffusion step, of the arrays as the region found them. -/
theorem final8 (c : Dev nD) : (dat8 V c).arrAt 4 cfg8.N = out8 V c :=
  (dat8 V c).arrAt_eq_of_cover 4 (out8 V c) (fun t hf => flushed8_eq V c t hf) (fun i => cover8 i)

/-- The same with the result written out index by index. -/
theorem final8_fun (c : Dev nD) : (dat8 V c).arrAt 4 cfg8.N = fun i =>
  ((∑ h : Fin 64, diffuse (adj8 V c) (act8 V c) (ix3 (i 0 : Fin 2) (i 1 : Fin 8192) h) * wgt8 V c (ix2 (i 2 : Fin 64) h))
      + bias8 V c (ix2 (0 : Fin 1) (i 2 : Fin 64))) + diffuse (adj8 V c) (act8 V c) i :=
  final8 V c

/-- The adjacency array is left as found. -/
theorem final8_in0 (c : Dev nD) : (dat8 V c).arrAt 0 cfg8.N = V c (Pipeline.arrRef spec8 0) :=
  ((dat8 V c).arrAt_in 0 rfl _).trans (A_eq8 V c 0)

/-- The activation array is left as found. -/
theorem final8_in1 (c : Dev nD) : (dat8 V c).arrAt 1 cfg8.N = V c (Pipeline.arrRef spec8 1) :=
  ((dat8 V c).arrAt_in 1 rfl _).trans (A_eq8 V c 1)

/-- The weight array is left as found. -/
theorem final8_in2 (c : Dev nD) : (dat8 V c).arrAt 2 cfg8.N = V c (Pipeline.arrRef spec8 2) :=
  ((dat8 V c).arrAt_in 2 rfl _).trans (A_eq8 V c 2)

/-- The bias array is left as found. -/
theorem final8_in3 (c : Dev nD) : (dat8 V c).arrAt 3 cfg8.N = V c (Pipeline.arrRef spec8 3) :=
  ((dat8 V c).arrAt_in 3 rfl _).trans (A_eq8 V c 3)

end Cert.KernelIdeal.Hand

end
-- ==== Proof.HandKI.ValueStage8.lean ====
/-
  The last layer's map in the run of the whole program: the host stretch before kernel region 8 slices layer 1's map
  and bias out of the per-layer arguments, and the region leaves, in its output array, the layer's map of the last diffusion
  step of the operator copy and the state it finds, plus that diffusion step.
-/
import proofs.«169539_j48112223650339_2_alg».proof.Proof.HandKI.Chain
import proofs.«169539_j48112223650339_2_alg».proof.Proof.HandKI.Val8Final
import proofs.«169539_j48112223650339_2_alg».proof.Proof.HandKI.ValHost
import proofs.«169539_j48112223650339_2_alg».proof.Proof.HandKI.ValueStage0

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec

variable (m : (ℓ : Loc nD τ sig) → Buf (Elt Ideal) ℓ)

/-- After the host stretch layer 1's map holds `Ws[1, g, h]` at `[g, h]`: the stretch reads the argument, which nothing before it writes. -/
theorem host8_wgt (c : Dev nD) (g h : Fin 64) :
    (W11 m c (Proc.devRef .tc main_v15) : S64x64.Idx → EReal) (ix2 g h) = argWs m c (ix3 (1 : Fin 2) g h) :=
  (hostOps8_v15 (W10 m c) g h).trans (congrFun (W10_main_arg4 m c) _)

/-- After the host stretch layer 1's bias holds `bs[1, g]` at `[0, g]`. -/
theorem host8_bias (c : Dev nD) (g : Fin 64) :
    (W11 m c (Proc.devRef .tc main_v18) : S1x64.Idx → EReal) (ix2 (0 : Fin 1) g) = argBs m c (ix2 (1 : Fin 2) g) :=
  (hostOps8_v18 (W10 m c) g).trans (congrFun (W10_main_arg5 m c) _)

/-- Region 8: from an operator copy `A` and a state `D` it leaves the layer's map of `A · D` plus `A · D`. -/
theorem stage8 (c : Dev nD) (A : SAdj.Idx → EReal) (D : SH.Idx → EReal)
    (hA : (W11 m c (Proc.devRef .tc main_v2_1) : SAdj.Idx → EReal) = A)
    (hD : (W11 m c (Proc.devRef .tc main_v13) : SH.Idx → EReal) = D) :
    (W12 m c (Proc.devRef .tc main_v19) : SH.Idx → EReal)
      = fun i => postLin (diffuse A D) (argWs m c) (argBs m c) 1 i + diffuse A D i := by
  refine ((W12_arr m c 4).trans (final8 (VV11 m) c)).trans ?_
  funext i
  obtain ⟨b, n, g, rfl⟩ : ∃ (b : Fin 2) (n : Fin 8192) (g : Fin 64), i = ix3 b n g := ⟨i 0, i 1, i 2, eq_ix3 i⟩
  have eA : adj8 (VV11 m) c = A := hA
  have eD : act8 (VV11 m) c = D := hD
  have eB : bias8 (VV11 m) c (ix2 (0 : Fin 1) g) = argBs m c (ix2 (1 : Fin 2) g) := host8_bias m c g
  have eW : ∀ h : Fin 64, wgt8 (VV11 m) c (ix2 g h) = argWs m c (ix3 (1 : Fin 2) g h) := fun h => host8_wgt m c g h
  show out8 (VV11 m) c (ix3 b n g) = postLin (diffuse A D) (argWs m c) (argBs m c) 1 (ix3 b n g) + diffuse A D (ix3 b n g)
  rw [out8_apply, postLin_apply, eA, eD, eB]
  refine congrArg (fun s => (s + argBs m c (ix2 (1 : Fin 2) g)) + diffuse A D (ix3 b n g)) ?_
  exact Finset.sum_congr rfl fun h _ => by rw [eW h]

end Cert.KernelIdeal.Hand

end
-- ==== Proof.HandKI.ValueAll.lean ====
/-
  The kernel's program computes the specification.

  Boundary by boundary of the program: the input projection (region 0, after the host stretch that reshapes its bias);
  four diffusion steps (regions 1 to 4), the last one fused with the first layer's map and the rectifier; four more
  (regions 5 to 8), the last one fused with the last layer's map and the residual sum. Region 1 also leaves a narrowed
  copy of the operator, which on the extended reals is the operator, and which no later segment writes: every later
  diffusion step multiplies by it. Each region's result is stated for whatever it finds in its input arrays, so the
  stages compose by substitution, and the four-fold diffusions and the hidden state of the specification appear by
  unfolding their definitions.
-/
import proofs.«169539_j48112223650339_2_alg».proof.Proof.HandKI.Chain
import proofs.«169539_j48112223650339_2_alg».proof.Proof.HandKI.ValueStage0
import proofs.«169539_j48112223650339_2_alg».proof.Proof.HandKI.ValueStage1
import proofs.«169539_j48112223650339_2_alg».proof.Proof.HandKI.ValueStageD
import proofs.«169539_j48112223650339_2_alg».proof.Proof.HandKI.ValueStage4
import proofs.«169539_j48112223650339_2_alg».proof.Proof.HandKI.ValueStage8

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Cert.Spec

variable (m : (ℓ : Loc nD τ sig) → Buf (Elt Ideal) ℓ)

/-! ## The operator's copy at every boundary after region 1 -/

theorem opcopy3 (c : Dev nD) : (W3 m c (Proc.devRef .tc main_v2_1) : SAdj.Idx → EReal) = argA m c := stage1_cast m c
theorem opcopy4 (c : Dev nD) : (W4 m c (Proc.devRef .tc main_v2_1) : SAdj.Idx → EReal) = argA m c :=
  (W4_keep m c main_v2_1 (by decide)).trans (opcopy3 m c)
theorem opcopy5 (c : Dev nD) : (W5 m c (Proc.devRef .tc main_v2_1) : SAdj.Idx → EReal) = argA m c :=
  (W5_keep m c main_v2_1 (by decide)).trans (opcopy4 m c)
theorem opcopy6 (c : Dev nD) : (W6 m c (Proc.devRef .tc main_v2_1) : SAdj.Idx → EReal) = argA m c :=
  (W6_keep m c main_v2_1 (by decide)).trans (opcopy5 m c)
theorem opcopy7 (c : Dev nD) : (W7 m c (Proc.devRef .tc main_v2_1) : SAdj.Idx → EReal) = argA m c :=
  (W7_keep m c main_v2_1 (by decide)).trans (opcopy6 m c)
theorem opcopy8 (c : Dev nD) : (W8 m c (Proc.devRef .tc main_v2_1) : SAdj.Idx → EReal) = argA m c :=
  (W8_keep m c main_v2_1 (by decide)).trans (opcopy7 m c)
theorem opcopy9 (c : Dev nD) : (W9 m c (Proc.devRef .tc main_v2_1) : SAdj.Idx → EReal) = argA m c :=
  (W9_keep m c main_v2_1 (by decide)).trans (opcopy8 m c)
theorem opcopy10 (c : Dev nD) : (W10 m c (Proc.devRef .tc main_v2_1) : SAdj.Idx → EReal) = argA m c :=
  (W10_keep m c main_v2_1 (by decide)).trans (opcopy9 m c)
theorem opcopy11 (c : Dev nD) : (W11 m c (Proc.devRef .tc main_v2_1) : SAdj.Idx → EReal) = argA m c :=
  (W11_keep m c main_v2_1 (by decide)).trans (opcopy10 m c)

/-! ## The first layer -/

/-- The input projection of the arguments. -/
abbrev specLin (c : Dev nD) : SH.Idx → EReal := lin (argX m c) (argW0 m c) (argB0 m c)

/-- After region 1: one diffusion step of the input projection. -/
theorem val_v2_0 (c : Dev nD) :
    (W3 m c (Proc.devRef .tc main_v2_0) : SH.Idx → EReal) = diffuse (argA m c) (specLin m c) :=
  stage1 m c _ (stage0 m c)

/-- After region 2: two. -/
theorem val_v3 (c : Dev nD) :
    (W4 m c (Proc.devRef .tc main_v3) : SH.Idx → EReal) = diffuse (argA m c) (diffuse (argA m c) (specLin m c)) :=
  stage2 m c _ _ (opcopy3 m c) (val_v2_0 m c)

/-- After region 3: three. -/
theorem val_v4 (c : Dev nD) :
    (W5 m c (Proc.devRef .tc main_v4) : SH.Idx → EReal)
      = diffuse (argA m c) (diffuse (argA m c) (diffuse (argA m c) (specLin m c))) :=
  stage3 m c _ _ (opcopy4 m c) (val_v3 m c)

/-- After region 4: the specification's hidden state. -/
theorem val_v10 (c : Dev nD) :
    (W7 m c (Proc.devRef .tc main_v10) : SH.Idx → EReal)
      = hidden (argX m c) (argA m c) (argW0 m c) (argB0 m c) (argWs m c) (argBs m c) :=
  stage4 m c _ _ (opcopy6 m c) ((W6_keep m c main_v4 (by decide)).trans (val_v4 m c))

/-! ## The last layer -/

/-- The specification's hidden state of the arguments. -/
abbrev specHidden (c : Dev nD) : SH.Idx → EReal :=
  hidden (argX m c) (argA m c) (argW0 m c) (argB0 m c) (argWs m c) (argBs m c)

/-- After region 5: one diffusion step of the hidden state. -/
theorem val_v11 (c : Dev nD) :
    (W8 m c (Proc.devRef .tc main_v11) : SH.Idx → EReal) = diffuse (argA m c) (specHidden m c) :=
  stage5 m c _ _ (opcopy7 m c) (val_v10 m c)

/-- After region 6: two. -/
theorem val_v12 (c : Dev nD) :
    (W9 m c (Proc.devRef .tc main_v12) : SH.Idx → EReal) = diffuse (argA m c) (diffuse (argA m c) (specHidden m c)) :=
  stage6 m c _ _ (opcopy8 m c) (val_v11 m c)

/-- After region 7: three. -/
theorem val_v13 (c : Dev nD) :
    (W10 m c (Proc.devRef .tc main_v13) : SH.Idx → EReal)
      = diffuse (argA m c) (diffuse (argA m c) (diffuse (argA m c) (specHidden m c))) :=
  stage7 m c _ _ (opcopy9 m c) (val_v12 m c)

/-- **The kernel's program computes the specification**: after the last region the result array holds `Spec.G` of the six
    arguments as launched. -/
theorem value_all (c : Dev nD) :
    (W12 m c (Proc.devRef .tc main_v19) : SH.Idx → EReal)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  stage8 m c _ _ (opcopy11 m c) ((W11_keep m c main_v13 (by decide)).trans (val_v13 m c))

end Cert.KernelIdeal.Hand

end
-- ==== Proof.RefRead.lean ====
/-
  The reference program's run, read one operation at a time (the generated read-at-an-index lemmas), re-exported for the
  modules that identify the reference's result with the specification.
-/
import proofs.«169539_j48112223650339_2_alg».proof.Proof.Gen.ReferenceIdeal.Read
-- ==== Proof.RefIdx.lean ====
/-
  The reference program's index functions, identified with indices given by coordinates.

  Reading one operation of the reference at a result position `i = [b, n, h]` reads its operands at positions computed
  from `i` (and, for a product, from the contracted position `k`). Each such position is, coordinate by coordinate, one
  of the positions the specification names:

  * the input projection reads `x[b, n, k]` and `W0[h, k]`, and its bias, broadcast along the batch and the nodes, `b0[h]`;
  * a diffusion step reads `adj[b, n, k]` and its operand at `[b, k, h]`;
  * a layer's map reads its operand at `[b, n, k]` and — through the slice of layer `l` out of `Ws`, reshaped from
    1 × 64 × 64 to 64 × 64 (row-major: position `g · 64 + k` has quotient `g` and remainder `k`) — `Ws[l, g, k]`, and
    its bias, sliced and reshaped the same way and then broadcast, `bs[l, g]` (`g mod 64 = g`).
-/
import proofs.«169539_j48112223650339_2_alg».proof.Proof.RefRead
import proofs.«169539_j48112223650339_2_alg».proof.Proof.Spec

noncomputable section

namespace Cert.ReferenceIdeal.RefValue

open Cert.ReferenceIdeal Cert.ReferenceIdeal.Read Idealize.ShloMosaic Idealize.ShloMosaic.ValueIdx

/-! ## The input projection -/

theorem lidx_v0 (i : S2x8192x64.Idx) (k : Fin 128) : lidx_main_v0 i k = ix3 (i 0 : Fin 2) (i 1 : Fin 8192) k :=
  funext fun a => by match a with | ⟨0, _⟩ => rfl | ⟨1, _⟩ => rfl | ⟨2, _⟩ => rfl

theorem ridx_v0 (i : S2x8192x64.Idx) (k : Fin 128) : ridx_main_v0 i k = ix2 (i 2 : Fin 64) k :=
  funext fun a => by match a with | ⟨0, _⟩ => rfl | ⟨1, _⟩ => rfl

/-- The input bias, broadcast 64 → 1 × 1 × 64 → 2 × 8192 × 64, is read at the last coordinate. -/
theorem idx_b0 (i : S2x8192x64.Idx) : idx_main_v1 (idx_main_v2 i) = ix1 (i 2 : Fin 64) :=
  funext fun a => by match a with | ⟨0, _⟩ => rfl

/-! ## The diffusion steps -/

theorem lidx_v4 (i : S2x8192x64.Idx) (k : Fin 8192) : lidx_main_v4 i k = ix3 (i 0 : Fin 2) (i 1 : Fin 8192) k :=
  funext fun a => by match a with | ⟨0, _⟩ => rfl | ⟨1, _⟩ => rfl | ⟨2, _⟩ => rfl

theorem ridx_v4 (i : S2x8192x64.Idx) (k : Fin 8192) : ridx_main_v4 i k = ix3 (i 0 : Fin 2) k (i 2 : Fin 64) :=
  funext fun a => by match a with | ⟨0, _⟩ => rfl | ⟨1, _⟩ => rfl | ⟨2, _⟩ => rfl

theorem lidx_v5 (i : S2x8192x64.Idx) (k : Fin 8192) : lidx_main_v5 i k = ix3 (i 0 : Fin 2) (i 1 : Fin 8192) k :=
  funext fun a => by match a with | ⟨0, _⟩ => rfl | ⟨1, _⟩ => rfl | ⟨2, _⟩ => rfl

theorem ridx_v5 (i : S2x8192x64.Idx) (k : Fin 8192) : ridx_main_v5 i k = ix3 (i 0 : Fin 2) k (i 2 : Fin 64) :=
  funext fun a => by match a with | ⟨0, _⟩ => rfl | ⟨1, _⟩ => rfl | ⟨2, _⟩ => rfl

theorem lidx_v6 (i : S2x8192x64.Idx) (k : Fin 8192) : lidx_main_v6 i k = ix3 (i 0 : Fin 2) (i 1 : Fin 8192) k :=
  funext fun a => by match a with | ⟨0, _⟩ => rfl | ⟨1, _⟩ => rfl | ⟨2, _⟩ => rfl

theorem ridx_v6 (i : S2x8192x64.Idx) (k : Fin 8192) : ridx_main_v6 i k = ix3 (i 0 : Fin 2) k (i 2 : Fin 64) :=
  funext fun a => by match a with | ⟨0, _⟩ => rfl | ⟨1, _⟩ => rfl | ⟨2, _⟩ => rfl

theorem lidx_v7 (i : S2x8192x64.Idx) (k : Fin 8192) : lidx_main_v7 i k = ix3 (i 0 : Fin 2) (i 1 : Fin 8192) k :=
  funext fun a => by match a with | ⟨0, _⟩ => rfl | ⟨1, _⟩ => rfl | ⟨2, _⟩ => rfl

theorem ridx_v7 (i : S2x8192x64.Idx) (k : Fin 8192) : ridx_main_v7 i k = ix3 (i 0 : Fin 2) k (i 2 : Fin 64) :=
  funext fun a => by match a with | ⟨0, _⟩ => rfl | ⟨1, _⟩ => rfl | ⟨2, _⟩ => rfl

theorem lidx_v17 (i : S2x8192x64.Idx) (k : Fin 8192) : lidx_main_v17 i k = ix3 (i 0 : Fin 2) (i 1 : Fin 8192) k :=
  funext fun a => by match a with | ⟨0, _⟩ => rfl | ⟨1, _⟩ => rfl | ⟨2, _⟩ => rfl

theorem ridx_v17 (i : S2x8192x64.Idx) (k : Fin 8192) : ridx_main_v17 i k = ix3 (i 0 : Fin 2) k (i 2 : Fin 64) :=
  funext fun a => by match a with | ⟨0, _⟩ => rfl | ⟨1, _⟩ => rfl | ⟨2, _⟩ => rfl

theorem lidx_v18 (i : S2x8192x64.Idx) (k : Fin 8192) : lidx_main_v18 i k = ix3 (i 0 : Fin 2) (i 1 : Fin 8192) k :=
  funext fun a => by match a with | ⟨0, _⟩ => rfl | ⟨1, _⟩ => rfl | ⟨2, _⟩ => rfl

theorem ridx_v18 (i : S2x8192x64.Idx) (k : Fin 8192) : ridx_main_v18 i k = ix3 (i 0 : Fin 2) k (i 2 : Fin 64) :=
  funext fun a => by match a with | ⟨0, _⟩ => rfl | ⟨1, _⟩ => rfl | ⟨2, _⟩ => rfl

theorem lidx_v19 (i : S2x8192x64.Idx) (k : Fin 8192) : lidx_main_v19 i k = ix3 (i 0 : Fin 2) (i 1 : Fin 8192) k :=
  funext fun a => by match a with | ⟨0, _⟩ => rfl | ⟨1, _⟩ => rfl | ⟨2, _⟩ => rfl

theorem ridx_v19 (i : S2x8192x64.Idx) (k : Fin 8192) : ridx_main_v19 i k = ix3 (i 0 : Fin 2) k (i 2 : Fin 64) :=
  funext fun a => by match a with | ⟨0, _⟩ => rfl | ⟨1, _⟩ => rfl | ⟨2, _⟩ => rfl

theorem lidx_v20 (i : S2x8192x64.Idx) (k : Fin 8192) : lidx_main_v20 i k = ix3 (i 0 : Fin 2) (i 1 : Fin 8192) k :=
  funext fun a => by match a with | ⟨0, _⟩ => rfl | ⟨1, _⟩ => rfl | ⟨2, _⟩ => rfl

theorem ridx_v20 (i : S2x8192x64.Idx) (k : Fin 8192) : ridx_main_v20 i k = ix3 (i 0 : Fin 2) k (i 2 : Fin 64) :=
  funext fun a => by match a with | ⟨0, _⟩ => rfl | ⟨1, _⟩ => rfl | ⟨2, _⟩ => rfl

/-! ## The layers' maps -/

theorem lidx_v10 (i : S2x8192x64.Idx) (k : Fin 64) : lidx_main_v10 i k = ix3 (i 0 : Fin 2) (i 1 : Fin 8192) k :=
  funext fun a => by match a with | ⟨0, _⟩ => rfl | ⟨1, _⟩ => rfl | ⟨2, _⟩ => rfl

theorem lidx_v23 (i : S2x8192x64.Idx) (k : Fin 64) : lidx_main_v23 i k = ix3 (i 0 : Fin 2) (i 1 : Fin 8192) k :=
  funext fun a => by match a with | ⟨0, _⟩ => rfl | ⟨1, _⟩ => rfl | ⟨2, _⟩ => rfl

/-- Layer 0's map, sliced out of `Ws` and reshaped, is read at `Ws[0, g, k]`. -/
theorem idx_Ws0 (i : S2x8192x64.Idx) (k : Fin 64) :
    idx_main_v8 (idx_main_v9 (ridx_main_v10 i k)) = ix3 (0 : Fin 2) (i 2 : Fin 64) k :=
  funext fun a => Fin.ext (by
    have h2 : (i 2).val < 64 := (i 2).isLt
    have hk : k.val < 64 := k.isLt
    match a with
    | ⟨0, _⟩ => rfl
    | ⟨1, _⟩ => show ((i 2).val * 64 + k.val) / 64 % 64 = (i 2).val; omega
    | ⟨2, _⟩ => show ((i 2).val * 64 + k.val) % 64 = k.val; omega)

/-- Layer 1's map, sliced out of `Ws` and reshaped, is read at `Ws[1, g, k]`. -/
theorem idx_Ws1 (i : S2x8192x64.Idx) (k : Fin 64) :
    idx_main_v21 (idx_main_v22 (ridx_main_v23 i k)) = ix3 (1 : Fin 2) (i 2 : Fin 64) k :=
  funext fun a => Fin.ext (by
    have h2 : (i 2).val < 64 := (i 2).isLt
    have hk : k.val < 64 := k.isLt
    match a with
    | ⟨0, _⟩ => rfl
    | ⟨1, _⟩ => show ((i 2).val * 64 + k.val) / 64 % 64 = (i 2).val; omega
    | ⟨2, _⟩ => show ((i 2).val * 64 + k.val) % 64 = k.val; omega)

/-- Layer 0's bias, sliced out of `bs`, reshaped and broadcast, is read at `bs[0, g]`. -/
theorem idx_bs0 (i : S2x8192x64.Idx) :
    idx_main_v11 (idx_main_v12 (idx_main_v13 (idx_main_v14 i))) = ix2 (0 : Fin 2) (i 2 : Fin 64) :=
  funext fun a => Fin.ext (by
    have h2 : (i 2).val < 64 := (i 2).isLt
    match a with
    | ⟨0, _⟩ => rfl
    | ⟨1, _⟩ => show (i 2).val % 64 = (i 2).val; omega)

/-- Layer 1's bias, sliced out of `bs`, reshaped and broadcast, is read at `bs[1, g]`. -/
theorem idx_bs1 (i : S2x8192x64.Idx) :
    idx_main_v24 (idx_main_v25 (idx_main_v26 (idx_main_v27 i))) = ix2 (1 : Fin 2) (i 2 : Fin 64) :=
  funext fun a => Fin.ext (by
    have h2 : (i 2).val < 64 := (i 2).isLt
    match a with
    | ⟨0, _⟩ => rfl
    | ⟨1, _⟩ => show (i 2).val % 64 = (i 2).val; omega)

end Cert.ReferenceIdeal.RefValue

end
-- ==== Proof.RefLin.lean ====
/-
  The reference's input projection is the specification's: the product `x · W0ᵀ` read as the sum over the 128 features,
  plus the bias broadcast along the batch and the nodes.
-/
import proofs.«169539_j48112223650339_2_alg».proof.Proof.RefIdx

noncomputable section

open scoped BigOperators

namespace Cert.ReferenceIdeal.RefValue

open Cert.ReferenceIdeal Cert.ReferenceIdeal.Read Idealize.ShloMosaic Idealize.ShloMosaic.ValueIdx

/-- `h = x · W0ᵀ + b0`. -/
theorem lin_eq (x0 : (⟨S2x8192x128, .f32⟩ : BufTy).Contents (Elt Ideal)) (x2 : (⟨S64x128, .f32⟩ : BufTy).Contents (Elt Ideal))
    (x3 : (⟨S64, .f32⟩ : BufTy).Contents (Elt Ideal)) :
    val_main_v3 (F := Ideal) x0 x2 x3 = Spec.lin x0 x2 x3 := by
  funext i
  rw [val_main_v3_apply, val_main_v0_apply, val_main_v2_apply, val_main_v1_apply]
  simp only [lidx_v0, ridx_v0, idx_b0, Ideal.addf_def]
  rfl

end Cert.ReferenceIdeal.RefValue

end
-- ==== Proof.RefDiffuse.lean ====
/-
  Each of the reference's eight batched products `adj · d` is one diffusion step of the specification: the sum over the
  8192 columns of `adj[b, n, k] · d[b, k, h]`. Four of them follow the input projection, four the rectified first layer.
-/
import proofs.«169539_j48112223650339_2_alg».proof.Proof.RefIdx

noncomputable section

open scoped BigOperators

namespace Cert.ReferenceIdeal.RefValue

open Cert.ReferenceIdeal Cert.ReferenceIdeal.Read Idealize.ShloMosaic Idealize.ShloMosaic.ValueIdx

/-! ## The first layer's four steps -/

theorem diffuse_v4 (x0 : (⟨S2x8192x128, .f32⟩ : BufTy).Contents (Elt Ideal)) (x1 : (⟨S2x8192x8192, .f32⟩ : BufTy).Contents (Elt Ideal)) (x2 : (⟨S64x128, .f32⟩ : BufTy).Contents (Elt Ideal)) (x3 : (⟨S64, .f32⟩ : BufTy).Contents (Elt Ideal)) :
    val_main_v4 (F := Ideal) x0 x1 x2 x3 = Spec.diffuse x1 (val_main_v3 (F := Ideal) x0 x2 x3) := by
  funext i
  rw [val_main_v4_apply]
  simp only [lidx_v4, ridx_v4]
  rfl

theorem diffuse_v5 (x0 : (⟨S2x8192x128, .f32⟩ : BufTy).Contents (Elt Ideal)) (x1 : (⟨S2x8192x8192, .f32⟩ : BufTy).Contents (Elt Ideal)) (x2 : (⟨S64x128, .f32⟩ : BufTy).Contents (Elt Ideal)) (x3 : (⟨S64, .f32⟩ : BufTy).Contents (Elt Ideal)) :
    val_main_v5 (F := Ideal) x0 x1 x2 x3 = Spec.diffuse x1 (val_main_v4 (F := Ideal) x0 x1 x2 x3) := by
  funext i
  rw [val_main_v5_apply]
  simp only [lidx_v5, ridx_v5]
  rfl

theorem diffuse_v6 (x0 : (⟨S2x8192x128, .f32⟩ : BufTy).Contents (Elt Ideal)) (x1 : (⟨S2x8192x8192, .f32⟩ : BufTy).Contents (Elt Ideal)) (x2 : (⟨S64x128, .f32⟩ : BufTy).Contents (Elt Ideal)) (x3 : (⟨S64, .f32⟩ : BufTy).Contents (Elt Ideal)) :
    val_main_v6 (F := Ideal) x0 x1 x2 x3 = Spec.diffuse x1 (val_main_v5 (F := Ideal) x0 x1 x2 x3) := by
  funext i
  rw [val_main_v6_apply]
  simp only [lidx_v6, ridx_v6]
  rfl

theorem diffuse_v7 (x0 : (⟨S2x8192x128, .f32⟩ : BufTy).Contents (Elt Ideal)) (x1 : (⟨S2x8192x8192, .f32⟩ : BufTy).Contents (Elt Ideal)) (x2 : (⟨S64x128, .f32⟩ : BufTy).Contents (Elt Ideal)) (x3 : (⟨S64, .f32⟩ : BufTy).Contents (Elt Ideal)) :
    val_main_v7 (F := Ideal) x0 x1 x2 x3 = Spec.diffuse x1 (val_main_v6 (F := Ideal) x0 x1 x2 x3) := by
  funext i
  rw [val_main_v7_apply]
  simp only [lidx_v7, ridx_v7]
  rfl

/-! ## The last layer's four steps -/

theorem diffuse_v17 (x0 : (⟨S2x8192x128, .f32⟩ : BufTy).Contents (Elt Ideal)) (x1 : (⟨S2x8192x8192, .f32⟩ : BufTy).Contents (Elt Ideal)) (x2 : (⟨S64x128, .f32⟩ : BufTy).Contents (Elt Ideal)) (x3 : (⟨S64, .f32⟩ : BufTy).Contents (Elt Ideal)) (x4 : (⟨S2x64x64, .f32⟩ : BufTy).Contents (Elt Ideal)) (x5 : (⟨S2x64, .f32⟩ : BufTy).Contents (Elt Ideal)) :
    val_main_v17 (F := Ideal) x0 x1 x2 x3 x4 x5 = Spec.diffuse x1 (val_main_v16 (F := Ideal) x0 x1 x2 x3 x4 x5) := by
  funext i
  rw [val_main_v17_apply]
  simp only [lidx_v17, ridx_v17]
  rfl

theorem diffuse_v18 (x0 : (⟨S2x8192x128, .f32⟩ : BufTy).Contents (Elt Ideal)) (x1 : (⟨S2x8192x8192, .f32⟩ : BufTy).Contents (Elt Ideal)) (x2 : (⟨S64x128, .f32⟩ : BufTy).Contents (Elt Ideal)) (x3 : (⟨S64, .f32⟩ : BufTy).Contents (Elt Ideal)) (x4 : (⟨S2x64x64, .f32⟩ : BufTy).Contents (Elt Ideal)) (x5 : (⟨S2x64, .f32⟩ : BufTy).Contents (Elt Ideal)) :
    val_main_v18 (F := Ideal) x0 x1 x2 x3 x4 x5 = Spec.diffuse x1 (val_main_v17 (F := Ideal) x0 x1 x2 x3 x4 x5) := by
  funext i
  rw [val_main_v18_apply]
  simp only [lidx_v18, ridx_v18]
  rfl

theorem diffuse_v19 (x0 : (⟨S2x8192x128, .f32⟩ : BufTy).Contents (Elt Ideal)) (x1 : (⟨S2x8192x8192, .f32⟩ : BufTy).Contents (Elt Ideal)) (x2 : (⟨S64x128, .f32⟩ : BufTy).Contents (Elt Ideal)) (x3 : (⟨S64, .f32⟩ : BufTy).Contents (Elt Ideal)) (x4 : (⟨S2x64x64, .f32⟩ : BufTy).Contents (Elt Ideal)) (x5 : (⟨S2x64, .f32⟩ : BufTy).Contents (Elt Ideal)) :
    val_main_v19 (F := Ideal) x0 x1 x2 x3 x4 x5 = Spec.diffuse x1 (val_main_v18 (F := Ideal) x0 x1 x2 x3 x4 x5) := by
  funext i
  rw [val_main_v19_apply]
  simp only [lidx_v19, ridx_v19]
  rfl

theorem diffuse_v20 (x0 : (⟨S2x8192x128, .f32⟩ : BufTy).Contents (Elt Ideal)) (x1 : (⟨S2x8192x8192, .f32⟩ : BufTy).Contents (Elt Ideal)) (x2 : (⟨S64x128, .f32⟩ : BufTy).Contents (Elt Ideal)) (x3 : (⟨S64, .f32⟩ : BufTy).Contents (Elt Ideal)) (x4 : (⟨S2x64x64, .f32⟩ : BufTy).Contents (Elt Ideal)) (x5 : (⟨S2x64, .f32⟩ : BufTy).Contents (Elt Ideal)) :
    val_main_v20 (F := Ideal) x0 x1 x2 x3 x4 x5 = Spec.diffuse x1 (val_main_v19 (F := Ideal) x0 x1 x2 x3 x4 x5) := by
  funext i
  rw [val_main_v20_apply]
  simp only [lidx_v20, ridx_v20]
  rfl

end Cert.ReferenceIdeal.RefValue

end
-- ==== Proof.RefPostLin.lean ====
/-
  The reference's two layer maps, its rectifier and its residual sum are the specification's.

  A layer's map is the product of the diffused state with the layer's 64 × 64 slice of `Ws` (sliced, then reshaped),
  read as the sum over the 64 hidden units, plus the layer's slice of `bs` broadcast along the batch and the nodes.
  The rectifier is the pointwise maximum with a constant array whose every entry is the all-zero binary32 word.
-/
import proofs.«169539_j48112223650339_2_alg».proof.Proof.RefIdx

noncomputable section

open scoped BigOperators

namespace Cert.ReferenceIdeal.RefValue

open Cert.ReferenceIdeal Cert.ReferenceIdeal.Read Idealize.ShloMosaic Idealize.ShloMosaic.ValueIdx

/-- Layer 0: `d · Ws[0]ᵀ + bs[0]` of the first four-fold diffusion. -/
theorem postLin_v15 (x0 : (⟨S2x8192x128, .f32⟩ : BufTy).Contents (Elt Ideal)) (x1 : (⟨S2x8192x8192, .f32⟩ : BufTy).Contents (Elt Ideal)) (x2 : (⟨S64x128, .f32⟩ : BufTy).Contents (Elt Ideal)) (x3 : (⟨S64, .f32⟩ : BufTy).Contents (Elt Ideal)) (x4 : (⟨S2x64x64, .f32⟩ : BufTy).Contents (Elt Ideal)) (x5 : (⟨S2x64, .f32⟩ : BufTy).Contents (Elt Ideal)) :
    val_main_v15 (F := Ideal) x0 x1 x2 x3 x4 x5 = Spec.postLin (val_main_v7 (F := Ideal) x0 x1 x2 x3) x4 x5 0 := by
  funext i
  rw [val_main_v15_apply, val_main_v10_apply, val_main_v14_apply, val_main_v13_apply, val_main_v12_apply, val_main_v11_apply]
  simp only [val_main_v9_apply, val_main_v8_apply, lidx_v10, idx_Ws0, idx_bs0, Ideal.addf_def]
  rfl

/-- The rectifier. -/
theorem relu_v16 (x0 : (⟨S2x8192x128, .f32⟩ : BufTy).Contents (Elt Ideal)) (x1 : (⟨S2x8192x8192, .f32⟩ : BufTy).Contents (Elt Ideal)) (x2 : (⟨S64x128, .f32⟩ : BufTy).Contents (Elt Ideal)) (x3 : (⟨S64, .f32⟩ : BufTy).Contents (Elt Ideal)) (x4 : (⟨S2x64x64, .f32⟩ : BufTy).Contents (Elt Ideal)) (x5 : (⟨S2x64, .f32⟩ : BufTy).Contents (Elt Ideal)) :
    val_main_v16 (F := Ideal) x0 x1 x2 x3 x4 x5 = Spec.relu (val_main_v15 (F := Ideal) x0 x1 x2 x3 x4 x5) := by
  funext i
  rw [val_main_v16_apply, val_main_call0_v0_apply, val_main_call0_cst_apply, Ideal.maximumf_def, Ideal.ofBits_def]
  rfl

/-- Layer 1: `d · Ws[1]ᵀ + bs[1]` of the second four-fold diffusion. -/
theorem postLin_v28 (x0 : (⟨S2x8192x128, .f32⟩ : BufTy).Contents (Elt Ideal)) (x1 : (⟨S2x8192x8192, .f32⟩ : BufTy).Contents (Elt Ideal)) (x2 : (⟨S64x128, .f32⟩ : BufTy).Contents (Elt Ideal)) (x3 : (⟨S64, .f32⟩ : BufTy).Contents (Elt Ideal)) (x4 : (⟨S2x64x64, .f32⟩ : BufTy).Contents (Elt Ideal)) (x5 : (⟨S2x64, .f32⟩ : BufTy).Contents (Elt Ideal)) :
    val_main_v28 (F := Ideal) x0 x1 x2 x3 x4 x5 = Spec.postLin (val_main_v20 (F := Ideal) x0 x1 x2 x3 x4 x5) x4 x5 1 := by
  funext i
  rw [val_main_v28_apply, val_main_v23_apply, val_main_v27_apply, val_main_v26_apply, val_main_v25_apply, val_main_v24_apply]
  simp only [val_main_v22_apply, val_main_v21_apply, lidx_v23, idx_Ws1, idx_bs1, Ideal.addf_def]
  rfl

end Cert.ReferenceIdeal.RefValue

end
-- ==== Proof.RefIsSpec.lean ====
/-
  The reference program computes the specification.

  Stage by stage the reference's operations are the specification's (the input projection, eight diffusion steps, the
  two layer maps, the rectifier); its last operation adds the last layer's map and the diffusion it was computed from,
  in this order, which is how the specification's result is written. Composing the stages gives the statement for the
  whole program, first as a function of six arbitrary argument arrays, then for the arrays a memory holds.
-/
import proofs.«169539_j48112223650339_2_alg».proof.Proof.RefLin
import proofs.«169539_j48112223650339_2_alg».proof.Proof.RefDiffuse
import proofs.«169539_j48112223650339_2_alg».proof.Proof.RefPostLin

noncomputable section

open scoped BigOperators

namespace Cert.ReferenceIdeal.RefValue

open Cert.ReferenceIdeal Cert.ReferenceIdeal.Read Idealize.ShloMosaic Idealize.ShloMosaic.ValueIdx Idealize.ShloMosaic.TcCoe Idealize.SL.Sem

/-- The first four-fold diffusion, of the input projection. -/
theorem diffusion0_eq (x0 : (⟨S2x8192x128, .f32⟩ : BufTy).Contents (Elt Ideal)) (x1 : (⟨S2x8192x8192, .f32⟩ : BufTy).Contents (Elt Ideal)) (x2 : (⟨S64x128, .f32⟩ : BufTy).Contents (Elt Ideal)) (x3 : (⟨S64, .f32⟩ : BufTy).Contents (Elt Ideal)) :
    val_main_v7 (F := Ideal) x0 x1 x2 x3 = Spec.diffuse4 x1 (Spec.lin x0 x2 x3) := by
  rw [diffuse_v7, diffuse_v6, diffuse_v5, diffuse_v4, lin_eq]
  rfl

/-- The hidden state after the first layer. -/
theorem hidden_eq (x0 : (⟨S2x8192x128, .f32⟩ : BufTy).Contents (Elt Ideal)) (x1 : (⟨S2x8192x8192, .f32⟩ : BufTy).Contents (Elt Ideal)) (x2 : (⟨S64x128, .f32⟩ : BufTy).Contents (Elt Ideal)) (x3 : (⟨S64, .f32⟩ : BufTy).Contents (Elt Ideal)) (x4 : (⟨S2x64x64, .f32⟩ : BufTy).Contents (Elt Ideal)) (x5 : (⟨S2x64, .f32⟩ : BufTy).Contents (Elt Ideal)) :
    val_main_v16 (F := Ideal) x0 x1 x2 x3 x4 x5 = Spec.hidden x0 x1 x2 x3 x4 x5 := by
  rw [relu_v16, postLin_v15, diffusion0_eq]
  rfl

/-- The second four-fold diffusion, of the hidden state. -/
theorem diffusion1_eq (x0 : (⟨S2x8192x128, .f32⟩ : BufTy).Contents (Elt Ideal)) (x1 : (⟨S2x8192x8192, .f32⟩ : BufTy).Contents (Elt Ideal)) (x2 : (⟨S64x128, .f32⟩ : BufTy).Contents (Elt Ideal)) (x3 : (⟨S64, .f32⟩ : BufTy).Contents (Elt Ideal)) (x4 : (⟨S2x64x64, .f32⟩ : BufTy).Contents (Elt Ideal)) (x5 : (⟨S2x64, .f32⟩ : BufTy).Contents (Elt Ideal)) :
    val_main_v20 (F := Ideal) x0 x1 x2 x3 x4 x5 = Spec.lastDiffusion x0 x1 x2 x3 x4 x5 := by
  rw [diffuse_v20, diffuse_v19, diffuse_v18, diffuse_v17, hidden_eq]
  rfl

/-- **The reference is the specification**: the reference program's result, as a function of its six arguments, is `Spec.G`. -/
theorem ref_eq_spec (x0 : (⟨S2x8192x128, .f32⟩ : BufTy).Contents (Elt Ideal)) (x1 : (⟨S2x8192x8192, .f32⟩ : BufTy).Contents (Elt Ideal)) (x2 : (⟨S64x128, .f32⟩ : BufTy).Contents (Elt Ideal)) (x3 : (⟨S64, .f32⟩ : BufTy).Contents (Elt Ideal)) (x4 : (⟨S2x64x64, .f32⟩ : BufTy).Contents (Elt Ideal)) (x5 : (⟨S2x64, .f32⟩ : BufTy).Contents (Elt Ideal)) :
    val_main_v29 (F := Ideal) x0 x1 x2 x3 x4 x5 = Spec.G x0 x1 x2 x3 x4 x5 := by
  funext i
  rw [val_main_v29_apply, Ideal.addf_def, postLin_v28, diffusion1_eq]
  rfl

/-- The same for the term the reference's run states: the result buffer's contents after the run, from a memory `m`
    on device `c`, are `Spec.G` of the six argument buffers' contents in `m`. -/
theorem ref_run_eq_spec (m : (ℓ : Loc nD τ sig) → Buf (Elt Ideal) ℓ) (c : Dev nD) :
    Cert.ReferenceIdeal.Value.res_main_v29 (F := Ideal) m c
      = Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  (val_main_v29_eq (F := Ideal) m c).trans (ref_eq_spec _ _ _ _ _ _)

end Cert.ReferenceIdeal.RefValue

end
-- ==== Proof.lean ====
/-
  The certificate of a two-layer graph diffusion network on dense adjacencies: B = 2 batch elements, N = 8192 nodes, 128 input
  features, 64 hidden units, four diffusion steps per layer.

  The kernel program computes  h = x·W0ᵀ + b0;  per layer  d = adj·(adj·(adj·(adj·h))),  y = d·Wsᵀ + bs,  then  h = max(y, 0)  after
  the first layer and the result  y + d  after the second — as nine kernel regions: the embedding layer by row blocks; the first
  diffusion step fused with a conversion of the adjacency to a narrower float format, kept for the seven later steps; five plain
  diffusion steps; and each layer's last step fused with the layer's linear map. Every diffusion step sweeps the 8192 columns of
  the adjacency in blocks (128 wide in the first step, 512 wide afterwards), adding each block's product with the matching rows of
  the activation to an accumulator kept in scratch, zeroed at the first block and consumed at the last. The reference computes the
  same layers with whole-array products.

  Frames (both programs as printed, and the reference): @main is a chain of host stretches and kernel regions over the contents of
  the unscoped buffers; each region's pipeline runs its body at every grid point, the body's invariant naming the accumulator's
  contents point by point; no segment writes an argument array.
  Equality at the ideal instance: a change of float format is the identity and a matrix product into a zero accumulator is a plain
  sum, so each diffusion region leaves  Σ_j adj[b,n,j]·d[b,j,h]  — the accumulated block sums regrouped into one sum over all
  columns, which needs only that addition of extended reals is associative and commutative, hence no finiteness of the inputs —,
  the fused regions apply the same linear map, maximum and residual sum as the reference, and the composition through the nine
  regions is the reference's term, stage by stage.
  The idealization changes no operation of the kernel program, so there is nothing to preserve.
-/
import proofs.«169539_j48112223650339_2_alg».proof.Defs
import proofs.«169539_j48112223650339_2_alg».proof.Proof.Gen.Kernel
import proofs.«169539_j48112223650339_2_alg».proof.Proof.Gen.KernelIdeal
import proofs.«169539_j48112223650339_2_alg».proof.Proof.Gen.ReferenceIdeal
import proofs.«169539_j48112223650339_2_alg».proof.Proof.Gen.Pre_finite_inputs
import proofs.«169539_j48112223650339_2_alg».proof.Proof.HandK.MainRun
import proofs.«169539_j48112223650339_2_alg».proof.Proof.HandKI.MainRun
import proofs.«169539_j48112223650339_2_alg».proof.Proof.HandKI.ValueAll
import proofs.«169539_j48112223650339_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel program as printed runs to the end, faults nowhere and leaves its arguments unchanged. -/
theorem frame_k : Cert.frame_Kernel := fun m ρ _ => Cert.Kernel.Hand.frame_all (F := Bits) m ρ

/-- So does its reading at the ideal instance. -/
theorem frame_ki : Cert.frame_KernelIdeal := fun m ρ _ => Cert.KernelIdeal.Hand.frame_all (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the ideal instance both programs end with the specification's value of the arguments in their result array. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun r h c =>
      ⟨(h c _ (Cert.KernelIdeal.Hand.mem_uc Cert.KernelIdeal.main_v19 (by decide))).trans (Cert.KernelIdeal.Hand.value_all m c),
        (h c _ (Cert.KernelIdeal.Hand.mem_uc Cert.KernelIdeal.main_arg0 (by decide))).trans (Cert.KernelIdeal.Hand.W12_main_arg0 m c),
        (h c _ (Cert.KernelIdeal.Hand.mem_uc Cert.KernelIdeal.main_arg1 (by decide))).trans (Cert.KernelIdeal.Hand.W12_main_arg1 m c),
        (h c _ (Cert.KernelIdeal.Hand.mem_uc Cert.KernelIdeal.main_arg2 (by decide))).trans (Cert.KernelIdeal.Hand.W12_main_arg2 m c),
        (h c _ (Cert.KernelIdeal.Hand.mem_uc Cert.KernelIdeal.main_arg3 (by decide))).trans (Cert.KernelIdeal.Hand.W12_main_arg3 m c),
        (h c _ (Cert.KernelIdeal.Hand.mem_uc Cert.KernelIdeal.main_arg4 (by decide))).trans (Cert.KernelIdeal.Hand.W12_main_arg4 m c),
        (h c _ (Cert.KernelIdeal.Hand.mem_uc Cert.KernelIdeal.main_arg5 (by decide))).trans (Cert.KernelIdeal.Hand.W12_main_arg5 m c)⟩)
      (Cert.KernelIdeal.Hand.run_all (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.RefValue.ref_run_eq_spec, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
